-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x500 : Shape := ⟨2, ![8192, 500]⟩
abbrev S8192x8192 : Shape := ⟨2, ![8192, 8192]⟩
abbrev S500x128 : Shape := ⟨2, ![500, 128]⟩
abbrev S128 : Shape := ⟨1, ![128]⟩
abbrev S4x128x128 : Shape := ⟨3, ![4, 128, 128]⟩
abbrev S4x128 : Shape := ⟨2, ![4, 128]⟩
abbrev S128x40 : Shape := ⟨2, ![128, 40]⟩
abbrev S40 : Shape := ⟨1, ![40]⟩
abbrev S_ : Shape := ⟨0, ![]⟩

class Facts : Prop where
  bcast_S_S8192x500 : S_.BroadcastsInDim S8192x500 (![] : Fin 0 → Fin S8192x500.rank)
  reducesTo_S8192x500_S_d0_1 : S8192x500.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg7 : FVec F S4x128x128 .f32) (main_arg8 : FVec F S4x128 .f32) (main_arg9 : FVec F S128x40 .f32) (main_arg10 : FVec F S40 .f32) (main_v33 : IVec S_ 1) : IVec S_ 1 :=
  let main_v34 : FVec F S4x128x128 .f32 := Host.absf main_arg7
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg8
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x40 .f32 := Host.absf main_arg9
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg10
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg4 : FVec F S128 .f32) (main_arg5 : FVec F S4x128x128 .f32) (main_arg6 : FVec F S4x128 .f32) (main_arg7 : FVec F S4x128x128 .f32) (main_arg8 : FVec F S4x128 .f32) (main_arg9 : FVec F S128x40 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg5
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x500 .f32) (main_arg1 : FVec F S8192x8192 .f32) (main_arg2 : FVec F S500x128 .f32) (main_arg3 : FVec F S128 .f32) (main_arg4 : FVec F S128 .f32) (main_arg5 : FVec F S4x128x128 .f32) (main_arg6 : FVec F S4x128 .f32) (main_arg7 : FVec F S4x128x128 .f32) (main_arg8 : FVec F S4x128 .f32) (main_arg9 : FVec F S128x40 .f32) (main_arg10 : FVec F S40 .f32) : IVec S_ 1 :=
  let main_v0 : FVec F S8192x500 .f32 := Host.absf main_arg0
  let main_cst : FVec F S_ .f32 := constant S_ .f32 0x7F800000#32
  let main_v1 : FVec F S8192x500 .f32 := broadcastInDim S8192x500 ![] bcast_S_S8192x500 main_cst
  let main_v2 : IVec S8192x500 1 := cmpf .olt main_v0 main_v1
  let main_c : IVec S_ 1 := constantI S_ 1 1#1
  let main_v3 : IVec S_ 1 := (fun x v => Host.reduce IntOp.andi x v reducesTo_S8192x500_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S500x128 .f32 := Host.absf main_arg2
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S8192x500 : Shape := ⟨2, ![8192, 500]⟩
abbrev S8192x8192 : Shape := ⟨2, ![8192, 8192]⟩
abbrev S500x128 : Shape := ⟨2, ![500, 128]⟩
abbrev S128 : Shape := ⟨1, ![128]⟩
abbrev S4x128x128 : Shape := ⟨3, ![4, 128, 128]⟩
abbrev S4x128 : Shape := ⟨2, ![4, 128]⟩
abbrev S128x40 : Shape := ⟨2, ![128, 40]⟩
abbrev S40 : Shape := ⟨1, ![40]⟩
abbrev S8192x1 : Shape := ⟨2, ![8192, 1]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S8192x128 : Shape := ⟨2, ![8192, 128]⟩
abbrev S1x128 : Shape := ⟨2, ![1, 128]⟩
abbrev S1x128x128 : Shape := ⟨3, ![1, 128, 128]⟩
abbrev S128x128 : Shape := ⟨2, ![128, 128]⟩
abbrev S2048x4096 : Shape := ⟨2, ![2048, 4096]⟩
abbrev S4096x128 : Shape := ⟨2, ![4096, 128]⟩
abbrev S2048x128 : Shape := ⟨2, ![2048, 128]⟩
abbrev S8192x40 : Shape := ⟨2, ![8192, 40]⟩
abbrev S1x40 : Shape := ⟨2, ![1, 40]⟩

abbrev nBuf : Space → Nat
  | .hbm => 253
  | .vmem => 55
  | .smem => 0
  | _ => 0

abbrev hbmTy0_0 (i : Nat) : BufTy := match i % 128 with
  | 0 => ⟨S8192x500, .f32⟩
  | 1 => ⟨S8192x8192, .f32⟩
  | 2 => ⟨S500x128, .f32⟩
  | 3 => ⟨S128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S128x40, .f32⟩
  | 10 => ⟨S40, .f32⟩
  | 11 => ⟨S8192x1, .f32⟩
  | 12 => ⟨S8192x8192, .bf16⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .i1⟩
  | 19 => ⟨S8192x1, .f32⟩
  | 20 => ⟨S_, .f32⟩
  | 21 => ⟨S_, .f32⟩
  | 22 => ⟨S8192x1, .f32⟩
  | 23 => ⟨S8192x1, .f32⟩
  | 24 => ⟨S8192x1, .f32⟩
  | 25 => ⟨S8192x128, .f32⟩
  | 26 => ⟨S1x128, .f32⟩
  | 27 => ⟨S8192x128, .f32⟩
  | 28 => ⟨S8192x128, .f32⟩
  | 29 => ⟨S_, .f32⟩
  | 30 => ⟨S8192x128, .f32⟩
  | 31 => ⟨S8192x128, .f32⟩
  | 32 => ⟨S_, .f32⟩
  | 33 => ⟨S8192x128, .f32⟩
  | 34 => ⟨S8192x128, .f32⟩
  | 35 => ⟨S1x128, .f32⟩
  | 36 => ⟨S_, .f32⟩
  | 37 => ⟨S1x128, .f32⟩
  | 38 => ⟨S1x128, .f32⟩
  | 39 => ⟨S8192x128, .f32⟩
  | 40 => ⟨S8192x128, .f32⟩
  | 41 => ⟨S1x128x128, .f32⟩
  | 42 => ⟨S128x128, .f32⟩
  | 43 => ⟨S8192x128, .f32⟩
  | 44 => ⟨S8192x128, .f32⟩
  | 45 => ⟨S8192x128, .f32⟩
  | 46 => ⟨S8192x128, .bf16⟩
  | 47 => ⟨S8192x128, .f32⟩
  | 48 => ⟨S8192x128, .f32⟩
  | 49 => ⟨S8192x128, .bf16⟩
  | 50 => ⟨S8192x128, .f32⟩
  | 51 => ⟨S8192x128, .f32⟩
  | 52 => ⟨S8192x128, .f32⟩
  | 53 => ⟨S8192x128, .f32⟩
  | 54 => ⟨S8192x128, .f32⟩
  | 55 => ⟨S8192x128, .f32⟩
  | 56 => ⟨S8192x128, .f32⟩
  | 57 => ⟨S8192x128, .f32⟩
  | 58 => ⟨S8192x128, .f32⟩
  | 59 => ⟨S8192x128, .f32⟩
  | 60 => ⟨S8192x128, .f32⟩
  | 61 => ⟨S8192x128, .f32⟩
  | 62 => ⟨S1x128, .f32⟩
  | 63 => ⟨S128, .f32⟩
  | 64 => ⟨S1x128, .f32⟩
  | 65 => ⟨S8192x128, .f32⟩
  | 66 => ⟨S8192x128, .f32⟩
  | 67 => ⟨S_, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S8192x128, .f32⟩
  | 74 => ⟨S_, .f32⟩
  | 75 => ⟨S8192x128, .f32⟩
  | 76 => ⟨S8192x128, .f32⟩
  | 77 => ⟨S1x128x128, .f32⟩
  | 78 => ⟨S128x128, .f32⟩
  | 79 => ⟨S8192x128, .f32⟩
  | 80 => ⟨S_, .f32⟩
  | 81 => ⟨S8192x128, .f32⟩
  | 82 => ⟨S8192x128, .f32⟩
  | 83 => ⟨S8192x128, .f32⟩
  | 84 => ⟨S1x128, .f32⟩
  | 85 => ⟨S128, .f32⟩
  | 86 => ⟨S1x128, .f32⟩
  | 87 => ⟨S8192x128, .f32⟩
  | 88 => ⟨S8192x128, .f32⟩
  | 89 => ⟨S_, .f32⟩
  | 90 => ⟨S8192x128, .f32⟩
  | 91 => ⟨S8192x128, .f32⟩
  | 92 => ⟨S8192x128, .f32⟩
  | 93 => ⟨S1x128x128, .f32⟩
  | 94 => ⟨S128x128, .f32⟩
  | 95 => ⟨S8192x128, .f32⟩
  | 96 => ⟨S8192x128, .f32⟩
  | 97 => ⟨S8192x128, .f32⟩
  | 98 => ⟨S8192x128, .bf16⟩
  | 99 => ⟨S8192x128, .f32⟩
  | 100 => ⟨S8192x128, .f32⟩
  | 101 => ⟨S8192x128, .bf16⟩
  | 102 => ⟨S8192x128, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S8192x128, .f32⟩
  | 109 => ⟨S8192x128, .f32⟩
  | 110 => ⟨S8192x128, .f32⟩
  | 111 => ⟨S8192x128, .f32⟩
  | 112 => ⟨S8192x128, .f32⟩
  | 113 => ⟨S8192x128, .f32⟩
  | 114 => ⟨S1x128, .f32⟩
  | 115 => ⟨S128, .f32⟩
  | 116 => ⟨S1x128, .f32⟩
  | 117 => ⟨S8192x128, .f32⟩
  | 118 => ⟨S8192x128, .f32⟩
  | 119 => ⟨S_, .f32⟩
  | 120 => ⟨S8192x128, .f32⟩
  | 121 => ⟨S8192x128, .f32⟩
  | 122 => ⟨S_, .f32⟩
  | 123 => ⟨S8192x128, .f32⟩
  | 124 => ⟨S8192x128, .f32⟩
  | 125 => ⟨S8192x128, .f32⟩
  | 126 => ⟨S_, .f32⟩
  | 127 => ⟨S8192x128, .f32⟩
  | _ => ⟨S8192x500, .f32⟩

abbrev hbmTy0_1 (i : Nat) : BufTy := match i % 128 with
  | 0 => ⟨S8192x128, .f32⟩
  | 1 => ⟨S1x128x128, .f32⟩
  | 2 => ⟨S128x128, .f32⟩
  | 3 => ⟨S8192x128, .f32⟩
  | 4 => ⟨S_, .f32⟩
  | 5 => ⟨S8192x128, .f32⟩
  | 6 => ⟨S8192x128, .f32⟩
  | 7 => ⟨S8192x128, .f32⟩
  | 8 => ⟨S1x128, .f32⟩
  | 9 => ⟨S128, .f32⟩
  | 10 => ⟨S1x128, .f32⟩
  | 11 => ⟨S8192x128, .f32⟩
  | 12 => ⟨S8192x128, .f32⟩
  | 13 => ⟨S_, .f32⟩
  | 14 => ⟨S8192x128, .f32⟩
  | 15 => ⟨S8192x128, .f32⟩
  | 16 => ⟨S8192x128, .f32⟩
  | 17 => ⟨S1x128x128, .f32⟩
  | 18 => ⟨S128x128, .f32⟩
  | 19 => ⟨S8192x128, .f32⟩
  | 20 => ⟨S8192x128, .f32⟩
  | 21 => ⟨S8192x128, .f32⟩
  | 22 => ⟨S8192x128, .bf16⟩
  | 23 => ⟨S8192x128, .f32⟩
  | 24 => ⟨S8192x128, .f32⟩
  | 25 => ⟨S8192x128, .bf16⟩
  | 26 => ⟨S8192x128, .f32⟩
  | 27 => ⟨S8192x128, .f32⟩
  | 28 => ⟨S8192x128, .f32⟩
  | 29 => ⟨S8192x128, .f32⟩
  | 30 => ⟨S8192x128, .f32⟩
  | 31 => ⟨S8192x128, .f32⟩
  | 32 => ⟨S8192x128, .f32⟩
  | 33 => ⟨S8192x128, .f32⟩
  | 34 => ⟨S8192x128, .f32⟩
  | 35 => ⟨S8192x128, .f32⟩
  | 36 => ⟨S8192x128, .f32⟩
  | 37 => ⟨S8192x128, .f32⟩
  | 38 => ⟨S1x128, .f32⟩
  | 39 => ⟨S128, .f32⟩
  | 40 => ⟨S1x128, .f32⟩
  | 41 => ⟨S8192x128, .f32⟩
  | 42 => ⟨S8192x128, .f32⟩
  | 43 => ⟨S_, .f32⟩
  | 44 => ⟨S8192x128, .f32⟩
  | 45 => ⟨S8192x128, .f32⟩
  | 46 => ⟨S_, .f32⟩
  | 47 => ⟨S8192x128, .f32⟩
  | 48 => ⟨S8192x128, .f32⟩
  | 49 => ⟨S8192x128, .f32⟩
  | 50 => ⟨S_, .f32⟩
  | 51 => ⟨S8192x128, .f32⟩
  | 52 => ⟨S8192x128, .f32⟩
  | 53 => ⟨S1x128x128, .f32⟩
  | 54 => ⟨S128x128, .f32⟩
  | 55 => ⟨S8192x128, .f32⟩
  | 56 => ⟨S_, .f32⟩
  | 57 => ⟨S8192x128, .f32⟩
  | 58 => ⟨S8192x128, .f32⟩
  | 59 => ⟨S8192x128, .f32⟩
  | 60 => ⟨S1x128, .f32⟩
  | 61 => ⟨S128, .f32⟩
  | 62 => ⟨S1x128, .f32⟩
  | 63 => ⟨S8192x128, .f32⟩
  | 64 => ⟨S8192x128, .f32⟩
  | 65 => ⟨S_, .f32⟩
  | 66 => ⟨S8192x128, .f32⟩
  | 67 => ⟨S8192x128, .f32⟩
  | 68 => ⟨S8192x128, .f32⟩
  | 69 => ⟨S1x128x128, .f32⟩
  | 70 => ⟨S128x128, .f32⟩
  | 71 => ⟨S8192x128, .f32⟩
  | 72 => ⟨S8192x128, .f32⟩
  | 73 => ⟨S8192x128, .f32⟩
  | 74 => ⟨S8192x128, .bf16⟩
  | 75 => ⟨S8192x128, .f32⟩
  | 76 => ⟨S8192x128, .f32⟩
  | 77 => ⟨S8192x128, .bf16⟩
  | 78 => ⟨S8192x128, .f32⟩
  | 79 => ⟨S8192x128, .f32⟩
  | 80 => ⟨S8192x128, .f32⟩
  | 81 => ⟨S8192x128, .f32⟩
  | 82 => ⟨S8192x128, .f32⟩
  | 83 => ⟨S8192x128, .f32⟩
  | 84 => ⟨S8192x128, .f32⟩
  | 85 => ⟨S8192x128, .f32⟩
  | 86 => ⟨S8192x128, .f32⟩
  | 87 => ⟨S8192x128, .f32⟩
  | 88 => ⟨S8192x128, .f32⟩
  | 89 => ⟨S8192x128, .f32⟩
  | 90 => ⟨S1x128, .f32⟩
  | 91 => ⟨S128, .f32⟩
  | 92 => ⟨S1x128, .f32⟩
  | 93 => ⟨S8192x128, .f32⟩
  | 94 => ⟨S8192x128, .f32⟩
  | 95 => ⟨S_, .f32⟩
  | 96 => ⟨S8192x128, .f32⟩
  | 97 => ⟨S8192x128, .f32⟩
  | 98 => ⟨S_, .f32⟩
  | 99 => ⟨S8192x128, .f32⟩
  | 100 => ⟨S8192x128, .f32⟩
  | 101 => ⟨S8192x128, .f32⟩
  | 102 => ⟨S_, .f32⟩
  | 103 => ⟨S8192x128, .f32⟩
  | 104 => ⟨S8192x128, .f32⟩
  | 105 => ⟨S1x128x128, .f32⟩
  | 106 => ⟨S128x128, .f32⟩
  | 107 => ⟨S8192x128, .f32⟩
  | 108 => ⟨S_, .f32⟩
  | 109 => ⟨S8192x128, .f32⟩
  | 110 => ⟨S8192x128, .f32⟩
  | 111 => ⟨S8192x128, .f32⟩
  | 112 => ⟨S1x128, .f32⟩
  | 113 => ⟨S128, .f32⟩
  | 114 => ⟨S1x128, .f32⟩
  | 115 => ⟨S8192x128, .f32⟩
  | 116 => ⟨S8192x128, .f32⟩
  | 117 => ⟨S_, .f32⟩
  | 118 => ⟨S8192x128, .f32⟩
  | 119 => ⟨S8192x128, .f32⟩
  | 120 => ⟨S8192x128, .f32⟩
  | 121 => ⟨S8192x40, .f32⟩
  | 122 => ⟨S1x40, .f32⟩
  | 123 => ⟨S8192x40, .f32⟩
  | 124 => ⟨S8192x40, .f32⟩
  | _ => ⟨S8192x500, .f32⟩

abbrev hbmTy (i : Nat) : BufTy := match i / 128 with
  | 0 => hbmTy0_0 i
  | 1 => hbmTy0_1 i
  | _ => ⟨S8192x500, .f32⟩

abbrev bufTy : (tb : Table) → Fin (tcTables nBuf tb) → BufTy
  | .hbm, ⟨i, _⟩ => hbmTy i
  | .local _ .vmem, ⟨0, _⟩ => ⟨S2048x2048, .f32⟩
  | .local _ .vmem, ⟨1, _⟩ => ⟨S2048x2048, .f32⟩
  | .local _ .vmem, ⟨2, _⟩ => ⟨S2048x1, .f32⟩
  | .local _ .vmem, ⟨3, _⟩ => ⟨S2048x1, .f32⟩
  | .local _ .vmem, ⟨4, _⟩ => ⟨S2048x2048, .bf16⟩
  | .local _ .vmem, ⟨5, _⟩ => ⟨S2048x2048, .bf16⟩
  | .local _ .vmem, ⟨6, _⟩ => ⟨S2048x1, .f32⟩
  | .local _ .vmem, ⟨7, _⟩ => ⟨S2048x4096, .bf16⟩
  | .local _ .vmem, ⟨8, _⟩ => ⟨S2048x4096, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x4096, .bf16⟩
  | .local _ .vmem, ⟨20, _⟩ => ⟨S2048x4096, .bf16⟩
  | .local _ .vmem, ⟨21, _⟩ => ⟨S4096x128, .bf16⟩
  | .local _ .vmem, ⟨22, _⟩ => ⟨S4096x128, .bf16⟩
  | .local _ .vmem, ⟨23, _⟩ => ⟨S4096x128, .bf16⟩
  | .local _ .vmem, ⟨24, _⟩ => ⟨S4096x128, .bf16⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x4096, .bf16⟩
  | .local _ .vmem, ⟨32, _⟩ => ⟨S2048x4096, .bf16⟩
  | .local _ .vmem, ⟨33, _⟩ => ⟨S4096x128, .bf16⟩
  | .local _ .vmem, ⟨34, _⟩ => ⟨S4096x128, .bf16⟩
  | .local _ .vmem, ⟨35, _⟩ => ⟨S4096x128, .bf16⟩
  | .local _ .vmem, ⟨36, _⟩ => ⟨S4096x128, .bf16⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x4096, .bf16⟩
  | .local _ .vmem, ⟨44, _⟩ => ⟨S2048x4096, .bf16⟩
  | .local _ .vmem, ⟨45, _⟩ => ⟨S4096x128, .bf16⟩
  | .local _ .vmem, ⟨46, _⟩ => ⟨S4096x128, .bf16⟩
  | .local _ .vmem, ⟨47, _⟩ => ⟨S4096x128, .bf16⟩
  | .local _ .vmem, ⟨48, _⟩ => ⟨S4096x128, .bf16⟩
  | .local _ .vmem, ⟨49, _⟩ => ⟨S2048x128, .f32⟩
  | .local _ .vmem, ⟨50, _⟩ => ⟨S2048x128, .f32⟩
  | .local _ .vmem, ⟨51, _⟩ => ⟨S2048x128, .f32⟩
  | .local _ .vmem, ⟨52, _⟩ => ⟨S2048x128, .f32⟩
  | .local _ .vmem, ⟨53, _⟩ => ⟨S2048x128, .f32⟩
  | .local _ .vmem, ⟨54, _⟩ => ⟨S2048x128, .f32⟩
  | _, _ => ⟨S8192x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_cst : Ref sig .tc := ⟨.hbm, 29, rfl⟩
abbrev main_call1_v0 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74_0 : Ref sig .tc := ⟨.hbm, 102, rfl⟩
abbrev main_v74_1 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_8 : Ref sig .tc := ⟨.hbm, 119, rfl⟩
abbrev main_v90 : Ref sig .tc := ⟨.hbm, 120, rfl⟩
abbrev main_v91 : Ref sig .tc := ⟨.hbm, 121, rfl⟩
abbrev main_cst_9 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_10 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_11 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_call3_cst : Ref sig .tc := ⟨.hbm, 141, rfl⟩
abbrev main_call3_v0 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119_0 : Ref sig .tc := ⟨.hbm, 154, rfl⟩
abbrev main_v119_1 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_12 : Ref sig .tc := ⟨.hbm, 171, rfl⟩
abbrev main_v135 : Ref sig .tc := ⟨.hbm, 172, rfl⟩
abbrev main_v136 : Ref sig .tc := ⟨.hbm, 173, rfl⟩
abbrev main_cst_13 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_14 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_15 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_call4_cst : Ref sig .tc := ⟨.hbm, 193, rfl⟩
abbrev main_call4_v0 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164_0 : Ref sig .tc := ⟨.hbm, 206, rfl⟩
abbrev main_v164_1 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_16 : Ref sig .tc := ⟨.hbm, 223, rfl⟩
abbrev main_v180 : Ref sig .tc := ⟨.hbm, 224, rfl⟩
abbrev main_v181 : Ref sig .tc := ⟨.hbm, 225, rfl⟩
abbrev main_cst_17 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_18 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_19 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_call5_cst : Ref sig .tc := ⟨.hbm, 245, rfl⟩
abbrev main_call5_v0 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc3_scratch0 : Ref sig .tc := ⟨.vmem, 41, rfl⟩
abbrev cc3_scratch1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg4_1 : Ref sig .tc := ⟨.vmem, 52, rfl⟩
abbrev cc4_scratch0 : Ref sig .tc := ⟨.vmem, 53, rfl⟩
abbrev cc4_scratch1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 2], ![false, false]⟩

def k2_cond2 (i : grid2.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_15 : BitVec 32 := 0#32
  let v23 : BitVec 1 := Scalar.cmpi .ne v22 c0_i32_15
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![4, 2], ![false, false]⟩

def k3_cond2 (i : grid3.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_15 : BitVec 32 := 0#32
  let v23 : BitVec 1 := Scalar.cmpi .ne v22 c0_i32_15
  v23

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![4, 2], ![false, false]⟩

def k4_cond2 (i : grid4.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_15 : BitVec 32 := 0#32
  let v23 : BitVec 1 := Scalar.cmpi .ne v22 c0_i32_15
  v23

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S4096x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4096x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S2048x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  bitsLt_bf16_f32 : FTy.bits .bf16 < FTy.bits .f32
  packedbf16_S2048x2048_S2048x2048_0_0 : (Rect.unit (s := S2048x2048) ![0, 0] S2048x2048.size inb_S2048x2048_S2048x2048_0_0).PackedRows (EltTy.packing .bf16)
  bcast_S_S8192x1 : S_.BroadcastsInDim S8192x1 (![] : Fin 0 → Fin S8192x1.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S1x128 : S_.BroadcastsInDim S1x128 (![] : Fin 0 → Fin S1x128.rank)
  slices_S4x128x128_S1x128x128_0_0_0 : S4x128x128.Slices ![0, 0, 0] S1x128x128
  shapeCasts_S1x128x128_S128x128 : S1x128x128.ShapeCasts S128x128
  bcast_S8192x1_S8192x128_0_1 : S8192x1.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  dot_S8192x500_S500x128_S8192x128_1_0_0_1_n_n_wf : DotDims.WF S8192x500 S500x128 S8192x128 [1] [0] [0] [1] [] []
  dot_S8192x128_S128x128_S8192x128_1_0_0_1_n_n_wf : DotDims.WF S8192x128 S128x128 S8192x128 [1] [0] [0] [1] [] []
  dot_S2048x4096_S4096x128_S2048x128_1_0_0_1_n_n_wf : DotDims.WF S2048x4096 S4096x128 S2048x128 [1] [0] [0] [1] [] []
  dot_S8192x128_S128x40_S8192x40_1_0_0_1_n_n_wf : DotDims.WF S8192x128 S128x40 S8192x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .bf16 = 32 ∨ (Rect.block (s := S8192x8192) S2048x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S8192x8192.size a
  hwx1_0 : ∀ i : grid1.Coords, EltTy.bits .bf16 = 32 ∨ (Rect.block (s := S8192x8192) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .bf16 = 32 ∨ (Rect.block (s := S8192x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S8192x128.size a
  hwx1_2 : ∀ i : grid1.Coords, EltTy.bits .bf16 = 32 ∨ (Rect.block (s := S8192x128) S4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S8192x128.size a
  hwx1_4 : ∀ i : grid1.Coords, EltTy.bits .f32 = 32 ∨ (Rect.block (s := S8192x128) S2048x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x4096.size a ≤ S8192x8192.size a
  hwx2_0 : ∀ i : grid2.Coords, EltTy.bits .bf16 = 32 ∨ (Rect.block (s := S8192x8192) S2048x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S8192x128.size a
  hwx2_1 : ∀ i : grid2.Coords, EltTy.bits .bf16 = 32 ∨ (Rect.block (s := S8192x128) S4096x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S8192x128.size a
  hwx2_2 : ∀ i : grid2.Coords, EltTy.bits .bf16 = 32 ∨ (Rect.block (s := S8192x128) S4096x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S8192x128.size a
  hwx2_3 : ∀ i : grid2.Coords, EltTy.bits .f32 = 32 ∨ (Rect.block (s := S8192x128) S2048x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S8192x128.size a
  hwx2_4 : ∀ i : grid2.Coords, EltTy.bits .f32 = 32 ∨ (Rect.block (s := S8192x128) S2048x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x4096.size a ≤ S8192x8192.size a
  hwx3_0 : ∀ i : grid3.Coords, EltTy.bits .bf16 = 32 ∨ (Rect.block (s := S8192x8192) S2048x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S8192x128.size a
  hwx3_1 : ∀ i : grid3.Coords, EltTy.bits .bf16 = 32 ∨ (Rect.block (s := S8192x128) S4096x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S8192x128.size a
  hwx3_2 : ∀ i : grid3.Coords, EltTy.bits .bf16 = 32 ∨ (Rect.block (s := S8192x128) S4096x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .f32 = 32 ∨ (Rect.block (s := S8192x128) S2048x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S8192x128.size a
  hwx3_4 : ∀ i : grid3.Coords, EltTy.bits .f32 = 32 ∨ (Rect.block (s := S8192x128) S2048x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x4096.size a ≤ S8192x8192.size a
  hwx4_0 : ∀ i : grid4.Coords, EltTy.bits .bf16 = 32 ∨ (Rect.block (s := S8192x8192) S2048x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S8192x128.size a
  hwx4_1 : ∀ i : grid4.Coords, EltTy.bits .bf16 = 32 ∨ (Rect.block (s := S8192x128) S4096x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S8192x128.size a
  hwx4_2 : ∀ i : grid4.Coords, EltTy.bits .bf16 = 32 ∨ (Rect.block (s := S8192x128) S4096x128.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S8192x128.size a
  hwx4_3 : ∀ i : grid4.Coords, EltTy.bits .f32 = 32 ∨ (Rect.block (s := S8192x128) S2048x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x128.size a ≤ S8192x128.size a
  hwx4_4 : ∀ i : grid4.Coords, EltTy.bits .f32 = 32 ∨ (Rect.block (s := S8192x128) S2048x128.size (cc4_transform_4 i) (hinb4_4 i)).WholeWords (EltTy.packing .f32)

variable [Facts₀]

def dot_S8192x500_S500x128_S8192x128_1_0_0_1_n_n : DotDims S8192x500 S500x128 S8192x128 where
  lhsContracting := [1]
  rhsContracting := [0]
  lhsNonContracting := [0]
  rhsNonContracting := [1]
  lhsBatch := []
  rhsBatch := []
  wf := dot_S8192x500_S500x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x4096_S4096x128_S2048x128_1_0_0_1_n_n : DotDims S2048x4096 S4096x128 S2048x128 where
  lhsContracting := [1]
  rhsContracting := [0]
  lhsNonContracting := [0]
  rhsNonContracting := [1]
  lhsBatch := []
  rhsBatch := []
  wf := dot_S2048x4096_S4096x128_S2048x128_1_0_0_1_n_n_wf
def dot_S8192x128_S128x40_S8192x40_1_0_0_1_n_n : DotDims S8192x128 S128x40 S8192x40 where
  lhsContracting := [1]
  rhsContracting := [0]
  lhsNonContracting := [0]
  rhsNonContracting := [1]
  lhsBatch := []
  rhsBatch := []
  wf := dot_S8192x128_S128x40_S8192x40_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v0_1) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S2048x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0_1) S2048x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v73) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v74_0) S2048x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v74_1) S2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v0_1) S2048x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v115) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v118) S4096x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v119_0) S2048x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v119_1) S2048x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v0_1) S2048x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v160) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v163) S4096x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v164_0) S2048x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v164_1) S2048x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

class Facts : Prop extends Facts₀ where

variable [Facts]
-- ==== ReferenceIdeal.lean ====
abbrev S8192x500 : Shape := ⟨2, ![8192, 500]⟩
abbrev S8192x8192 : Shape := ⟨2, ![8192, 8192]⟩
abbrev S500x128 : Shape := ⟨2, ![500, 128]⟩
abbrev S128 : Shape := ⟨1, ![128]⟩
abbrev S4x128x128 : Shape := ⟨3, ![4, 128, 128]⟩
abbrev S4x128 : Shape := ⟨2, ![4, 128]⟩
abbrev S128x40 : Shape := ⟨2, ![128, 40]⟩
abbrev S40 : Shape := ⟨1, ![40]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x128 : Shape := ⟨2, ![8192, 128]⟩
abbrev S1x128 : Shape := ⟨2, ![1, 128]⟩
abbrev S1x128x128 : Shape := ⟨3, ![1, 128, 128]⟩
abbrev S128x128 : Shape := ⟨2, ![128, 128]⟩
abbrev S8192x40 : Shape := ⟨2, ![8192, 40]⟩
abbrev S1x40 : Shape := ⟨2, ![1, 40]⟩

abbrev nBuf : Space → Nat
  | .hbm => 199
  | .vmem => 0
  | .smem => 0
  | _ => 0

abbrev hbmTy0_0 (i : Nat) : BufTy := match i % 128 with
  | 0 => ⟨S8192x500, .f32⟩
  | 1 => ⟨S8192x8192, .f32⟩
  | 2 => ⟨S500x128, .f32⟩
  | 3 => ⟨S128, .f32⟩
  | 4 => ⟨S128, .f32⟩
  | 5 => ⟨S4x128x128, .f32⟩
  | 6 => ⟨S4x128, .f32⟩
  | 7 => ⟨S4x128x128, .f32⟩
  | 8 => ⟨S4x128, .f32⟩
  | 9 => ⟨S128x40, .f32⟩
  | 10 => ⟨S40, .f32⟩
  | 11 => ⟨S8192x8192, .i32⟩
  | 12 => ⟨S8192x8192, .i32⟩
  | 13 => ⟨S_, .i32⟩
  | 14 => ⟨S8192x8192, .i32⟩
  | 15 => ⟨S8192x8192, .i32⟩
  | 16 => ⟨S8192x8192, .i1⟩
  | 17 => ⟨S8192x8192, .f32⟩
  | 18 => ⟨S8192x8192, .f32⟩
  | 19 => ⟨S_, .f32⟩
  | 20 => ⟨S8192, .f32⟩
  | 21 => ⟨S_, .f32⟩
  | 22 => ⟨S8192, .f32⟩
  | 23 => ⟨S8192, .i1⟩
  | 24 => ⟨S8192, .f32⟩
  | 25 => ⟨S_, .f32⟩
  | 26 => ⟨S_, .f32⟩
  | 27 => ⟨S8192, .f32⟩
  | 28 => ⟨S8192, .f32⟩
  | 29 => ⟨S8192x1, .f32⟩
  | 30 => ⟨S8192x8192, .f32⟩
  | 31 => ⟨S8192x8192, .f32⟩
  | 32 => ⟨S1x8192, .f32⟩
  | 33 => ⟨S8192x8192, .f32⟩
  | 34 => ⟨S8192x8192, .f32⟩
  | 35 => ⟨S8192x128, .f32⟩
  | 36 => ⟨S1x128, .f32⟩
  | 37 => ⟨S8192x128, .f32⟩
  | 38 => ⟨S8192x128, .f32⟩
  | 39 => ⟨S_, .f32⟩
  | 40 => ⟨S8192x128, .f32⟩
  | 41 => ⟨S8192x128, .f32⟩
  | 42 => ⟨S_, .f32⟩
  | 43 => ⟨S8192x128, .f32⟩
  | 44 => ⟨S8192x128, .f32⟩
  | 45 => ⟨S1x128, .f32⟩
  | 46 => ⟨S_, .f32⟩
  | 47 => ⟨S1x128, .f32⟩
  | 48 => ⟨S1x128, .f32⟩
  | 49 => ⟨S8192x128, .f32⟩
  | 50 => ⟨S8192x128, .f32⟩
  | 51 => ⟨S1x128x128, .f32⟩
  | 52 => ⟨S128x128, .f32⟩
  | 53 => ⟨S8192x128, .f32⟩
  | 54 => ⟨S8192x128, .f32⟩
  | 55 => ⟨S1x128, .f32⟩
  | 56 => ⟨S128, .f32⟩
  | 57 => ⟨S1x128, .f32⟩
  | 58 => ⟨S8192x128, .f32⟩
  | 59 => ⟨S8192x128, .f32⟩
  | 60 => ⟨S8192x128, .f32⟩
  | 61 => ⟨S_, .f32⟩
  | 62 => ⟨S8192x128, .f32⟩
  | 63 => ⟨S8192x128, .f32⟩
  | 64 => ⟨S_, .f32⟩
  | 65 => ⟨S8192x128, .f32⟩
  | 66 => ⟨S8192x128, .f32⟩
  | 67 => ⟨S8192x128, .f32⟩
  | 68 => ⟨S_, .f32⟩
  | 69 => ⟨S8192x128, .f32⟩
  | 70 => ⟨S8192x128, .f32⟩
  | 71 => ⟨S1x128x128, .f32⟩
  | 72 => ⟨S128x128, .f32⟩
  | 73 => ⟨S8192x128, .f32⟩
  | 74 => ⟨S_, .f32⟩
  | 75 => ⟨S8192x128, .f32⟩
  | 76 => ⟨S8192x128, .f32⟩
  | 77 => ⟨S8192x128, .f32⟩
  | 78 => ⟨S1x128, .f32⟩
  | 79 => ⟨S128, .f32⟩
  | 80 => ⟨S1x128, .f32⟩
  | 81 => ⟨S8192x128, .f32⟩
  | 82 => ⟨S8192x128, .f32⟩
  | 83 => ⟨S_, .f32⟩
  | 84 => ⟨S8192x128, .f32⟩
  | 85 => ⟨S8192x128, .f32⟩
  | 86 => ⟨S8192x128, .f32⟩
  | 87 => ⟨S1x128x128, .f32⟩
  | 88 => ⟨S128x128, .f32⟩
  | 89 => ⟨S8192x128, .f32⟩
  | 90 => ⟨S8192x128, .f32⟩
  | 91 => ⟨S1x128, .f32⟩
  | 92 => ⟨S128, .f32⟩
  | 93 => ⟨S1x128, .f32⟩
  | 94 => ⟨S8192x128, .f32⟩
  | 95 => ⟨S8192x128, .f32⟩
  | 96 => ⟨S8192x128, .f32⟩
  | 97 => ⟨S_, .f32⟩
  | 98 => ⟨S8192x128, .f32⟩
  | 99 => ⟨S8192x128, .f32⟩
  | 100 => ⟨S_, .f32⟩
  | 101 => ⟨S8192x128, .f32⟩
  | 102 => ⟨S8192x128, .f32⟩
  | 103 => ⟨S8192x128, .f32⟩
  | 104 => ⟨S_, .f32⟩
  | 105 => ⟨S8192x128, .f32⟩
  | 106 => ⟨S8192x128, .f32⟩
  | 107 => ⟨S1x128x128, .f32⟩
  | 108 => ⟨S128x128, .f32⟩
  | 109 => ⟨S8192x128, .f32⟩
  | 110 => ⟨S_, .f32⟩
  | 111 => ⟨S8192x128, .f32⟩
  | 112 => ⟨S8192x128, .f32⟩
  | 113 => ⟨S8192x128, .f32⟩
  | 114 => ⟨S1x128, .f32⟩
  | 115 => ⟨S128, .f32⟩
  | 116 => ⟨S1x128, .f32⟩
  | 117 => ⟨S8192x128, .f32⟩
  | 118 => ⟨S8192x128, .f32⟩
  | 119 => ⟨S_, .f32⟩
  | 120 => ⟨S8192x128, .f32⟩
  | 121 => ⟨S8192x128, .f32⟩
  | 122 => ⟨S8192x128, .f32⟩
  | 123 => ⟨S1x128x128, .f32⟩
  | 124 => ⟨S128x128, .f32⟩
  | 125 => ⟨S8192x128, .f32⟩
  | 126 => ⟨S8192x128, .f32⟩
  | 127 => ⟨S1x128, .f32⟩
  | _ => ⟨S8192x500, .f32⟩

abbrev hbmTy0_1 (i : Nat) : BufTy := match i % 128 with
  | 0 => ⟨S128, .f32⟩
  | 1 => ⟨S1x128, .f32⟩
  | 2 => ⟨S8192x128, .f32⟩
  | 3 => ⟨S8192x128, .f32⟩
  | 4 => ⟨S8192x128, .f32⟩
  | 5 => ⟨S_, .f32⟩
  | 6 => ⟨S8192x128, .f32⟩
  | 7 => ⟨S8192x128, .f32⟩
  | 8 => ⟨S_, .f32⟩
  | 9 => ⟨S8192x128, .f32⟩
  | 10 => ⟨S8192x128, .f32⟩
  | 11 => ⟨S8192x128, .f32⟩
  | 12 => ⟨S_, .f32⟩
  | 13 => ⟨S8192x128, .f32⟩
  | 14 => ⟨S8192x128, .f32⟩
  | 15 => ⟨S1x128x128, .f32⟩
  | 16 => ⟨S128x128, .f32⟩
  | 17 => ⟨S8192x128, .f32⟩
  | 18 => ⟨S_, .f32⟩
  | 19 => ⟨S8192x128, .f32⟩
  | 20 => ⟨S8192x128, .f32⟩
  | 21 => ⟨S8192x128, .f32⟩
  | 22 => ⟨S1x128, .f32⟩
  | 23 => ⟨S128, .f32⟩
  | 24 => ⟨S1x128, .f32⟩
  | 25 => ⟨S8192x128, .f32⟩
  | 26 => ⟨S8192x128, .f32⟩
  | 27 => ⟨S_, .f32⟩
  | 28 => ⟨S8192x128, .f32⟩
  | 29 => ⟨S8192x128, .f32⟩
  | 30 => ⟨S8192x128, .f32⟩
  | 31 => ⟨S1x128x128, .f32⟩
  | 32 => ⟨S128x128, .f32⟩
  | 33 => ⟨S8192x128, .f32⟩
  | 34 => ⟨S8192x128, .f32⟩
  | 35 => ⟨S1x128, .f32⟩
  | 36 => ⟨S128, .f32⟩
  | 37 => ⟨S1x128, .f32⟩
  | 38 => ⟨S8192x128, .f32⟩
  | 39 => ⟨S8192x128, .f32⟩
  | 40 => ⟨S8192x128, .f32⟩
  | 41 => ⟨S_, .f32⟩
  | 42 => ⟨S8192x128, .f32⟩
  | 43 => ⟨S8192x128, .f32⟩
  | 44 => ⟨S_, .f32⟩
  | 45 => ⟨S8192x128, .f32⟩
  | 46 => ⟨S8192x128, .f32⟩
  | 47 => ⟨S8192x128, .f32⟩
  | 48 => ⟨S_, .f32⟩
  | 49 => ⟨S8192x128, .f32⟩
  | 50 => ⟨S8192x128, .f32⟩
  | 51 => ⟨S1x128x128, .f32⟩
  | 52 => ⟨S128x128, .f32⟩
  | 53 => ⟨S8192x128, .f32⟩
  | 54 => ⟨S_, .f32⟩
  | 55 => ⟨S8192x128, .f32⟩
  | 56 => ⟨S8192x128, .f32⟩
  | 57 => ⟨S8192x128, .f32⟩
  | 58 => ⟨S1x128, .f32⟩
  | 59 => ⟨S128, .f32⟩
  | 60 => ⟨S1x128, .f32⟩
  | 61 => ⟨S8192x128, .f32⟩
  | 62 => ⟨S8192x128, .f32⟩
  | 63 => ⟨S_, .f32⟩
  | 64 => ⟨S8192x128, .f32⟩
  | 65 => ⟨S8192x128, .f32⟩
  | 66 => ⟨S8192x128, .f32⟩
  | 67 => ⟨S8192x40, .f32⟩
  | 68 => ⟨S1x40, .f32⟩
  | 69 => ⟨S8192x40, .f32⟩
  | 70 => ⟨S8192x40, .f32⟩
  | _ => ⟨S8192x500, .f32⟩

abbrev hbmTy (i : Nat) : BufTy := match i / 128 with
  | 0 => hbmTy0_0 i
  | 1 => hbmTy0_1 i
  | _ => ⟨S8192x500, .f32⟩

abbrev bufTy : (tb : Table) → Fin (tcTables nBuf tb) → BufTy
  | .hbm, ⟨i, _⟩ => hbmTy i
  | _, _ => ⟨S8192x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_cst : Ref sig .tc := ⟨.hbm, 39, rfl⟩
abbrev main_call1_v0 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call2_cst : Ref sig .tc := ⟨.hbm, 83, rfl⟩
abbrev main_call2_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_11 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_call3_cst : Ref sig .tc := ⟨.hbm, 119, rfl⟩
abbrev main_call3_v0 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_12 : Ref sig .tc := ⟨.hbm, 133, rfl⟩
abbrev main_v100 : Ref sig .tc := ⟨.hbm, 134, rfl⟩
abbrev main_v101 : Ref sig .tc := ⟨.hbm, 135, rfl⟩
abbrev main_cst_13 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_14 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_15 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_call4_cst : Ref sig .tc := ⟨.hbm, 155, rfl⟩
abbrev main_call4_v0 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_16 : Ref sig .tc := ⟨.hbm, 169, rfl⟩
abbrev main_v130 : Ref sig .tc := ⟨.hbm, 170, rfl⟩
abbrev main_v131 : Ref sig .tc := ⟨.hbm, 171, rfl⟩
abbrev main_cst_17 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_18 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_19 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_call5_cst : Ref sig .tc := ⟨.hbm, 191, rfl⟩
abbrev main_call5_v0 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S_S1x128 : S_.BroadcastsInDim S1x128 (![] : Fin 0 → Fin S1x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  dot_S8192x500_S500x128_S8192x128_1_0_0_1_n_n_wf : DotDims.WF S8192x500 S500x128 S8192x128 [1] [0] [0] [1] [] []
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S8192x128_S128x40_S8192x40_1_0_0_1_n_n_wf : DotDims.WF S8192x128 S128x40 S8192x40 [1] [0] [0] [1] [] []

variable [Facts₀]

def dot_S8192x500_S500x128_S8192x128_1_0_0_1_n_n : DotDims S8192x500 S500x128 S8192x128 where
  lhsContracting := [1]
  rhsContracting := [0]
  lhsNonContracting := [0]
  rhsNonContracting := [1]
  lhsBatch := []
  rhsBatch := []
  wf := dot_S8192x500_S500x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x40_S8192x40_1_0_0_1_n_n : DotDims S8192x128 S128x40 S8192x40 where
  lhsContracting := [1]
  rhsContracting := [0]
  lhsNonContracting := [0]
  rhsNonContracting := [1]
  lhsBatch := []
  rhsBatch := []
  wf := dot_S8192x128_S128x40_S8192x40_1_0_0_1_n_n_wf

class Facts : Prop extends Facts₀ where

variable [Facts]
-- ==== Proof.K.R0Cond.lean ====
import proofs.«117539_j28759101014307_2_alg».proof.Proof.Gen.Kernel.Launch
import proofs.«117539_j28759101014307_2_alg».proof.Proof.Gen.Kernel.Skeleton
import proofs.«117539_j28759101014307_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The row-sum region (pallas_call 0): the branch conditions over the grid

The grid is 4 × 4: the second coordinate `k` walks the four column blocks of a block row of the adjacency. The first
conditional (`k = 0`) resets the row-sum accumulator; the second (`k = 3`, the last block) copies it to the degree output. -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

end Cert.Kernel.Hand

end
-- ==== Proof.K.R0RunA.lean ====
import proofs.«117539_j28759101014307_2_alg».proof.Proof.K.R0Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 0`: the accumulator is reset and receives the first column block's row sums; the cast
    block is stored; the degree output's buffer is not touched. -/
noncomputable def kernelRun0_A (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i)
    (x0 : Vec F S2048x2048 .f32) :
    Σ' (L2 : List (View.Piece (Elt F) S2048x2048 .bf16)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__row_sum_cast_kernel i arg2 harg2 arg3 harg3 arg4 harg4 arg5 harg5) K } := by
  refine ⟨?_, ?_, fun xi1 E K => ?run⟩
  case run =>
    simp only [cc0__row_sum_cast_kernel_eq_skeleton]; unfold cc0__row_sum_cast_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R0RunB.lean ====
import proofs.«117539_j28759101014307_2_alg».proof.Proof.K.R0Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 1` or `k = 2`: the accumulator, carried from the point before at `xs0`, receives this
    column block's row sums; the cast block is stored; the degree output's buffer is not touched. -/
noncomputable def kernelRun0_B (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i)
    (x0 : Vec F S2048x2048 .f32) (xs0 : Vec F S2048x1 .f32) :
    Σ' (L2 : List (View.Piece (Elt F) S2048x2048 .bf16)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__row_sum_cast_kernel i arg2 harg2 arg3 harg3 arg4 harg4 arg5 harg5) K } := by
  refine ⟨?_, ?_, fun xi1 E K => ?run⟩
  case run =>
    simp only [cc0__row_sum_cast_kernel_eq_skeleton]; unfold cc0__row_sum_cast_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R0RunC.lean ====
import proofs.«117539_j28759101014307_2_alg».proof.Proof.K.R0Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 3` (the last column block): the accumulator, carried at `xs0`, receives this block's row
    sums and is copied whole into the degree output's staging buffer; the cast block is stored. -/
noncomputable def kernelRun0_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i)
    (x0 : Vec F S2048x2048 .f32) (xs0 : Vec F S2048x1 .f32) :
    Σ' (L1 : List (View.Piece (Elt F) S2048x1 .f32)) (L2 : List (View.Piece (Elt F) S2048x2048 .bf16)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__row_sum_cast_kernel i arg2 harg2 arg3 harg3 arg4 harg4 arg5 harg5) K } := by
  refine ⟨?_, ?_, ?_, fun E K => ?run⟩
  case run =>
    simp only [cc0__row_sum_cast_kernel_eq_skeleton]; unfold cc0__row_sum_cast_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.Kernel.Hand

end
-- ==== Proof.K.R0Data.lean ====
import proofs.«117539_j28759101014307_2_alg».proof.Proof.K.R0RunA
import proofs.«117539_j28759101014307_2_alg».proof.Proof.K.R0RunB
import proofs.«117539_j28759101014307_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The row-sum region: what its buffers hold point by point

The region's three windows are the adjacency block (2048 × 2048, f32), the degree column's block (2048 × 1) and the cast
block (2048 × 2048, bf16). Along `k` the scratch accumulator carries the partial row sums from the first column block
(reset) through the middle ones to the last (copied out). -/

variable (c : Dev nD) (W : (b : Ref sig .tc) → Buf (Elt F) ((c : Thread nD τ).loc b))

/-- Window `w`'s block at point `t`, read off its array as the region finds it. -/
def iblk0 (w : Fin cfg0.W) (t : Fin cfg0.N) : ((cfg0.win w).xblock (cfg0.grid.coords t)).Idx → Elt F (cfg0.win w).elt :=
  ((cfg0.win w).blk t).view.read (Elt F) (W (Pipeline.arrRef spec0 w))

abbrev VO0_1 : View sig .tc .vmem S2048x1 .f32 := (Memref.whole cc0_stg1_0 : Memref sig .tc .vmem S2048x1 .f32).view
abbrev VO0_2 : View sig .tc .vmem S2048x2048 .bf16 := (Memref.whole cc0_stg2_0 : Memref sig .tc .vmem S2048x2048 .bf16).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
abbrev scM0_0 : Memref sig .tc .vmem S2048x1 .f32 := Memref.whole cc0_scratch0
abbrev VS0_0 : View sig .tc .vmem S2048x1 .f32 := scM0_0.view

/-! ### Where the windows are idle -/

theorem liveAt0_0 : ∀ t : Fin cfg0.N, cfg0.idle 0 (grid0.coords t) = false := by decide +kernel
theorem liveAt0_2 : ∀ t : Fin cfg0.N, cfg0.idle 2 (grid0.coords t) = false := by decide +kernel
theorem idleAt0_1_N : ∀ t : Fin cfg0.N, ¬cond0_1 (grid0.coords t) → cfg0.idle 1 (grid0.coords t) = true := by decide +kernel
theorem noFlush0_1_N : ∀ t : Fin cfg0.N, ¬cond0_1 (grid0.coords t) → (cfg0.win 1).flush t = false := by decide +kernel
theorem liveAt0_1_C : ∀ t : Fin cfg0.N, cond0_1 (grid0.coords t) → cfg0.idle 1 (grid0.coords t) = false := by decide +kernel

/-! ### What each case leaves: (degree output, cast output, accumulator) -/

def res0A (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) : (Vec F S2048x1 .f32 × Vec F S2048x2048 .bf16 × Vec F S2048x1 .f32) :=
  (VO0_1.read (Elt F) VO0_1.junk,
   VO0_2.read (Elt F) (VO0_2.writes (Elt F) VO0_2.junk (kernelRun0_A c i arg2 harg2 arg3 harg3 arg4 harg4 arg5 harg5 hc0 hc1 x0).1),
   VS0_0.read (Elt F) (VS0_0.writes (Elt F) VS0_0.junk (kernelRun0_A c i arg2 harg2 arg3 harg3 arg4 harg4 arg5 harg5 hc0 hc1 x0).2.1))
theorem cover0A_2 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) (y : S2048x2048.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S2048x2048.size (by sl_kernel_rfl) y
theorem scover0A_0 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) (y : S2048x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S2048x1.size (by sl_kernel_rfl) y

def res0B (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) : (Vec F S2048x1 .f32 × Vec F S2048x2048 .bf16 × Vec F S2048x1 .f32) :=
  (VO0_1.read (Elt F) VO0_1.junk,
   VO0_2.read (Elt F) (VO0_2.writes (Elt F) VO0_2.junk (kernelRun0_B c i arg2 harg2 arg3 harg3 arg4 harg4 arg5 harg5 hc0 hc1 x0 xs0).1),
   VS0_0.read (Elt F) (VS0_0.writes (Elt F) VS0_0.junk (kernelRun0_B c i arg2 harg2 arg3 harg3 arg4 harg4 arg5 harg5 hc0 hc1 x0 xs0).2.1))
theorem cover0B_2 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) (y : S2048x2048.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S2048x2048.size (by sl_kernel_rfl) y
theorem scover0B_0 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) (y : S2048x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S2048x1.size (by sl_kernel_rfl) y

def res0C (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) : (Vec F S2048x1 .f32 × Vec F S2048x2048 .bf16 × Vec F S2048x1 .f32) :=
  (VO0_1.read (Elt F) (VO0_1.writes (Elt F) VO0_1.junk (kernelRun0_C c i arg2 harg2 arg3 harg3 arg4 harg4 arg5 harg5 hc0 hc1 x0 xs0).1),
   VO0_2.read (Elt F) (VO0_2.writes (Elt F) VO0_2.junk (kernelRun0_C c i arg2 harg2 arg3 harg3 arg4 harg4 arg5 harg5 hc0 hc1 x0 xs0).2.1),
   VS0_0.read (Elt F) (VS0_0.writes (Elt F) VS0_0.junk (kernelRun0_C c i arg2 harg2 arg3 harg3 arg4 harg4 arg5 harg5 hc0 hc1 x0 xs0).2.2.1))
theorem cover0C_1 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S2048x1.size (by sl_kernel_rfl) y
theorem cover0C_2 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) (y : S2048x2048.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S2048x2048.size (by sl_kernel_rfl) y
theorem scover0C_0 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S2048x1.size (by sl_kernel_rfl) y

/-! ### The accumulation over the grid -/

theorem N0_eq : cfg0.N = 16 := N_0

/-- What the two outputs' staging buffers and the accumulator hold after the body at position `n`: by the position's
    residue mod 4 — reset at 0, accumulate at 1 and 2, accumulate and copy out at 3 —, each later case over what the position
    before left in the accumulator. -/
def outsAt0 : (n : ℕ) → n < cfg0.N → (Vec F S2048x1 .f32 × Vec F S2048x2048 .bf16 × Vec F S2048x1 .f32)
  | 0, hn => res0A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 c W 0 ⟨0, hn⟩)
  | n + 1, hn =>
    if h0 : (n + 1) % 4 = 0 then
      if h1 : (n + 1) % 4 = 3 then False.elim (by omega)
      else res0A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 c W 0 ⟨n + 1, hn⟩)
    else
      if h1 : (n + 1) % 4 = 3 then
        res0C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 c W 0 ⟨n + 1, hn⟩) (outsAt0 n (Nat.lt_of_succ_lt hn)).2.2
      else
        res0B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 c W 0 ⟨n + 1, hn⟩) (outsAt0 n (Nat.lt_of_succ_lt hn)).2.2

theorem outsAt0_A (t : Fin cfg0.N) (h0 : t.val % 4 = 0) (h1 : ¬t.val % 4 = 3) :
    outsAt0 c W t.val t.isLt = res0A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 c W 0 t) := by
  obtain ⟨n, hn⟩ := t
  cases n with
  | zero => exact rfl
  | succ n => exact (dif_pos h0).trans ((dif_neg h1).trans rfl)

theorem outsAt0_B (t : Fin cfg0.N) (h0 : ¬t.val % 4 = 0) (h1 : ¬t.val % 4 = 3) :
    outsAt0 c W t.val t.isLt = res0B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 c W 0 t)
      (outsAt0 c W (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (t : Fin cfg0.N) (h0 : ¬t.val % 4 = 0) (h1 : t.val % 4 = 3) :
    outsAt0 c W t.val t.isLt = res0C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 c W 0 t)
      (outsAt0 c W (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

end Cert.Kernel.Hand

end
-- ==== Proof.K.R0Body.lean ====
import proofs.«117539_j28759101014307_2_alg».proof.Proof.K.R0Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (c : Dev nD) (W : (b : Ref sig .tc) → Buf (Elt F) ((c : Thread nD τ).loc b))

/-! ## The row-sum region: the invariant, the proof data and the body at every point -/

theorem scopedRest0_eq :
    (Pipeline.scopedRest (Ix := Unit) (Name := ℕ) (U := UR sig nD τ) (Lvl := ℕ) (Val := Elt F) spec0 c : sProp 𝕄) = iprop(iprop((∃ d, owns (c : Thread nD τ) scM0_0 fullShare d)) ∗ Pipeline.scopedRestBut (Ix := Unit) (Name := ℕ) (U := UR sig nD τ) (Lvl := ℕ) (Val := Elt F) spec0 c [cc0_scratch0]) := by
  rw [scopedRest0_split]; simp only [scM0_0, owns_whole]; try rfl

/-- The region's invariant before position `n`: the scoped rest as handed at the start; afterwards the accumulator at what
    the point before left in it, beside the other scoped buffers. -/
def PhiS0 : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 c W n hn).2.2) ∗ Pipeline.scopedRestBut (Ix := Unit) (Name := ℕ) (U := UR sig nD τ) (Lvl := ℕ) (Val := Elt F) spec0 c [cc0_scratch0])

theorem PhiS0_zero (n : ℕ) (h : n ≤ cfg0.N) (hz : n = 0) : PhiS0 c W n h = Pipeline.scopedRest (Ix := Unit) (Name := ℕ) (U := UR sig nD τ) (Lvl := ℕ) (Val := Elt F) spec0 c := by
  subst hz; rfl
theorem PhiS0_succ (n : ℕ) (hn : n < cfg0.N) :
    PhiS0 c W (n + 1) hn = iprop(owns (c : Thread nD τ) scM0_0 fullShare ((outsAt0 c W n hn).2.2) ∗ Pipeline.scopedRestBut (Ix := Unit) (Name := ℕ) (U := UR sig nD τ) (Lvl := ℕ) (Val := Elt F) spec0 c [cc0_scratch0]) := rfl
theorem PhiS0_pos (n : ℕ) (h : n ≤ cfg0.N) (hz : n ≠ 0) :
    PhiS0 c W n h = iprop(owns (c : Thread nD τ) scM0_0 fullShare ((outsAt0 c W (n - 1) (by omega)).2.2) ∗ Pipeline.scopedRestBut (Ix := Unit) (Name := ℕ) (U := UR sig nD τ) (Lvl := ℕ) (Val := Elt F) spec0 c [cc0_scratch0]) := by
  cases n with
  | zero => exact absurd rfl hz
  | succ n => rfl

/-- The proof data of the row-sum region on core `c`, entered with the unscoped buffers at `W`. -/
def dats0 : Dat τ (Elt F) Unit ℕ (UR sig nD τ) ℕ cfg0 c where
  A w := W (Pipeline.arrRef spec0 w)
  after w t := match w with
    | ⟨0, _⟩ => iblk0 c W 0 t
    | ⟨1, _⟩ => (outsAt0 c W t.val t.isLt).1
    | ⟨2, _⟩ => (outsAt0 c W t.val t.isLt).2.1
  Φ t := PhiS0 c W t.val (Nat.le_of_lt_succ t.isLt)
  q _ := fullShare
  owed _ := 0

theorem A0_eq (w : Fin cfg0.W) : (dats0 c W).A w = W (Pipeline.arrRef spec0 w) := by dsimp only [dats0]
theorem PhiS0_castSucc (t : Fin cfg0.N) : (dats0 c W).Φ t.castSucc = PhiS0 c W t.val (Nat.le_of_lt t.isLt) := by
  dsimp only [dats0]; simp only [Fin.coe_castSucc]
theorem after0_0 (t : Fin cfg0.N) : (dats0 c W).after 0 t = iblk0 c W 0 t := by dsimp only [dats0]
theorem after0_1 (t : Fin cfg0.N) : (dats0 c W).after 1 t = (outsAt0 c W t.val t.isLt).1 := by dsimp only [dats0]
theorem after0_2 (t : Fin cfg0.N) : (dats0 c W).after 2 t = (outsAt0 c W t.val t.isLt).2.1 := by dsimp only [dats0]

theorem before0_0 (t : Fin cfg0.N) (d) : (dats0 c W).before 0 t d = iblk0 c W 0 t :=
  ((dats0 c W).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)

def bodyPre0 (t : Fin cfg0.N) : sProp 𝕄 :=
  iprop((dats0 c W).Φ t.castSucc ∗ (dats0 c W).owesAt () t.castSucc
    ∗ (∃ d, owns (c : Thread nD τ) (ms0_0 t) fullShare ((dats0 c W).before 0 t d))
    ∗ (∃ d, owns (c : Thread nD τ) (ms0_1 t) fullShare ((dats0 c W).before 1 t d))
    ∗ (∃ d, owns (c : Thread nD τ) (ms0_2 t) fullShare ((dats0 c W).before 2 t d)))

def bodyPost0 (t : Fin cfg0.N) : sProp 𝕄 :=
  iprop((dats0 c W).Φ t.succ ∗ (dats0 c W).owesAt () t.succ
    ∗ (dats0 c W).leavesExact 0 t ∗ (dats0 c W).leavesExact 1 t ∗ (dats0 c W).leavesExact 2 t)

set_option maxHeartbeats 4800000 in
/-- The body at any point: the input's memref holds its block; the point's residue mod 4 says which case it is in; the
    invariant hands the body the accumulator (at anything at the first point, else at what the point before left) and takes
    it back at this point's contents; the core owes nothing throughout. -/
theorem sound_body0 (t : Fin cfg0.N) :
    bodyPre0 c W t ⊢ wp frame (wpE (defs₀ (F := F)) Variants.none c none) Set.univ (bodyAt0 t) (fun _ => bodyPost0 c W t) := by
  unfold bodyPre0 bodyPost0 bodyAt0
  simp only [before0_0]
  rw [show (dats0 c W).owesAt () t.succ = (dats0 c W).owesAt () t.castSucc from rfl]
  rw [show (dats0 c W).Φ t.succ = PhiS0 c W (t.val + 1) t.isLt from rfl, PhiS0_succ]
  have hN : t.val < 16 := lt_of_lt_of_eq t.isLt N0_eq
  rw [show (dats0 c W).leavesExact 0 t = owns (c : Thread nD τ) (ms0_0 t) fullShare ((dats0 c W).after 0 t) from by
    unfold Dat.leavesExact; rw [liveAt0_0 t], after0_0]
  rw [show (dats0 c W).leavesExact 2 t = owns (c : Thread nD τ) (ms0_2 t) fullShare ((dats0 c W).after 2 t) from by
    unfold Dat.leavesExact; rw [liveAt0_2 t], after0_2]
  by_cases h0 : t.val % 4 = 0
  · have h1 : ¬t.val % 4 = 3 := by omega
    have hc1 : ¬cond0_1 (grid0.coords t) := fun h => h1 ((hcond0_1 t).mp h)
    rw [Dat.leavesExact_idle (dats0 c W) 1 t (idleAt0_1_N t hc1) (noFlush0_1_N t hc1)]
    rw [outsAt0_A c W t h0 h1]
    unfold res0A; (try dsimp only)
    by_cases hz : t.val = 0
    · rw [PhiS0_castSucc c W t, PhiS0_zero c W _ _ hz, scopedRest0_eq]
      iintro ⟨⟨HS0, Hr⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 c W 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover0A_0 c _ _ _ _ _ _ _ _ _ _ _ _)
        iexact Hr
      isplitl [Ho]; · iexact Ho
      isplitl [H0]; · iexact H0
      isplitl [H1]; · iexists _; iexact H1
      · unfold owns; iexists _; isplitr
        swap; · iexact H2
        ipureintro; exact View.read_writes_of_cover _ _ _ _ _ (cover0A_2 c _ _ _ _ _ _ _ _ _ _ _ _)
    · rw [PhiS0_castSucc c W t, PhiS0_pos c W _ _ hz]
      iintro ⟨⟨HS0, Hr⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 c W 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover0A_0 c _ _ _ _ _ _ _ _ _ _ _ _)
        iexact Hr
      isplitl [Ho]; · iexact Ho
      isplitl [H0]; · iexact H0
      isplitl [H1]; · iexists _; iexact H1
      · unfold owns; iexists _; isplitr
        swap; · iexact H2
        ipureintro; exact View.read_writes_of_cover _ _ _ _ _ (cover0A_2 c _ _ _ _ _ _ _ _ _ _ _ _)
  · have hz : t.val ≠ 0 := by omega
    by_cases h1 : t.val % 4 = 3
    · rw [show (dats0 c W).leavesExact 1 t = owns (c : Thread nD τ) (ms0_1 t) fullShare ((dats0 c W).after 1 t) from by
        unfold Dat.leavesExact; rw [liveAt0_1_C t ((hcond0_1 t).mpr h1)], after0_1]
      rw [outsAt0_C c W t h0 h1]
      unfold res0C; (try dsimp only)
      rw [PhiS0_castSucc c W t, PhiS0_pos c W _ _ hz]
      iintro ⟨⟨HS0, Hr⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 c W 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 Hr]
      · isplitl [HS0]
        · unfold owns; iexists _; isplitr
          swap; · iexact HS0
          ipureintro; exact View.read_writes_of_cover _ _ _ _ _ (scover0C_0 c _ _ _ _ _ _ _ _ _ _ _ _ _)
        iexact Hr
      isplitl [Ho]; · iexact Ho
      isplitl [H0]; · iexact H0
      isplitl [H1]
      · unfold owns; iexists _; isplitr
        swap; · iexact H1
        ipureintro; exact View.read_writes_of_cover _ _ _ _ _ (cover0C_1 c _ _ _ _ _ _ _ _ _ _ _ _ _)
      · unfold owns; iexists _; isplitr
        swap; · iexact H2
        ipureintro; exact View.read_writes_of_cover _ _ _ _ _ (cover0C_2 c _ _ _ _ _ _ _ _ _ _ _ _ _)
    · have hc1 : ¬cond0_1 (grid0.coords t) := fun h => h1 ((hcond0_1 t).mp h)
      rw [Dat.leavesExact_idle (dats0 c W) 1 t (idleAt0_1_N t hc1) (noFlush0_1_N t hc1)]
      rw [outsAt0_B c W t h0 h1]
      unfold res0B; (try dsimp only)
      rw [PhiS0_castSucc c W t, PhiS0_pos c W _ _ hz]
      iintro ⟨⟨HS0, Hr⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 c W 0 t) _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover0B_0 c _ _ _ _ _ _ _ _ _ _ _ _ _)
        iexact Hr
      isplitl [Ho]; · iexact Ho
      isplitl [H0]; · iexact H0
      isplitl [H1]; · iexists _; iexact H1
      · unfold owns; iexists _; isplitr
        swap; · iexact H2
        ipureintro; exact View.read_writes_of_cover _ _ _ _ _ (cover0B_2 c _ _ _ _ _ _ _ _ _ _ _ _ _)

/-- The library's body obligation, at every point. -/
theorem body_obligation0 : BodyObligation (dats0 (F := F) c W) (defs₀ (F := F)) Variants.none () Set.univ := fun t => by
  rw [bigSep_W0, bigSep_W0]
  exact sound_body0 c W t

/-- The scoped rest as the launch hands it is the invariant before the first point. -/
theorem Phi0_in (t : Fin (cfg0.N + 1)) (ht : t.val = 0) : Pipeline.scopedRest (Ix := Unit) (Name := ℕ) (U := UR sig nD τ) (Lvl := ℕ) (Val := Elt F) spec0 c ⊢ (dats0 c W).Φ t := by
  rw [show (dats0 c W).Φ t = PhiS0 c W t.val (Nat.le_of_lt_succ t.isLt) from rfl, PhiS0_zero c W _ _ ht]

/-- After any point but the first the invariant gives the scoped rest back: the accumulator's contents are forgotten. -/
theorem Phi0_out (t : Fin (cfg0.N + 1)) (ht : t.val ≠ 0) : (dats0 c W).Φ t ⊢ (Pipeline.scopedRest (Ix := Unit) (Name := ℕ) (U := UR sig nD τ) (Lvl := ℕ) (Val := Elt F) spec0 c : sProp 𝕄) := by
  rw [show (dats0 c W).Φ t = PhiS0 c W t.val (Nat.le_of_lt_succ t.isLt) from rfl, PhiS0_pos c W _ _ ht, scopedRest0_eq]
  iintro ⟨HS0, Hr⟩
  isplitl [HS0]; · iexists _; iexact HS0
  iexact Hr

end Cert.Kernel.Hand

end
-- ==== Proof.K.R1Cond.lean ====
import proofs.«117539_j28759101014307_2_alg».proof.Proof.Gen.Kernel.Launch
import proofs.«117539_j28759101014307_2_alg».proof.Proof.Gen.Kernel.Skeleton
import proofs.«117539_j28759101014307_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region (pallas_call 1): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond1_0 (i : grid1.Coords) : Prop := (Scalar.cmpi .ne (Scalar.extui (Scalar.cmpi .eq (BitVec.ofNat 32 (i 1).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The write-out condition of the body. -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

end Cert.Kernel.Hand

end
-- ==== Proof.K.R1RunA.lean ====
import proofs.«117539_j28759101014307_2_alg».proof.Proof.K.R1Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 0`: both accumulators are reset to zero and then receive the first half's
    products; the outputs' staging buffers are not touched. The pieces each accumulator ends with are found by the run. -/
noncomputable def kernelRun1_A (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__ahat_matmul_kernel i arg2 harg2 arg3 harg3 arg4 harg4 arg5 harg5 arg6 harg6 arg7 harg7 arg8 harg8) K } := by
  refine ⟨?_, ?_, fun xi3 xi4 E K => ?run⟩
  case run =>
    simp only [cc1__ahat_matmul_kernel_eq_skeleton]; unfold cc1__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.K.R1RunB.lean ====
import proofs.«117539_j28759101014307_2_alg».proof.Proof.K.R1Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun1_B (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__ahat_matmul_kernel i arg2 harg2 arg3 harg3 arg4 harg4 arg5 harg5 arg6 harg6 arg7 harg7 arg8 harg8) K } := by
  refine ⟨?_, ?_, ?_, ?_, fun E K => ?run⟩
  case run =>
    simp only [cc1__ahat_matmul_kernel_eq_skeleton]; unfold cc1__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.R1Data.lean ====
import proofs.«117539_j28759101014307_2_alg».proof.Proof.K.R1RunA
import proofs.«117539_j28759101014307_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (W (Pipeline.arrRef spec1 w))

/-- One staging buffer of each output window, through which its contents are stated. -/
abbrev VO1_3 : View sig .tc .vmem S2048x128 .f32 := (Memref.whole cc1_stg3_0 : Memref sig .tc .vmem S2048x128 .f32).view
abbrev VO1_4 : View sig .tc .vmem S2048x128 .f32 := (Memref.whole cc1_stg4_0 : Memref sig .tc .vmem S2048x128 .f32).view
/-- Each window's current staging memref at point `t`, and its wholeness. -/
abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S2048x128 .f32 := Memref.whole cc1_scratch0
abbrev scM1_1 : Memref sig .tc .vmem S2048x128 .f32 := Memref.whole cc1_scratch1
abbrev VS1_0 : View sig .tc .vmem S2048x128 .f32 := scM1_0.view
abbrev VS1_1 : View sig .tc .vmem S2048x128 .f32 := scM1_1.view

/-! ### Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem liveAt1_3_B : ∀ t : Fin cfg1.N, ¬cond1_0 (grid1.coords t) → cond1_1 (grid1.coords t) → cfg1.idle 3 (grid1.coords t) = false := by decide +kernel
theorem liveAt1_4_B : ∀ t : Fin cfg1.N, ¬cond1_0 (grid1.coords t) → cond1_1 (grid1.coords t) → cfg1.idle 4 (grid1.coords t) = false := by decide +kernel

/-! ### What each case leaves: (output 3, output 4, accumulator 0, accumulator 1) -/

/-- The reset case: the outputs are not touched (placeholders nothing reads); each accumulator holds its pieces. -/
def resA (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO1_3.read (Elt F) VO1_3.junk, VO1_4.read (Elt F) VO1_4.junk,
   VS1_0.read (Elt F) (VS1_0.writes (Elt F) VS1_0.junk (kernelRun1_A c i arg2 harg2 arg3 harg3 arg4 harg4 arg5 harg5 arg6 harg6 arg7 harg7 arg8 harg8 hc0 hc1 x0 x1 x2).1),
   VS1_1.read (Elt F) (VS1_1.writes (Elt F) VS1_1.junk (kernelRun1_A c i arg2 harg2 arg3 harg3 arg4 harg4 arg5 harg5 arg6 harg6 arg7 harg7 arg8 harg8 hc0 hc1 x0 x1 x2).2.1))

theorem scoverA_0 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) (y : S2048x128.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S2048x128.size (by sl_kernel_rfl) y
theorem scoverA_1 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) (y : S2048x128.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def resB (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1).1),
   VO1_4.read (Elt F) (VO1_4.writes (Elt F) VO1_4.junk (kernelRun1_B c i arg2 harg2 arg3 harg3 arg4 harg4 arg5 harg5 arg6 harg6 arg7 harg7 arg8 harg8 hc0 hc1 x0 x1 x2 xs0 xs1).2.1),
   VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1).2.2.1),
   VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1).2.2.2.1))

theorem coverB_3 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).1, y ∈ pc.1.set :=
  View.cover_of_tiledL (kernelRun1_B c i arg2 harg2 arg3 harg3 arg4 harg4 arg5 harg5 arg6 harg6 arg7 harg7 arg8 harg8 hc0 hc1 x0 x1 x2 xs0 xs1).1 S2048x128.size (by sl_kernel_rfl) y
theorem coverB_4 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).2.1, y ∈ pc.1.set :=
  View.cover_of_tiledL (kernelRun1_B c i arg2 harg2 arg3 harg3 arg4 harg4 arg5 harg5 arg6 harg6 arg7 harg7 arg8 harg8 hc0 hc1 x0 x1 x2 xs0 xs1).2.1 S2048x128.size (by sl_kernel_rfl) y
theorem scoverB_0 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 xs0 xs1).2.2.1 S2048x128.size (by sl_kernel_rfl) y
theorem scoverB_1 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N1_eq : cfg1.N = 8 := N_1

/-- What the two outputs' staging buffers and the two accumulators hold after the body at position `n`: the reset case at
    even positions, the write-out case at odd ones over what the position before left in the accumulators. -/
def outsAt1 : (n : ℕ) → n < cfg1.N → (Vec F S2048x128 .f32 × Vec F S2048x128 .f32 × Vec F S2048x128 .f32 × Vec F S2048x128 .f32)
  | 0, hn => resA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk c W 0 ⟨0, hn⟩) (iblk c W 1 ⟨0, hn⟩) (iblk c W 2 ⟨0, hn⟩)
  | n + 1, hn =>
    if h0 : (n + 1) % 2 = 0 then
      resA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk c W 0 ⟨n + 1, hn⟩) (iblk c W 1 ⟨n + 1, hn⟩) (iblk c W 2 ⟨n + 1, hn⟩)
    else
      resB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk c W 0 ⟨n + 1, hn⟩) (iblk c W 1 ⟨n + 1, hn⟩) (iblk c W 2 ⟨n + 1, hn⟩)
        (outsAt1 n (Nat.lt_of_succ_lt hn)).2.2.1 (outsAt1 n (Nat.lt_of_succ_lt hn)).2.2.2

theorem outsAt1_A (t : Fin cfg1.N) (h0 : t.val % 2 = 0) :
    outsAt1 c W t.val t.isLt = resA c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => (fun h => by omega) ((hcond1_1 t).mp h)) (iblk c W 0 t) (iblk c W 1 t) (iblk c W 2 t) := by
  obtain ⟨n, hn⟩ := t
  cases n with
  | zero => exact rfl
  | succ n => exact (dif_pos h0).trans rfl

theorem outsAt1_B (t : Fin cfg1.N) (h0 : ¬t.val % 2 = 0) :
    outsAt1 c W t.val t.isLt = resB c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr (by omega)) (iblk c W 0 t) (iblk c W 1 t) (iblk c W 2 t)
      (outsAt1 c W (t.val - 1) (Nat.lt_of_le_of_lt (Nat.sub_le _ _) t.isLt)).2.2.1 (outsAt1 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.Kernel.Hand

end
-- ==== Proof.K.R1Body.lean ====
import proofs.«117539_j28759101014307_2_alg».proof.Proof.K.R1Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest1_eq :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

/-- The region's invariant before position `n`: before the first point the scoped rest as the launch hands it; afterwards
    the two accumulators at what the point before left in them, beside the other scoped buffers. -/
def PhiS1 : (n : ℕ) → n ≤ cfg1.N → sProp 𝕄
  | 0, _ => Pipeline.scopedRest (Ix := Unit) (Name := ℕ) (U := UR sig nD τ) (Lvl := ℕ) (Val := Elt F) spec1 c
  | n + 1, hn => iprop(iprop(owns (c : Thread nD τ) scM1_0 fullShare ((outsAt1 c W n hn).2.2.1) ∗ owns (c : Thread nD τ) scM1_1 fullShare ((outsAt1 c W n hn).2.2.2))
      ∗ Pipeline.scopedRestBut (Ix := Unit) (Name := ℕ) (U := UR sig nD τ) (Lvl := ℕ) (Val := Elt F) spec1 c [cc1_scratch0, cc1_scratch1])

theorem PhiS1_zero (n : ℕ) (h : n ≤ cfg1.N) (hz : n = 0) :
    PhiS1 c W n h = Pipeline.scopedRest (Ix := Unit) (Name := ℕ) (U := UR sig nD τ) (Lvl := ℕ) (Val := Elt F) spec1 c := by
  subst hz; rfl

theorem PhiS1_succ (n : ℕ) (hn : n < cfg1.N) :
    PhiS1 c W (n + 1) hn = iprop(iprop(owns (c : Thread nD τ) scM1_0 fullShare ((outsAt1 c W n hn).2.2.1) ∗ owns (c : Thread nD τ) scM1_1 fullShare ((outsAt1 c W n hn).2.2.2))
      ∗ Pipeline.scopedRestBut (Ix := Unit) (Name := ℕ) (U := UR sig nD τ) (Lvl := ℕ) (Val := Elt F) spec1 c [cc1_scratch0, cc1_scratch1]) := rfl

theorem PhiS1_pos (n : ℕ) (h : n ≤ cfg1.N) (hz : n ≠ 0) :
    PhiS1 c W n h = iprop(iprop(owns (c : Thread nD τ) scM1_0 fullShare ((outsAt1 c W (n - 1) (by omega)).2.2.1) ∗ owns (c : Thread nD τ) scM1_1 fullShare ((outsAt1 c W (n - 1) (by omega)).2.2.2))
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-- The proof data of the matmul region on core `c`, entered with the unscoped buffers at `W`: each input's buffer at its
    block, each output's at the accumulation's component, the invariant above, nothing owed, full shares. -/
def dats1 : Dat τ (Elt F) Unit ℕ (UR sig nD τ) ℕ cfg1 c where
  A w := W (Pipeline.arrRef spec1 w)
  after w t := match w with
    | ⟨0, _⟩ => iblk c W 0 t
    | ⟨1, _⟩ => iblk c W 1 t
    | ⟨2, _⟩ => iblk c W 2 t
    | ⟨3, _⟩ => (outsAt1 c W t.val t.isLt).1
    | ⟨4, _⟩ => (outsAt1 c W t.val t.isLt).2.1
  Φ t := PhiS1 c W t.val (Nat.le_of_lt_succ t.isLt)
  q _ := fullShare
  owed _ := 0

theorem A1_eq (w : Fin cfg1.W) : (dats1 c W).A w = W (Pipeline.arrRef spec1 w) := by dsimp only [dats1]

theorem PhiS1_castSucc (t : Fin cfg1.N) : (dats1 c W).Φ t.castSucc = PhiS1 c W t.val (Nat.le_of_lt t.isLt) := by
  dsimp only [dats1]; simp only [Fin.coe_castSucc]

theorem after1_0 (t : Fin cfg1.N) : (dats1 c W).after 0 t = iblk c W 0 t := by dsimp only [dats1]
theorem after1_1 (t : Fin cfg1.N) : (dats1 c W).after 1 t = iblk c W 1 t := by dsimp only [dats1]
theorem after1_2 (t : Fin cfg1.N) : (dats1 c W).after 2 t = iblk c W 2 t := by dsimp only [dats1]
theorem after1_3 (t : Fin cfg1.N) : (dats1 c W).after 3 t = (outsAt1 c W t.val t.isLt).1 := by dsimp only [dats1]
theorem after1_4 (t : Fin cfg1.N) : (dats1 c W).after 4 t = (outsAt1 c W t.val t.isLt).2.1 := by dsimp only [dats1]

/-- Each input's current staging buffer holds its block at every point (every point fetches it). -/
theorem before1_0 (t : Fin cfg1.N) (d) : (dats1 c W).before 0 t d = iblk c W 0 t :=
  ((dats1 c W).before_in_eq_fetched 0 rfl (fun _ => rfl) (fun _ _ _ => rfl) (fun t => by rw [after1_0]; unfold Dat.blockOf iblk; rw [A1_eq]; try rfl) t d).trans
    (by unfold Dat.fetched Dat.blockOf iblk; rw [A1_eq]; try rfl)
theorem before1_1 (t : Fin cfg1.N) (d) : (dats1 c W).before 1 t d = iblk c W 1 t :=
  ((dats1 c W).before_in_eq_fetched 1 rfl (fun _ => rfl) (fun _ _ _ => rfl) (fun t => by rw [after1_1]; unfold Dat.blockOf iblk; rw [A1_eq]; try rfl) t d).trans
    (by unfold Dat.fetched Dat.blockOf iblk; rw [A1_eq]; try rfl)
theorem before1_2 (t : Fin cfg1.N) (d) : (dats1 c W).before 2 t d = iblk c W 2 t :=
  ((dats1 c W).before_in_eq_fetched 2 rfl (fun _ => rfl) (fun _ _ _ => rfl) (fun t => by rw [after1_2]; unfold Dat.blockOf iblk; rw [A1_eq]; try rfl) t d).trans
    (by unfold Dat.fetched Dat.blockOf iblk; rw [A1_eq]; try rfl)

/-- What the body is called with at point `t`, the windows one by one, -/
def bodyPre1 (t : Fin cfg1.N) : sProp 𝕄 :=
  iprop((dats1 c W).Φ t.castSucc ∗ (dats1 c W).owesAt () t.castSucc
    ∗ (∃ d, owns (c : Thread nD τ) (ms1_0 t) fullShare ((dats1 c W).before 0 t d))
    ∗ (∃ d, owns (c : Thread nD τ) (ms1_1 t) fullShare ((dats1 c W).before 1 t d))
    ∗ (∃ d, owns (c : Thread nD τ) (ms1_2 t) fullShare ((dats1 c W).before 2 t d))
    ∗ (∃ d, owns (c : Thread nD τ) (ms1_3 t) fullShare ((dats1 c W).before 3 t d))
    ∗ (∃ d, owns (c : Thread nD τ) (ms1_4 t) fullShare ((dats1 c W).before 4 t d)))

/-- and what it returns. -/
def bodyPost1 (t : Fin cfg1.N) : sProp 𝕄 :=
  iprop((dats1 c W).Φ t.succ ∗ (dats1 c W).owesAt () t.succ
    ∗ (dats1 c W).leavesExact 0 t ∗ (dats1 c W).leavesExact 1 t ∗ (dats1 c W).leavesExact 2 t
    ∗ (dats1 c W).leavesExact 3 t ∗ (dats1 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body1 (t : Fin cfg1.N) :
    bodyPre1 c W t ⊢ wp frame (wpE (defs₀ (F := F)) Variants.none c none) Set.univ (bodyAt1 t) (fun _ => bodyPost1 c W t) := by
  unfold bodyPre1 bodyPost1 bodyAt1
  simp only [before1_0, before1_1, before1_2]
  rw [show (dats1 c W).owesAt () t.succ = (dats1 c W).owesAt () t.castSucc from rfl]
  rw [show (dats1 c W).Φ t.succ = PhiS1 c W (t.val + 1) t.isLt from rfl, PhiS1_succ]
  have hN : t.val < 8 := lt_of_lt_of_eq t.isLt N1_eq
  rw [show (dats1 c W).leavesExact 0 t = owns (c : Thread nD τ) (ms1_0 t) fullShare ((dats1 c W).after 0 t) from by
    unfold Dat.leavesExact; rw [liveAt1_0 t], after1_0]
  rw [show (dats1 c W).leavesExact 1 t = owns (c : Thread nD τ) (ms1_1 t) fullShare ((dats1 c W).after 1 t) from by
    unfold Dat.leavesExact; rw [liveAt1_1 t], after1_1]
  rw [show (dats1 c W).leavesExact 2 t = owns (c : Thread nD τ) (ms1_2 t) fullShare ((dats1 c W).after 2 t) from by
    unfold Dat.leavesExact; rw [liveAt1_2 t], after1_2]
  by_cases h0 : t.val % 2 = 0
  · have hcA0 : cond1_0 (grid1.coords t) := (hcond1_0 t).mpr h0
    have hcA1 : ¬cond1_1 (grid1.coords t) := fun h => (fun h => by omega) ((hcond1_1 t).mp h)
    rw [Dat.leavesExact_idle (dats1 c W) 3 t (idleAt1_3_A t hcA0 hcA1) (noFlush1_3_A t hcA0 hcA1)]
    rw [Dat.leavesExact_idle (dats1 c W) 4 t (idleAt1_4_A t hcA0 hcA1) (noFlush1_4_A t hcA0 hcA1)]
    rw [outsAt1_A c W t h0]
    unfold resA; (try dsimp only)
    by_cases hz : t.val = 0
    · rw [PhiS1_castSucc c W t, PhiS1_zero c W _ _ hz, scopedRest1_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => (fun h => by omega) ((hcond1_1 t).mp h)) (iblk c W 0 t) (iblk c W 1 t) (iblk c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS1_castSucc c W t, PhiS1_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => (fun h => by omega) ((hcond1_1 t).mp h)) (iblk c W 0 t) (iblk c W 1 t) (iblk c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond1_0 (grid1.coords t) := fun h => h0 ((hcond1_0 t).mp h)
    have hcB1 : cond1_1 (grid1.coords t) := (hcond1_1 t).mpr (by omega)
    rw [show (dats1 c W).leavesExact 3 t = owns (c : Thread nD τ) (ms1_3 t) fullShare ((dats1 c W).after 3 t) from by
      unfold Dat.leavesExact; rw [liveAt1_3_B t hcB0 hcB1], after1_3]
    rw [show (dats1 c W).leavesExact 4 t = owns (c : Thread nD τ) (ms1_4 t) fullShare ((dats1 c W).after 4 t) from by
      unfold Dat.leavesExact; rw [liveAt1_4_B t hcB0 hcB1], after1_4]
    rw [outsAt1_B c W t h0]
    unfold resB; (try dsimp only)
    have hz : t.val ≠ 0 := by omega
    rw [PhiS1_castSucc c W t, PhiS1_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (fun h => h0 ((hcond1_0 t).mp h)) ((hcond1_1 t).mpr (by omega)) (iblk c W 0 t) (iblk c W 1 t) (iblk c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scoverB_0 c _ _ _ _ _ _ _ _ _ _ _ _ _ _ _ _ _ _ _ _ _ _)
        · unfold owns; iexists _; isplitr
          swap; · iexact HS1
          ipureintro; exact View.read_writes_of_cover _ _ _ _ _ (scoverB_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB_3 c _ _ _ _ _ _ _ _ _ _ _ _ _ _ _ _ _ _ _ _ _ _)
    · unfold owns; iexists _; isplitr
      swap; · iexact H4
      ipureintro; exact View.read_writes_of_cover _ _ _ _ _ (coverB_4 c _ _ _ _ _ _ _ _ _ _ _ _ _ _ _ _ _ _ _ _ _ _)

/-- The library's body obligation, at every point. -/
theorem body_obligation1 : BodyObligation (dats1 (F := F) c W) (defs₀ (F := F)) Variants.none () Set.univ := fun t => by
  rw [bigSep_W1, bigSep_W1]
  exact sound_body1 c W t

/-- The scoped rest as the launch hands it is the invariant before the first point. -/
theorem Phi1_in (t : Fin (cfg1.N + 1)) (ht : t.val = 0) : Pipeline.scopedRest (Ix := Unit) (Name := ℕ) (U := UR sig nD τ) (Lvl := ℕ) (Val := Elt F) spec1 c ⊢ (dats1 c W).Φ t := by
  rw [show (dats1 c W).Φ t = PhiS1 c W t.val (Nat.le_of_lt_succ t.isLt) from rfl, PhiS1_zero c W _ _ ht]

/-- After any point but the first the invariant gives the scoped rest back: the accumulators' contents are forgotten. -/
theorem Phi1_out (t : Fin (cfg1.N + 1)) (ht : t.val ≠ 0) : (dats1 c W).Φ t ⊢ (Pipeline.scopedRest (Ix := Unit) (Name := ℕ) (U := UR sig nD τ) (Lvl := ℕ) (Val := Elt F) spec1 c : sProp 𝕄) := by
  rw [show (dats1 c W).Φ t = PhiS1 c W t.val (Nat.le_of_lt_succ t.isLt) from rfl, PhiS1_pos c W _ _ ht, scopedRest1_eq]
  iintro ⟨⟨HS0, HS1⟩, Hr⟩
  isplitl [HS0 HS1]
  · isplitl [HS0]; · iexists _; iexact HS0
    iexists _; iexact HS1
  iexact Hr

end Cert.Kernel.Hand

end
-- ==== Proof.K.R2Cond.lean ====
import proofs.«117539_j28759101014307_2_alg».proof.Proof.Gen.Kernel.Launch
import proofs.«117539_j28759101014307_2_alg».proof.Proof.Gen.Kernel.Skeleton
import proofs.«117539_j28759101014307_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region (pallas_call 2): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond2_0 (i : grid2.Coords) : Prop := (Scalar.cmpi .ne (Scalar.extui (Scalar.cmpi .eq (BitVec.ofNat 32 (i 1).val) 0#32)) 0#32) = 1#1
/-- It holds exactly at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The write-out condition of the body. -/
abbrev cond2_1 (i : grid2.Coords) : Prop := k2_cond2 i = 1#1
/-- It holds exactly at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

end Cert.Kernel.Hand

end
-- ==== Proof.K.R2RunA.lean ====
import proofs.«117539_j28759101014307_2_alg».proof.Proof.K.R2Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 0`: both accumulators are reset to zero and then receive the first half's
    products; the outputs' staging buffers are not touched. The pieces each accumulator ends with are found by the run. -/
noncomputable def kernelRun2_A (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__ahat_matmul_kernel i arg2 harg2 arg3 harg3 arg4 harg4 arg5 harg5 arg6 harg6 arg7 harg7 arg8 harg8) K } := by
  refine ⟨?_, ?_, fun xi3 xi4 E K => ?run⟩
  case run =>
    simp only [cc2__ahat_matmul_kernel_eq_skeleton]; unfold cc2__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.K.R2RunB.lean ====
import proofs.«117539_j28759101014307_2_alg».proof.Proof.K.R2Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun2_B (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__ahat_matmul_kernel i arg2 harg2 arg3 harg3 arg4 harg4 arg5 harg5 arg6 harg6 arg7 harg7 arg8 harg8) K } := by
  refine ⟨?_, ?_, ?_, ?_, fun E K => ?run⟩
  case run =>
    simp only [cc2__ahat_matmul_kernel_eq_skeleton]; unfold cc2__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.R2Data.lean ====
import proofs.«117539_j28759101014307_2_alg».proof.Proof.K.R2RunA
import proofs.«117539_j28759101014307_2_alg».proof.Proof.K.R2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk2 (w : Fin cfg2.W) (t : Fin cfg2.N) : ((cfg2.win w).xblock (cfg2.grid.coords t)).Idx → Elt F (cfg2.win w).elt :=
  ((cfg2.win w).blk t).view.read (Elt F) (W (Pipeline.arrRef spec2 w))

/-- One staging buffer of each output window, through which its contents are stated. -/
abbrev VO2_3 : View sig .tc .vmem S2048x128 .f32 := (Memref.whole cc2_stg3_0 : Memref sig .tc .vmem S2048x128 .f32).view
abbrev VO2_4 : View sig .tc .vmem S2048x128 .f32 := (Memref.whole cc2_stg4_0 : Memref sig .tc .vmem S2048x128 .f32).view
/-- Each window's current staging memref at point `t`, and its wholeness. -/
abbrev ms2_0 (t : Fin cfg2.N) : Memref sig .tc .vmem S2048x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x128 .f32 := win2_4.stage (cfg2.slots t 4)
abbrev hs2_4 (t : Fin cfg2.N) : (ms2_4 t).IsWhole := hstage2_4 ((cfg2.slots t 4).cast nbuf2_4)
/-- The two accumulators: whole scoped buffers of the kernel's own. -/
abbrev scM2_0 : Memref sig .tc .vmem S2048x128 .f32 := Memref.whole cc2_scratch0
abbrev scM2_1 : Memref sig .tc .vmem S2048x128 .f32 := Memref.whole cc2_scratch1
abbrev VS2_0 : View sig .tc .vmem S2048x128 .f32 := scM2_0.view
abbrev VS2_1 : View sig .tc .vmem S2048x128 .f32 := scM2_1.view

/-! ### Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem liveAt2_3_B : ∀ t : Fin cfg2.N, ¬cond2_0 (grid2.coords t) → cond2_1 (grid2.coords t) → cfg2.idle 3 (grid2.coords t) = false := by decide +kernel
theorem liveAt2_4_B : ∀ t : Fin cfg2.N, ¬cond2_0 (grid2.coords t) → cond2_1 (grid2.coords t) → cfg2.idle 4 (grid2.coords t) = false := by decide +kernel

/-! ### What each case leaves: (output 3, output 4, accumulator 0, accumulator 1) -/

/-- The reset case: the outputs are not touched (placeholders nothing reads); each accumulator holds its pieces. -/
def res2A (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO2_3.read (Elt F) VO2_3.junk, VO2_4.read (Elt F) VO2_4.junk,
   VS2_0.read (Elt F) (VS2_0.writes (Elt F) VS2_0.junk (kernelRun2_A c i arg2 harg2 arg3 harg3 arg4 harg4 arg5 harg5 arg6 harg6 arg7 harg7 arg8 harg8 hc0 hc1 x0 x1 x2).1),
   VS2_1.read (Elt F) (VS2_1.writes (Elt F) VS2_1.junk (kernelRun2_A c i arg2 harg2 arg3 harg3 arg4 harg4 arg5 harg5 arg6 harg6 arg7 harg7 arg8 harg8 hc0 hc1 x0 x1 x2).2.1))

theorem scover2A_0 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) (y : S2048x128.Idx) :
    ∃ pc ∈ (kernelRun2_A c i arg2 harg2 arg3 harg3 arg4 harg4 arg5 harg5 arg6 harg6 arg7 harg7 arg8 harg8 hc0 hc1 x0 x1 x2).1, y ∈ pc.1.set :=
  View.cover_of_tiledL (kernelRun2_A c i arg2 harg2 arg3 harg3 arg4 harg4 arg5 harg5 arg6 harg6 arg7 harg7 arg8 harg8 hc0 hc1 x0 x1 x2).1 S2048x128.size (by sl_kernel_rfl) y
theorem scover2A_1 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) (y : S2048x128.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def res2B (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO2_3.read (Elt F) (VO2_3.writes (Elt F) VO2_3.junk (kernelRun2_B c i arg2 harg2 arg3 harg3 arg4 harg4 arg5 harg5 arg6 harg6 arg7 harg7 arg8 harg8 hc0 hc1 x0 x1 x2 xs0 xs1).1),
   VO2_4.read (Elt F) (VO2_4.writes (Elt F) VO2_4.junk (kernelRun2_B c i arg2 harg2 arg3 harg3 arg4 harg4 arg5 harg5 arg6 harg6 arg7 harg7 arg8 harg8 hc0 hc1 x0 x1 x2 xs0 xs1).2.1),
   VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1).2.2.1),
   VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1).2.2.2.1))

theorem cover2B_3 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).1, y ∈ pc.1.set :=
  View.cover_of_tiledL (kernelRun2_B c i arg2 harg2 arg3 harg3 arg4 harg4 arg5 harg5 arg6 harg6 arg7 harg7 arg8 harg8 hc0 hc1 x0 x1 x2 xs0 xs1).1 S2048x128.size (by sl_kernel_rfl) y
theorem cover2B_4 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).2.1, y ∈ pc.1.set :=
  View.cover_of_tiledL (kernelRun2_B c i arg2 harg2 arg3 harg3 arg4 harg4 arg5 harg5 arg6 harg6 arg7 harg7 arg8 harg8 hc0 hc1 x0 x1 x2 xs0 xs1).2.1 S2048x128.size (by sl_kernel_rfl) y
theorem scover2B_0 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg2 harg2 arg3 harg3 arg4 harg4 arg5 harg5 arg6 harg6 arg7 harg7 arg8 harg8 hc0 hc1 x0 x1 x2 xs0 xs1).2.2.1 S2048x128.size (by sl_kernel_rfl) y
theorem scover2B_1 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun2_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N2_eq : cfg2.N = 8 := N_2

/-- What the two outputs' staging buffers and the two accumulators hold after the body at position `n`: the reset case at
    even positions, the write-out case at odd ones over what the position before left in the accumulators. -/
def outsAt2 : (n : ℕ) → n < cfg2.N → (Vec F S2048x128 .f32 × Vec F S2048x128 .f32 × Vec F S2048x128 .f32 × Vec F S2048x128 .f32)
  | 0, hn => res2A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 c W 0 ⟨0, hn⟩) (iblk2 c W 1 ⟨0, hn⟩) (iblk2 c W 2 ⟨0, hn⟩)
  | n + 1, hn =>
    if h0 : (n + 1) % 2 = 0 then
      res2A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (fun h => (fun h => by (try dsimp only at h); omega) ((hcond2_1 ⟨n + 1, hn⟩).mp h)) (iblk2 c W 0 ⟨n + 1, hn⟩) (iblk2 c W 1 ⟨n + 1, hn⟩) (iblk2 c W 2 ⟨n + 1, hn⟩)
    else
      res2B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr (by (try dsimp only); omega)) (iblk2 c W 0 ⟨n + 1, hn⟩) (iblk2 c W 1 ⟨n + 1, hn⟩) (iblk2 c W 2 ⟨n + 1, hn⟩)
        (outsAt2 n (Nat.lt_of_succ_lt hn)).2.2.1 (outsAt2 n (Nat.lt_of_succ_lt hn)).2.2.2

theorem outsAt2_A (t : Fin cfg2.N) (h0 : t.val % 2 = 0) :
    outsAt2 c W t.val t.isLt = res2A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => (fun h => by omega) ((hcond2_1 t).mp h)) (iblk2 c W 0 t) (iblk2 c W 1 t) (iblk2 c W 2 t) := by
  obtain ⟨n, hn⟩ := t
  cases n with
  | zero => exact rfl
  | succ n => exact (dif_pos h0).trans rfl

theorem outsAt2_B (t : Fin cfg2.N) (h0 : ¬t.val % 2 = 0) :
    outsAt2 c W t.val t.isLt = res2B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr (by omega)) (iblk2 c W 0 t) (iblk2 c W 1 t) (iblk2 c W 2 t)
      (outsAt2 c W (t.val - 1) (Nat.lt_of_le_of_lt (Nat.sub_le _ _) t.isLt)).2.2.1 (outsAt2 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.Kernel.Hand

end
-- ==== Proof.K.R2Body.lean ====
import proofs.«117539_j28759101014307_2_alg».proof.Proof.K.R2Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest2_eq :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

/-- The region's invariant before position `n`: before the first point the scoped rest as the launch hands it; afterwards
    the two accumulators at what the point before left in them, beside the other scoped buffers. -/
def PhiS2 : (n : ℕ) → n ≤ cfg2.N → sProp 𝕄
  | 0, _ => Pipeline.scopedRest (Ix := Unit) (Name := ℕ) (U := UR sig nD τ) (Lvl := ℕ) (Val := Elt F) spec2 c
  | n + 1, hn => iprop(iprop(owns (c : Thread nD τ) scM2_0 fullShare ((outsAt2 c W n hn).2.2.1) ∗ owns (c : Thread nD τ) scM2_1 fullShare ((outsAt2 c W n hn).2.2.2))
      ∗ Pipeline.scopedRestBut (Ix := Unit) (Name := ℕ) (U := UR sig nD τ) (Lvl := ℕ) (Val := Elt F) spec2 c [cc2_scratch0, cc2_scratch1])

theorem PhiS2_zero (n : ℕ) (h : n ≤ cfg2.N) (hz : n = 0) :
    PhiS2 c W n h = Pipeline.scopedRest (Ix := Unit) (Name := ℕ) (U := UR sig nD τ) (Lvl := ℕ) (Val := Elt F) spec2 c := by
  subst hz; rfl

theorem PhiS2_succ (n : ℕ) (hn : n < cfg2.N) :
    PhiS2 c W (n + 1) hn = iprop(iprop(owns (c : Thread nD τ) scM2_0 fullShare ((outsAt2 c W n hn).2.2.1) ∗ owns (c : Thread nD τ) scM2_1 fullShare ((outsAt2 c W n hn).2.2.2))
      ∗ Pipeline.scopedRestBut (Ix := Unit) (Name := ℕ) (U := UR sig nD τ) (Lvl := ℕ) (Val := Elt F) spec2 c [cc2_scratch0, cc2_scratch1]) := rfl

theorem PhiS2_pos (n : ℕ) (h : n ≤ cfg2.N) (hz : n ≠ 0) :
    PhiS2 c W n h = iprop(iprop(owns (c : Thread nD τ) scM2_0 fullShare ((outsAt2 c W (n - 1) (by omega)).2.2.1) ∗ owns (c : Thread nD τ) scM2_1 fullShare ((outsAt2 c W (n - 1) (by omega)).2.2.2))
      ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-- The proof data of the matmul region on core `c`, entered with the unscoped buffers at `W`: each input's buffer at its
    block, each output's at the accumulation's component, the invariant above, nothing owed, full shares. -/
def dats2 : Dat τ (Elt F) Unit ℕ (UR sig nD τ) ℕ cfg2 c where
  A w := W (Pipeline.arrRef spec2 w)
  after w t := match w with
    | ⟨0, _⟩ => iblk2 c W 0 t
    | ⟨1, _⟩ => iblk2 c W 1 t
    | ⟨2, _⟩ => iblk2 c W 2 t
    | ⟨3, _⟩ => (outsAt2 c W t.val t.isLt).1
    | ⟨4, _⟩ => (outsAt2 c W t.val t.isLt).2.1
  Φ t := PhiS2 c W t.val (Nat.le_of_lt_succ t.isLt)
  q _ := fullShare
  owed _ := 0

theorem A2_eq (w : Fin cfg2.W) : (dats2 c W).A w = W (Pipeline.arrRef spec2 w) := by dsimp only [dats2]

theorem PhiS2_castSucc (t : Fin cfg2.N) : (dats2 c W).Φ t.castSucc = PhiS2 c W t.val (Nat.le_of_lt t.isLt) := by
  dsimp only [dats2]; simp only [Fin.coe_castSucc]

theorem after2_0 (t : Fin cfg2.N) : (dats2 c W).after 0 t = iblk2 c W 0 t := by dsimp only [dats2]
theorem after2_1 (t : Fin cfg2.N) : (dats2 c W).after 1 t = iblk2 c W 1 t := by dsimp only [dats2]
theorem after2_2 (t : Fin cfg2.N) : (dats2 c W).after 2 t = iblk2 c W 2 t := by dsimp only [dats2]
theorem after2_3 (t : Fin cfg2.N) : (dats2 c W).after 3 t = (outsAt2 c W t.val t.isLt).1 := by dsimp only [dats2]
theorem after2_4 (t : Fin cfg2.N) : (dats2 c W).after 4 t = (outsAt2 c W t.val t.isLt).2.1 := by dsimp only [dats2]

/-- Each input's current staging buffer holds its block at every point (every point fetches it). -/
theorem before2_0 (t : Fin cfg2.N) (d) : (dats2 c W).before 0 t d = iblk2 c W 0 t :=
  ((dats2 c W).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (t : Fin cfg2.N) (d) : (dats2 c W).before 1 t d = iblk2 c W 1 t :=
  ((dats2 c W).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (t : Fin cfg2.N) (d) : (dats2 c W).before 2 t d = iblk2 c W 2 t :=
  ((dats2 c W).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)

/-- What the body is called with at point `t`, the windows one by one, -/
def bodyPre2 (t : Fin cfg2.N) : sProp 𝕄 :=
  iprop((dats2 c W).Φ t.castSucc ∗ (dats2 c W).owesAt () t.castSucc
    ∗ (∃ d, owns (c : Thread nD τ) (ms2_0 t) fullShare ((dats2 c W).before 0 t d))
    ∗ (∃ d, owns (c : Thread nD τ) (ms2_1 t) fullShare ((dats2 c W).before 1 t d))
    ∗ (∃ d, owns (c : Thread nD τ) (ms2_2 t) fullShare ((dats2 c W).before 2 t d))
    ∗ (∃ d, owns (c : Thread nD τ) (ms2_3 t) fullShare ((dats2 c W).before 3 t d))
    ∗ (∃ d, owns (c : Thread nD τ) (ms2_4 t) fullShare ((dats2 c W).before 4 t d)))

/-- and what it returns. -/
def bodyPost2 (t : Fin cfg2.N) : sProp 𝕄 :=
  iprop((dats2 c W).Φ t.succ ∗ (dats2 c W).owesAt () t.succ
    ∗ (dats2 c W).leavesExact 0 t ∗ (dats2 c W).leavesExact 1 t ∗ (dats2 c W).leavesExact 2 t
    ∗ (dats2 c W).leavesExact 3 t ∗ (dats2 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body2 (t : Fin cfg2.N) :
    bodyPre2 c W t ⊢ wp frame (wpE (defs₀ (F := F)) Variants.none c none) Set.univ (bodyAt2 t) (fun _ => bodyPost2 c W t) := by
  unfold bodyPre2 bodyPost2 bodyAt2
  simp only [before2_0, before2_1, before2_2]
  rw [show (dats2 c W).owesAt () t.succ = (dats2 c W).owesAt () t.castSucc from rfl]
  rw [show (dats2 c W).Φ t.succ = PhiS2 c W (t.val + 1) t.isLt from rfl, PhiS2_succ]
  have hN : t.val < 8 := lt_of_lt_of_eq t.isLt N2_eq
  rw [show (dats2 c W).leavesExact 0 t = owns (c : Thread nD τ) (ms2_0 t) fullShare ((dats2 c W).after 0 t) from by
    unfold Dat.leavesExact; rw [liveAt2_0 t], after2_0]
  rw [show (dats2 c W).leavesExact 1 t = owns (c : Thread nD τ) (ms2_1 t) fullShare ((dats2 c W).after 1 t) from by
    unfold Dat.leavesExact; rw [liveAt2_1 t], after2_1]
  rw [show (dats2 c W).leavesExact 2 t = owns (c : Thread nD τ) (ms2_2 t) fullShare ((dats2 c W).after 2 t) from by
    unfold Dat.leavesExact; rw [liveAt2_2 t], after2_2]
  by_cases h0 : t.val % 2 = 0
  · have hcA0 : cond2_0 (grid2.coords t) := (hcond2_0 t).mpr h0
    have hcA1 : ¬cond2_1 (grid2.coords t) := fun h => (fun h => by omega) ((hcond2_1 t).mp h)
    rw [Dat.leavesExact_idle (dats2 c W) 3 t (idleAt2_3_A t hcA0 hcA1) (noFlush2_3_A t hcA0 hcA1)]
    rw [Dat.leavesExact_idle (dats2 c W) 4 t (idleAt2_4_A t hcA0 hcA1) (noFlush2_4_A t hcA0 hcA1)]
    rw [outsAt2_A c W t h0]
    unfold res2A; (try dsimp only)
    by_cases hz : t.val = 0
    · rw [PhiS2_castSucc c W t, PhiS2_zero c W _ _ hz, scopedRest2_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ ((hcond2_0 t).mpr h0) (fun h => (fun h => by omega) ((hcond2_1 t).mp h)) (iblk2 c W 0 t) (iblk2 c W 1 t) (iblk2 c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover2A_0 c _ _ _ _ _ _ _ _ _ _ _ _ _ _ _ _ _ _ _ _)
          · unfold owns; iexists _; isplitr
            swap; · iexact HS1
            ipureintro; exact View.read_writes_of_cover _ _ _ _ _ (scover2A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS2_castSucc c W t, PhiS2_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ ((hcond2_0 t).mpr h0) (fun h => (fun h => by omega) ((hcond2_1 t).mp h)) (iblk2 c W 0 t) (iblk2 c W 1 t) (iblk2 c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover2A_0 c _ _ _ _ _ _ _ _ _ _ _ _ _ _ _ _ _ _ _ _)
          · unfold owns; iexists _; isplitr
            swap; · iexact HS1
            ipureintro; exact View.read_writes_of_cover _ _ _ _ _ (scover2A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond2_0 (grid2.coords t) := fun h => h0 ((hcond2_0 t).mp h)
    have hcB1 : cond2_1 (grid2.coords t) := (hcond2_1 t).mpr (by omega)
    rw [show (dats2 c W).leavesExact 3 t = owns (c : Thread nD τ) (ms2_3 t) fullShare ((dats2 c W).after 3 t) from by
      unfold Dat.leavesExact; rw [liveAt2_3_B t hcB0 hcB1], after2_3]
    rw [show (dats2 c W).leavesExact 4 t = owns (c : Thread nD τ) (ms2_4 t) fullShare ((dats2 c W).after 4 t) from by
      unfold Dat.leavesExact; rw [liveAt2_4_B t hcB0 hcB1], after2_4]
    rw [outsAt2_B c W t h0]
    unfold res2B; (try dsimp only)
    have hz : t.val ≠ 0 := by omega
    rw [PhiS2_castSucc c W t, PhiS2_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ _ _ (fun h => h0 ((hcond2_0 t).mp h)) ((hcond2_1 t).mpr (by omega)) (iblk2 c W 0 t) (iblk2 c W 1 t) (iblk2 c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scover2B_0 c _ _ _ _ _ _ _ _ _ _ _ _ _ _ _ _ _ _ _ _ _ _)
        · unfold owns; iexists _; isplitr
          swap; · iexact HS1
          ipureintro; exact View.read_writes_of_cover _ _ _ _ _ (scover2B_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2B_3 c _ _ _ _ _ _ _ _ _ _ _ _ _ _ _ _ _ _ _ _ _ _)
    · unfold owns; iexists _; isplitr
      swap; · iexact H4
      ipureintro; exact View.read_writes_of_cover _ _ _ _ _ (cover2B_4 c _ _ _ _ _ _ _ _ _ _ _ _ _ _ _ _ _ _ _ _ _ _)

/-- The library's body obligation, at every point. -/
theorem body_obligation2 : BodyObligation (dats2 (F := F) c W) (defs₀ (F := F)) Variants.none () Set.univ := fun t => by
  rw [bigSep_W2, bigSep_W2]
  exact sound_body2 c W t

/-- The scoped rest as the launch hands it is the invariant before the first point. -/
theorem Phi2_in (t : Fin (cfg2.N + 1)) (ht : t.val = 0) : Pipeline.scopedRest (Ix := Unit) (Name := ℕ) (U := UR sig nD τ) (Lvl := ℕ) (Val := Elt F) spec2 c ⊢ (dats2 c W).Φ t := by
  rw [show (dats2 c W).Φ t = PhiS2 c W t.val (Nat.le_of_lt_succ t.isLt) from rfl, PhiS2_zero c W _ _ ht]

/-- After any point but the first the invariant gives the scoped rest back: the accumulators' contents are forgotten. -/
theorem Phi2_out (t : Fin (cfg2.N + 1)) (ht : t.val ≠ 0) : (dats2 c W).Φ t ⊢ (Pipeline.scopedRest (Ix := Unit) (Name := ℕ) (U := UR sig nD τ) (Lvl := ℕ) (Val := Elt F) spec2 c : sProp 𝕄) := by
  rw [show (dats2 c W).Φ t = PhiS2 c W t.val (Nat.le_of_lt_succ t.isLt) from rfl, PhiS2_pos c W _ _ ht, scopedRest2_eq]
  iintro ⟨⟨HS0, HS1⟩, Hr⟩
  isplitl [HS0 HS1]
  · isplitl [HS0]; · iexists _; iexact HS0
    iexists _; iexact HS1
  iexact Hr

end Cert.Kernel.Hand

end
-- ==== Proof.K.R3Cond.lean ====
import proofs.«117539_j28759101014307_2_alg».proof.Proof.Gen.Kernel.Launch
import proofs.«117539_j28759101014307_2_alg».proof.Proof.Gen.Kernel.Skeleton
import proofs.«117539_j28759101014307_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region (pallas_call 3): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond3_0 (i : grid3.Coords) : Prop := (Scalar.cmpi .ne (Scalar.extui (Scalar.cmpi .eq (BitVec.ofNat 32 (i 1).val) 0#32)) 0#32) = 1#1
/-- It holds exactly at the even points. -/
theorem hcond3_0 : ∀ t : Fin cfg3.N, cond3_0 (grid3.coords t) ↔ t.val % 2 = 0 :=
  (by decide +kernel : ∀ t : Fin grid3.N, cond3_0 (grid3.coords t) ↔ t.val % 2 = 0)

/-- The write-out condition of the body. -/
abbrev cond3_1 (i : grid3.Coords) : Prop := k3_cond2 i = 1#1
/-- It holds exactly at the odd points. -/
theorem hcond3_1 : ∀ t : Fin cfg3.N, cond3_1 (grid3.coords t) ↔ t.val % 2 = 1 :=
  (by decide +kernel : ∀ t : Fin grid3.N, cond3_1 (grid3.coords t) ↔ t.val % 2 = 1)

end Cert.Kernel.Hand

end
-- ==== Proof.K.R3RunA.lean ====
import proofs.«117539_j28759101014307_2_alg».proof.Proof.K.R3Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 0`: both accumulators are reset to zero and then receive the first half's
    products; the outputs' staging buffers are not touched. The pieces each accumulator ends with are found by the run. -/
noncomputable def kernelRun3_A (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__ahat_matmul_kernel i arg2 harg2 arg3 harg3 arg4 harg4 arg5 harg5 arg6 harg6 arg7 harg7 arg8 harg8) K } := by
  refine ⟨?_, ?_, fun xi3 xi4 E K => ?run⟩
  case run =>
    simp only [cc3__ahat_matmul_kernel_eq_skeleton]; unfold cc3__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.K.R3RunB.lean ====
import proofs.«117539_j28759101014307_2_alg».proof.Proof.K.R3Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun3_B (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__ahat_matmul_kernel i arg2 harg2 arg3 harg3 arg4 harg4 arg5 harg5 arg6 harg6 arg7 harg7 arg8 harg8) K } := by
  refine ⟨?_, ?_, ?_, ?_, fun E K => ?run⟩
  case run =>
    simp only [cc3__ahat_matmul_kernel_eq_skeleton]; unfold cc3__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.R3Data.lean ====
import proofs.«117539_j28759101014307_2_alg».proof.Proof.K.R3RunA
import proofs.«117539_j28759101014307_2_alg».proof.Proof.K.R3RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk3 (w : Fin cfg3.W) (t : Fin cfg3.N) : ((cfg3.win w).xblock (cfg3.grid.coords t)).Idx → Elt F (cfg3.win w).elt :=
  ((cfg3.win w).blk t).view.read (Elt F) (W (Pipeline.arrRef spec3 w))

/-- One staging buffer of each output window, through which its contents are stated. -/
abbrev VO3_3 : View sig .tc .vmem S2048x128 .f32 := (Memref.whole cc3_stg3_0 : Memref sig .tc .vmem S2048x128 .f32).view
abbrev VO3_4 : View sig .tc .vmem S2048x128 .f32 := (Memref.whole cc3_stg4_0 : Memref sig .tc .vmem S2048x128 .f32).view
/-- Each window's current staging memref at point `t`, and its wholeness. -/
abbrev ms3_0 (t : Fin cfg3.N) : Memref sig .tc .vmem S2048x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4096x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x128 .f32 := win3_4.stage (cfg3.slots t 4)
abbrev hs3_4 (t : Fin cfg3.N) : (ms3_4 t).IsWhole := hstage3_4 ((cfg3.slots t 4).cast nbuf3_4)
/-- The two accumulators: whole scoped buffers of the kernel's own. -/
abbrev scM3_0 : Memref sig .tc .vmem S2048x128 .f32 := Memref.whole cc3_scratch0
abbrev scM3_1 : Memref sig .tc .vmem S2048x128 .f32 := Memref.whole cc3_scratch1
abbrev VS3_0 : View sig .tc .vmem S2048x128 .f32 := scM3_0.view
abbrev VS3_1 : View sig .tc .vmem S2048x128 .f32 := scM3_1.view

/-! ### Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
theorem liveAt3_3_B : ∀ t : Fin cfg3.N, ¬cond3_0 (grid3.coords t) → cond3_1 (grid3.coords t) → cfg3.idle 3 (grid3.coords t) = false := by decide +kernel
theorem liveAt3_4_B : ∀ t : Fin cfg3.N, ¬cond3_0 (grid3.coords t) → cond3_1 (grid3.coords t) → cfg3.idle 4 (grid3.coords t) = false := by decide +kernel

/-! ### What each case leaves: (output 3, output 4, accumulator 0, accumulator 1) -/

/-- The reset case: the outputs are not touched (placeholders nothing reads); each accumulator holds its pieces. -/
def res3A (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO3_3.read (Elt F) VO3_3.junk, VO3_4.read (Elt F) VO3_4.junk,
   VS3_0.read (Elt F) (VS3_0.writes (Elt F) VS3_0.junk (kernelRun3_A c i arg2 harg2 arg3 harg3 arg4 harg4 arg5 harg5 arg6 harg6 arg7 harg7 arg8 harg8 hc0 hc1 x0 x1 x2).1),
   VS3_1.read (Elt F) (VS3_1.writes (Elt F) VS3_1.junk (kernelRun3_A c i arg2 harg2 arg3 harg3 arg4 harg4 arg5 harg5 arg6 harg6 arg7 harg7 arg8 harg8 hc0 hc1 x0 x1 x2).2.1))

theorem scover3A_0 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) (y : S2048x128.Idx) :
    ∃ pc ∈ (kernelRun3_A c i arg2 harg2 arg3 harg3 arg4 harg4 arg5 harg5 arg6 harg6 arg7 harg7 arg8 harg8 hc0 hc1 x0 x1 x2).1, y ∈ pc.1.set :=
  View.cover_of_tiledL (kernelRun3_A c i arg2 harg2 arg3 harg3 arg4 harg4 arg5 harg5 arg6 harg6 arg7 harg7 arg8 harg8 hc0 hc1 x0 x1 x2).1 S2048x128.size (by sl_kernel_rfl) y
theorem scover3A_1 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) (y : S2048x128.Idx) :
    ∃ pc ∈ (kernelRun3_A c i arg2 harg2 arg3 harg3 arg4 harg4 arg5 harg5 arg6 harg6 arg7 harg7 arg8 harg8 hc0 hc1 x0 x1 x2).2.1, y ∈ pc.1.set :=
  View.cover_of_tiledL (kernelRun3_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def res3B (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO3_3.read (Elt F) (VO3_3.writes (Elt F) VO3_3.junk (kernelRun3_B c i arg2 harg2 arg3 harg3 arg4 harg4 arg5 harg5 arg6 harg6 arg7 harg7 arg8 harg8 hc0 hc1 x0 x1 x2 xs0 xs1).1),
   VO3_4.read (Elt F) (VO3_4.writes (Elt F) VO3_4.junk (kernelRun3_B c i arg2 harg2 arg3 harg3 arg4 harg4 arg5 harg5 arg6 harg6 arg7 harg7 arg8 harg8 hc0 hc1 x0 x1 x2 xs0 xs1).2.1),
   VS3_0.read (Elt F) (VS3_0.writes (Elt F) VS3_0.junk (kernelRun3_B c i arg2 harg2 arg3 harg3 arg4 harg4 arg5 harg5 arg6 harg6 arg7 harg7 arg8 harg8 hc0 hc1 x0 x1 x2 xs0 xs1).2.2.1),
   VS3_1.read (Elt F) (VS3_1.writes (Elt F) VS3_1.junk (kernelRun3_B c i arg2 harg2 arg3 harg3 arg4 harg4 arg5 harg5 arg6 harg6 arg7 harg7 arg8 harg8 hc0 hc1 x0 x1 x2 xs0 xs1).2.2.2.1))

theorem cover3B_3 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).1, y ∈ pc.1.set :=
  View.cover_of_tiledL (kernelRun3_B c i arg2 harg2 arg3 harg3 arg4 harg4 arg5 harg5 arg6 harg6 arg7 harg7 arg8 harg8 hc0 hc1 x0 x1 x2 xs0 xs1).1 S2048x128.size (by sl_kernel_rfl) y
theorem cover3B_4 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).2.1, y ∈ pc.1.set :=
  View.cover_of_tiledL (kernelRun3_B c i arg2 harg2 arg3 harg3 arg4 harg4 arg5 harg5 arg6 harg6 arg7 harg7 arg8 harg8 hc0 hc1 x0 x1 x2 xs0 xs1).2.1 S2048x128.size (by sl_kernel_rfl) y
theorem scover3B_0 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).2.2.1, y ∈ pc.1.set :=
  View.cover_of_tiledL (kernelRun3_B c i arg2 harg2 arg3 harg3 arg4 harg4 arg5 harg5 arg6 harg6 arg7 harg7 arg8 harg8 hc0 hc1 x0 x1 x2 xs0 xs1).2.2.1 S2048x128.size (by sl_kernel_rfl) y
theorem scover3B_1 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun3_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N3_eq : cfg3.N = 8 := N_3

/-- What the two outputs' staging buffers and the two accumulators hold after the body at position `n`: the reset case at
    even positions, the write-out case at odd ones over what the position before left in the accumulators. -/
def outsAt3 : (n : ℕ) → n < cfg3.N → (Vec F S2048x128 .f32 × Vec F S2048x128 .f32 × Vec F S2048x128 .f32 × Vec F S2048x128 .f32)
  | 0, hn => res3A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 c W 0 ⟨0, hn⟩) (iblk3 c W 1 ⟨0, hn⟩) (iblk3 c W 2 ⟨0, hn⟩)
  | n + 1, hn =>
    if h0 : (n + 1) % 2 = 0 then
      res3A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) ((hcond3_0 ⟨n + 1, hn⟩).mpr h0) (fun h => (fun h => by (try dsimp only at h); omega) ((hcond3_1 ⟨n + 1, hn⟩).mp h)) (iblk3 c W 0 ⟨n + 1, hn⟩) (iblk3 c W 1 ⟨n + 1, hn⟩) (iblk3 c W 2 ⟨n + 1, hn⟩)
    else
      res3B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => h0 ((hcond3_0 ⟨n + 1, hn⟩).mp h)) ((hcond3_1 ⟨n + 1, hn⟩).mpr (by (try dsimp only); omega)) (iblk3 c W 0 ⟨n + 1, hn⟩) (iblk3 c W 1 ⟨n + 1, hn⟩) (iblk3 c W 2 ⟨n + 1, hn⟩)
        (outsAt3 n (Nat.lt_of_succ_lt hn)).2.2.1 (outsAt3 n (Nat.lt_of_succ_lt hn)).2.2.2

theorem outsAt3_A (t : Fin cfg3.N) (h0 : t.val % 2 = 0) :
    outsAt3 c W t.val t.isLt = res3A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => (fun h => by omega) ((hcond3_1 t).mp h)) (iblk3 c W 0 t) (iblk3 c W 1 t) (iblk3 c W 2 t) := by
  obtain ⟨n, hn⟩ := t
  cases n with
  | zero => exact rfl
  | succ n => exact (dif_pos h0).trans rfl

theorem outsAt3_B (t : Fin cfg3.N) (h0 : ¬t.val % 2 = 0) :
    outsAt3 c W t.val t.isLt = res3B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr (by omega)) (iblk3 c W 0 t) (iblk3 c W 1 t) (iblk3 c W 2 t)
      (outsAt3 c W (t.val - 1) (Nat.lt_of_le_of_lt (Nat.sub_le _ _) t.isLt)).2.2.1 (outsAt3 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.Kernel.Hand

end
-- ==== Proof.K.R3Body.lean ====
import proofs.«117539_j28759101014307_2_alg».proof.Proof.K.R3Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest3_eq :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) := by
  rw [scopedRest3_split]; simp only [scM3_0, scM3_1, owns_whole]; try rfl

/-- The region's invariant before position `n`: before the first point the scoped rest as the launch hands it; afterwards
    the two accumulators at what the point before left in them, beside the other scoped buffers. -/
def PhiS3 : (n : ℕ) → n ≤ cfg3.N → sProp 𝕄
  | 0, _ => Pipeline.scopedRest (Ix := Unit) (Name := ℕ) (U := UR sig nD τ) (Lvl := ℕ) (Val := Elt F) spec3 c
  | n + 1, hn => iprop(iprop(owns (c : Thread nD τ) scM3_0 fullShare ((outsAt3 c W n hn).2.2.1) ∗ owns (c : Thread nD τ) scM3_1 fullShare ((outsAt3 c W n hn).2.2.2))
      ∗ Pipeline.scopedRestBut (Ix := Unit) (Name := ℕ) (U := UR sig nD τ) (Lvl := ℕ) (Val := Elt F) spec3 c [cc3_scratch0, cc3_scratch1])

theorem PhiS3_zero (n : ℕ) (h : n ≤ cfg3.N) (hz : n = 0) :
    PhiS3 c W n h = Pipeline.scopedRest (Ix := Unit) (Name := ℕ) (U := UR sig nD τ) (Lvl := ℕ) (Val := Elt F) spec3 c := by
  subst hz; rfl

theorem PhiS3_succ (n : ℕ) (hn : n < cfg3.N) :
    PhiS3 c W (n + 1) hn = iprop(iprop(owns (c : Thread nD τ) scM3_0 fullShare ((outsAt3 c W n hn).2.2.1) ∗ owns (c : Thread nD τ) scM3_1 fullShare ((outsAt3 c W n hn).2.2.2))
      ∗ Pipeline.scopedRestBut (Ix := Unit) (Name := ℕ) (U := UR sig nD τ) (Lvl := ℕ) (Val := Elt F) spec3 c [cc3_scratch0, cc3_scratch1]) := rfl

theorem PhiS3_pos (n : ℕ) (h : n ≤ cfg3.N) (hz : n ≠ 0) :
    PhiS3 c W n h = iprop(iprop(owns (c : Thread nD τ) scM3_0 fullShare ((outsAt3 c W (n - 1) (by omega)).2.2.1) ∗ owns (c : Thread nD τ) scM3_1 fullShare ((outsAt3 c W (n - 1) (by omega)).2.2.2))
      ∗ Pipeline.scopedRestBut (Ix := Unit) (Name := ℕ) (U := UR sig nD τ) (Lvl := ℕ) (Val := Elt F) spec3 c [cc3_scratch0, cc3_scratch1]) := by
  cases n with
  | zero => exact absurd rfl hz
  | succ n => rfl

/-- The proof data of the matmul region on core `c`, entered with the unscoped buffers at `W`: each input's buffer at its
    block, each output's at the accumulation's component, the invariant above, nothing owed, full shares. -/
def dats3 : Dat τ (Elt F) Unit ℕ (UR sig nD τ) ℕ cfg3 c where
  A w := W (Pipeline.arrRef spec3 w)
  after w t := match w with
    | ⟨0, _⟩ => iblk3 c W 0 t
    | ⟨1, _⟩ => iblk3 c W 1 t
    | ⟨2, _⟩ => iblk3 c W 2 t
    | ⟨3, _⟩ => (outsAt3 c W t.val t.isLt).1
    | ⟨4, _⟩ => (outsAt3 c W t.val t.isLt).2.1
  Φ t := PhiS3 c W t.val (Nat.le_of_lt_succ t.isLt)
  q _ := fullShare
  owed _ := 0

theorem A3_eq (w : Fin cfg3.W) : (dats3 c W).A w = W (Pipeline.arrRef spec3 w) := by dsimp only [dats3]

theorem PhiS3_castSucc (t : Fin cfg3.N) : (dats3 c W).Φ t.castSucc = PhiS3 c W t.val (Nat.le_of_lt t.isLt) := by
  dsimp only [dats3]; simp only [Fin.coe_castSucc]

theorem after3_0 (t : Fin cfg3.N) : (dats3 c W).after 0 t = iblk3 c W 0 t := by dsimp only [dats3]
theorem after3_1 (t : Fin cfg3.N) : (dats3 c W).after 1 t = iblk3 c W 1 t := by dsimp only [dats3]
theorem after3_2 (t : Fin cfg3.N) : (dats3 c W).after 2 t = iblk3 c W 2 t := by dsimp only [dats3]
theorem after3_3 (t : Fin cfg3.N) : (dats3 c W).after 3 t = (outsAt3 c W t.val t.isLt).1 := by dsimp only [dats3]
theorem after3_4 (t : Fin cfg3.N) : (dats3 c W).after 4 t = (outsAt3 c W t.val t.isLt).2.1 := by dsimp only [dats3]

/-- Each input's current staging buffer holds its block at every point (every point fetches it). -/
theorem before3_0 (t : Fin cfg3.N) (d) : (dats3 c W).before 0 t d = iblk3 c W 0 t :=
  ((dats3 c W).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
theorem before3_1 (t : Fin cfg3.N) (d) : (dats3 c W).before 1 t d = iblk3 c W 1 t :=
  ((dats3 c W).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
theorem before3_2 (t : Fin cfg3.N) (d) : (dats3 c W).before 2 t d = iblk3 c W 2 t :=
  ((dats3 c W).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)

/-- What the body is called with at point `t`, the windows one by one, -/
def bodyPre3 (t : Fin cfg3.N) : sProp 𝕄 :=
  iprop((dats3 c W).Φ t.castSucc ∗ (dats3 c W).owesAt () t.castSucc
    ∗ (∃ d, owns (c : Thread nD τ) (ms3_0 t) fullShare ((dats3 c W).before 0 t d))
    ∗ (∃ d, owns (c : Thread nD τ) (ms3_1 t) fullShare ((dats3 c W).before 1 t d))
    ∗ (∃ d, owns (c : Thread nD τ) (ms3_2 t) fullShare ((dats3 c W).before 2 t d))
    ∗ (∃ d, owns (c : Thread nD τ) (ms3_3 t) fullShare ((dats3 c W).before 3 t d))
    ∗ (∃ d, owns (c : Thread nD τ) (ms3_4 t) fullShare ((dats3 c W).before 4 t d)))

/-- and what it returns. -/
def bodyPost3 (t : Fin cfg3.N) : sProp 𝕄 :=
  iprop((dats3 c W).Φ t.succ ∗ (dats3 c W).owesAt () t.succ
    ∗ (dats3 c W).leavesExact 0 t ∗ (dats3 c W).leavesExact 1 t ∗ (dats3 c W).leavesExact 2 t
    ∗ (dats3 c W).leavesExact 3 t ∗ (dats3 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body3 (t : Fin cfg3.N) :
    bodyPre3 c W t ⊢ wp frame (wpE (defs₀ (F := F)) Variants.none c none) Set.univ (bodyAt3 t) (fun _ => bodyPost3 c W t) := by
  unfold bodyPre3 bodyPost3 bodyAt3
  simp only [before3_0, before3_1, before3_2]
  rw [show (dats3 c W).owesAt () t.succ = (dats3 c W).owesAt () t.castSucc from rfl]
  rw [show (dats3 c W).Φ t.succ = PhiS3 c W (t.val + 1) t.isLt from rfl, PhiS3_succ]
  have hN : t.val < 8 := lt_of_lt_of_eq t.isLt N3_eq
  rw [show (dats3 c W).leavesExact 0 t = owns (c : Thread nD τ) (ms3_0 t) fullShare ((dats3 c W).after 0 t) from by
    unfold Dat.leavesExact; rw [liveAt3_0 t], after3_0]
  rw [show (dats3 c W).leavesExact 1 t = owns (c : Thread nD τ) (ms3_1 t) fullShare ((dats3 c W).after 1 t) from by
    unfold Dat.leavesExact; rw [liveAt3_1 t], after3_1]
  rw [show (dats3 c W).leavesExact 2 t = owns (c : Thread nD τ) (ms3_2 t) fullShare ((dats3 c W).after 2 t) from by
    unfold Dat.leavesExact; rw [liveAt3_2 t], after3_2]
  by_cases h0 : t.val % 2 = 0
  · have hcA0 : cond3_0 (grid3.coords t) := (hcond3_0 t).mpr h0
    have hcA1 : ¬cond3_1 (grid3.coords t) := fun h => (fun h => by omega) ((hcond3_1 t).mp h)
    rw [Dat.leavesExact_idle (dats3 c W) 3 t (idleAt3_3_A t hcA0 hcA1) (noFlush3_3_A t hcA0 hcA1)]
    rw [Dat.leavesExact_idle (dats3 c W) 4 t (idleAt3_4_A t hcA0 hcA1) (noFlush3_4_A t hcA0 hcA1)]
    rw [outsAt3_A c W t h0]
    unfold res3A; (try dsimp only)
    by_cases hz : t.val = 0
    · rw [PhiS3_castSucc c W t, PhiS3_zero c W _ _ hz, scopedRest3_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ _ _ ((hcond3_0 t).mpr h0) (fun h => (fun h => by omega) ((hcond3_1 t).mp h)) (iblk3 c W 0 t) (iblk3 c W 1 t) (iblk3 c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover3A_0 c _ _ _ _ _ _ _ _ _ _ _ _ _ _ _ _ _ _ _ _)
          · unfold owns; iexists _; isplitr
            swap; · iexact HS1
            ipureintro; exact View.read_writes_of_cover _ _ _ _ _ (scover3A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS3_castSucc c W t, PhiS3_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ _ _ ((hcond3_0 t).mpr h0) (fun h => (fun h => by omega) ((hcond3_1 t).mp h)) (iblk3 c W 0 t) (iblk3 c W 1 t) (iblk3 c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover3A_0 c _ _ _ _ _ _ _ _ _ _ _ _ _ _ _ _ _ _ _ _)
          · unfold owns; iexists _; isplitr
            swap; · iexact HS1
            ipureintro; exact View.read_writes_of_cover _ _ _ _ _ (scover3A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond3_0 (grid3.coords t) := fun h => h0 ((hcond3_0 t).mp h)
    have hcB1 : cond3_1 (grid3.coords t) := (hcond3_1 t).mpr (by omega)
    rw [show (dats3 c W).leavesExact 3 t = owns (c : Thread nD τ) (ms3_3 t) fullShare ((dats3 c W).after 3 t) from by
      unfold Dat.leavesExact; rw [liveAt3_3_B t hcB0 hcB1], after3_3]
    rw [show (dats3 c W).leavesExact 4 t = owns (c : Thread nD τ) (ms3_4 t) fullShare ((dats3 c W).after 4 t) from by
      unfold Dat.leavesExact; rw [liveAt3_4_B t hcB0 hcB1], after3_4]
    rw [outsAt3_B c W t h0]
    unfold res3B; (try dsimp only)
    have hz : t.val ≠ 0 := by omega
    rw [PhiS3_castSucc c W t, PhiS3_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ _ _ (fun h => h0 ((hcond3_0 t).mp h)) ((hcond3_1 t).mpr (by omega)) (iblk3 c W 0 t) (iblk3 c W 1 t) (iblk3 c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scover3B_0 c _ _ _ _ _ _ _ _ _ _ _ _ _ _ _ _ _ _ _ _ _ _)
        · unfold owns; iexists _; isplitr
          swap; · iexact HS1
          ipureintro; exact View.read_writes_of_cover _ _ _ _ _ (scover3B_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3B_3 c _ _ _ _ _ _ _ _ _ _ _ _ _ _ _ _ _ _ _ _ _ _)
    · unfold owns; iexists _; isplitr
      swap; · iexact H4
      ipureintro; exact View.read_writes_of_cover _ _ _ _ _ (cover3B_4 c _ _ _ _ _ _ _ _ _ _ _ _ _ _ _ _ _ _ _ _ _ _)

/-- The library's body obligation, at every point. -/
theorem body_obligation3 : BodyObligation (dats3 (F := F) c W) (defs₀ (F := F)) Variants.none () Set.univ := fun t => by
  rw [bigSep_W3, bigSep_W3]
  exact sound_body3 c W t

/-- The scoped rest as the launch hands it is the invariant before the first point. -/
theorem Phi3_in (t : Fin (cfg3.N + 1)) (ht : t.val = 0) : Pipeline.scopedRest (Ix := Unit) (Name := ℕ) (U := UR sig nD τ) (Lvl := ℕ) (Val := Elt F) spec3 c ⊢ (dats3 c W).Φ t := by
  rw [show (dats3 c W).Φ t = PhiS3 c W t.val (Nat.le_of_lt_succ t.isLt) from rfl, PhiS3_zero c W _ _ ht]

/-- After any point but the first the invariant gives the scoped rest back: the accumulators' contents are forgotten. -/
theorem Phi3_out (t : Fin (cfg3.N + 1)) (ht : t.val ≠ 0) : (dats3 c W).Φ t ⊢ (Pipeline.scopedRest (Ix := Unit) (Name := ℕ) (U := UR sig nD τ) (Lvl := ℕ) (Val := Elt F) spec3 c : sProp 𝕄) := by
  rw [show (dats3 c W).Φ t = PhiS3 c W t.val (Nat.le_of_lt_succ t.isLt) from rfl, PhiS3_pos c W _ _ ht, scopedRest3_eq]
  iintro ⟨⟨HS0, HS1⟩, Hr⟩
  isplitl [HS0 HS1]
  · isplitl [HS0]; · iexists _; iexact HS0
    iexists _; iexact HS1
  iexact Hr

end Cert.Kernel.Hand

end
-- ==== Proof.K.R4Cond.lean ====
import proofs.«117539_j28759101014307_2_alg».proof.Proof.Gen.Kernel.Launch
import proofs.«117539_j28759101014307_2_alg».proof.Proof.Gen.Kernel.Skeleton
import proofs.«117539_j28759101014307_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region (pallas_call 4): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond4_0 (i : grid4.Coords) : Prop := (Scalar.cmpi .ne (Scalar.extui (Scalar.cmpi .eq (BitVec.ofNat 32 (i 1).val) 0#32)) 0#32) = 1#1
/-- It holds exactly at the even points. -/
theorem hcond4_0 : ∀ t : Fin cfg4.N, cond4_0 (grid4.coords t) ↔ t.val % 2 = 0 :=
  (by decide +kernel : ∀ t : Fin grid4.N, cond4_0 (grid4.coords t) ↔ t.val % 2 = 0)

/-- The write-out condition of the body. -/
abbrev cond4_1 (i : grid4.Coords) : Prop := k4_cond2 i = 1#1
/-- It holds exactly at the odd points. -/
theorem hcond4_1 : ∀ t : Fin cfg4.N, cond4_1 (grid4.coords t) ↔ t.val % 2 = 1 :=
  (by decide +kernel : ∀ t : Fin grid4.N, cond4_1 (grid4.coords t) ↔ t.val % 2 = 1)

end Cert.Kernel.Hand

end
-- ==== Proof.K.R4RunA.lean ====
import proofs.«117539_j28759101014307_2_alg».proof.Proof.K.R4Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 0`: both accumulators are reset to zero and then receive the first half's
    products; the outputs' staging buffers are not touched. The pieces each accumulator ends with are found by the run. -/
noncomputable def kernelRun4_A (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__ahat_matmul_kernel i arg2 harg2 arg3 harg3 arg4 harg4 arg5 harg5 arg6 harg6 arg7 harg7 arg8 harg8) K } := by
  refine ⟨?_, ?_, fun xi3 xi4 E K => ?run⟩
  case run =>
    simp only [cc4__ahat_matmul_kernel_eq_skeleton]; unfold cc4__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.Kernel.Hand

end
-- ==== Proof.K.R4RunB.lean ====
import proofs.«117539_j28759101014307_2_alg».proof.Proof.K.R4Cond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun4_B (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__ahat_matmul_kernel i arg2 harg2 arg3 harg3 arg4 harg4 arg5 harg5 arg6 harg6 arg7 harg7 arg8 harg8) K } := by
  refine ⟨?_, ?_, ?_, ?_, fun E K => ?run⟩
  case run =>
    simp only [cc4__ahat_matmul_kernel_eq_skeleton]; unfold cc4__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.R4Data.lean ====
import proofs.«117539_j28759101014307_2_alg».proof.Proof.K.R4RunA
import proofs.«117539_j28759101014307_2_alg».proof.Proof.K.R4RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk4 (w : Fin cfg4.W) (t : Fin cfg4.N) : ((cfg4.win w).xblock (cfg4.grid.coords t)).Idx → Elt F (cfg4.win w).elt :=
  ((cfg4.win w).blk t).view.read (Elt F) (W (Pipeline.arrRef spec4 w))

/-- One staging buffer of each output window, through which its contents are stated. -/
abbrev VO4_3 : View sig .tc .vmem S2048x128 .f32 := (Memref.whole cc4_stg3_0 : Memref sig .tc .vmem S2048x128 .f32).view
abbrev VO4_4 : View sig .tc .vmem S2048x128 .f32 := (Memref.whole cc4_stg4_0 : Memref sig .tc .vmem S2048x128 .f32).view
/-- Each window's current staging memref at point `t`, and its wholeness. -/
abbrev ms4_0 (t : Fin cfg4.N) : Memref sig .tc .vmem S2048x4096 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x128 .f32 := win4_4.stage (cfg4.slots t 4)
abbrev hs4_4 (t : Fin cfg4.N) : (ms4_4 t).IsWhole := hstage4_4 ((cfg4.slots t 4).cast nbuf4_4)
/-- The two accumulators: whole scoped buffers of the kernel's own. -/
abbrev scM4_0 : Memref sig .tc .vmem S2048x128 .f32 := Memref.whole cc4_scratch0
abbrev scM4_1 : Memref sig .tc .vmem S2048x128 .f32 := Memref.whole cc4_scratch1
abbrev VS4_0 : View sig .tc .vmem S2048x128 .f32 := scM4_0.view
abbrev VS4_1 : View sig .tc .vmem S2048x128 .f32 := scM4_1.view

/-! ### Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel
theorem liveAt4_3_B : ∀ t : Fin cfg4.N, ¬cond4_0 (grid4.coords t) → cond4_1 (grid4.coords t) → cfg4.idle 3 (grid4.coords t) = false := by decide +kernel
theorem liveAt4_4_B : ∀ t : Fin cfg4.N, ¬cond4_0 (grid4.coords t) → cond4_1 (grid4.coords t) → cfg4.idle 4 (grid4.coords t) = false := by decide +kernel

/-! ### What each case leaves: (output 3, output 4, accumulator 0, accumulator 1) -/

/-- The reset case: the outputs are not touched (placeholders nothing reads); each accumulator holds its pieces. -/
def res4A (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO4_3.read (Elt F) VO4_3.junk, VO4_4.read (Elt F) VO4_4.junk,
   VS4_0.read (Elt F) (VS4_0.writes (Elt F) VS4_0.junk (kernelRun4_A c i arg2 harg2 arg3 harg3 arg4 harg4 arg5 harg5 arg6 harg6 arg7 harg7 arg8 harg8 hc0 hc1 x0 x1 x2).1),
   VS4_1.read (Elt F) (VS4_1.writes (Elt F) VS4_1.junk (kernelRun4_A c i arg2 harg2 arg3 harg3 arg4 harg4 arg5 harg5 arg6 harg6 arg7 harg7 arg8 harg8 hc0 hc1 x0 x1 x2).2.1))

theorem scover4A_0 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) (y : S2048x128.Idx) :
    ∃ pc ∈ (kernelRun4_A c i arg2 harg2 arg3 harg3 arg4 harg4 arg5 harg5 arg6 harg6 arg7 harg7 arg8 harg8 hc0 hc1 x0 x1 x2).1, y ∈ pc.1.set :=
  View.cover_of_tiledL (kernelRun4_A c i arg2 harg2 arg3 harg3 arg4 harg4 arg5 harg5 arg6 harg6 arg7 harg7 arg8 harg8 hc0 hc1 x0 x1 x2).1 S2048x128.size (by sl_kernel_rfl) y
theorem scover4A_1 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) (y : S2048x128.Idx) :
    ∃ pc ∈ (kernelRun4_A c i arg2 harg2 arg3 harg3 arg4 harg4 arg5 harg5 arg6 harg6 arg7 harg7 arg8 harg8 hc0 hc1 x0 x1 x2).2.1, y ∈ pc.1.set :=
  View.cover_of_tiledL (kernelRun4_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def res4B (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO4_3.read (Elt F) (VO4_3.writes (Elt F) VO4_3.junk (kernelRun4_B c i arg2 harg2 arg3 harg3 arg4 harg4 arg5 harg5 arg6 harg6 arg7 harg7 arg8 harg8 hc0 hc1 x0 x1 x2 xs0 xs1).1),
   VO4_4.read (Elt F) (VO4_4.writes (Elt F) VO4_4.junk (kernelRun4_B c i arg2 harg2 arg3 harg3 arg4 harg4 arg5 harg5 arg6 harg6 arg7 harg7 arg8 harg8 hc0 hc1 x0 x1 x2 xs0 xs1).2.1),
   VS4_0.read (Elt F) (VS4_0.writes (Elt F) VS4_0.junk (kernelRun4_B c i arg2 harg2 arg3 harg3 arg4 harg4 arg5 harg5 arg6 harg6 arg7 harg7 arg8 harg8 hc0 hc1 x0 x1 x2 xs0 xs1).2.2.1),
   VS4_1.read (Elt F) (VS4_1.writes (Elt F) VS4_1.junk (kernelRun4_B c i arg2 harg2 arg3 harg3 arg4 harg4 arg5 harg5 arg6 harg6 arg7 harg7 arg8 harg8 hc0 hc1 x0 x1 x2 xs0 xs1).2.2.2.1))

theorem cover4B_3 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).1, y ∈ pc.1.set :=
  View.cover_of_tiledL (kernelRun4_B c i arg2 harg2 arg3 harg3 arg4 harg4 arg5 harg5 arg6 harg6 arg7 harg7 arg8 harg8 hc0 hc1 x0 x1 x2 xs0 xs1).1 S2048x128.size (by sl_kernel_rfl) y
theorem cover4B_4 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).2.1, y ∈ pc.1.set :=
  View.cover_of_tiledL (kernelRun4_B c i arg2 harg2 arg3 harg3 arg4 harg4 arg5 harg5 arg6 harg6 arg7 harg7 arg8 harg8 hc0 hc1 x0 x1 x2 xs0 xs1).2.1 S2048x128.size (by sl_kernel_rfl) y
theorem scover4B_0 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).2.2.1, y ∈ pc.1.set :=
  View.cover_of_tiledL (kernelRun4_B c i arg2 harg2 arg3 harg3 arg4 harg4 arg5 harg5 arg6 harg6 arg7 harg7 arg8 harg8 hc0 hc1 x0 x1 x2 xs0 xs1).2.2.1 S2048x128.size (by sl_kernel_rfl) y
theorem scover4B_1 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun4_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N4_eq : cfg4.N = 8 := N_4

/-- What the two outputs' staging buffers and the two accumulators hold after the body at position `n`: the reset case at
    even positions, the write-out case at odd ones over what the position before left in the accumulators. -/
def outsAt4 : (n : ℕ) → n < cfg4.N → (Vec F S2048x128 .f32 × Vec F S2048x128 .f32 × Vec F S2048x128 .f32 × Vec F S2048x128 .f32)
  | 0, hn => res4A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 c W 0 ⟨0, hn⟩) (iblk4 c W 1 ⟨0, hn⟩) (iblk4 c W 2 ⟨0, hn⟩)
  | n + 1, hn =>
    if h0 : (n + 1) % 2 = 0 then
      res4A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => (fun h => by (try dsimp only at h); omega) ((hcond4_1 ⟨n + 1, hn⟩).mp h)) (iblk4 c W 0 ⟨n + 1, hn⟩) (iblk4 c W 1 ⟨n + 1, hn⟩) (iblk4 c W 2 ⟨n + 1, hn⟩)
    else
      res4B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr (by (try dsimp only); omega)) (iblk4 c W 0 ⟨n + 1, hn⟩) (iblk4 c W 1 ⟨n + 1, hn⟩) (iblk4 c W 2 ⟨n + 1, hn⟩)
        (outsAt4 n (Nat.lt_of_succ_lt hn)).2.2.1 (outsAt4 n (Nat.lt_of_succ_lt hn)).2.2.2

theorem outsAt4_A (t : Fin cfg4.N) (h0 : t.val % 2 = 0) :
    outsAt4 c W t.val t.isLt = res4A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => (fun h => by omega) ((hcond4_1 t).mp h)) (iblk4 c W 0 t) (iblk4 c W 1 t) (iblk4 c W 2 t) := by
  obtain ⟨n, hn⟩ := t
  cases n with
  | zero => exact rfl
  | succ n => exact (dif_pos h0).trans rfl

theorem outsAt4_B (t : Fin cfg4.N) (h0 : ¬t.val % 2 = 0) :
    outsAt4 c W t.val t.isLt = res4B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr (by omega)) (iblk4 c W 0 t) (iblk4 c W 1 t) (iblk4 c W 2 t)
      (outsAt4 c W (t.val - 1) (Nat.lt_of_le_of_lt (Nat.sub_le _ _) t.isLt)).2.2.1 (outsAt4 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.Kernel.Hand

end
-- ==== Proof.K.R4Body.lean ====
import proofs.«117539_j28759101014307_2_alg».proof.Proof.K.R4Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest4_eq :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-- The region's invariant before position `n`: before the first point the scoped rest as the launch hands it; afterwards
    the two accumulators at what the point before left in them, beside the other scoped buffers. -/
def PhiS4 : (n : ℕ) → n ≤ cfg4.N → sProp 𝕄
  | 0, _ => Pipeline.scopedRest (Ix := Unit) (Name := ℕ) (U := UR sig nD τ) (Lvl := ℕ) (Val := Elt F) spec4 c
  | n + 1, hn => iprop(iprop(owns (c : Thread nD τ) scM4_0 fullShare ((outsAt4 c W n hn).2.2.1) ∗ owns (c : Thread nD τ) scM4_1 fullShare ((outsAt4 c W n hn).2.2.2))
      ∗ Pipeline.scopedRestBut (Ix := Unit) (Name := ℕ) (U := UR sig nD τ) (Lvl := ℕ) (Val := Elt F) spec4 c [cc4_scratch0, cc4_scratch1])

theorem PhiS4_zero (n : ℕ) (h : n ≤ cfg4.N) (hz : n = 0) :
    PhiS4 c W n h = Pipeline.scopedRest (Ix := Unit) (Name := ℕ) (U := UR sig nD τ) (Lvl := ℕ) (Val := Elt F) spec4 c := by
  subst hz; rfl

theorem PhiS4_succ (n : ℕ) (hn : n < cfg4.N) :
    PhiS4 c W (n + 1) hn = iprop(iprop(owns (c : Thread nD τ) scM4_0 fullShare ((outsAt4 c W n hn).2.2.1) ∗ owns (c : Thread nD τ) scM4_1 fullShare ((outsAt4 c W n hn).2.2.2))
      ∗ Pipeline.scopedRestBut (Ix := Unit) (Name := ℕ) (U := UR sig nD τ) (Lvl := ℕ) (Val := Elt F) spec4 c [cc4_scratch0, cc4_scratch1]) := rfl

theorem PhiS4_pos (n : ℕ) (h : n ≤ cfg4.N) (hz : n ≠ 0) :
    PhiS4 c W n h = iprop(iprop(owns (c : Thread nD τ) scM4_0 fullShare ((outsAt4 c W (n - 1) (by omega)).2.2.1) ∗ owns (c : Thread nD τ) scM4_1 fullShare ((outsAt4 c W (n - 1) (by omega)).2.2.2))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-- The proof data of the matmul region on core `c`, entered with the unscoped buffers at `W`: each input's buffer at its
    block, each output's at the accumulation's component, the invariant above, nothing owed, full shares. -/
def dats4 : Dat τ (Elt F) Unit ℕ (UR sig nD τ) ℕ cfg4 c where
  A w := W (Pipeline.arrRef spec4 w)
  after w t := match w with
    | ⟨0, _⟩ => iblk4 c W 0 t
    | ⟨1, _⟩ => iblk4 c W 1 t
    | ⟨2, _⟩ => iblk4 c W 2 t
    | ⟨3, _⟩ => (outsAt4 c W t.val t.isLt).1
    | ⟨4, _⟩ => (outsAt4 c W t.val t.isLt).2.1
  Φ t := PhiS4 c W t.val (Nat.le_of_lt_succ t.isLt)
  q _ := fullShare
  owed _ := 0

theorem A4_eq (w : Fin cfg4.W) : (dats4 c W).A w = W (Pipeline.arrRef spec4 w) := by dsimp only [dats4]

theorem PhiS4_castSucc (t : Fin cfg4.N) : (dats4 c W).Φ t.castSucc = PhiS4 c W t.val (Nat.le_of_lt t.isLt) := by
  dsimp only [dats4]; simp only [Fin.coe_castSucc]

theorem after4_0 (t : Fin cfg4.N) : (dats4 c W).after 0 t = iblk4 c W 0 t := by dsimp only [dats4]
theorem after4_1 (t : Fin cfg4.N) : (dats4 c W).after 1 t = iblk4 c W 1 t := by dsimp only [dats4]
theorem after4_2 (t : Fin cfg4.N) : (dats4 c W).after 2 t = iblk4 c W 2 t := by dsimp only [dats4]
theorem after4_3 (t : Fin cfg4.N) : (dats4 c W).after 3 t = (outsAt4 c W t.val t.isLt).1 := by dsimp only [dats4]
theorem after4_4 (t : Fin cfg4.N) : (dats4 c W).after 4 t = (outsAt4 c W t.val t.isLt).2.1 := by dsimp only [dats4]

/-- Each input's current staging buffer holds its block at every point (every point fetches it). -/
theorem before4_0 (t : Fin cfg4.N) (d) : (dats4 c W).before 0 t d = iblk4 c W 0 t :=
  ((dats4 c W).before_in_eq_fetched 0 rfl (fun _ => rfl) (fun _ _ _ => rfl) (fun t => by rw [after4_0]; unfold Dat.blockOf iblk4; rw [A4_eq]; try rfl) t d).trans
    (by unfold Dat.fetched Dat.blockOf iblk4; rw [A4_eq]; try rfl)
theorem before4_1 (t : Fin cfg4.N) (d) : (dats4 c W).before 1 t d = iblk4 c W 1 t :=
  ((dats4 c W).before_in_eq_fetched 1 rfl (fun _ => rfl) (fun _ _ _ => rfl) (fun t => by rw [after4_1]; unfold Dat.blockOf iblk4; rw [A4_eq]; try rfl) t d).trans
    (by unfold Dat.fetched Dat.blockOf iblk4; rw [A4_eq]; try rfl)
theorem before4_2 (t : Fin cfg4.N) (d) : (dats4 c W).before 2 t d = iblk4 c W 2 t :=
  ((dats4 c W).before_in_eq_fetched 2 rfl (fun _ => rfl) (fun _ _ _ => rfl) (fun t => by rw [after4_2]; unfold Dat.blockOf iblk4; rw [A4_eq]; try rfl) t d).trans
    (by unfold Dat.fetched Dat.blockOf iblk4; rw [A4_eq]; try rfl)

/-- What the body is called with at point `t`, the windows one by one, -/
def bodyPre4 (t : Fin cfg4.N) : sProp 𝕄 :=
  iprop((dats4 c W).Φ t.castSucc ∗ (dats4 c W).owesAt () t.castSucc
    ∗ (∃ d, owns (c : Thread nD τ) (ms4_0 t) fullShare ((dats4 c W).before 0 t d))
    ∗ (∃ d, owns (c : Thread nD τ) (ms4_1 t) fullShare ((dats4 c W).before 1 t d))
    ∗ (∃ d, owns (c : Thread nD τ) (ms4_2 t) fullShare ((dats4 c W).before 2 t d))
    ∗ (∃ d, owns (c : Thread nD τ) (ms4_3 t) fullShare ((dats4 c W).before 3 t d))
    ∗ (∃ d, owns (c : Thread nD τ) (ms4_4 t) fullShare ((dats4 c W).before 4 t d)))

/-- and what it returns. -/
def bodyPost4 (t : Fin cfg4.N) : sProp 𝕄 :=
  iprop((dats4 c W).Φ t.succ ∗ (dats4 c W).owesAt () t.succ
    ∗ (dats4 c W).leavesExact 0 t ∗ (dats4 c W).leavesExact 1 t ∗ (dats4 c W).leavesExact 2 t
    ∗ (dats4 c W).leavesExact 3 t ∗ (dats4 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body4 (t : Fin cfg4.N) :
    bodyPre4 c W t ⊢ wp frame (wpE (defs₀ (F := F)) Variants.none c none) Set.univ (bodyAt4 t) (fun _ => bodyPost4 c W t) := by
  unfold bodyPre4 bodyPost4 bodyAt4
  simp only [before4_0, before4_1, before4_2]
  rw [show (dats4 c W).owesAt () t.succ = (dats4 c W).owesAt () t.castSucc from rfl]
  rw [show (dats4 c W).Φ t.succ = PhiS4 c W (t.val + 1) t.isLt from rfl, PhiS4_succ]
  have hN : t.val < 8 := lt_of_lt_of_eq t.isLt N4_eq
  rw [show (dats4 c W).leavesExact 0 t = owns (c : Thread nD τ) (ms4_0 t) fullShare ((dats4 c W).after 0 t) from by
    unfold Dat.leavesExact; rw [liveAt4_0 t], after4_0]
  rw [show (dats4 c W).leavesExact 1 t = owns (c : Thread nD τ) (ms4_1 t) fullShare ((dats4 c W).after 1 t) from by
    unfold Dat.leavesExact; rw [liveAt4_1 t], after4_1]
  rw [show (dats4 c W).leavesExact 2 t = owns (c : Thread nD τ) (ms4_2 t) fullShare ((dats4 c W).after 2 t) from by
    unfold Dat.leavesExact; rw [liveAt4_2 t], after4_2]
  by_cases h0 : t.val % 2 = 0
  · have hcA0 : cond4_0 (grid4.coords t) := (hcond4_0 t).mpr h0
    have hcA1 : ¬cond4_1 (grid4.coords t) := fun h => (fun h => by omega) ((hcond4_1 t).mp h)
    rw [Dat.leavesExact_idle (dats4 c W) 3 t (idleAt4_3_A t hcA0 hcA1) (noFlush4_3_A t hcA0 hcA1)]
    rw [Dat.leavesExact_idle (dats4 c W) 4 t (idleAt4_4_A t hcA0 hcA1) (noFlush4_4_A t hcA0 hcA1)]
    rw [outsAt4_A c W t h0]
    unfold res4A; (try dsimp only)
    by_cases hz : t.val = 0
    · rw [PhiS4_castSucc c W t, PhiS4_zero c W _ _ hz, scopedRest4_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ _ _ ((hcond4_0 t).mpr h0) (fun h => (fun h => by omega) ((hcond4_1 t).mp h)) (iblk4 c W 0 t) (iblk4 c W 1 t) (iblk4 c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover4A_0 c _ _ _ _ _ _ _ _ _ _ _ _ _ _ _ _ _ _ _ _)
          · unfold owns; iexists _; isplitr
            swap; · iexact HS1
            ipureintro; exact View.read_writes_of_cover _ _ _ _ _ (scover4A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS4_castSucc c W t, PhiS4_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ _ _ ((hcond4_0 t).mpr h0) (fun h => (fun h => by omega) ((hcond4_1 t).mp h)) (iblk4 c W 0 t) (iblk4 c W 1 t) (iblk4 c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover4A_0 c _ _ _ _ _ _ _ _ _ _ _ _ _ _ _ _ _ _ _ _)
          · unfold owns; iexists _; isplitr
            swap; · iexact HS1
            ipureintro; exact View.read_writes_of_cover _ _ _ _ _ (scover4A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond4_0 (grid4.coords t) := fun h => h0 ((hcond4_0 t).mp h)
    have hcB1 : cond4_1 (grid4.coords t) := (hcond4_1 t).mpr (by omega)
    rw [show (dats4 c W).leavesExact 3 t = owns (c : Thread nD τ) (ms4_3 t) fullShare ((dats4 c W).after 3 t) from by
      unfold Dat.leavesExact; rw [liveAt4_3_B t hcB0 hcB1], after4_3]
    rw [show (dats4 c W).leavesExact 4 t = owns (c : Thread nD τ) (ms4_4 t) fullShare ((dats4 c W).after 4 t) from by
      unfold Dat.leavesExact; rw [liveAt4_4_B t hcB0 hcB1], after4_4]
    rw [outsAt4_B c W t h0]
    unfold res4B; (try dsimp only)
    have hz : t.val ≠ 0 := by omega
    rw [PhiS4_castSucc c W t, PhiS4_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun4_B c (grid4.coords t) _ _ _ _ _ _ _ _ _ _ _ _ _ _ (fun h => h0 ((hcond4_0 t).mp h)) ((hcond4_1 t).mpr (by omega)) (iblk4 c W 0 t) (iblk4 c W 1 t) (iblk4 c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scover4B_0 c _ _ _ _ _ _ _ _ _ _ _ _ _ _ _ _ _ _ _ _ _ _)
        · unfold owns; iexists _; isplitr
          swap; · iexact HS1
          ipureintro; exact View.read_writes_of_cover _ _ _ _ _ (scover4B_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4B_3 c _ _ _ _ _ _ _ _ _ _ _ _ _ _ _ _ _ _ _ _ _ _)
    · unfold owns; iexists _; isplitr
      swap; · iexact H4
      ipureintro; exact View.read_writes_of_cover _ _ _ _ _ (cover4B_4 c _ _ _ _ _ _ _ _ _ _ _ _ _ _ _ _ _ _ _ _ _ _)

/-- The library's body obligation, at every point. -/
theorem body_obligation4 : BodyObligation (dats4 (F := F) c W) (defs₀ (F := F)) Variants.none () Set.univ := fun t => by
  rw [bigSep_W4, bigSep_W4]
  exact sound_body4 c W t

/-- The scoped rest as the launch hands it is the invariant before the first point. -/
theorem Phi4_in (t : Fin (cfg4.N + 1)) (ht : t.val = 0) : Pipeline.scopedRest (Ix := Unit) (Name := ℕ) (U := UR sig nD τ) (Lvl := ℕ) (Val := Elt F) spec4 c ⊢ (dats4 c W).Φ t := by
  rw [show (dats4 c W).Φ t = PhiS4 c W t.val (Nat.le_of_lt_succ t.isLt) from rfl, PhiS4_zero c W _ _ ht]

/-- After any point but the first the invariant gives the scoped rest back: the accumulators' contents are forgotten. -/
theorem Phi4_out (t : Fin (cfg4.N + 1)) (ht : t.val ≠ 0) : (dats4 c W).Φ t ⊢ (Pipeline.scopedRest (Ix := Unit) (Name := ℕ) (U := UR sig nD τ) (Lvl := ℕ) (Val := Elt F) spec4 c : sProp 𝕄) := by
  rw [show (dats4 c W).Φ t = PhiS4 c W t.val (Nat.le_of_lt_succ t.isLt) from rfl, PhiS4_pos c W _ _ ht, scopedRest4_eq]
  iintro ⟨⟨HS0, HS1⟩, Hr⟩
  isplitl [HS0 HS1]
  · isplitl [HS0]; · iexists _; iexact HS0
    iexists _; iexact HS1
  iexact Hr

end Cert.Kernel.Hand

end
-- ==== Proof.K.Segs.lean ====
import proofs.«117539_j28759101014307_2_alg».proof.Proof.K.R0Body
import proofs.«117539_j28759101014307_2_alg».proof.Proof.K.R1Body
import proofs.«117539_j28759101014307_2_alg».proof.Proof.K.R2Body
import proofs.«117539_j28759101014307_2_alg».proof.Proof.K.R3Body
import proofs.«117539_j28759101014307_2_alg».proof.Proof.K.R4Body
import proofs.«117539_j28759101014307_2_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

open Cert.Kernel Cert.Kernel.Gen

/-! ## The five regions' proof data as one family, and the regions as segments

Each region is entered with the core's unscoped buffers at a valuation (`W0` … `W18`, one per region: the launch contents,
then what the host operations and the earlier regions left) and leaves them at that valuation updated at its two result
arrays. Only the scratch accumulators (scoped buffers) enter the invariant; every unscoped buffer that is no array of the
region bypasses it. -/

variable (W0 W6 W10 W14 W18 : Dev nD → Valuation τ sig (Elt F))

-- the recursions over the grid stay folded here: a region's record speaks of its first and last points only through the
-- lemmas about them
attribute [local irreducible] Pipeline.Dat.arrAt PhiS0 PhiS1 PhiS2 PhiS3 PhiS4 outsAt0 outsAt1 outsAt2 outsAt3 outsAt4

/-- The proof data of the five pipelines: a literal match on the pipeline index. -/
def pdats : (p : Fin 5) → (c : Dev nD) → Dat τ (Elt F) Unit ℕ (UR sig nD τ) ℕ (cfgs p) c
  | ⟨0, _⟩ => fun c => dats0 c (fun b => W0 c b)
  | ⟨1, _⟩ => fun c => dats1 c (fun b => W6 c b)
  | ⟨2, _⟩ => fun c => dats2 c (fun b => W10 c b)
  | ⟨3, _⟩ => fun c => dats3 c (fun b => W14 c b)
  | ⟨4, _⟩ => fun c => dats4 c (fun b => W18 c b)

/-- No core owes another anything: no level is assigned. -/
abbrev L₀ : GSem nD τ sig → Finset Unit := fun _ => ∅
abbrev lv₀ : GSem nD τ sig → Unit → ℕ := fun _ _ => 0

/-- What rides beside the buffers between the items: the core owing nothing. -/
abbrev Rest (c : Dev nD) : sProp 𝕄 := iprop(∃ Wd, owes (c : Thread nD τ) (0 : CellTallies nD τ sig Unit) Wd)

set_option maxHeartbeats 800000 in
set_option backward.isDefEq.respectTransparency.types false in
/-- THE ROW-SUM REGION as a segment: entered with the unscoped buffers at `W0`, left with them at any valuation that holds
    the region's arrays at their final contents and agrees with `W0` elsewhere. -/
def reg0 (Wb : Dev nD → Valuation τ sig (Elt F))
    (hF : ∀ c w, ((pdats W0 W6 W10 W14 W18) 0 c).arrAt w cfg0.N = Wb c (Pipeline.arrRef spec0 w))
    (hrest : ∀ c (b : Ref sig .tc), b ∉ Finset.univ.image (Pipeline.arrRef spec0) → Wb c b = W0 c b) :
    RegionSeg (pcfgs (F := F)) adm (pdats W0 W6 W10 W14 W18) () defs₀ Variants.none L₀ lv₀ 0 where
  win := launch0.win.to₀
  block_pos := launch0.block_pos
  stage_whole := launch0.stage_whole
  K := PEmpty
  osem := fun k => k.elim
  ho := Pipeline.OwnSemFacts.none _
  hbody c := (body_obligation0 c (fun b => W0 c b)).loose
  hwaits := Pipeline.hwaits_of_owed_zero _ _ _ _ L₀ lv₀ 0 fun _ _ => rfl
  pre c := iprop(StableHlo.held (c : Thread nD τ) (Pipeline.ucRefs τ sig) (W0 c) ∗ Rest c)
  post c := iprop(StableHlo.held (c : Thread nD τ) (Pipeline.ucRefs τ sig) (Wb c) ∗ Rest c)
  X _ := iprop(emp)
  Y _ := iprop(emp)
  Z c := Pipeline.unscopedRest spec0 c (fun b => W0 c b)
  hentry c := by
    rw [show StableHlo.held (c : Thread nD τ) (Pipeline.ucRefs τ sig) (W0 c) = unscopedBufs c (fun b => W0 c b) from (Pipeline.unscopedBufs_held c _).symm,
      Pipeline.ownSems0_none]
    have hsplit := Pipeline.arrays_of_unscopedBufs (p := (0 : Fin 5)) (pcfgs (F := F)) adm (pdats W0 W6 W10 W14 W18) launch0.win launch0.arr_whole c
      (((pdats W0 W6 W10 W14 W18) 0 c).share_full fun _ => rfl) (fun b => W0 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi0_in c (fun b => W0 c b) 0 rfl)
    iintro ⟨-, -, Hr⟩
    iexact Hr
  hout c := by
    refine .trans (Phi0_out c (fun b => W0 c b) (Fin.last cfg0.N) (by rw [Fin.val_last]; have : cfg0.N = 16 := N_0; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (0 : Fin 5)) (pcfgs (F := F)) adm launch0.win launch0.arr_whole c (pdats W0 W6 W10 W14 W18)
        (((pdats W0 W6 W10 W14 W18) 0 c).share_full fun _ => rfl) (fun b => W0 c b) (fun b => Wb c b) (fun w => ((pdats W0 W6 W10 W14 W18) 0 c).arrAt w cfg0.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 1 as a segment: entered with the unscoped buffers at `W6`, left with them at any valuation that holds
    the region's arrays at their final contents and agrees with `W6` elsewhere. -/
def reg1 (Wb : Dev nD → Valuation τ sig (Elt F))
    (hF : ∀ c w, ((pdats W0 W6 W10 W14 W18) 1 c).arrAt w cfg1.N = Wb c (Pipeline.arrRef spec1 w))
    (hrest : ∀ c (b : Ref sig .tc), b ∉ Finset.univ.image (Pipeline.arrRef spec1) → Wb c b = W6 c b) :
    RegionSeg (pcfgs (F := F)) adm (pdats W0 W6 W10 W14 W18) () defs₀ Variants.none L₀ lv₀ 1 where
  win := launch1.win.to₀
  block_pos := launch1.block_pos
  stage_whole := launch1.stage_whole
  K := PEmpty
  osem := fun k => k.elim
  ho := Pipeline.OwnSemFacts.none _
  hbody c := (body_obligation1 c (fun b => W6 c b)).loose
  hwaits := Pipeline.hwaits_of_owed_zero _ _ _ _ L₀ lv₀ 1 fun _ _ => rfl
  pre c := iprop(StableHlo.held (c : Thread nD τ) (Pipeline.ucRefs τ sig) (W6 c) ∗ Rest c)
  post c := iprop(StableHlo.held (c : Thread nD τ) (Pipeline.ucRefs τ sig) (Wb c) ∗ Rest c)
  X _ := iprop(emp)
  Y _ := iprop(emp)
  Z c := Pipeline.unscopedRest spec1 c (fun b => W6 c b)
  hentry c := by
    rw [show StableHlo.held (c : Thread nD τ) (Pipeline.ucRefs τ sig) (W6 c) = unscopedBufs c (fun b => W6 c b) from (Pipeline.unscopedBufs_held c _).symm,
      Pipeline.ownSems0_none]
    have hsplit := Pipeline.arrays_of_unscopedBufs (p := (1 : Fin 5)) (pcfgs (F := F)) adm (pdats W0 W6 W10 W14 W18) launch1.win launch1.arr_whole c
      (((pdats W0 W6 W10 W14 W18) 1 c).share_full fun _ => rfl) (fun b => W6 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi1_in c (fun b => W6 c b) 0 rfl)
    iintro ⟨-, -, Hr⟩
    iexact Hr
  hout c := by
    refine .trans (Phi1_out c (fun b => W6 c b) (Fin.last cfg1.N) (by rw [Fin.val_last]; have : cfg1.N = 8 := N_1; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (1 : Fin 5)) (pcfgs (F := F)) adm launch1.win launch1.arr_whole c (pdats W0 W6 W10 W14 W18)
        (((pdats W0 W6 W10 W14 W18) 1 c).share_full fun _ => rfl) (fun b => W6 c b) (fun b => Wb c b) (fun w => ((pdats W0 W6 W10 W14 W18) 1 c).arrAt w cfg1.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 2 as a segment: entered with the unscoped buffers at `W10`, left with them at any valuation that holds
    the region's arrays at their final contents and agrees with `W10` elsewhere. -/
def reg2 (Wb : Dev nD → Valuation τ sig (Elt F))
    (hF : ∀ c w, ((pdats W0 W6 W10 W14 W18) 2 c).arrAt w cfg2.N = Wb c (Pipeline.arrRef spec2 w))
    (hrest : ∀ c (b : Ref sig .tc), b ∉ Finset.univ.image (Pipeline.arrRef spec2) → Wb c b = W10 c b) :
    RegionSeg (pcfgs (F := F)) adm (pdats W0 W6 W10 W14 W18) () defs₀ Variants.none L₀ lv₀ 2 where
  win := launch2.win.to₀
  block_pos := launch2.block_pos
  stage_whole := launch2.stage_whole
  K := PEmpty
  osem := fun k => k.elim
  ho := Pipeline.OwnSemFacts.none _
  hbody c := (body_obligation2 c (fun b => W10 c b)).loose
  hwaits := Pipeline.hwaits_of_owed_zero _ _ _ _ L₀ lv₀ 2 fun _ _ => rfl
  pre c := iprop(StableHlo.held (c : Thread nD τ) (Pipeline.ucRefs τ sig) (W10 c) ∗ Rest c)
  post c := iprop(StableHlo.held (c : Thread nD τ) (Pipeline.ucRefs τ sig) (Wb c) ∗ Rest c)
  X _ := iprop(emp)
  Y _ := iprop(emp)
  Z c := Pipeline.unscopedRest spec2 c (fun b => W10 c b)
  hentry c := by
    rw [show StableHlo.held (c : Thread nD τ) (Pipeline.ucRefs τ sig) (W10 c) = unscopedBufs c (fun b => W10 c b) from (Pipeline.unscopedBufs_held c _).symm,
      Pipeline.ownSems0_none]
    have hsplit := Pipeline.arrays_of_unscopedBufs (p := (2 : Fin 5)) (pcfgs (F := F)) adm (pdats W0 W6 W10 W14 W18) launch2.win launch2.arr_whole c
      (((pdats W0 W6 W10 W14 W18) 2 c).share_full fun _ => rfl) (fun b => W10 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi2_in c (fun b => W10 c b) 0 rfl)
    iintro ⟨-, -, Hr⟩
    iexact Hr
  hout c := by
    refine .trans (Phi2_out c (fun b => W10 c b) (Fin.last cfg2.N) (by rw [Fin.val_last]; have : cfg2.N = 8 := N_2; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (2 : Fin 5)) (pcfgs (F := F)) adm launch2.win launch2.arr_whole c (pdats W0 W6 W10 W14 W18)
        (((pdats W0 W6 W10 W14 W18) 2 c).share_full fun _ => rfl) (fun b => W10 c b) (fun b => Wb c b) (fun w => ((pdats W0 W6 W10 W14 W18) 2 c).arrAt w cfg2.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 3 as a segment: entered with the unscoped buffers at `W14`, left with them at any valuation that holds
    the region's arrays at their final contents and agrees with `W14` elsewhere. -/
def reg3 (Wb : Dev nD → Valuation τ sig (Elt F))
    (hF : ∀ c w, ((pdats W0 W6 W10 W14 W18) 3 c).arrAt w cfg3.N = Wb c (Pipeline.arrRef spec3 w))
    (hrest : ∀ c (b : Ref sig .tc), b ∉ Finset.univ.image (Pipeline.arrRef spec3) → Wb c b = W14 c b) :
    RegionSeg (pcfgs (F := F)) adm (pdats W0 W6 W10 W14 W18) () defs₀ Variants.none L₀ lv₀ 3 where
  win := launch3.win.to₀
  block_pos := launch3.block_pos
  stage_whole := launch3.stage_whole
  K := PEmpty
  osem := fun k => k.elim
  ho := Pipeline.OwnSemFacts.none _
  hbody c := (body_obligation3 c (fun b => W14 c b)).loose
  hwaits := Pipeline.hwaits_of_owed_zero _ _ _ _ L₀ lv₀ 3 fun _ _ => rfl
  pre c := iprop(StableHlo.held (c : Thread nD τ) (Pipeline.ucRefs τ sig) (W14 c) ∗ Rest c)
  post c := iprop(StableHlo.held (c : Thread nD τ) (Pipeline.ucRefs τ sig) (Wb c) ∗ Rest c)
  X _ := iprop(emp)
  Y _ := iprop(emp)
  Z c := Pipeline.unscopedRest spec3 c (fun b => W14 c b)
  hentry c := by
    rw [show StableHlo.held (c : Thread nD τ) (Pipeline.ucRefs τ sig) (W14 c) = unscopedBufs c (fun b => W14 c b) from (Pipeline.unscopedBufs_held c _).symm,
      Pipeline.ownSems0_none]
    have hsplit := Pipeline.arrays_of_unscopedBufs (p := (3 : Fin 5)) (pcfgs (F := F)) adm (pdats W0 W6 W10 W14 W18) launch3.win launch3.arr_whole c
      (((pdats W0 W6 W10 W14 W18) 3 c).share_full fun _ => rfl) (fun b => W14 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi3_in c (fun b => W14 c b) 0 rfl)
    iintro ⟨-, -, Hr⟩
    iexact Hr
  hout c := by
    refine .trans (Phi3_out c (fun b => W14 c b) (Fin.last cfg3.N) (by rw [Fin.val_last]; have : cfg3.N = 8 := N_3; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (3 : Fin 5)) (pcfgs (F := F)) adm launch3.win launch3.arr_whole c (pdats W0 W6 W10 W14 W18)
        (((pdats W0 W6 W10 W14 W18) 3 c).share_full fun _ => rfl) (fun b => W14 c b) (fun b => Wb c b) (fun w => ((pdats W0 W6 W10 W14 W18) 3 c).arrAt w cfg3.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 4 as a segment: entered with the unscoped buffers at `W18`, left with them at any valuation that holds
    the region's arrays at their final contents and agrees with `W18` elsewhere. -/
def reg4 (Wb : Dev nD → Valuation τ sig (Elt F))
    (hF : ∀ c w, ((pdats W0 W6 W10 W14 W18) 4 c).arrAt w cfg4.N = Wb c (Pipeline.arrRef spec4 w))
    (hrest : ∀ c (b : Ref sig .tc), b ∉ Finset.univ.image (Pipeline.arrRef spec4) → Wb c b = W18 c b) :
    RegionSeg (pcfgs (F := F)) adm (pdats W0 W6 W10 W14 W18) () defs₀ Variants.none L₀ lv₀ 4 where
  win := launch4.win.to₀
  block_pos := launch4.block_pos
  stage_whole := launch4.stage_whole
  K := PEmpty
  osem := fun k => k.elim
  ho := Pipeline.OwnSemFacts.none _
  hbody c := (body_obligation4 c (fun b => W18 c b)).loose
  hwaits := Pipeline.hwaits_of_owed_zero _ _ _ _ L₀ lv₀ 4 fun _ _ => rfl
  pre c := iprop(StableHlo.held (c : Thread nD τ) (Pipeline.ucRefs τ sig) (W18 c) ∗ Rest c)
  post c := iprop(StableHlo.held (c : Thread nD τ) (Pipeline.ucRefs τ sig) (Wb c) ∗ Rest c)
  X _ := iprop(emp)
  Y _ := iprop(emp)
  Z c := Pipeline.unscopedRest spec4 c (fun b => W18 c b)
  hentry c := by
    rw [show StableHlo.held (c : Thread nD τ) (Pipeline.ucRefs τ sig) (W18 c) = unscopedBufs c (fun b => W18 c b) from (Pipeline.unscopedBufs_held c _).symm,
      Pipeline.ownSems0_none]
    have hsplit := Pipeline.arrays_of_unscopedBufs (p := (4 : Fin 5)) (pcfgs (F := F)) adm (pdats W0 W6 W10 W14 W18) launch4.win launch4.arr_whole c
      (((pdats W0 W6 W10 W14 W18) 4 c).share_full fun _ => rfl) (fun b => W18 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi4_in c (fun b => W18 c b) 0 rfl)
    iintro ⟨-, -, Hr⟩
    iexact Hr
  hout c := by
    refine .trans (Phi4_out c (fun b => W18 c b) (Fin.last cfg4.N) (by rw [Fin.val_last]; have : cfg4.N = 8 := N_4; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (4 : Fin 5)) (pcfgs (F := F)) adm launch4.win launch4.arr_whole c (pdats W0 W6 W10 W14 W18)
        (((pdats W0 W6 W10 W14 W18) 4 c).share_full fun _ => rfl) (fun b => W18 c b) (fun b => Wb c b) (fun w => ((pdats W0 W6 W10 W14 W18) 4 c).arrAt w cfg4.N) (hF c) (hrest c))
      isplitl [Ha]; · iexact Ha
      iexact Hrest
    · unfold Pipeline.Dat.owesAt Pipeline.owesWithin
      icases HO with ⟨%Wd, -, HO⟩; iexists Wd; iexact HO

end Cert.Kernel.Hand

end
-- ==== Proof.K.Vals.lean ====
import proofs.«117539_j28759101014307_2_alg».proof.Proof.K.Segs
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

open Cert.Kernel Cert.Kernel.Gen

/-! ## The unscoped buffers between @main's items, and the frame

@main is: the row-sum region; host operations (degree normalisation, the input layer, the first layer's two scaled
right-hand sides); then four times a matmul region followed by host operations (the layer's combination and the next
layer's right-hand sides; after the last region the output layer). The unscoped buffers before each region are the launch
contents pushed through what came before: host stretches by `StableHlo.after`, regions by updating their two results at
what their proof data computes. -/

variable (m : (ℓ : Loc nD τ sig) → Buf (Elt F) ℓ)

-- the recursions over the grid stay folded: only the arrays' entry contents and the names of the final ones are used here
attribute [local irreducible] Pipeline.Dat.arrAt PhiS0 PhiS1 PhiS2 PhiS3 PhiS4 outsAt0 outsAt1 outsAt2 outsAt3 outsAt4

/-- The unscoped buffers after region 0: as before it, but the two results at what the region leaves in them. -/
def X1 (c : Dev nD) : Valuation τ sig (Elt F) :=
  Function.update (Function.update (V0 m c) main_v0_0 ((dats0 c (fun b => V0 m c b)).arrAt 1 cfg0.N)) main_v0_1 ((dats0 c (fun b => V0 m c b)).arrAt 2 cfg0.N)
theorem X1_a (c : Dev nD) : X1 m c main_v0_0 = (dats0 c (fun b => V0 m c b)).arrAt 1 cfg0.N := by
  unfold X1; rw [Function.update_of_ne (StableHlo.devRef_ne_of_ne (by decide : (main_v0_0 : Ref sig .tc) ≠ main_v0_1) : (Proc.devRef .tc main_v0_0 : DevRef τ sig) ≠ Proc.devRef .tc main_v0_1), Function.update_self]
theorem X1_b (c : Dev nD) : X1 m c main_v0_1 = (dats0 c (fun b => V0 m c b)).arrAt 2 cfg0.N := by
  unfold X1; rw [Function.update_self]
theorem X1_of (c : Dev nD) (r : Ref sig .tc) (h : r ∉ ([main_v0_0, main_v0_1] : List (Ref sig .tc))) : X1 m c r = V0 m c r := by
  unfold X1
  rw [Function.update_of_ne (StableHlo.devRef_ne_of_ne (List.ne_of_not_mem_cons (List.not_mem_of_not_mem_cons h)) : (Proc.devRef .tc r : DevRef τ sig) ≠ Proc.devRef .tc main_v0_1),
    Function.update_of_ne (StableHlo.devRef_ne_of_ne (List.ne_of_not_mem_cons h) : (Proc.devRef .tc r : DevRef τ sig) ≠ Proc.devRef .tc main_v0_0)]

/-- The unscoped buffers when the first matmul region is entered. -/
def X6 (c : Dev nD) : Valuation τ sig (Elt F) :=
  StableHlo.after hostOps1_4 (StableHlo.after hostOps1_3 (StableHlo.after hostOps1_2 (StableHlo.after hostOps1_1 (StableHlo.after hostOps1 (X1 m c)))))

/-- The unscoped buffers after region 1: as before it, but the two results at what the region leaves in them. -/
def X7 (c : Dev nD) : Valuation τ sig (Elt F) :=
  Function.update (Function.update (X6 m c) main_v29_0 ((dats1 c (fun b => X6 m c b)).arrAt 3 cfg1.N)) main_v29_1 ((dats1 c (fun b => X6 m c b)).arrAt 4 cfg1.N)
theorem X7_a (c : Dev nD) : X7 m c main_v29_0 = (dats1 c (fun b => X6 m c b)).arrAt 3 cfg1.N := by
  unfold X7; rw [Function.update_of_ne (StableHlo.devRef_ne_of_ne (by decide : (main_v29_0 : Ref sig .tc) ≠ main_v29_1) : (Proc.devRef .tc main_v29_0 : DevRef τ sig) ≠ Proc.devRef .tc main_v29_1), Function.update_self]
theorem X7_b (c : Dev nD) : X7 m c main_v29_1 = (dats1 c (fun b => X6 m c b)).arrAt 4 cfg1.N := by
  unfold X7; rw [Function.update_self]
theorem X7_of (c : Dev nD) (r : Ref sig .tc) (h : r ∉ ([main_v29_0, main_v29_1] : List (Ref sig .tc))) : X7 m c r = X6 m c r := by
  unfold X7
  rw [Function.update_of_ne (StableHlo.devRef_ne_of_ne (List.ne_of_not_mem_cons (List.not_mem_of_not_mem_cons h)) : (Proc.devRef .tc r : DevRef τ sig) ≠ Proc.devRef .tc main_v29_1),
    Function.update_of_ne (StableHlo.devRef_ne_of_ne (List.ne_of_not_mem_cons h) : (Proc.devRef .tc r : DevRef τ sig) ≠ Proc.devRef .tc main_v29_0)]

def X10 (c : Dev nD) : Valuation τ sig (Elt F) :=
  StableHlo.after hostOps2_2 (StableHlo.after hostOps2_1 (StableHlo.after hostOps2 (X7 m c)))

/-- The unscoped buffers after region 2: as before it, but the two results at what the region leaves in them. -/
def X11 (c : Dev nD) : Valuation τ sig (Elt F) :=
  Function.update (Function.update (X10 m c) main_v74_0 ((dats2 c (fun b => X10 m c b)).arrAt 3 cfg2.N)) main_v74_1 ((dats2 c (fun b => X10 m c b)).arrAt 4 cfg2.N)
theorem X11_a (c : Dev nD) : X11 m c main_v74_0 = (dats2 c (fun b => X10 m c b)).arrAt 3 cfg2.N := by
  unfold X11; rw [Function.update_of_ne (StableHlo.devRef_ne_of_ne (by decide : (main_v74_0 : Ref sig .tc) ≠ main_v74_1) : (Proc.devRef .tc main_v74_0 : DevRef τ sig) ≠ Proc.devRef .tc main_v74_1), Function.update_self]
theorem X11_b (c : Dev nD) : X11 m c main_v74_1 = (dats2 c (fun b => X10 m c b)).arrAt 4 cfg2.N := by
  unfold X11; rw [Function.update_self]
theorem X11_of (c : Dev nD) (r : Ref sig .tc) (h : r ∉ ([main_v74_0, main_v74_1] : List (Ref sig .tc))) : X11 m c r = X10 m c r := by
  unfold X11
  rw [Function.update_of_ne (StableHlo.devRef_ne_of_ne (List.ne_of_not_mem_cons (List.not_mem_of_not_mem_cons h)) : (Proc.devRef .tc r : DevRef τ sig) ≠ Proc.devRef .tc main_v74_1),
    Function.update_of_ne (StableHlo.devRef_ne_of_ne (List.ne_of_not_mem_cons h) : (Proc.devRef .tc r : DevRef τ sig) ≠ Proc.devRef .tc main_v74_0)]

def X14 (c : Dev nD) : Valuation τ sig (Elt F) :=
  StableHlo.after hostOps3_2 (StableHlo.after hostOps3_1 (StableHlo.after hostOps3 (X11 m c)))

/-- The unscoped buffers after region 3: as before it, but the two results at what the region leaves in them. -/
def X15 (c : Dev nD) : Valuation τ sig (Elt F) :=
  Function.update (Function.update (X14 m c) main_v119_0 ((dats3 c (fun b => X14 m c b)).arrAt 3 cfg3.N)) main_v119_1 ((dats3 c (fun b => X14 m c b)).arrAt 4 cfg3.N)
theorem X15_a (c : Dev nD) : X15 m c main_v119_0 = (dats3 c (fun b => X14 m c b)).arrAt 3 cfg3.N := by
  unfold X15; rw [Function.update_of_ne (StableHlo.devRef_ne_of_ne (by decide : (main_v119_0 : Ref sig .tc) ≠ main_v119_1) : (Proc.devRef .tc main_v119_0 : DevRef τ sig) ≠ Proc.devRef .tc main_v119_1), Function.update_self]
theorem X15_b (c : Dev nD) : X15 m c main_v119_1 = (dats3 c (fun b => X14 m c b)).arrAt 4 cfg3.N := by
  unfold X15; rw [Function.update_self]
theorem X15_of (c : Dev nD) (r : Ref sig .tc) (h : r ∉ ([main_v119_0, main_v119_1] : List (Ref sig .tc))) : X15 m c r = X14 m c r := by
  unfold X15
  rw [Function.update_of_ne (StableHlo.devRef_ne_of_ne (List.ne_of_not_mem_cons (List.not_mem_of_not_mem_cons h)) : (Proc.devRef .tc r : DevRef τ sig) ≠ Proc.devRef .tc main_v119_1),
    Function.update_of_ne (StableHlo.devRef_ne_of_ne (List.ne_of_not_mem_cons h) : (Proc.devRef .tc r : DevRef τ sig) ≠ Proc.devRef .tc main_v119_0)]

def X18 (c : Dev nD) : Valuation τ sig (Elt F) :=
  StableHlo.after hostOps4_2 (StableHlo.after hostOps4_1 (StableHlo.after hostOps4 (X15 m c)))

/-- The unscoped buffers after region 4: as before it, but the two results at what the region leaves in them. -/
def X19 (c : Dev nD) : Valuation τ sig (Elt F) :=
  Function.update (Function.update (X18 m c) main_v164_0 ((dats4 c (fun b => X18 m c b)).arrAt 3 cfg4.N)) main_v164_1 ((dats4 c (fun b => X18 m c b)).arrAt 4 cfg4.N)
theorem X19_a (c : Dev nD) : X19 m c main_v164_0 = (dats4 c (fun b => X18 m c b)).arrAt 3 cfg4.N := by
  unfold X19; rw [Function.update_of_ne (StableHlo.devRef_ne_of_ne (by decide : (main_v164_0 : Ref sig .tc) ≠ main_v164_1) : (Proc.devRef .tc main_v164_0 : DevRef τ sig) ≠ Proc.devRef .tc main_v164_1), Function.update_self]
theorem X19_b (c : Dev nD) : X19 m c main_v164_1 = (dats4 c (fun b => X18 m c b)).arrAt 4 cfg4.N := by
  unfold X19; rw [Function.update_self]
theorem X19_of (c : Dev nD) (r : Ref sig .tc) (h : r ∉ ([main_v164_0, main_v164_1] : List (Ref sig .tc))) : X19 m c r = X18 m c r := by
  unfold X19
  rw [Function.update_of_ne (StableHlo.devRef_ne_of_ne (List.ne_of_not_mem_cons (List.not_mem_of_not_mem_cons h)) : (Proc.devRef .tc r : DevRef τ sig) ≠ Proc.devRef .tc main_v164_1),
    Function.update_of_ne (StableHlo.devRef_ne_of_ne (List.ne_of_not_mem_cons h) : (Proc.devRef .tc r : DevRef τ sig) ≠ Proc.devRef .tc main_v164_0)]

/-- What the regions leave, as the generated thread states read it: at item `J` the valuation after that item. -/
def outsX : Outs (F := F) := fun J r c =>
  match J with
  | 1 => X1 m c r
  | 7 => X7 m c r
  | 11 => X11 m c r
  | 15 => X15 m c r
  | 19 => X19 m c r
  | _ => m ((c : Thread nD τ).loc r)

/-- Updating a function at two distinct points with the values of its own twice-updated self gives that self. -/
theorem update2_self {α : Type} [DecidableEq α] {β : α → Type} (f : ∀ a, β a) (a b : α) (hab : a ≠ b) (x : β a) (y : β b) :
    Function.update (Function.update f a (Function.update (Function.update f a x) b y a)) b (Function.update (Function.update f a x) b y b)
      = Function.update (Function.update f a x) b y := by
  rw [Function.update_self, Function.update_of_ne hab, Function.update_self]

/-! ### The generated thread states at these unknowns are the valuations above -/

theorem V1_eq (c : Dev nD) : V1 m (outsX m) c = X1 m c := by
  show Function.update (Function.update (V0 m c) main_v0_0 (X1 m c main_v0_0)) main_v0_1 (X1 m c main_v0_1) = X1 m c
  unfold X1
  exact update2_self _ _ _ (StableHlo.devRef_ne_of_ne (by decide)) _ _
theorem V6_eq (c : Dev nD) : V6 m (outsX m) c = X6 m c := by
  show StableHlo.after hostOps1_4 (StableHlo.after hostOps1_3 (StableHlo.after hostOps1_2 (StableHlo.after hostOps1_1 (StableHlo.after hostOps1 (V1 m (outsX m) c))))) = _
  rw [V1_eq]; rfl
theorem V7_eq (c : Dev nD) : V7 m (outsX m) c = X7 m c := by
  show Function.update (Function.update (V6 m (outsX m) c) main_v29_0 (X7 m c main_v29_0)) main_v29_1 (X7 m c main_v29_1) = X7 m c
  rw [V6_eq]; unfold X7
  exact update2_self _ _ _ (StableHlo.devRef_ne_of_ne (by decide)) _ _
theorem V10_eq (c : Dev nD) : V10 m (outsX m) c = X10 m c := by
  show StableHlo.after hostOps2_2 (StableHlo.after hostOps2_1 (StableHlo.after hostOps2 (V7 m (outsX m) c))) = _
  rw [V7_eq]; rfl
theorem V11_eq (c : Dev nD) : V11 m (outsX m) c = X11 m c := by
  show Function.update (Function.update (V10 m (outsX m) c) main_v74_0 (X11 m c main_v74_0)) main_v74_1 (X11 m c main_v74_1) = X11 m c
  rw [V10_eq]; unfold X11
  exact update2_self _ _ _ (StableHlo.devRef_ne_of_ne (by decide)) _ _
theorem V14_eq (c : Dev nD) : V14 m (outsX m) c = X14 m c := by
  show StableHlo.after hostOps3_2 (StableHlo.after hostOps3_1 (StableHlo.after hostOps3 (V11 m (outsX m) c))) = _
  rw [V11_eq]; rfl
theorem V15_eq (c : Dev nD) : V15 m (outsX m) c = X15 m c := by
  show Function.update (Function.update (V14 m (outsX m) c) main_v119_0 (X15 m c main_v119_0)) main_v119_1 (X15 m c main_v119_1) = X15 m c
  rw [V14_eq]; unfold X15
  exact update2_self _ _ _ (StableHlo.devRef_ne_of_ne (by decide)) _ _
theorem V18_eq (c : Dev nD) : V18 m (outsX m) c = X18 m c := by
  show StableHlo.after hostOps4_2 (StableHlo.after hostOps4_1 (StableHlo.after hostOps4 (V15 m (outsX m) c))) = _
  rw [V15_eq]; rfl
theorem V19_eq (c : Dev nD) : V19 m (outsX m) c = X19 m c := by
  show Function.update (Function.update (V18 m (outsX m) c) main_v164_0 (X19 m c main_v164_0)) main_v164_1 (X19 m c main_v164_1) = X19 m c
  rw [V18_eq]; unfold X19
  exact update2_self _ _ _ (StableHlo.devRef_ne_of_ne (by decide)) _ _

-- from here on the valuations are opaque: what is used of them is the lemmas above
attribute [irreducible] X1 X6 X7 X10 X11 X14 X15 X18 X19

/-! ### Each region's arrays at its exit -/

set_option maxHeartbeats 1600000 in
/-- The valuation after region 0 holds each of the region's arrays at its final contents: an input at what it held (the
    region does not write it), each result at what the region's last write-back left. -/
theorem hF0 (c : Dev nD) (w : Fin cfg0.W) : ((pdats (V0 m) (X6 m) (X10 m) (X14 m) (X18 m)) 0 c).arrAt w cfg0.N = X1 m c (Pipeline.arrRef spec0 w) := by
  match w with
  | ⟨0, _⟩ =>
    rw [Dat.arrAt_in _ _ rfl]
    exact (X1_of m c main_arg1 (by decide)).symm
  | ⟨1, _⟩ => exact (X1_a m c).symm
  | ⟨2, _⟩ => exact (X1_b m c).symm

set_option maxHeartbeats 1600000 in
/-- Off the region's arrays the valuation after region 0 is the one before it. -/
theorem hrest0 (c : Dev nD) (b : Ref sig .tc) (hb : b ∉ Finset.univ.image (Pipeline.arrRef spec0)) : X1 m c b = V0 m c b :=
  X1_of m c b (fun h => hb (by
    simp only [List.mem_cons, List.mem_nil_iff, or_false] at h
    rcases h with rfl | rfl
    · exact Finset.mem_image.mpr ⟨1, Finset.mem_univ _, rfl⟩
    · exact Finset.mem_image.mpr ⟨2, Finset.mem_univ _, rfl⟩))

set_option maxHeartbeats 1600000 in
/-- The valuation after region 1 holds each of the region's arrays at its final contents: an input at what it held (the
    region does not write it), each result at what the region's last write-back left. -/
theorem hF1 (c : Dev nD) (w : Fin cfg1.W) : ((pdats (V0 m) (X6 m) (X10 m) (X14 m) (X18 m)) 1 c).arrAt w cfg1.N = X7 m c (Pipeline.arrRef spec1 w) := by
  match w with
  | ⟨0, _⟩ =>
    rw [Dat.arrAt_in _ _ rfl]
    exact (X7_of m c main_v0_1 (by decide)).symm
  | ⟨1, _⟩ =>
    rw [Dat.arrAt_in _ _ rfl]
    exact (X7_of m c main_v25 (by decide)).symm
  | ⟨2, _⟩ =>
    rw [Dat.arrAt_in _ _ rfl]
    exact (X7_of m c main_v28 (by decide)).symm
  | ⟨3, _⟩ => exact (X7_a m c).symm
  | ⟨4, _⟩ => exact (X7_b m c).symm

set_option maxHeartbeats 1600000 in
/-- Off the region's arrays the valuation after region 1 is the one before it. -/
theorem hrest1 (c : Dev nD) (b : Ref sig .tc) (hb : b ∉ Finset.univ.image (Pipeline.arrRef spec1)) : X7 m c b = X6 m c b :=
  X7_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

set_option maxHeartbeats 1600000 in
/-- The valuation after region 2 holds each of the region's arrays at its final contents: an input at what it held (the
    region does not write it), each result at what the region's last write-back left. -/
theorem hF2 (c : Dev nD) (w : Fin cfg2.W) : ((pdats (V0 m) (X6 m) (X10 m) (X14 m) (X18 m)) 2 c).arrAt w cfg2.N = X11 m c (Pipeline.arrRef spec2 w) := by
  match w with
  | ⟨0, _⟩ =>
    rw [Dat.arrAt_in _ _ rfl]
    exact (X11_of m c main_v0_1 (by decide)).symm
  | ⟨1, _⟩ =>
    rw [Dat.arrAt_in _ _ rfl]
    exact (X11_of m c main_v70 (by decide)).symm
  | ⟨2, _⟩ =>
    rw [Dat.arrAt_in _ _ rfl]
    exact (X11_of m c main_v73 (by decide)).symm
  | ⟨3, _⟩ => exact (X11_a m c).symm
  | ⟨4, _⟩ => exact (X11_b m c).symm

set_option maxHeartbeats 1600000 in
/-- Off the region's arrays the valuation after region 2 is the one before it. -/
theorem hrest2 (c : Dev nD) (b : Ref sig .tc) (hb : b ∉ Finset.univ.image (Pipeline.arrRef spec2)) : X11 m c b = X10 m c b :=
  X11_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

set_option maxHeartbeats 1600000 in
/-- The valuation after region 3 holds each of the region's arrays at its final contents: an input at what it held (the
    region does not write it), each result at what the region's last write-back left. -/
theorem hF3 (c : Dev nD) (w : Fin cfg3.W) : ((pdats (V0 m) (X6 m) (X10 m) (X14 m) (X18 m)) 3 c).arrAt w cfg3.N = X15 m c (Pipeline.arrRef spec3 w) := by
  match w with
  | ⟨0, _⟩ =>
    rw [Dat.arrAt_in _ _ rfl]
    exact (X15_of m c main_v0_1 (by decide)).symm
  | ⟨1, _⟩ =>
    rw [Dat.arrAt_in _ _ rfl]
    exact (X15_of m c main_v115 (by decide)).symm
  | ⟨2, _⟩ =>
    rw [Dat.arrAt_in _ _ rfl]
    exact (X15_of m c main_v118 (by decide)).symm
  | ⟨3, _⟩ => exact (X15_a m c).symm
  | ⟨4, _⟩ => exact (X15_b m c).symm

set_option maxHeartbeats 1600000 in
/-- Off the region's arrays the valuation after region 3 is the one before it. -/
theorem hrest3 (c : Dev nD) (b : Ref sig .tc) (hb : b ∉ Finset.univ.image (Pipeline.arrRef spec3)) : X15 m c b = X14 m c b :=
  X15_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

set_option maxHeartbeats 1600000 in
/-- The valuation after region 4 holds each of the region's arrays at its final contents: an input at what it held (the
    region does not write it), each result at what the region's last write-back left. -/
theorem hF4 (c : Dev nD) (w : Fin cfg4.W) : ((pdats (V0 m) (X6 m) (X10 m) (X14 m) (X18 m)) 4 c).arrAt w cfg4.N = X19 m c (Pipeline.arrRef spec4 w) := by
  match w with
  | ⟨0, _⟩ =>
    rw [Dat.arrAt_in _ _ rfl]
    exact (X19_of m c main_v0_1 (by decide)).symm
  | ⟨1, _⟩ =>
    rw [Dat.arrAt_in _ _ rfl]
    exact (X19_of m c main_v160 (by decide)).symm
  | ⟨2, _⟩ =>
    rw [Dat.arrAt_in _ _ rfl]
    exact (X19_of m c main_v163 (by decide)).symm
  | ⟨3, _⟩ => exact (X19_a m c).symm
  | ⟨4, _⟩ => exact (X19_b m c).symm

set_option maxHeartbeats 1600000 in
/-- Off the region's arrays the valuation after region 4 is the one before it. -/
theorem hrest4 (c : Dev nD) (b : Ref sig .tc) (hb : b ∉ Finset.univ.image (Pipeline.arrRef spec4)) : X19 m c b = X18 m c b :=
  X19_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

end Cert.Kernel.Hand

end
-- ==== Proof.K.Frame.lean ====
import proofs.«117539_j28759101014307_2_alg».proof.Proof.K.Vals
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

attribute [local irreducible] Pipeline.Dat.arrAt PhiS0 PhiS1 PhiS2 PhiS3 PhiS4 outsAt0 outsAt1 outsAt2 outsAt3 outsAt4

/-! ### The frame -/

/-- The launch element: the pipeline library's, at the staging cells and the pipelines' transfers. -/
def u₀ : UR sig nD τ := initOf (Pipeline.cells cfgs cellOf_inj) (Pipeline.launchToks cfgs cellOf_inj)

set_option backward.isDefEq.respectTransparency.types false in
/-- THE FRAME of the program at any float instance: every weakly fair execution of @main from a memory with zero counters
    terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine frame_cond (F := F) m (Ix := Unit) (U := UR sig nD τ) (Lvl := ℕ) (EP := emb₁) () Variants.none L₀ lv₀ (fun _ _ => rfl) ρ (outsX m) (pdats (V0 m) (X6 m) (X10 m) (X14 m) (X18 m))
    (fun _ => 0) (fun _ => iprop(emp)) u₀ ?hu (fun _ c => Rest c) ?hE0 (fun c => .rfl)
    (reg0 (V0 m) (X6 m) (X10 m) (X14 m) (X18 m) (X1 m) (hF0 m) (hrest0 m)) (fun c => .rfl) (fun c => by rw [V1_eq]; exact .rfl)
    (reg1 (V0 m) (X6 m) (X10 m) (X14 m) (X18 m) (X7 m) (hF1 m) (hrest1 m)) (fun c => by rw [V6_eq]; exact .rfl) (fun c => by rw [V7_eq]; exact .rfl)
    (reg2 (V0 m) (X6 m) (X10 m) (X14 m) (X18 m) (X11 m) (hF2 m) (hrest2 m)) (fun c => by rw [V10_eq]; exact .rfl) (fun c => by rw [V11_eq]; exact .rfl)
    (reg3 (V0 m) (X6 m) (X10 m) (X14 m) (X18 m) (X15 m) (hF3 m) (hrest3 m)) (fun c => by rw [V14_eq]; exact .rfl) (fun c => by rw [V15_eq]; exact .rfl)
    (reg4 (V0 m) (X6 m) (X10 m) (X14 m) (X18 m) (X19 m) (hF4 m) (hrest4 m)) (fun c => by rw [V18_eq]; exact .rfl) (fun c => by rw [V19_eq]; exact .rfl)
  case hu =>
    unfold u₀
    rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  case hE0 =>
    refine Pipeline.initEach L₀ lv₀ fun c => ?_
    iintro ⟨⟨-, HO, -, -, -⟩, -⟩
    imodintro
    iexists ∅; iexact HO

end Cert.Kernel.Hand

end
-- ==== Proof.KI.R0Cond.lean ====
import proofs.«117539_j28759101014307_2_alg».proof.Proof.Gen.KernelIdeal.Launch
import proofs.«117539_j28759101014307_2_alg».proof.Proof.Gen.KernelIdeal.Skeleton
import proofs.«117539_j28759101014307_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The row-sum region (pallas_call 0): the branch conditions over the grid

The grid is 4 × 4: the second coordinate `k` walks the four column blocks of a block row of the adjacency. The first
conditional (`k = 0`) resets the row-sum accumulator; the second (`k = 3`, the last block) copies it to the degree output. -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

end Cert.KernelIdeal.Hand

end
-- ==== Proof.KI.R0RunA.lean ====
import proofs.«117539_j28759101014307_2_alg».proof.Proof.KI.R0Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 0`: the accumulator is reset and receives the first column block's row sums; the cast
    block is stored; the degree output's buffer is not touched. -/
noncomputable def kernelRun0_A (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i)
    (x0 : Vec F S2048x2048 .f32) :
    Σ' (L2 : List (View.Piece (Elt F) S2048x2048 .bf16)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__row_sum_cast_kernel i arg2 harg2 arg3 harg3 arg4 harg4 arg5 harg5) K } := by
  refine ⟨?_, ?_, fun xi1 E K => ?run⟩
  case run =>
    simp only [cc0__row_sum_cast_kernel_eq_skeleton]; unfold cc0__row_sum_cast_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R0RunB.lean ====
import proofs.«117539_j28759101014307_2_alg».proof.Proof.KI.R0Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 1` or `k = 2`: the accumulator, carried from the point before at `xs0`, receives this
    column block's row sums; the cast block is stored; the degree output's buffer is not touched. -/
noncomputable def kernelRun0_B (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i)
    (x0 : Vec F S2048x2048 .f32) (xs0 : Vec F S2048x1 .f32) :
    Σ' (L2 : List (View.Piece (Elt F) S2048x2048 .bf16)), { LS0 : List (View.Piece (Elt F) S2048x1 .f32) //
      ∀ (xi1 : Vec F S2048x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__row_sum_cast_kernel i arg2 harg2 arg3 harg3 arg4 harg4 arg5 harg5) K } := by
  refine ⟨?_, ?_, fun xi1 E K => ?run⟩
  case run =>
    simp only [cc0__row_sum_cast_kernel_eq_skeleton]; unfold cc0__row_sum_cast_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R0RunC.lean ====
import proofs.«117539_j28759101014307_2_alg».proof.Proof.KI.R0Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 3` (the last column block): the accumulator, carried at `xs0`, receives this block's row
    sums and is copied whole into the degree output's staging buffer; the cast block is stored. -/
noncomputable def kernelRun0_C (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i)
    (x0 : Vec F S2048x2048 .f32) (xs0 : Vec F S2048x1 .f32) :
    Σ' (L1 : List (View.Piece (Elt F) S2048x1 .f32)) (L2 : List (View.Piece (Elt F) S2048x2048 .bf16)), { LS0 : List (View.Piece (Elt F) S2048x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__row_sum_cast_kernel i arg2 harg2 arg3 harg3 arg4 harg4 arg5 harg5) K } := by
  refine ⟨?_, ?_, ?_, fun E K => ?run⟩
  case run =>
    simp only [cc0__row_sum_cast_kernel_eq_skeleton]; unfold cc0__row_sum_cast_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS0

end Cert.KernelIdeal.Hand

end
-- ==== Proof.KI.R0Data.lean ====
import proofs.«117539_j28759101014307_2_alg».proof.Proof.KI.R0RunA
import proofs.«117539_j28759101014307_2_alg».proof.Proof.KI.R0RunB
import proofs.«117539_j28759101014307_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The row-sum region: what its buffers hold point by point

The region's three windows are the adjacency block (2048 × 2048, f32), the degree column's block (2048 × 1) and the cast
block (2048 × 2048, bf16). Along `k` the scratch accumulator carries the partial row sums from the first column block
(reset) through the middle ones to the last (copied out). -/

variable (c : Dev nD) (W : (b : Ref sig .tc) → Buf (Elt F) ((c : Thread nD τ).loc b))

/-- Window `w`'s block at point `t`, read off its array as the region finds it. -/
def iblk0 (w : Fin cfg0.W) (t : Fin cfg0.N) : ((cfg0.win w).xblock (cfg0.grid.coords t)).Idx → Elt F (cfg0.win w).elt :=
  ((cfg0.win w).blk t).view.read (Elt F) (W (Pipeline.arrRef spec0 w))

abbrev VO0_1 : View sig .tc .vmem S2048x1 .f32 := (Memref.whole cc0_stg1_0 : Memref sig .tc .vmem S2048x1 .f32).view
abbrev VO0_2 : View sig .tc .vmem S2048x2048 .bf16 := (Memref.whole cc0_stg2_0 : Memref sig .tc .vmem S2048x2048 .bf16).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
abbrev scM0_0 : Memref sig .tc .vmem S2048x1 .f32 := Memref.whole cc0_scratch0
abbrev VS0_0 : View sig .tc .vmem S2048x1 .f32 := scM0_0.view

/-! ### Where the windows are idle -/

theorem liveAt0_0 : ∀ t : Fin cfg0.N, cfg0.idle 0 (grid0.coords t) = false := by decide +kernel
theorem liveAt0_2 : ∀ t : Fin cfg0.N, cfg0.idle 2 (grid0.coords t) = false := by decide +kernel
theorem idleAt0_1_N : ∀ t : Fin cfg0.N, ¬cond0_1 (grid0.coords t) → cfg0.idle 1 (grid0.coords t) = true := by decide +kernel
theorem noFlush0_1_N : ∀ t : Fin cfg0.N, ¬cond0_1 (grid0.coords t) → (cfg0.win 1).flush t = false := by decide +kernel
theorem liveAt0_1_C : ∀ t : Fin cfg0.N, cond0_1 (grid0.coords t) → cfg0.idle 1 (grid0.coords t) = false := by decide +kernel

/-! ### What each case leaves: (degree output, cast output, accumulator) -/

def res0A (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) : (Vec F S2048x1 .f32 × Vec F S2048x2048 .bf16 × Vec F S2048x1 .f32) :=
  (VO0_1.read (Elt F) VO0_1.junk,
   VO0_2.read (Elt F) (VO0_2.writes (Elt F) VO0_2.junk (kernelRun0_A c i arg2 harg2 arg3 harg3 arg4 harg4 arg5 harg5 hc0 hc1 x0).1),
   VS0_0.read (Elt F) (VS0_0.writes (Elt F) VS0_0.junk (kernelRun0_A c i arg2 harg2 arg3 harg3 arg4 harg4 arg5 harg5 hc0 hc1 x0).2.1))
theorem cover0A_2 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) (y : S2048x2048.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S2048x2048.size (by sl_kernel_rfl) y
theorem scover0A_0 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) (y : S2048x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S2048x1.size (by sl_kernel_rfl) y

def res0B (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) : (Vec F S2048x1 .f32 × Vec F S2048x2048 .bf16 × Vec F S2048x1 .f32) :=
  (VO0_1.read (Elt F) VO0_1.junk,
   VO0_2.read (Elt F) (VO0_2.writes (Elt F) VO0_2.junk (kernelRun0_B c i arg2 harg2 arg3 harg3 arg4 harg4 arg5 harg5 hc0 hc1 x0 xs0).1),
   VS0_0.read (Elt F) (VS0_0.writes (Elt F) VS0_0.junk (kernelRun0_B c i arg2 harg2 arg3 harg3 arg4 harg4 arg5 harg5 hc0 hc1 x0 xs0).2.1))
theorem cover0B_2 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) (y : S2048x2048.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S2048x2048.size (by sl_kernel_rfl) y
theorem scover0B_0 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) (y : S2048x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S2048x1.size (by sl_kernel_rfl) y

def res0C (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) : (Vec F S2048x1 .f32 × Vec F S2048x2048 .bf16 × Vec F S2048x1 .f32) :=
  (VO0_1.read (Elt F) (VO0_1.writes (Elt F) VO0_1.junk (kernelRun0_C c i arg2 harg2 arg3 harg3 arg4 harg4 arg5 harg5 hc0 hc1 x0 xs0).1),
   VO0_2.read (Elt F) (VO0_2.writes (Elt F) VO0_2.junk (kernelRun0_C c i arg2 harg2 arg3 harg3 arg4 harg4 arg5 harg5 hc0 hc1 x0 xs0).2.1),
   VS0_0.read (Elt F) (VS0_0.writes (Elt F) VS0_0.junk (kernelRun0_C c i arg2 harg2 arg3 harg3 arg4 harg4 arg5 harg5 hc0 hc1 x0 xs0).2.2.1))
theorem cover0C_1 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S2048x1.size (by sl_kernel_rfl) y
theorem cover0C_2 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) (y : S2048x2048.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S2048x2048.size (by sl_kernel_rfl) y
theorem scover0C_0 (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) (y : S2048x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S2048x1.size (by sl_kernel_rfl) y

/-! ### The accumulation over the grid -/

theorem N0_eq : cfg0.N = 16 := N_0

/-- What the two outputs' staging buffers and the accumulator hold after the body at position `n`: by the position's
    residue mod 4 — reset at 0, accumulate at 1 and 2, accumulate and copy out at 3 —, each later case over what the position
    before left in the accumulator. -/
def outsAt0 : (n : ℕ) → n < cfg0.N → (Vec F S2048x1 .f32 × Vec F S2048x2048 .bf16 × Vec F S2048x1 .f32)
  | 0, hn => res0A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 c W 0 ⟨0, hn⟩)
  | n + 1, hn =>
    if h0 : (n + 1) % 4 = 0 then
      if h1 : (n + 1) % 4 = 3 then False.elim (by omega)
      else res0A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 c W 0 ⟨n + 1, hn⟩)
    else
      if h1 : (n + 1) % 4 = 3 then
        res0C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 c W 0 ⟨n + 1, hn⟩) (outsAt0 n (Nat.lt_of_succ_lt hn)).2.2
      else
        res0B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 c W 0 ⟨n + 1, hn⟩) (outsAt0 n (Nat.lt_of_succ_lt hn)).2.2

theorem outsAt0_A (t : Fin cfg0.N) (h0 : t.val % 4 = 0) (h1 : ¬t.val % 4 = 3) :
    outsAt0 c W t.val t.isLt = res0A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 c W 0 t) := by
  obtain ⟨n, hn⟩ := t
  cases n with
  | zero => exact rfl
  | succ n => exact (dif_pos h0).trans ((dif_neg h1).trans rfl)

theorem outsAt0_B (t : Fin cfg0.N) (h0 : ¬t.val % 4 = 0) (h1 : ¬t.val % 4 = 3) :
    outsAt0 c W t.val t.isLt = res0B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 c W 0 t)
      (outsAt0 c W (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (t : Fin cfg0.N) (h0 : ¬t.val % 4 = 0) (h1 : t.val % 4 = 3) :
    outsAt0 c W t.val t.isLt = res0C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 c W 0 t)
      (outsAt0 c W (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

end Cert.KernelIdeal.Hand

end
-- ==== Proof.KI.R0Body.lean ====
import proofs.«117539_j28759101014307_2_alg».proof.Proof.KI.R0Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (c : Dev nD) (W : (b : Ref sig .tc) → Buf (Elt F) ((c : Thread nD τ).loc b))

/-! ## The row-sum region: the invariant, the proof data and the body at every point -/

theorem scopedRest0_eq :
    (Pipeline.scopedRest (Ix := Unit) (Name := ℕ) (U := UR sig nD τ) (Lvl := ℕ) (Val := Elt F) spec0 c : sProp 𝕄) = iprop(iprop((∃ d, owns (c : Thread nD τ) scM0_0 fullShare d)) ∗ Pipeline.scopedRestBut (Ix := Unit) (Name := ℕ) (U := UR sig nD τ) (Lvl := ℕ) (Val := Elt F) spec0 c [cc0_scratch0]) := by
  rw [scopedRest0_split]; simp only [scM0_0, owns_whole]; try rfl

/-- The region's invariant before position `n`: the scoped rest as handed at the start; afterwards the accumulator at what
    the point before left in it, beside the other scoped buffers. -/
def PhiS0 : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 c W n hn).2.2) ∗ Pipeline.scopedRestBut (Ix := Unit) (Name := ℕ) (U := UR sig nD τ) (Lvl := ℕ) (Val := Elt F) spec0 c [cc0_scratch0])

theorem PhiS0_zero (n : ℕ) (h : n ≤ cfg0.N) (hz : n = 0) : PhiS0 c W n h = Pipeline.scopedRest (Ix := Unit) (Name := ℕ) (U := UR sig nD τ) (Lvl := ℕ) (Val := Elt F) spec0 c := by
  subst hz; rfl
theorem PhiS0_succ (n : ℕ) (hn : n < cfg0.N) :
    PhiS0 c W (n + 1) hn = iprop(owns (c : Thread nD τ) scM0_0 fullShare ((outsAt0 c W n hn).2.2) ∗ Pipeline.scopedRestBut (Ix := Unit) (Name := ℕ) (U := UR sig nD τ) (Lvl := ℕ) (Val := Elt F) spec0 c [cc0_scratch0]) := rfl
theorem PhiS0_pos (n : ℕ) (h : n ≤ cfg0.N) (hz : n ≠ 0) :
    PhiS0 c W n h = iprop(owns (c : Thread nD τ) scM0_0 fullShare ((outsAt0 c W (n - 1) (by omega)).2.2) ∗ Pipeline.scopedRestBut (Ix := Unit) (Name := ℕ) (U := UR sig nD τ) (Lvl := ℕ) (Val := Elt F) spec0 c [cc0_scratch0]) := by
  cases n with
  | zero => exact absurd rfl hz
  | succ n => rfl

/-- The proof data of the row-sum region on core `c`, entered with the unscoped buffers at `W`. -/
def dats0 : Dat τ (Elt F) Unit ℕ (UR sig nD τ) ℕ cfg0 c where
  A w := W (Pipeline.arrRef spec0 w)
  after w t := match w with
    | ⟨0, _⟩ => iblk0 c W 0 t
    | ⟨1, _⟩ => (outsAt0 c W t.val t.isLt).1
    | ⟨2, _⟩ => (outsAt0 c W t.val t.isLt).2.1
  Φ t := PhiS0 c W t.val (Nat.le_of_lt_succ t.isLt)
  q _ := fullShare
  owed _ := 0

theorem A0_eq (w : Fin cfg0.W) : (dats0 c W).A w = W (Pipeline.arrRef spec0 w) := by dsimp only [dats0]
theorem PhiS0_castSucc (t : Fin cfg0.N) : (dats0 c W).Φ t.castSucc = PhiS0 c W t.val (Nat.le_of_lt t.isLt) := by
  dsimp only [dats0]; simp only [Fin.coe_castSucc]
theorem after0_0 (t : Fin cfg0.N) : (dats0 c W).after 0 t = iblk0 c W 0 t := by dsimp only [dats0]
theorem after0_1 (t : Fin cfg0.N) : (dats0 c W).after 1 t = (outsAt0 c W t.val t.isLt).1 := by dsimp only [dats0]
theorem after0_2 (t : Fin cfg0.N) : (dats0 c W).after 2 t = (outsAt0 c W t.val t.isLt).2.1 := by dsimp only [dats0]

theorem before0_0 (t : Fin cfg0.N) (d) : (dats0 c W).before 0 t d = iblk0 c W 0 t :=
  ((dats0 c W).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)

def bodyPre0 (t : Fin cfg0.N) : sProp 𝕄 :=
  iprop((dats0 c W).Φ t.castSucc ∗ (dats0 c W).owesAt () t.castSucc
    ∗ (∃ d, owns (c : Thread nD τ) (ms0_0 t) fullShare ((dats0 c W).before 0 t d))
    ∗ (∃ d, owns (c : Thread nD τ) (ms0_1 t) fullShare ((dats0 c W).before 1 t d))
    ∗ (∃ d, owns (c : Thread nD τ) (ms0_2 t) fullShare ((dats0 c W).before 2 t d)))

def bodyPost0 (t : Fin cfg0.N) : sProp 𝕄 :=
  iprop((dats0 c W).Φ t.succ ∗ (dats0 c W).owesAt () t.succ
    ∗ (dats0 c W).leavesExact 0 t ∗ (dats0 c W).leavesExact 1 t ∗ (dats0 c W).leavesExact 2 t)

set_option maxHeartbeats 4800000 in
/-- The body at any point: the input's memref holds its block; the point's residue mod 4 says which case it is in; the
    invariant hands the body the accumulator (at anything at the first point, else at what the point before left) and takes
    it back at this point's contents; the core owes nothing throughout. -/
theorem sound_body0 (t : Fin cfg0.N) :
    bodyPre0 c W t ⊢ wp frame (wpE (defs₀ (F := F)) Variants.none c none) Set.univ (bodyAt0 t) (fun _ => bodyPost0 c W t) := by
  unfold bodyPre0 bodyPost0 bodyAt0
  simp only [before0_0]
  rw [show (dats0 c W).owesAt () t.succ = (dats0 c W).owesAt () t.castSucc from rfl]
  rw [show (dats0 c W).Φ t.succ = PhiS0 c W (t.val + 1) t.isLt from rfl, PhiS0_succ]
  have hN : t.val < 16 := lt_of_lt_of_eq t.isLt N0_eq
  rw [show (dats0 c W).leavesExact 0 t = owns (c : Thread nD τ) (ms0_0 t) fullShare ((dats0 c W).after 0 t) from by
    unfold Dat.leavesExact; rw [liveAt0_0 t], after0_0]
  rw [show (dats0 c W).leavesExact 2 t = owns (c : Thread nD τ) (ms0_2 t) fullShare ((dats0 c W).after 2 t) from by
    unfold Dat.leavesExact; rw [liveAt0_2 t], after0_2]
  by_cases h0 : t.val % 4 = 0
  · have h1 : ¬t.val % 4 = 3 := by omega
    have hc1 : ¬cond0_1 (grid0.coords t) := fun h => h1 ((hcond0_1 t).mp h)
    rw [Dat.leavesExact_idle (dats0 c W) 1 t (idleAt0_1_N t hc1) (noFlush0_1_N t hc1)]
    rw [outsAt0_A c W t h0 h1]
    unfold res0A; (try dsimp only)
    by_cases hz : t.val = 0
    · rw [PhiS0_castSucc c W t, PhiS0_zero c W _ _ hz, scopedRest0_eq]
      iintro ⟨⟨HS0, Hr⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 c W 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover0A_0 c _ _ _ _ _ _ _ _ _ _ _ _)
        iexact Hr
      isplitl [Ho]; · iexact Ho
      isplitl [H0]; · iexact H0
      isplitl [H1]; · iexists _; iexact H1
      · unfold owns; iexists _; isplitr
        swap; · iexact H2
        ipureintro; exact View.read_writes_of_cover _ _ _ _ _ (cover0A_2 c _ _ _ _ _ _ _ _ _ _ _ _)
    · rw [PhiS0_castSucc c W t, PhiS0_pos c W _ _ hz]
      iintro ⟨⟨HS0, Hr⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 c W 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover0A_0 c _ _ _ _ _ _ _ _ _ _ _ _)
        iexact Hr
      isplitl [Ho]; · iexact Ho
      isplitl [H0]; · iexact H0
      isplitl [H1]; · iexists _; iexact H1
      · unfold owns; iexists _; isplitr
        swap; · iexact H2
        ipureintro; exact View.read_writes_of_cover _ _ _ _ _ (cover0A_2 c _ _ _ _ _ _ _ _ _ _ _ _)
  · have hz : t.val ≠ 0 := by omega
    by_cases h1 : t.val % 4 = 3
    · rw [show (dats0 c W).leavesExact 1 t = owns (c : Thread nD τ) (ms0_1 t) fullShare ((dats0 c W).after 1 t) from by
        unfold Dat.leavesExact; rw [liveAt0_1_C t ((hcond0_1 t).mpr h1)], after0_1]
      rw [outsAt0_C c W t h0 h1]
      unfold res0C; (try dsimp only)
      rw [PhiS0_castSucc c W t, PhiS0_pos c W _ _ hz]
      iintro ⟨⟨HS0, Hr⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 c W 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 Hr]
      · isplitl [HS0]
        · unfold owns; iexists _; isplitr
          swap; · iexact HS0
          ipureintro; exact View.read_writes_of_cover _ _ _ _ _ (scover0C_0 c _ _ _ _ _ _ _ _ _ _ _ _ _)
        iexact Hr
      isplitl [Ho]; · iexact Ho
      isplitl [H0]; · iexact H0
      isplitl [H1]
      · unfold owns; iexists _; isplitr
        swap; · iexact H1
        ipureintro; exact View.read_writes_of_cover _ _ _ _ _ (cover0C_1 c _ _ _ _ _ _ _ _ _ _ _ _ _)
      · unfold owns; iexists _; isplitr
        swap; · iexact H2
        ipureintro; exact View.read_writes_of_cover _ _ _ _ _ (cover0C_2 c _ _ _ _ _ _ _ _ _ _ _ _ _)
    · have hc1 : ¬cond0_1 (grid0.coords t) := fun h => h1 ((hcond0_1 t).mp h)
      rw [Dat.leavesExact_idle (dats0 c W) 1 t (idleAt0_1_N t hc1) (noFlush0_1_N t hc1)]
      rw [outsAt0_B c W t h0 h1]
      unfold res0B; (try dsimp only)
      rw [PhiS0_castSucc c W t, PhiS0_pos c W _ _ hz]
      iintro ⟨⟨HS0, Hr⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 c W 0 t) _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover0B_0 c _ _ _ _ _ _ _ _ _ _ _ _ _)
        iexact Hr
      isplitl [Ho]; · iexact Ho
      isplitl [H0]; · iexact H0
      isplitl [H1]; · iexists _; iexact H1
      · unfold owns; iexists _; isplitr
        swap; · iexact H2
        ipureintro; exact View.read_writes_of_cover _ _ _ _ _ (cover0B_2 c _ _ _ _ _ _ _ _ _ _ _ _ _)

/-- The library's body obligation, at every point. -/
theorem body_obligation0 : BodyObligation (dats0 (F := F) c W) (defs₀ (F := F)) Variants.none () Set.univ := fun t => by
  rw [bigSep_W0, bigSep_W0]
  exact sound_body0 c W t

/-- The scoped rest as the launch hands it is the invariant before the first point. -/
theorem Phi0_in (t : Fin (cfg0.N + 1)) (ht : t.val = 0) : Pipeline.scopedRest (Ix := Unit) (Name := ℕ) (U := UR sig nD τ) (Lvl := ℕ) (Val := Elt F) spec0 c ⊢ (dats0 c W).Φ t := by
  rw [show (dats0 c W).Φ t = PhiS0 c W t.val (Nat.le_of_lt_succ t.isLt) from rfl, PhiS0_zero c W _ _ ht]

/-- After any point but the first the invariant gives the scoped rest back: the accumulator's contents are forgotten. -/
theorem Phi0_out (t : Fin (cfg0.N + 1)) (ht : t.val ≠ 0) : (dats0 c W).Φ t ⊢ (Pipeline.scopedRest (Ix := Unit) (Name := ℕ) (U := UR sig nD τ) (Lvl := ℕ) (Val := Elt F) spec0 c : sProp 𝕄) := by
  rw [show (dats0 c W).Φ t = PhiS0 c W t.val (Nat.le_of_lt_succ t.isLt) from rfl, PhiS0_pos c W _ _ ht, scopedRest0_eq]
  iintro ⟨HS0, Hr⟩
  isplitl [HS0]; · iexists _; iexact HS0
  iexact Hr

end Cert.KernelIdeal.Hand

end
-- ==== Proof.KI.R1Cond.lean ====
import proofs.«117539_j28759101014307_2_alg».proof.Proof.Gen.KernelIdeal.Launch
import proofs.«117539_j28759101014307_2_alg».proof.Proof.Gen.KernelIdeal.Skeleton
import proofs.«117539_j28759101014307_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region (pallas_call 1): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond1_0 (i : grid1.Coords) : Prop := (Scalar.cmpi .ne (Scalar.extui (Scalar.cmpi .eq (BitVec.ofNat 32 (i 1).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The write-out condition of the body. -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

end Cert.KernelIdeal.Hand

end
-- ==== Proof.KI.R1RunA.lean ====
import proofs.«117539_j28759101014307_2_alg».proof.Proof.KI.R1Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 0`: both accumulators are reset to zero and then receive the first half's
    products; the outputs' staging buffers are not touched. The pieces each accumulator ends with are found by the run. -/
noncomputable def kernelRun1_A (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__ahat_matmul_kernel i arg2 harg2 arg3 harg3 arg4 harg4 arg5 harg5 arg6 harg6 arg7 harg7 arg8 harg8) K } := by
  refine ⟨?_, ?_, fun xi3 xi4 E K => ?run⟩
  case run =>
    simp only [cc1__ahat_matmul_kernel_eq_skeleton]; unfold cc1__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KI.R1RunB.lean ====
import proofs.«117539_j28759101014307_2_alg».proof.Proof.KI.R1Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun1_B (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__ahat_matmul_kernel i arg2 harg2 arg3 harg3 arg4 harg4 arg5 harg5 arg6 harg6 arg7 harg7 arg8 harg8) K } := by
  refine ⟨?_, ?_, ?_, ?_, fun E K => ?run⟩
  case run =>
    simp only [cc1__ahat_matmul_kernel_eq_skeleton]; unfold cc1__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R1Data.lean ====
import proofs.«117539_j28759101014307_2_alg».proof.Proof.KI.R1RunA
import proofs.«117539_j28759101014307_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (W (Pipeline.arrRef spec1 w))

/-- One staging buffer of each output window, through which its contents are stated. -/
abbrev VO1_3 : View sig .tc .vmem S2048x128 .f32 := (Memref.whole cc1_stg3_0 : Memref sig .tc .vmem S2048x128 .f32).view
abbrev VO1_4 : View sig .tc .vmem S2048x128 .f32 := (Memref.whole cc1_stg4_0 : Memref sig .tc .vmem S2048x128 .f32).view
/-- Each window's current staging memref at point `t`, and its wholeness. -/
abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S2048x128 .f32 := Memref.whole cc1_scratch0
abbrev scM1_1 : Memref sig .tc .vmem S2048x128 .f32 := Memref.whole cc1_scratch1
abbrev VS1_0 : View sig .tc .vmem S2048x128 .f32 := scM1_0.view
abbrev VS1_1 : View sig .tc .vmem S2048x128 .f32 := scM1_1.view

/-! ### Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem liveAt1_3_B : ∀ t : Fin cfg1.N, ¬cond1_0 (grid1.coords t) → cond1_1 (grid1.coords t) → cfg1.idle 3 (grid1.coords t) = false := by decide +kernel
theorem liveAt1_4_B : ∀ t : Fin cfg1.N, ¬cond1_0 (grid1.coords t) → cond1_1 (grid1.coords t) → cfg1.idle 4 (grid1.coords t) = false := by decide +kernel

/-! ### What each case leaves: (output 3, output 4, accumulator 0, accumulator 1) -/

/-- The reset case: the outputs are not touched (placeholders nothing reads); each accumulator holds its pieces. -/
def resA (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO1_3.read (Elt F) VO1_3.junk, VO1_4.read (Elt F) VO1_4.junk,
   VS1_0.read (Elt F) (VS1_0.writes (Elt F) VS1_0.junk (kernelRun1_A c i arg2 harg2 arg3 harg3 arg4 harg4 arg5 harg5 arg6 harg6 arg7 harg7 arg8 harg8 hc0 hc1 x0 x1 x2).1),
   VS1_1.read (Elt F) (VS1_1.writes (Elt F) VS1_1.junk (kernelRun1_A c i arg2 harg2 arg3 harg3 arg4 harg4 arg5 harg5 arg6 harg6 arg7 harg7 arg8 harg8 hc0 hc1 x0 x1 x2).2.1))

theorem scoverA_0 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) (y : S2048x128.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S2048x128.size (by sl_kernel_rfl) y
theorem scoverA_1 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) (y : S2048x128.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def resB (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1).1),
   VO1_4.read (Elt F) (VO1_4.writes (Elt F) VO1_4.junk (kernelRun1_B c i arg2 harg2 arg3 harg3 arg4 harg4 arg5 harg5 arg6 harg6 arg7 harg7 arg8 harg8 hc0 hc1 x0 x1 x2 xs0 xs1).2.1),
   VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1).2.2.1),
   VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1).2.2.2.1))

theorem coverB_3 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).1, y ∈ pc.1.set :=
  View.cover_of_tiledL (kernelRun1_B c i arg2 harg2 arg3 harg3 arg4 harg4 arg5 harg5 arg6 harg6 arg7 harg7 arg8 harg8 hc0 hc1 x0 x1 x2 xs0 xs1).1 S2048x128.size (by sl_kernel_rfl) y
theorem coverB_4 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).2.1, y ∈ pc.1.set :=
  View.cover_of_tiledL (kernelRun1_B c i arg2 harg2 arg3 harg3 arg4 harg4 arg5 harg5 arg6 harg6 arg7 harg7 arg8 harg8 hc0 hc1 x0 x1 x2 xs0 xs1).2.1 S2048x128.size (by sl_kernel_rfl) y
theorem scoverB_0 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 xs0 xs1).2.2.1 S2048x128.size (by sl_kernel_rfl) y
theorem scoverB_1 (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N1_eq : cfg1.N = 8 := N_1

/-- What the two outputs' staging buffers and the two accumulators hold after the body at position `n`: the reset case at
    even positions, the write-out case at odd ones over what the position before left in the accumulators. -/
def outsAt1 : (n : ℕ) → n < cfg1.N → (Vec F S2048x128 .f32 × Vec F S2048x128 .f32 × Vec F S2048x128 .f32 × Vec F S2048x128 .f32)
  | 0, hn => resA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk c W 0 ⟨0, hn⟩) (iblk c W 1 ⟨0, hn⟩) (iblk c W 2 ⟨0, hn⟩)
  | n + 1, hn =>
    if h0 : (n + 1) % 2 = 0 then
      resA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => (fun h => by (try dsimp only at h); omega) ((hcond1_1 ⟨n + 1, hn⟩).mp h)) (iblk c W 0 ⟨n + 1, hn⟩) (iblk c W 1 ⟨n + 1, hn⟩) (iblk c W 2 ⟨n + 1, hn⟩)
    else
      resB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr (by (try dsimp only); omega)) (iblk c W 0 ⟨n + 1, hn⟩) (iblk c W 1 ⟨n + 1, hn⟩) (iblk c W 2 ⟨n + 1, hn⟩)
        (outsAt1 n (Nat.lt_of_succ_lt hn)).2.2.1 (outsAt1 n (Nat.lt_of_succ_lt hn)).2.2.2

theorem outsAt1_A (t : Fin cfg1.N) (h0 : t.val % 2 = 0) :
    outsAt1 c W t.val t.isLt = resA c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => (fun h => by omega) ((hcond1_1 t).mp h)) (iblk c W 0 t) (iblk c W 1 t) (iblk c W 2 t) := by
  obtain ⟨n, hn⟩ := t
  cases n with
  | zero => exact rfl
  | succ n => exact (dif_pos h0).trans rfl

theorem outsAt1_B (t : Fin cfg1.N) (h0 : ¬t.val % 2 = 0) :
    outsAt1 c W t.val t.isLt = resB c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr (by omega)) (iblk c W 0 t) (iblk c W 1 t) (iblk c W 2 t)
      (outsAt1 c W (t.val - 1) (Nat.lt_of_le_of_lt (Nat.sub_le _ _) t.isLt)).2.2.1 (outsAt1 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.KernelIdeal.Hand

end
-- ==== Proof.KI.R1Body.lean ====
import proofs.«117539_j28759101014307_2_alg».proof.Proof.KI.R1Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest1_eq :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [scM1_0, scM1_1, owns_whole]; try rfl

/-- The region's invariant before position `n`: before the first point the scoped rest as the launch hands it; afterwards
    the two accumulators at what the point before left in them, beside the other scoped buffers. -/
def PhiS1 : (n : ℕ) → n ≤ cfg1.N → sProp 𝕄
  | 0, _ => Pipeline.scopedRest (Ix := Unit) (Name := ℕ) (U := UR sig nD τ) (Lvl := ℕ) (Val := Elt F) spec1 c
  | n + 1, hn => iprop(iprop(owns (c : Thread nD τ) scM1_0 fullShare ((outsAt1 c W n hn).2.2.1) ∗ owns (c : Thread nD τ) scM1_1 fullShare ((outsAt1 c W n hn).2.2.2))
      ∗ Pipeline.scopedRestBut (Ix := Unit) (Name := ℕ) (U := UR sig nD τ) (Lvl := ℕ) (Val := Elt F) spec1 c [cc1_scratch0, cc1_scratch1])

theorem PhiS1_zero (n : ℕ) (h : n ≤ cfg1.N) (hz : n = 0) :
    PhiS1 c W n h = Pipeline.scopedRest (Ix := Unit) (Name := ℕ) (U := UR sig nD τ) (Lvl := ℕ) (Val := Elt F) spec1 c := by
  subst hz; rfl

theorem PhiS1_succ (n : ℕ) (hn : n < cfg1.N) :
    PhiS1 c W (n + 1) hn = iprop(iprop(owns (c : Thread nD τ) scM1_0 fullShare ((outsAt1 c W n hn).2.2.1) ∗ owns (c : Thread nD τ) scM1_1 fullShare ((outsAt1 c W n hn).2.2.2))
      ∗ Pipeline.scopedRestBut (Ix := Unit) (Name := ℕ) (U := UR sig nD τ) (Lvl := ℕ) (Val := Elt F) spec1 c [cc1_scratch0, cc1_scratch1]) := rfl

theorem PhiS1_pos (n : ℕ) (h : n ≤ cfg1.N) (hz : n ≠ 0) :
    PhiS1 c W n h = iprop(iprop(owns (c : Thread nD τ) scM1_0 fullShare ((outsAt1 c W (n - 1) (by omega)).2.2.1) ∗ owns (c : Thread nD τ) scM1_1 fullShare ((outsAt1 c W (n - 1) (by omega)).2.2.2))
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-- The proof data of the matmul region on core `c`, entered with the unscoped buffers at `W`: each input's buffer at its
    block, each output's at the accumulation's component, the invariant above, nothing owed, full shares. -/
def dats1 : Dat τ (Elt F) Unit ℕ (UR sig nD τ) ℕ cfg1 c where
  A w := W (Pipeline.arrRef spec1 w)
  after w t := match w with
    | ⟨0, _⟩ => iblk c W 0 t
    | ⟨1, _⟩ => iblk c W 1 t
    | ⟨2, _⟩ => iblk c W 2 t
    | ⟨3, _⟩ => (outsAt1 c W t.val t.isLt).1
    | ⟨4, _⟩ => (outsAt1 c W t.val t.isLt).2.1
  Φ t := PhiS1 c W t.val (Nat.le_of_lt_succ t.isLt)
  q _ := fullShare
  owed _ := 0

theorem A1_eq (w : Fin cfg1.W) : (dats1 c W).A w = W (Pipeline.arrRef spec1 w) := by dsimp only [dats1]

theorem PhiS1_castSucc (t : Fin cfg1.N) : (dats1 c W).Φ t.castSucc = PhiS1 c W t.val (Nat.le_of_lt t.isLt) := by
  dsimp only [dats1]; simp only [Fin.coe_castSucc]

theorem after1_0 (t : Fin cfg1.N) : (dats1 c W).after 0 t = iblk c W 0 t := by dsimp only [dats1]
theorem after1_1 (t : Fin cfg1.N) : (dats1 c W).after 1 t = iblk c W 1 t := by dsimp only [dats1]
theorem after1_2 (t : Fin cfg1.N) : (dats1 c W).after 2 t = iblk c W 2 t := by dsimp only [dats1]
theorem after1_3 (t : Fin cfg1.N) : (dats1 c W).after 3 t = (outsAt1 c W t.val t.isLt).1 := by dsimp only [dats1]
theorem after1_4 (t : Fin cfg1.N) : (dats1 c W).after 4 t = (outsAt1 c W t.val t.isLt).2.1 := by dsimp only [dats1]

/-- Each input's current staging buffer holds its block at every point (every point fetches it). -/
theorem before1_0 (t : Fin cfg1.N) (d) : (dats1 c W).before 0 t d = iblk c W 0 t :=
  ((dats1 c W).before_in_eq_fetched 0 rfl (fun _ => rfl) (fun _ _ _ => rfl) (fun t => by rw [after1_0]; unfold Dat.blockOf iblk; rw [A1_eq]; try rfl) t d).trans
    (by unfold Dat.fetched Dat.blockOf iblk; rw [A1_eq]; try rfl)
theorem before1_1 (t : Fin cfg1.N) (d) : (dats1 c W).before 1 t d = iblk c W 1 t :=
  ((dats1 c W).before_in_eq_fetched 1 rfl (fun _ => rfl) (fun _ _ _ => rfl) (fun t => by rw [after1_1]; unfold Dat.blockOf iblk; rw [A1_eq]; try rfl) t d).trans
    (by unfold Dat.fetched Dat.blockOf iblk; rw [A1_eq]; try rfl)
theorem before1_2 (t : Fin cfg1.N) (d) : (dats1 c W).before 2 t d = iblk c W 2 t :=
  ((dats1 c W).before_in_eq_fetched 2 rfl (fun _ => rfl) (fun _ _ _ => rfl) (fun t => by rw [after1_2]; unfold Dat.blockOf iblk; rw [A1_eq]; try rfl) t d).trans
    (by unfold Dat.fetched Dat.blockOf iblk; rw [A1_eq]; try rfl)

/-- What the body is called with at point `t`, the windows one by one, -/
def bodyPre1 (t : Fin cfg1.N) : sProp 𝕄 :=
  iprop((dats1 c W).Φ t.castSucc ∗ (dats1 c W).owesAt () t.castSucc
    ∗ (∃ d, owns (c : Thread nD τ) (ms1_0 t) fullShare ((dats1 c W).before 0 t d))
    ∗ (∃ d, owns (c : Thread nD τ) (ms1_1 t) fullShare ((dats1 c W).before 1 t d))
    ∗ (∃ d, owns (c : Thread nD τ) (ms1_2 t) fullShare ((dats1 c W).before 2 t d))
    ∗ (∃ d, owns (c : Thread nD τ) (ms1_3 t) fullShare ((dats1 c W).before 3 t d))
    ∗ (∃ d, owns (c : Thread nD τ) (ms1_4 t) fullShare ((dats1 c W).before 4 t d)))

/-- and what it returns. -/
def bodyPost1 (t : Fin cfg1.N) : sProp 𝕄 :=
  iprop((dats1 c W).Φ t.succ ∗ (dats1 c W).owesAt () t.succ
    ∗ (dats1 c W).leavesExact 0 t ∗ (dats1 c W).leavesExact 1 t ∗ (dats1 c W).leavesExact 2 t
    ∗ (dats1 c W).leavesExact 3 t ∗ (dats1 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body1 (t : Fin cfg1.N) :
    bodyPre1 c W t ⊢ wp frame (wpE (defs₀ (F := F)) Variants.none c none) Set.univ (bodyAt1 t) (fun _ => bodyPost1 c W t) := by
  unfold bodyPre1 bodyPost1 bodyAt1
  simp only [before1_0, before1_1, before1_2]
  rw [show (dats1 c W).owesAt () t.succ = (dats1 c W).owesAt () t.castSucc from rfl]
  rw [show (dats1 c W).Φ t.succ = PhiS1 c W (t.val + 1) t.isLt from rfl, PhiS1_succ]
  have hN : t.val < 8 := lt_of_lt_of_eq t.isLt N1_eq
  rw [show (dats1 c W).leavesExact 0 t = owns (c : Thread nD τ) (ms1_0 t) fullShare ((dats1 c W).after 0 t) from by
    unfold Dat.leavesExact; rw [liveAt1_0 t], after1_0]
  rw [show (dats1 c W).leavesExact 1 t = owns (c : Thread nD τ) (ms1_1 t) fullShare ((dats1 c W).after 1 t) from by
    unfold Dat.leavesExact; rw [liveAt1_1 t], after1_1]
  rw [show (dats1 c W).leavesExact 2 t = owns (c : Thread nD τ) (ms1_2 t) fullShare ((dats1 c W).after 2 t) from by
    unfold Dat.leavesExact; rw [liveAt1_2 t], after1_2]
  by_cases h0 : t.val % 2 = 0
  · have hcA0 : cond1_0 (grid1.coords t) := (hcond1_0 t).mpr h0
    have hcA1 : ¬cond1_1 (grid1.coords t) := fun h => (fun h => by omega) ((hcond1_1 t).mp h)
    rw [Dat.leavesExact_idle (dats1 c W) 3 t (idleAt1_3_A t hcA0 hcA1) (noFlush1_3_A t hcA0 hcA1)]
    rw [Dat.leavesExact_idle (dats1 c W) 4 t (idleAt1_4_A t hcA0 hcA1) (noFlush1_4_A t hcA0 hcA1)]
    rw [outsAt1_A c W t h0]
    unfold resA; (try dsimp only)
    by_cases hz : t.val = 0
    · rw [PhiS1_castSucc c W t, PhiS1_zero c W _ _ hz, scopedRest1_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => (fun h => by omega) ((hcond1_1 t).mp h)) (iblk c W 0 t) (iblk c W 1 t) (iblk c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS1_castSucc c W t, PhiS1_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ ((hcond1_0 t).mpr h0) (fun h => (fun h => by omega) ((hcond1_1 t).mp h)) (iblk c W 0 t) (iblk c W 1 t) (iblk c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scoverA_0 c _ _ _ _ _ _ _ _ _ _ _ _ _ _ _ _ _ _ _ _)
          · unfold owns; iexists _; isplitr
            swap; · iexact HS1
            ipureintro; exact View.read_writes_of_cover _ _ _ _ _ (scoverA_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond1_0 (grid1.coords t) := fun h => h0 ((hcond1_0 t).mp h)
    have hcB1 : cond1_1 (grid1.coords t) := (hcond1_1 t).mpr (by omega)
    rw [show (dats1 c W).leavesExact 3 t = owns (c : Thread nD τ) (ms1_3 t) fullShare ((dats1 c W).after 3 t) from by
      unfold Dat.leavesExact; rw [liveAt1_3_B t hcB0 hcB1], after1_3]
    rw [show (dats1 c W).leavesExact 4 t = owns (c : Thread nD τ) (ms1_4 t) fullShare ((dats1 c W).after 4 t) from by
      unfold Dat.leavesExact; rw [liveAt1_4_B t hcB0 hcB1], after1_4]
    rw [outsAt1_B c W t h0]
    unfold resB; (try dsimp only)
    have hz : t.val ≠ 0 := by omega
    rw [PhiS1_castSucc c W t, PhiS1_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ (fun h => h0 ((hcond1_0 t).mp h)) ((hcond1_1 t).mpr (by omega)) (iblk c W 0 t) (iblk c W 1 t) (iblk c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scoverB_0 c _ _ _ _ _ _ _ _ _ _ _ _ _ _ _ _ _ _ _ _ _ _)
        · unfold owns; iexists _; isplitr
          swap; · iexact HS1
          ipureintro; exact View.read_writes_of_cover _ _ _ _ _ (scoverB_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB_3 c _ _ _ _ _ _ _ _ _ _ _ _ _ _ _ _ _ _ _ _ _ _)
    · unfold owns; iexists _; isplitr
      swap; · iexact H4
      ipureintro; exact View.read_writes_of_cover _ _ _ _ _ (coverB_4 c _ _ _ _ _ _ _ _ _ _ _ _ _ _ _ _ _ _ _ _ _ _)

/-- The library's body obligation, at every point. -/
theorem body_obligation1 : BodyObligation (dats1 (F := F) c W) (defs₀ (F := F)) Variants.none () Set.univ := fun t => by
  rw [bigSep_W1, bigSep_W1]
  exact sound_body1 c W t

/-- The scoped rest as the launch hands it is the invariant before the first point. -/
theorem Phi1_in (t : Fin (cfg1.N + 1)) (ht : t.val = 0) : Pipeline.scopedRest (Ix := Unit) (Name := ℕ) (U := UR sig nD τ) (Lvl := ℕ) (Val := Elt F) spec1 c ⊢ (dats1 c W).Φ t := by
  rw [show (dats1 c W).Φ t = PhiS1 c W t.val (Nat.le_of_lt_succ t.isLt) from rfl, PhiS1_zero c W _ _ ht]

/-- After any point but the first the invariant gives the scoped rest back: the accumulators' contents are forgotten. -/
theorem Phi1_out (t : Fin (cfg1.N + 1)) (ht : t.val ≠ 0) : (dats1 c W).Φ t ⊢ (Pipeline.scopedRest (Ix := Unit) (Name := ℕ) (U := UR sig nD τ) (Lvl := ℕ) (Val := Elt F) spec1 c : sProp 𝕄) := by
  rw [show (dats1 c W).Φ t = PhiS1 c W t.val (Nat.le_of_lt_succ t.isLt) from rfl, PhiS1_pos c W _ _ ht, scopedRest1_eq]
  iintro ⟨⟨HS0, HS1⟩, Hr⟩
  isplitl [HS0 HS1]
  · isplitl [HS0]; · iexists _; iexact HS0
    iexists _; iexact HS1
  iexact Hr

end Cert.KernelIdeal.Hand

end
-- ==== Proof.KI.R2Cond.lean ====
import proofs.«117539_j28759101014307_2_alg».proof.Proof.Gen.KernelIdeal.Launch
import proofs.«117539_j28759101014307_2_alg».proof.Proof.Gen.KernelIdeal.Skeleton
import proofs.«117539_j28759101014307_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region (pallas_call 2): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond2_0 (i : grid2.Coords) : Prop := (Scalar.cmpi .ne (Scalar.extui (Scalar.cmpi .eq (BitVec.ofNat 32 (i 1).val) 0#32)) 0#32) = 1#1
/-- It holds exactly at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- The write-out condition of the body. -/
abbrev cond2_1 (i : grid2.Coords) : Prop := k2_cond2 i = 1#1
/-- It holds exactly at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

end Cert.KernelIdeal.Hand

end
-- ==== Proof.KI.R2RunA.lean ====
import proofs.«117539_j28759101014307_2_alg».proof.Proof.KI.R2Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 0`: both accumulators are reset to zero and then receive the first half's
    products; the outputs' staging buffers are not touched. The pieces each accumulator ends with are found by the run. -/
noncomputable def kernelRun2_A (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__ahat_matmul_kernel i arg2 harg2 arg3 harg3 arg4 harg4 arg5 harg5 arg6 harg6 arg7 harg7 arg8 harg8) K } := by
  refine ⟨?_, ?_, fun xi3 xi4 E K => ?run⟩
  case run =>
    simp only [cc2__ahat_matmul_kernel_eq_skeleton]; unfold cc2__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KI.R2RunB.lean ====
import proofs.«117539_j28759101014307_2_alg».proof.Proof.KI.R2Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun2_B (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__ahat_matmul_kernel i arg2 harg2 arg3 harg3 arg4 harg4 arg5 harg5 arg6 harg6 arg7 harg7 arg8 harg8) K } := by
  refine ⟨?_, ?_, ?_, ?_, fun E K => ?run⟩
  case run =>
    simp only [cc2__ahat_matmul_kernel_eq_skeleton]; unfold cc2__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R2Data.lean ====
import proofs.«117539_j28759101014307_2_alg».proof.Proof.KI.R2RunA
import proofs.«117539_j28759101014307_2_alg».proof.Proof.KI.R2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk2 (w : Fin cfg2.W) (t : Fin cfg2.N) : ((cfg2.win w).xblock (cfg2.grid.coords t)).Idx → Elt F (cfg2.win w).elt :=
  ((cfg2.win w).blk t).view.read (Elt F) (W (Pipeline.arrRef spec2 w))

/-- One staging buffer of each output window, through which its contents are stated. -/
abbrev VO2_3 : View sig .tc .vmem S2048x128 .f32 := (Memref.whole cc2_stg3_0 : Memref sig .tc .vmem S2048x128 .f32).view
abbrev VO2_4 : View sig .tc .vmem S2048x128 .f32 := (Memref.whole cc2_stg4_0 : Memref sig .tc .vmem S2048x128 .f32).view
/-- Each window's current staging memref at point `t`, and its wholeness. -/
abbrev ms2_0 (t : Fin cfg2.N) : Memref sig .tc .vmem S2048x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x128 .f32 := win2_4.stage (cfg2.slots t 4)
abbrev hs2_4 (t : Fin cfg2.N) : (ms2_4 t).IsWhole := hstage2_4 ((cfg2.slots t 4).cast nbuf2_4)
/-- The two accumulators: whole scoped buffers of the kernel's own. -/
abbrev scM2_0 : Memref sig .tc .vmem S2048x128 .f32 := Memref.whole cc2_scratch0
abbrev scM2_1 : Memref sig .tc .vmem S2048x128 .f32 := Memref.whole cc2_scratch1
abbrev VS2_0 : View sig .tc .vmem S2048x128 .f32 := scM2_0.view
abbrev VS2_1 : View sig .tc .vmem S2048x128 .f32 := scM2_1.view

/-! ### Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_4_A : ∀ t : Fin cfg2.N, cond2_0 (grid2.coords t) → ¬cond2_1 (grid2.coords t) → cfg2.idle 4 (grid2.coords t) = true := by decide +kernel
theorem noFlush2_4_A : ∀ t : Fin cfg2.N, cond2_0 (grid2.coords t) → ¬cond2_1 (grid2.coords t) → (cfg2.win 4).flush t = false := by decide +kernel
theorem liveAt2_3_B : ∀ t : Fin cfg2.N, ¬cond2_0 (grid2.coords t) → cond2_1 (grid2.coords t) → cfg2.idle 3 (grid2.coords t) = false := by decide +kernel
theorem liveAt2_4_B : ∀ t : Fin cfg2.N, ¬cond2_0 (grid2.coords t) → cond2_1 (grid2.coords t) → cfg2.idle 4 (grid2.coords t) = false := by decide +kernel

/-! ### What each case leaves: (output 3, output 4, accumulator 0, accumulator 1) -/

/-- The reset case: the outputs are not touched (placeholders nothing reads); each accumulator holds its pieces. -/
def res2A (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO2_3.read (Elt F) VO2_3.junk, VO2_4.read (Elt F) VO2_4.junk,
   VS2_0.read (Elt F) (VS2_0.writes (Elt F) VS2_0.junk (kernelRun2_A c i arg2 harg2 arg3 harg3 arg4 harg4 arg5 harg5 arg6 harg6 arg7 harg7 arg8 harg8 hc0 hc1 x0 x1 x2).1),
   VS2_1.read (Elt F) (VS2_1.writes (Elt F) VS2_1.junk (kernelRun2_A c i arg2 harg2 arg3 harg3 arg4 harg4 arg5 harg5 arg6 harg6 arg7 harg7 arg8 harg8 hc0 hc1 x0 x1 x2).2.1))

theorem scover2A_0 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) (y : S2048x128.Idx) :
    ∃ pc ∈ (kernelRun2_A c i arg2 harg2 arg3 harg3 arg4 harg4 arg5 harg5 arg6 harg6 arg7 harg7 arg8 harg8 hc0 hc1 x0 x1 x2).1, y ∈ pc.1.set :=
  View.cover_of_tiledL (kernelRun2_A c i arg2 harg2 arg3 harg3 arg4 harg4 arg5 harg5 arg6 harg6 arg7 harg7 arg8 harg8 hc0 hc1 x0 x1 x2).1 S2048x128.size (by sl_kernel_rfl) y
theorem scover2A_1 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) (y : S2048x128.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def res2B (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO2_3.read (Elt F) (VO2_3.writes (Elt F) VO2_3.junk (kernelRun2_B c i arg2 harg2 arg3 harg3 arg4 harg4 arg5 harg5 arg6 harg6 arg7 harg7 arg8 harg8 hc0 hc1 x0 x1 x2 xs0 xs1).1),
   VO2_4.read (Elt F) (VO2_4.writes (Elt F) VO2_4.junk (kernelRun2_B c i arg2 harg2 arg3 harg3 arg4 harg4 arg5 harg5 arg6 harg6 arg7 harg7 arg8 harg8 hc0 hc1 x0 x1 x2 xs0 xs1).2.1),
   VS2_0.read (Elt F) (VS2_0.writes (Elt F) VS2_0.junk (kernelRun2_B c i arg2 harg2 arg3 harg3 arg4 harg4 arg5 harg5 arg6 harg6 arg7 harg7 arg8 harg8 hc0 hc1 x0 x1 x2 xs0 xs1).2.2.1),
   VS2_1.read (Elt F) (VS2_1.writes (Elt F) VS2_1.junk (kernelRun2_B c i arg2 harg2 arg3 harg3 arg4 harg4 arg5 harg5 arg6 harg6 arg7 harg7 arg8 harg8 hc0 hc1 x0 x1 x2 xs0 xs1).2.2.2.1))

theorem cover2B_3 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).1, y ∈ pc.1.set :=
  View.cover_of_tiledL (kernelRun2_B c i arg2 harg2 arg3 harg3 arg4 harg4 arg5 harg5 arg6 harg6 arg7 harg7 arg8 harg8 hc0 hc1 x0 x1 x2 xs0 xs1).1 S2048x128.size (by sl_kernel_rfl) y
theorem cover2B_4 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).2.1, y ∈ pc.1.set :=
  View.cover_of_tiledL (kernelRun2_B c i arg2 harg2 arg3 harg3 arg4 harg4 arg5 harg5 arg6 harg6 arg7 harg7 arg8 harg8 hc0 hc1 x0 x1 x2 xs0 xs1).2.1 S2048x128.size (by sl_kernel_rfl) y
theorem scover2B_0 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg2 harg2 arg3 harg3 arg4 harg4 arg5 harg5 arg6 harg6 arg7 harg7 arg8 harg8 hc0 hc1 x0 x1 x2 xs0 xs1).2.2.1 S2048x128.size (by sl_kernel_rfl) y
theorem scover2B_1 (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1 : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun2_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N2_eq : cfg2.N = 8 := N_2

/-- What the two outputs' staging buffers and the two accumulators hold after the body at position `n`: the reset case at
    even positions, the write-out case at odd ones over what the position before left in the accumulators. -/
def outsAt2 : (n : ℕ) → n < cfg2.N → (Vec F S2048x128 .f32 × Vec F S2048x128 .f32 × Vec F S2048x128 .f32 × Vec F S2048x128 .f32)
  | 0, hn => res2A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 c W 0 ⟨0, hn⟩) (iblk2 c W 1 ⟨0, hn⟩) (iblk2 c W 2 ⟨0, hn⟩)
  | n + 1, hn =>
    if h0 : (n + 1) % 2 = 0 then
      res2A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (fun h => (fun h => by (try dsimp only at h); omega) ((hcond2_1 ⟨n + 1, hn⟩).mp h)) (iblk2 c W 0 ⟨n + 1, hn⟩) (iblk2 c W 1 ⟨n + 1, hn⟩) (iblk2 c W 2 ⟨n + 1, hn⟩)
    else
      res2B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) ((hcond2_1 ⟨n + 1, hn⟩).mpr (by (try dsimp only); omega)) (iblk2 c W 0 ⟨n + 1, hn⟩) (iblk2 c W 1 ⟨n + 1, hn⟩) (iblk2 c W 2 ⟨n + 1, hn⟩)
        (outsAt2 n (Nat.lt_of_succ_lt hn)).2.2.1 (outsAt2 n (Nat.lt_of_succ_lt hn)).2.2.2

theorem outsAt2_A (t : Fin cfg2.N) (h0 : t.val % 2 = 0) :
    outsAt2 c W t.val t.isLt = res2A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (fun h => (fun h => by omega) ((hcond2_1 t).mp h)) (iblk2 c W 0 t) (iblk2 c W 1 t) (iblk2 c W 2 t) := by
  obtain ⟨n, hn⟩ := t
  cases n with
  | zero => exact rfl
  | succ n => exact (dif_pos h0).trans rfl

theorem outsAt2_B (t : Fin cfg2.N) (h0 : ¬t.val % 2 = 0) :
    outsAt2 c W t.val t.isLt = res2B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) ((hcond2_1 t).mpr (by omega)) (iblk2 c W 0 t) (iblk2 c W 1 t) (iblk2 c W 2 t)
      (outsAt2 c W (t.val - 1) (Nat.lt_of_le_of_lt (Nat.sub_le _ _) t.isLt)).2.2.1 (outsAt2 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.KernelIdeal.Hand

end
-- ==== Proof.KI.R2Body.lean ====
import proofs.«117539_j28759101014307_2_alg».proof.Proof.KI.R2Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest2_eq :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

/-- The region's invariant before position `n`: before the first point the scoped rest as the launch hands it; afterwards
    the two accumulators at what the point before left in them, beside the other scoped buffers. -/
def PhiS2 : (n : ℕ) → n ≤ cfg2.N → sProp 𝕄
  | 0, _ => Pipeline.scopedRest (Ix := Unit) (Name := ℕ) (U := UR sig nD τ) (Lvl := ℕ) (Val := Elt F) spec2 c
  | n + 1, hn => iprop(iprop(owns (c : Thread nD τ) scM2_0 fullShare ((outsAt2 c W n hn).2.2.1) ∗ owns (c : Thread nD τ) scM2_1 fullShare ((outsAt2 c W n hn).2.2.2))
      ∗ Pipeline.scopedRestBut (Ix := Unit) (Name := ℕ) (U := UR sig nD τ) (Lvl := ℕ) (Val := Elt F) spec2 c [cc2_scratch0, cc2_scratch1])

theorem PhiS2_zero (n : ℕ) (h : n ≤ cfg2.N) (hz : n = 0) :
    PhiS2 c W n h = Pipeline.scopedRest (Ix := Unit) (Name := ℕ) (U := UR sig nD τ) (Lvl := ℕ) (Val := Elt F) spec2 c := by
  subst hz; rfl

theorem PhiS2_succ (n : ℕ) (hn : n < cfg2.N) :
    PhiS2 c W (n + 1) hn = iprop(iprop(owns (c : Thread nD τ) scM2_0 fullShare ((outsAt2 c W n hn).2.2.1) ∗ owns (c : Thread nD τ) scM2_1 fullShare ((outsAt2 c W n hn).2.2.2))
      ∗ Pipeline.scopedRestBut (Ix := Unit) (Name := ℕ) (U := UR sig nD τ) (Lvl := ℕ) (Val := Elt F) spec2 c [cc2_scratch0, cc2_scratch1]) := rfl

theorem PhiS2_pos (n : ℕ) (h : n ≤ cfg2.N) (hz : n ≠ 0) :
    PhiS2 c W n h = iprop(iprop(owns (c : Thread nD τ) scM2_0 fullShare ((outsAt2 c W (n - 1) (by omega)).2.2.1) ∗ owns (c : Thread nD τ) scM2_1 fullShare ((outsAt2 c W (n - 1) (by omega)).2.2.2))
      ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-- The proof data of the matmul region on core `c`, entered with the unscoped buffers at `W`: each input's buffer at its
    block, each output's at the accumulation's component, the invariant above, nothing owed, full shares. -/
def dats2 : Dat τ (Elt F) Unit ℕ (UR sig nD τ) ℕ cfg2 c where
  A w := W (Pipeline.arrRef spec2 w)
  after w t := match w with
    | ⟨0, _⟩ => iblk2 c W 0 t
    | ⟨1, _⟩ => iblk2 c W 1 t
    | ⟨2, _⟩ => iblk2 c W 2 t
    | ⟨3, _⟩ => (outsAt2 c W t.val t.isLt).1
    | ⟨4, _⟩ => (outsAt2 c W t.val t.isLt).2.1
  Φ t := PhiS2 c W t.val (Nat.le_of_lt_succ t.isLt)
  q _ := fullShare
  owed _ := 0

theorem A2_eq (w : Fin cfg2.W) : (dats2 c W).A w = W (Pipeline.arrRef spec2 w) := by dsimp only [dats2]

theorem PhiS2_castSucc (t : Fin cfg2.N) : (dats2 c W).Φ t.castSucc = PhiS2 c W t.val (Nat.le_of_lt t.isLt) := by
  dsimp only [dats2]; simp only [Fin.coe_castSucc]

theorem after2_0 (t : Fin cfg2.N) : (dats2 c W).after 0 t = iblk2 c W 0 t := by dsimp only [dats2]
theorem after2_1 (t : Fin cfg2.N) : (dats2 c W).after 1 t = iblk2 c W 1 t := by dsimp only [dats2]
theorem after2_2 (t : Fin cfg2.N) : (dats2 c W).after 2 t = iblk2 c W 2 t := by dsimp only [dats2]
theorem after2_3 (t : Fin cfg2.N) : (dats2 c W).after 3 t = (outsAt2 c W t.val t.isLt).1 := by dsimp only [dats2]
theorem after2_4 (t : Fin cfg2.N) : (dats2 c W).after 4 t = (outsAt2 c W t.val t.isLt).2.1 := by dsimp only [dats2]

/-- Each input's current staging buffer holds its block at every point (every point fetches it). -/
theorem before2_0 (t : Fin cfg2.N) (d) : (dats2 c W).before 0 t d = iblk2 c W 0 t :=
  ((dats2 c W).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (t : Fin cfg2.N) (d) : (dats2 c W).before 1 t d = iblk2 c W 1 t :=
  ((dats2 c W).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (t : Fin cfg2.N) (d) : (dats2 c W).before 2 t d = iblk2 c W 2 t :=
  ((dats2 c W).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)

/-- What the body is called with at point `t`, the windows one by one, -/
def bodyPre2 (t : Fin cfg2.N) : sProp 𝕄 :=
  iprop((dats2 c W).Φ t.castSucc ∗ (dats2 c W).owesAt () t.castSucc
    ∗ (∃ d, owns (c : Thread nD τ) (ms2_0 t) fullShare ((dats2 c W).before 0 t d))
    ∗ (∃ d, owns (c : Thread nD τ) (ms2_1 t) fullShare ((dats2 c W).before 1 t d))
    ∗ (∃ d, owns (c : Thread nD τ) (ms2_2 t) fullShare ((dats2 c W).before 2 t d))
    ∗ (∃ d, owns (c : Thread nD τ) (ms2_3 t) fullShare ((dats2 c W).before 3 t d))
    ∗ (∃ d, owns (c : Thread nD τ) (ms2_4 t) fullShare ((dats2 c W).before 4 t d)))

/-- and what it returns. -/
def bodyPost2 (t : Fin cfg2.N) : sProp 𝕄 :=
  iprop((dats2 c W).Φ t.succ ∗ (dats2 c W).owesAt () t.succ
    ∗ (dats2 c W).leavesExact 0 t ∗ (dats2 c W).leavesExact 1 t ∗ (dats2 c W).leavesExact 2 t
    ∗ (dats2 c W).leavesExact 3 t ∗ (dats2 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body2 (t : Fin cfg2.N) :
    bodyPre2 c W t ⊢ wp frame (wpE (defs₀ (F := F)) Variants.none c none) Set.univ (bodyAt2 t) (fun _ => bodyPost2 c W t) := by
  unfold bodyPre2 bodyPost2 bodyAt2
  simp only [before2_0, before2_1, before2_2]
  rw [show (dats2 c W).owesAt () t.succ = (dats2 c W).owesAt () t.castSucc from rfl]
  rw [show (dats2 c W).Φ t.succ = PhiS2 c W (t.val + 1) t.isLt from rfl, PhiS2_succ]
  have hN : t.val < 8 := lt_of_lt_of_eq t.isLt N2_eq
  rw [show (dats2 c W).leavesExact 0 t = owns (c : Thread nD τ) (ms2_0 t) fullShare ((dats2 c W).after 0 t) from by
    unfold Dat.leavesExact; rw [liveAt2_0 t], after2_0]
  rw [show (dats2 c W).leavesExact 1 t = owns (c : Thread nD τ) (ms2_1 t) fullShare ((dats2 c W).after 1 t) from by
    unfold Dat.leavesExact; rw [liveAt2_1 t], after2_1]
  rw [show (dats2 c W).leavesExact 2 t = owns (c : Thread nD τ) (ms2_2 t) fullShare ((dats2 c W).after 2 t) from by
    unfold Dat.leavesExact; rw [liveAt2_2 t], after2_2]
  by_cases h0 : t.val % 2 = 0
  · have hcA0 : cond2_0 (grid2.coords t) := (hcond2_0 t).mpr h0
    have hcA1 : ¬cond2_1 (grid2.coords t) := fun h => (fun h => by omega) ((hcond2_1 t).mp h)
    rw [Dat.leavesExact_idle (dats2 c W) 3 t (idleAt2_3_A t hcA0 hcA1) (noFlush2_3_A t hcA0 hcA1)]
    rw [Dat.leavesExact_idle (dats2 c W) 4 t (idleAt2_4_A t hcA0 hcA1) (noFlush2_4_A t hcA0 hcA1)]
    rw [outsAt2_A c W t h0]
    unfold res2A; (try dsimp only)
    by_cases hz : t.val = 0
    · rw [PhiS2_castSucc c W t, PhiS2_zero c W _ _ hz, scopedRest2_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ ((hcond2_0 t).mpr h0) (fun h => (fun h => by omega) ((hcond2_1 t).mp h)) (iblk2 c W 0 t) (iblk2 c W 1 t) (iblk2 c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover2A_0 c _ _ _ _ _ _ _ _ _ _ _ _ _ _ _ _ _ _ _ _)
          · unfold owns; iexists _; isplitr
            swap; · iexact HS1
            ipureintro; exact View.read_writes_of_cover _ _ _ _ _ (scover2A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS2_castSucc c W t, PhiS2_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ ((hcond2_0 t).mpr h0) (fun h => (fun h => by omega) ((hcond2_1 t).mp h)) (iblk2 c W 0 t) (iblk2 c W 1 t) (iblk2 c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover2A_0 c _ _ _ _ _ _ _ _ _ _ _ _ _ _ _ _ _ _ _ _)
          · unfold owns; iexists _; isplitr
            swap; · iexact HS1
            ipureintro; exact View.read_writes_of_cover _ _ _ _ _ (scover2A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond2_0 (grid2.coords t) := fun h => h0 ((hcond2_0 t).mp h)
    have hcB1 : cond2_1 (grid2.coords t) := (hcond2_1 t).mpr (by omega)
    rw [show (dats2 c W).leavesExact 3 t = owns (c : Thread nD τ) (ms2_3 t) fullShare ((dats2 c W).after 3 t) from by
      unfold Dat.leavesExact; rw [liveAt2_3_B t hcB0 hcB1], after2_3]
    rw [show (dats2 c W).leavesExact 4 t = owns (c : Thread nD τ) (ms2_4 t) fullShare ((dats2 c W).after 4 t) from by
      unfold Dat.leavesExact; rw [liveAt2_4_B t hcB0 hcB1], after2_4]
    rw [outsAt2_B c W t h0]
    unfold res2B; (try dsimp only)
    have hz : t.val ≠ 0 := by omega
    rw [PhiS2_castSucc c W t, PhiS2_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun2_B c (grid2.coords t) _ _ _ _ _ _ _ _ _ _ _ _ _ _ (fun h => h0 ((hcond2_0 t).mp h)) ((hcond2_1 t).mpr (by omega)) (iblk2 c W 0 t) (iblk2 c W 1 t) (iblk2 c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scover2B_0 c _ _ _ _ _ _ _ _ _ _ _ _ _ _ _ _ _ _ _ _ _ _)
        · unfold owns; iexists _; isplitr
          swap; · iexact HS1
          ipureintro; exact View.read_writes_of_cover _ _ _ _ _ (scover2B_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2B_3 c _ _ _ _ _ _ _ _ _ _ _ _ _ _ _ _ _ _ _ _ _ _)
    · unfold owns; iexists _; isplitr
      swap; · iexact H4
      ipureintro; exact View.read_writes_of_cover _ _ _ _ _ (cover2B_4 c _ _ _ _ _ _ _ _ _ _ _ _ _ _ _ _ _ _ _ _ _ _)

/-- The library's body obligation, at every point. -/
theorem body_obligation2 : BodyObligation (dats2 (F := F) c W) (defs₀ (F := F)) Variants.none () Set.univ := fun t => by
  rw [bigSep_W2, bigSep_W2]
  exact sound_body2 c W t

/-- The scoped rest as the launch hands it is the invariant before the first point. -/
theorem Phi2_in (t : Fin (cfg2.N + 1)) (ht : t.val = 0) : Pipeline.scopedRest (Ix := Unit) (Name := ℕ) (U := UR sig nD τ) (Lvl := ℕ) (Val := Elt F) spec2 c ⊢ (dats2 c W).Φ t := by
  rw [show (dats2 c W).Φ t = PhiS2 c W t.val (Nat.le_of_lt_succ t.isLt) from rfl, PhiS2_zero c W _ _ ht]

/-- After any point but the first the invariant gives the scoped rest back: the accumulators' contents are forgotten. -/
theorem Phi2_out (t : Fin (cfg2.N + 1)) (ht : t.val ≠ 0) : (dats2 c W).Φ t ⊢ (Pipeline.scopedRest (Ix := Unit) (Name := ℕ) (U := UR sig nD τ) (Lvl := ℕ) (Val := Elt F) spec2 c : sProp 𝕄) := by
  rw [show (dats2 c W).Φ t = PhiS2 c W t.val (Nat.le_of_lt_succ t.isLt) from rfl, PhiS2_pos c W _ _ ht, scopedRest2_eq]
  iintro ⟨⟨HS0, HS1⟩, Hr⟩
  isplitl [HS0 HS1]
  · isplitl [HS0]; · iexists _; iexact HS0
    iexists _; iexact HS1
  iexact Hr

end Cert.KernelIdeal.Hand

end
-- ==== Proof.KI.R3Cond.lean ====
import proofs.«117539_j28759101014307_2_alg».proof.Proof.Gen.KernelIdeal.Launch
import proofs.«117539_j28759101014307_2_alg».proof.Proof.Gen.KernelIdeal.Skeleton
import proofs.«117539_j28759101014307_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region (pallas_call 3): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond3_0 (i : grid3.Coords) : Prop := (Scalar.cmpi .ne (Scalar.extui (Scalar.cmpi .eq (BitVec.ofNat 32 (i 1).val) 0#32)) 0#32) = 1#1
/-- It holds exactly at the even points. -/
theorem hcond3_0 : ∀ t : Fin cfg3.N, cond3_0 (grid3.coords t) ↔ t.val % 2 = 0 :=
  (by decide +kernel : ∀ t : Fin grid3.N, cond3_0 (grid3.coords t) ↔ t.val % 2 = 0)

/-- The write-out condition of the body. -/
abbrev cond3_1 (i : grid3.Coords) : Prop := k3_cond2 i = 1#1
/-- It holds exactly at the odd points. -/
theorem hcond3_1 : ∀ t : Fin cfg3.N, cond3_1 (grid3.coords t) ↔ t.val % 2 = 1 :=
  (by decide +kernel : ∀ t : Fin grid3.N, cond3_1 (grid3.coords t) ↔ t.val % 2 = 1)

end Cert.KernelIdeal.Hand

end
-- ==== Proof.KI.R3RunA.lean ====
import proofs.«117539_j28759101014307_2_alg».proof.Proof.KI.R3Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 0`: both accumulators are reset to zero and then receive the first half's
    products; the outputs' staging buffers are not touched. The pieces each accumulator ends with are found by the run. -/
noncomputable def kernelRun3_A (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__ahat_matmul_kernel i arg2 harg2 arg3 harg3 arg4 harg4 arg5 harg5 arg6 harg6 arg7 harg7 arg8 harg8) K } := by
  refine ⟨?_, ?_, fun xi3 xi4 E K => ?run⟩
  case run =>
    simp only [cc3__ahat_matmul_kernel_eq_skeleton]; unfold cc3__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KI.R3RunB.lean ====
import proofs.«117539_j28759101014307_2_alg».proof.Proof.KI.R3Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun3_B (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc3__ahat_matmul_kernel i arg2 harg2 arg3 harg3 arg4 harg4 arg5 harg5 arg6 harg6 arg7 harg7 arg8 harg8) K } := by
  refine ⟨?_, ?_, ?_, ?_, fun E K => ?run⟩
  case run =>
    simp only [cc3__ahat_matmul_kernel_eq_skeleton]; unfold cc3__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R3Data.lean ====
import proofs.«117539_j28759101014307_2_alg».proof.Proof.KI.R3RunA
import proofs.«117539_j28759101014307_2_alg».proof.Proof.KI.R3RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk3 (w : Fin cfg3.W) (t : Fin cfg3.N) : ((cfg3.win w).xblock (cfg3.grid.coords t)).Idx → Elt F (cfg3.win w).elt :=
  ((cfg3.win w).blk t).view.read (Elt F) (W (Pipeline.arrRef spec3 w))

/-- One staging buffer of each output window, through which its contents are stated. -/
abbrev VO3_3 : View sig .tc .vmem S2048x128 .f32 := (Memref.whole cc3_stg3_0 : Memref sig .tc .vmem S2048x128 .f32).view
abbrev VO3_4 : View sig .tc .vmem S2048x128 .f32 := (Memref.whole cc3_stg4_0 : Memref sig .tc .vmem S2048x128 .f32).view
/-- Each window's current staging memref at point `t`, and its wholeness. -/
abbrev ms3_0 (t : Fin cfg3.N) : Memref sig .tc .vmem S2048x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4096x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2048x128 .f32 := win3_4.stage (cfg3.slots t 4)
abbrev hs3_4 (t : Fin cfg3.N) : (ms3_4 t).IsWhole := hstage3_4 ((cfg3.slots t 4).cast nbuf3_4)
/-- The two accumulators: whole scoped buffers of the kernel's own. -/
abbrev scM3_0 : Memref sig .tc .vmem S2048x128 .f32 := Memref.whole cc3_scratch0
abbrev scM3_1 : Memref sig .tc .vmem S2048x128 .f32 := Memref.whole cc3_scratch1
abbrev VS3_0 : View sig .tc .vmem S2048x128 .f32 := scM3_0.view
abbrev VS3_1 : View sig .tc .vmem S2048x128 .f32 := scM3_1.view

/-! ### Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_4_A : ∀ t : Fin cfg3.N, cond3_0 (grid3.coords t) → ¬cond3_1 (grid3.coords t) → cfg3.idle 4 (grid3.coords t) = true := by decide +kernel
theorem noFlush3_4_A : ∀ t : Fin cfg3.N, cond3_0 (grid3.coords t) → ¬cond3_1 (grid3.coords t) → (cfg3.win 4).flush t = false := by decide +kernel
theorem liveAt3_3_B : ∀ t : Fin cfg3.N, ¬cond3_0 (grid3.coords t) → cond3_1 (grid3.coords t) → cfg3.idle 3 (grid3.coords t) = false := by decide +kernel
theorem liveAt3_4_B : ∀ t : Fin cfg3.N, ¬cond3_0 (grid3.coords t) → cond3_1 (grid3.coords t) → cfg3.idle 4 (grid3.coords t) = false := by decide +kernel

/-! ### What each case leaves: (output 3, output 4, accumulator 0, accumulator 1) -/

/-- The reset case: the outputs are not touched (placeholders nothing reads); each accumulator holds its pieces. -/
def res3A (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO3_3.read (Elt F) VO3_3.junk, VO3_4.read (Elt F) VO3_4.junk,
   VS3_0.read (Elt F) (VS3_0.writes (Elt F) VS3_0.junk (kernelRun3_A c i arg2 harg2 arg3 harg3 arg4 harg4 arg5 harg5 arg6 harg6 arg7 harg7 arg8 harg8 hc0 hc1 x0 x1 x2).1),
   VS3_1.read (Elt F) (VS3_1.writes (Elt F) VS3_1.junk (kernelRun3_A c i arg2 harg2 arg3 harg3 arg4 harg4 arg5 harg5 arg6 harg6 arg7 harg7 arg8 harg8 hc0 hc1 x0 x1 x2).2.1))

theorem scover3A_0 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) (y : S2048x128.Idx) :
    ∃ pc ∈ (kernelRun3_A c i arg2 harg2 arg3 harg3 arg4 harg4 arg5 harg5 arg6 harg6 arg7 harg7 arg8 harg8 hc0 hc1 x0 x1 x2).1, y ∈ pc.1.set :=
  View.cover_of_tiledL (kernelRun3_A c i arg2 harg2 arg3 harg3 arg4 harg4 arg5 harg5 arg6 harg6 arg7 harg7 arg8 harg8 hc0 hc1 x0 x1 x2).1 S2048x128.size (by sl_kernel_rfl) y
theorem scover3A_1 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) (y : S2048x128.Idx) :
    ∃ pc ∈ (kernelRun3_A c i arg2 harg2 arg3 harg3 arg4 harg4 arg5 harg5 arg6 harg6 arg7 harg7 arg8 harg8 hc0 hc1 x0 x1 x2).2.1, y ∈ pc.1.set :=
  View.cover_of_tiledL (kernelRun3_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def res3B (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO3_3.read (Elt F) (VO3_3.writes (Elt F) VO3_3.junk (kernelRun3_B c i arg2 harg2 arg3 harg3 arg4 harg4 arg5 harg5 arg6 harg6 arg7 harg7 arg8 harg8 hc0 hc1 x0 x1 x2 xs0 xs1).1),
   VO3_4.read (Elt F) (VO3_4.writes (Elt F) VO3_4.junk (kernelRun3_B c i arg2 harg2 arg3 harg3 arg4 harg4 arg5 harg5 arg6 harg6 arg7 harg7 arg8 harg8 hc0 hc1 x0 x1 x2 xs0 xs1).2.1),
   VS3_0.read (Elt F) (VS3_0.writes (Elt F) VS3_0.junk (kernelRun3_B c i arg2 harg2 arg3 harg3 arg4 harg4 arg5 harg5 arg6 harg6 arg7 harg7 arg8 harg8 hc0 hc1 x0 x1 x2 xs0 xs1).2.2.1),
   VS3_1.read (Elt F) (VS3_1.writes (Elt F) VS3_1.junk (kernelRun3_B c i arg2 harg2 arg3 harg3 arg4 harg4 arg5 harg5 arg6 harg6 arg7 harg7 arg8 harg8 hc0 hc1 x0 x1 x2 xs0 xs1).2.2.2.1))

theorem cover3B_3 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).1, y ∈ pc.1.set :=
  View.cover_of_tiledL (kernelRun3_B c i arg2 harg2 arg3 harg3 arg4 harg4 arg5 harg5 arg6 harg6 arg7 harg7 arg8 harg8 hc0 hc1 x0 x1 x2 xs0 xs1).1 S2048x128.size (by sl_kernel_rfl) y
theorem cover3B_4 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).2.1, y ∈ pc.1.set :=
  View.cover_of_tiledL (kernelRun3_B c i arg2 harg2 arg3 harg3 arg4 harg4 arg5 harg5 arg6 harg6 arg7 harg7 arg8 harg8 hc0 hc1 x0 x1 x2 xs0 xs1).2.1 S2048x128.size (by sl_kernel_rfl) y
theorem scover3B_0 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).2.2.1, y ∈ pc.1.set :=
  View.cover_of_tiledL (kernelRun3_B c i arg2 harg2 arg3 harg3 arg4 harg4 arg5 harg5 arg6 harg6 arg7 harg7 arg8 harg8 hc0 hc1 x0 x1 x2 xs0 xs1).2.2.1 S2048x128.size (by sl_kernel_rfl) y
theorem scover3B_1 (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1 : Vec F S2048x128 .f32) (y : S2048x128.Idx) :
    ∃ pc ∈ (kernelRun3_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun3_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N3_eq : cfg3.N = 8 := N_3

/-- What the two outputs' staging buffers and the two accumulators hold after the body at position `n`: the reset case at
    even positions, the write-out case at odd ones over what the position before left in the accumulators. -/
def outsAt3 : (n : ℕ) → n < cfg3.N → (Vec F S2048x128 .f32 × Vec F S2048x128 .f32 × Vec F S2048x128 .f32 × Vec F S2048x128 .f32)
  | 0, hn => res3A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 c W 0 ⟨0, hn⟩) (iblk3 c W 1 ⟨0, hn⟩) (iblk3 c W 2 ⟨0, hn⟩)
  | n + 1, hn =>
    if h0 : (n + 1) % 2 = 0 then
      res3A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) ((hcond3_0 ⟨n + 1, hn⟩).mpr h0) (fun h => (fun h => by (try dsimp only at h); omega) ((hcond3_1 ⟨n + 1, hn⟩).mp h)) (iblk3 c W 0 ⟨n + 1, hn⟩) (iblk3 c W 1 ⟨n + 1, hn⟩) (iblk3 c W 2 ⟨n + 1, hn⟩)
    else
      res3B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) scM3_1 (Memref.isWhole_whole _) (fun h => h0 ((hcond3_0 ⟨n + 1, hn⟩).mp h)) ((hcond3_1 ⟨n + 1, hn⟩).mpr (by (try dsimp only); omega)) (iblk3 c W 0 ⟨n + 1, hn⟩) (iblk3 c W 1 ⟨n + 1, hn⟩) (iblk3 c W 2 ⟨n + 1, hn⟩)
        (outsAt3 n (Nat.lt_of_succ_lt hn)).2.2.1 (outsAt3 n (Nat.lt_of_succ_lt hn)).2.2.2

theorem outsAt3_A (t : Fin cfg3.N) (h0 : t.val % 2 = 0) :
    outsAt3 c W t.val t.isLt = res3A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => (fun h => by omega) ((hcond3_1 t).mp h)) (iblk3 c W 0 t) (iblk3 c W 1 t) (iblk3 c W 2 t) := by
  obtain ⟨n, hn⟩ := t
  cases n with
  | zero => exact rfl
  | succ n => exact (dif_pos h0).trans rfl

theorem outsAt3_B (t : Fin cfg3.N) (h0 : ¬t.val % 2 = 0) :
    outsAt3 c W t.val t.isLt = res3B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) ((hcond3_1 t).mpr (by omega)) (iblk3 c W 0 t) (iblk3 c W 1 t) (iblk3 c W 2 t)
      (outsAt3 c W (t.val - 1) (Nat.lt_of_le_of_lt (Nat.sub_le _ _) t.isLt)).2.2.1 (outsAt3 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.KernelIdeal.Hand

end
-- ==== Proof.KI.R3Body.lean ====
import proofs.«117539_j28759101014307_2_alg».proof.Proof.KI.R3Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest3_eq :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) := by
  rw [scopedRest3_split]; simp only [scM3_0, scM3_1, owns_whole]; try rfl

/-- The region's invariant before position `n`: before the first point the scoped rest as the launch hands it; afterwards
    the two accumulators at what the point before left in them, beside the other scoped buffers. -/
def PhiS3 : (n : ℕ) → n ≤ cfg3.N → sProp 𝕄
  | 0, _ => Pipeline.scopedRest (Ix := Unit) (Name := ℕ) (U := UR sig nD τ) (Lvl := ℕ) (Val := Elt F) spec3 c
  | n + 1, hn => iprop(iprop(owns (c : Thread nD τ) scM3_0 fullShare ((outsAt3 c W n hn).2.2.1) ∗ owns (c : Thread nD τ) scM3_1 fullShare ((outsAt3 c W n hn).2.2.2))
      ∗ Pipeline.scopedRestBut (Ix := Unit) (Name := ℕ) (U := UR sig nD τ) (Lvl := ℕ) (Val := Elt F) spec3 c [cc3_scratch0, cc3_scratch1])

theorem PhiS3_zero (n : ℕ) (h : n ≤ cfg3.N) (hz : n = 0) :
    PhiS3 c W n h = Pipeline.scopedRest (Ix := Unit) (Name := ℕ) (U := UR sig nD τ) (Lvl := ℕ) (Val := Elt F) spec3 c := by
  subst hz; rfl

theorem PhiS3_succ (n : ℕ) (hn : n < cfg3.N) :
    PhiS3 c W (n + 1) hn = iprop(iprop(owns (c : Thread nD τ) scM3_0 fullShare ((outsAt3 c W n hn).2.2.1) ∗ owns (c : Thread nD τ) scM3_1 fullShare ((outsAt3 c W n hn).2.2.2))
      ∗ Pipeline.scopedRestBut (Ix := Unit) (Name := ℕ) (U := UR sig nD τ) (Lvl := ℕ) (Val := Elt F) spec3 c [cc3_scratch0, cc3_scratch1]) := rfl

theorem PhiS3_pos (n : ℕ) (h : n ≤ cfg3.N) (hz : n ≠ 0) :
    PhiS3 c W n h = iprop(iprop(owns (c : Thread nD τ) scM3_0 fullShare ((outsAt3 c W (n - 1) (by omega)).2.2.1) ∗ owns (c : Thread nD τ) scM3_1 fullShare ((outsAt3 c W (n - 1) (by omega)).2.2.2))
      ∗ Pipeline.scopedRestBut (Ix := Unit) (Name := ℕ) (U := UR sig nD τ) (Lvl := ℕ) (Val := Elt F) spec3 c [cc3_scratch0, cc3_scratch1]) := by
  cases n with
  | zero => exact absurd rfl hz
  | succ n => rfl

/-- The proof data of the matmul region on core `c`, entered with the unscoped buffers at `W`: each input's buffer at its
    block, each output's at the accumulation's component, the invariant above, nothing owed, full shares. -/
def dats3 : Dat τ (Elt F) Unit ℕ (UR sig nD τ) ℕ cfg3 c where
  A w := W (Pipeline.arrRef spec3 w)
  after w t := match w with
    | ⟨0, _⟩ => iblk3 c W 0 t
    | ⟨1, _⟩ => iblk3 c W 1 t
    | ⟨2, _⟩ => iblk3 c W 2 t
    | ⟨3, _⟩ => (outsAt3 c W t.val t.isLt).1
    | ⟨4, _⟩ => (outsAt3 c W t.val t.isLt).2.1
  Φ t := PhiS3 c W t.val (Nat.le_of_lt_succ t.isLt)
  q _ := fullShare
  owed _ := 0

theorem A3_eq (w : Fin cfg3.W) : (dats3 c W).A w = W (Pipeline.arrRef spec3 w) := by dsimp only [dats3]

theorem PhiS3_castSucc (t : Fin cfg3.N) : (dats3 c W).Φ t.castSucc = PhiS3 c W t.val (Nat.le_of_lt t.isLt) := by
  dsimp only [dats3]; simp only [Fin.coe_castSucc]

theorem after3_0 (t : Fin cfg3.N) : (dats3 c W).after 0 t = iblk3 c W 0 t := by dsimp only [dats3]
theorem after3_1 (t : Fin cfg3.N) : (dats3 c W).after 1 t = iblk3 c W 1 t := by dsimp only [dats3]
theorem after3_2 (t : Fin cfg3.N) : (dats3 c W).after 2 t = iblk3 c W 2 t := by dsimp only [dats3]
theorem after3_3 (t : Fin cfg3.N) : (dats3 c W).after 3 t = (outsAt3 c W t.val t.isLt).1 := by dsimp only [dats3]
theorem after3_4 (t : Fin cfg3.N) : (dats3 c W).after 4 t = (outsAt3 c W t.val t.isLt).2.1 := by dsimp only [dats3]

/-- Each input's current staging buffer holds its block at every point (every point fetches it). -/
theorem before3_0 (t : Fin cfg3.N) (d) : (dats3 c W).before 0 t d = iblk3 c W 0 t :=
  ((dats3 c W).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
theorem before3_1 (t : Fin cfg3.N) (d) : (dats3 c W).before 1 t d = iblk3 c W 1 t :=
  ((dats3 c W).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
theorem before3_2 (t : Fin cfg3.N) (d) : (dats3 c W).before 2 t d = iblk3 c W 2 t :=
  ((dats3 c W).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)

/-- What the body is called with at point `t`, the windows one by one, -/
def bodyPre3 (t : Fin cfg3.N) : sProp 𝕄 :=
  iprop((dats3 c W).Φ t.castSucc ∗ (dats3 c W).owesAt () t.castSucc
    ∗ (∃ d, owns (c : Thread nD τ) (ms3_0 t) fullShare ((dats3 c W).before 0 t d))
    ∗ (∃ d, owns (c : Thread nD τ) (ms3_1 t) fullShare ((dats3 c W).before 1 t d))
    ∗ (∃ d, owns (c : Thread nD τ) (ms3_2 t) fullShare ((dats3 c W).before 2 t d))
    ∗ (∃ d, owns (c : Thread nD τ) (ms3_3 t) fullShare ((dats3 c W).before 3 t d))
    ∗ (∃ d, owns (c : Thread nD τ) (ms3_4 t) fullShare ((dats3 c W).before 4 t d)))

/-- and what it returns. -/
def bodyPost3 (t : Fin cfg3.N) : sProp 𝕄 :=
  iprop((dats3 c W).Φ t.succ ∗ (dats3 c W).owesAt () t.succ
    ∗ (dats3 c W).leavesExact 0 t ∗ (dats3 c W).leavesExact 1 t ∗ (dats3 c W).leavesExact 2 t
    ∗ (dats3 c W).leavesExact 3 t ∗ (dats3 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body3 (t : Fin cfg3.N) :
    bodyPre3 c W t ⊢ wp frame (wpE (defs₀ (F := F)) Variants.none c none) Set.univ (bodyAt3 t) (fun _ => bodyPost3 c W t) := by
  unfold bodyPre3 bodyPost3 bodyAt3
  simp only [before3_0, before3_1, before3_2]
  rw [show (dats3 c W).owesAt () t.succ = (dats3 c W).owesAt () t.castSucc from rfl]
  rw [show (dats3 c W).Φ t.succ = PhiS3 c W (t.val + 1) t.isLt from rfl, PhiS3_succ]
  have hN : t.val < 8 := lt_of_lt_of_eq t.isLt N3_eq
  rw [show (dats3 c W).leavesExact 0 t = owns (c : Thread nD τ) (ms3_0 t) fullShare ((dats3 c W).after 0 t) from by
    unfold Dat.leavesExact; rw [liveAt3_0 t], after3_0]
  rw [show (dats3 c W).leavesExact 1 t = owns (c : Thread nD τ) (ms3_1 t) fullShare ((dats3 c W).after 1 t) from by
    unfold Dat.leavesExact; rw [liveAt3_1 t], after3_1]
  rw [show (dats3 c W).leavesExact 2 t = owns (c : Thread nD τ) (ms3_2 t) fullShare ((dats3 c W).after 2 t) from by
    unfold Dat.leavesExact; rw [liveAt3_2 t], after3_2]
  by_cases h0 : t.val % 2 = 0
  · have hcA0 : cond3_0 (grid3.coords t) := (hcond3_0 t).mpr h0
    have hcA1 : ¬cond3_1 (grid3.coords t) := fun h => (fun h => by omega) ((hcond3_1 t).mp h)
    rw [Dat.leavesExact_idle (dats3 c W) 3 t (idleAt3_3_A t hcA0 hcA1) (noFlush3_3_A t hcA0 hcA1)]
    rw [Dat.leavesExact_idle (dats3 c W) 4 t (idleAt3_4_A t hcA0 hcA1) (noFlush3_4_A t hcA0 hcA1)]
    rw [outsAt3_A c W t h0]
    unfold res3A; (try dsimp only)
    by_cases hz : t.val = 0
    · rw [PhiS3_castSucc c W t, PhiS3_zero c W _ _ hz, scopedRest3_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ _ _ ((hcond3_0 t).mpr h0) (fun h => (fun h => by omega) ((hcond3_1 t).mp h)) (iblk3 c W 0 t) (iblk3 c W 1 t) (iblk3 c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover3A_0 c _ _ _ _ _ _ _ _ _ _ _ _ _ _ _ _ _ _ _ _)
          · unfold owns; iexists _; isplitr
            swap; · iexact HS1
            ipureintro; exact View.read_writes_of_cover _ _ _ _ _ (scover3A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS3_castSucc c W t, PhiS3_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun3_A c (grid3.coords t) _ _ _ _ _ _ _ _ _ _ _ _ _ _ ((hcond3_0 t).mpr h0) (fun h => (fun h => by omega) ((hcond3_1 t).mp h)) (iblk3 c W 0 t) (iblk3 c W 1 t) (iblk3 c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover3A_0 c _ _ _ _ _ _ _ _ _ _ _ _ _ _ _ _ _ _ _ _)
          · unfold owns; iexists _; isplitr
            swap; · iexact HS1
            ipureintro; exact View.read_writes_of_cover _ _ _ _ _ (scover3A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond3_0 (grid3.coords t) := fun h => h0 ((hcond3_0 t).mp h)
    have hcB1 : cond3_1 (grid3.coords t) := (hcond3_1 t).mpr (by omega)
    rw [show (dats3 c W).leavesExact 3 t = owns (c : Thread nD τ) (ms3_3 t) fullShare ((dats3 c W).after 3 t) from by
      unfold Dat.leavesExact; rw [liveAt3_3_B t hcB0 hcB1], after3_3]
    rw [show (dats3 c W).leavesExact 4 t = owns (c : Thread nD τ) (ms3_4 t) fullShare ((dats3 c W).after 4 t) from by
      unfold Dat.leavesExact; rw [liveAt3_4_B t hcB0 hcB1], after3_4]
    rw [outsAt3_B c W t h0]
    unfold res3B; (try dsimp only)
    have hz : t.val ≠ 0 := by omega
    rw [PhiS3_castSucc c W t, PhiS3_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun3_B c (grid3.coords t) _ _ _ _ _ _ _ _ _ _ _ _ _ _ (fun h => h0 ((hcond3_0 t).mp h)) ((hcond3_1 t).mpr (by omega)) (iblk3 c W 0 t) (iblk3 c W 1 t) (iblk3 c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scover3B_0 c _ _ _ _ _ _ _ _ _ _ _ _ _ _ _ _ _ _ _ _ _ _)
        · unfold owns; iexists _; isplitr
          swap; · iexact HS1
          ipureintro; exact View.read_writes_of_cover _ _ _ _ _ (scover3B_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3B_3 c _ _ _ _ _ _ _ _ _ _ _ _ _ _ _ _ _ _ _ _ _ _)
    · unfold owns; iexists _; isplitr
      swap; · iexact H4
      ipureintro; exact View.read_writes_of_cover _ _ _ _ _ (cover3B_4 c _ _ _ _ _ _ _ _ _ _ _ _ _ _ _ _ _ _ _ _ _ _)

/-- The library's body obligation, at every point. -/
theorem body_obligation3 : BodyObligation (dats3 (F := F) c W) (defs₀ (F := F)) Variants.none () Set.univ := fun t => by
  rw [bigSep_W3, bigSep_W3]
  exact sound_body3 c W t

/-- The scoped rest as the launch hands it is the invariant before the first point. -/
theorem Phi3_in (t : Fin (cfg3.N + 1)) (ht : t.val = 0) : Pipeline.scopedRest (Ix := Unit) (Name := ℕ) (U := UR sig nD τ) (Lvl := ℕ) (Val := Elt F) spec3 c ⊢ (dats3 c W).Φ t := by
  rw [show (dats3 c W).Φ t = PhiS3 c W t.val (Nat.le_of_lt_succ t.isLt) from rfl, PhiS3_zero c W _ _ ht]

/-- After any point but the first the invariant gives the scoped rest back: the accumulators' contents are forgotten. -/
theorem Phi3_out (t : Fin (cfg3.N + 1)) (ht : t.val ≠ 0) : (dats3 c W).Φ t ⊢ (Pipeline.scopedRest (Ix := Unit) (Name := ℕ) (U := UR sig nD τ) (Lvl := ℕ) (Val := Elt F) spec3 c : sProp 𝕄) := by
  rw [show (dats3 c W).Φ t = PhiS3 c W t.val (Nat.le_of_lt_succ t.isLt) from rfl, PhiS3_pos c W _ _ ht, scopedRest3_eq]
  iintro ⟨⟨HS0, HS1⟩, Hr⟩
  isplitl [HS0 HS1]
  · isplitl [HS0]; · iexists _; iexact HS0
    iexists _; iexact HS1
  iexact Hr

end Cert.KernelIdeal.Hand

end
-- ==== Proof.KI.R4Cond.lean ====
import proofs.«117539_j28759101014307_2_alg».proof.Proof.Gen.KernelIdeal.Launch
import proofs.«117539_j28759101014307_2_alg».proof.Proof.Gen.KernelIdeal.Skeleton
import proofs.«117539_j28759101014307_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region (pallas_call 4): the branch conditions over the grid

The grid is 4 × 2: the second coordinate `k` walks the two column halves of the adjacency block row. The first
conditional (`k = 0`) resets both accumulators; the second (`k = 1`, the last half) copies them to the two outputs. -/

/-- The reset condition of the body, from the grid coordinates. -/
abbrev cond4_0 (i : grid4.Coords) : Prop := (Scalar.cmpi .ne (Scalar.extui (Scalar.cmpi .eq (BitVec.ofNat 32 (i 1).val) 0#32)) 0#32) = 1#1
/-- It holds exactly at the even points. -/
theorem hcond4_0 : ∀ t : Fin cfg4.N, cond4_0 (grid4.coords t) ↔ t.val % 2 = 0 :=
  (by decide +kernel : ∀ t : Fin grid4.N, cond4_0 (grid4.coords t) ↔ t.val % 2 = 0)

/-- The write-out condition of the body. -/
abbrev cond4_1 (i : grid4.Coords) : Prop := k4_cond2 i = 1#1
/-- It holds exactly at the odd points. -/
theorem hcond4_1 : ∀ t : Fin cfg4.N, cond4_1 (grid4.coords t) ↔ t.val % 2 = 1 :=
  (by decide +kernel : ∀ t : Fin grid4.N, cond4_1 (grid4.coords t) ↔ t.val % 2 = 1)

end Cert.KernelIdeal.Hand

end
-- ==== Proof.KI.R4RunA.lean ====
import proofs.«117539_j28759101014307_2_alg».proof.Proof.KI.R4Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 0`: both accumulators are reset to zero and then receive the first half's
    products; the outputs' staging buffers are not touched. The pieces each accumulator ends with are found by the run. -/
noncomputable def kernelRun4_A (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) :
    Σ' (LS0 : List (View.Piece (Elt F) S2048x128 .f32)), { LS1 : List (View.Piece (Elt F) S2048x128 .f32) //
      ∀ (xi3 xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__ahat_matmul_kernel i arg2 harg2 arg3 harg3 arg4 harg4 arg5 harg5 arg6 harg6 arg7 harg7 arg8 harg8) K } := by
  refine ⟨?_, ?_, fun xi3 xi4 E K => ?run⟩
  case run =>
    simp only [cc4__ahat_matmul_kernel_eq_skeleton]; unfold cc4__ahat_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

end Cert.KernelIdeal.Hand

end
-- ==== Proof.KI.R4RunB.lean ====
import proofs.«117539_j28759101014307_2_alg».proof.Proof.KI.R4Cond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 4000000 in
/-- The body at a point with `k = 1` (the last half): both accumulators, carried from the point before at `xs0`, `xs1`,
    receive the second half's products and are then copied whole into the two outputs' staging buffers. The pieces each
    buffer ends with are found by the run. -/
noncomputable def kernelRun4_B (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) :
    Σ' (L3 : List (View.Piece (Elt F) S2048x128 .f32)) (L4 : List (View.Piece (Elt F) S2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__ahat_matmul_kernel i arg2 harg2 arg3 harg3 arg4 harg4 arg5 harg5 arg6 harg6 arg7 harg7 arg8 harg8) K } := by
  refine ⟨?_, ?_, ?_, ?_, fun E K => ?run⟩
  case run =>
    simp only [cc4__ahat_matmul_kernel_eq_skeleton]; unfold cc4__ahat_matmul_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.R4Data.lean ====
import proofs.«117539_j28759101014307_2_alg».proof.Proof.KI.R4RunA
import proofs.«117539_j28759101014307_2_alg».proof.Proof.KI.R4RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## The matmul region: what its buffers hold point by point

The region's five windows are the adjacency block (2048 × 4096), the two right-hand sides' row blocks (4096 × 128) and
the two outputs' blocks (2048 × 128). Along `k` the two scratch accumulators carry the partial products from the
even point (reset, first half) to the odd point (second half, then copied out). -/

variable (c : Dev nD) (W : (b : Ref sig .tc) → Buf (Elt F) ((c : Thread nD τ).loc b))

/-- Window `w`'s block at point `t`, read off its array as the region finds it. -/
def iblk4 (w : Fin cfg4.W) (t : Fin cfg4.N) : ((cfg4.win w).xblock (cfg4.grid.coords t)).Idx → Elt F (cfg4.win w).elt :=
  ((cfg4.win w).blk t).view.read (Elt F) (W (Pipeline.arrRef spec4 w))

/-- One staging buffer of each output window, through which its contents are stated. -/
abbrev VO4_3 : View sig .tc .vmem S2048x128 .f32 := (Memref.whole cc4_stg3_0 : Memref sig .tc .vmem S2048x128 .f32).view
abbrev VO4_4 : View sig .tc .vmem S2048x128 .f32 := (Memref.whole cc4_stg4_0 : Memref sig .tc .vmem S2048x128 .f32).view
/-- Each window's current staging memref at point `t`, and its wholeness. -/
abbrev ms4_0 (t : Fin cfg4.N) : Memref sig .tc .vmem S2048x4096 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x128 .f32 := win4_4.stage (cfg4.slots t 4)
abbrev hs4_4 (t : Fin cfg4.N) : (ms4_4 t).IsWhole := hstage4_4 ((cfg4.slots t 4).cast nbuf4_4)
/-- The two accumulators: whole scoped buffers of the kernel's own. -/
abbrev scM4_0 : Memref sig .tc .vmem S2048x128 .f32 := Memref.whole cc4_scratch0
abbrev scM4_1 : Memref sig .tc .vmem S2048x128 .f32 := Memref.whole cc4_scratch1
abbrev VS4_0 : View sig .tc .vmem S2048x128 .f32 := scM4_0.view
abbrev VS4_1 : View sig .tc .vmem S2048x128 .f32 := scM4_1.view

/-! ### Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_4_A : ∀ t : Fin cfg4.N, cond4_0 (grid4.coords t) → ¬cond4_1 (grid4.coords t) → cfg4.idle 4 (grid4.coords t) = true := by decide +kernel
theorem noFlush4_4_A : ∀ t : Fin cfg4.N, cond4_0 (grid4.coords t) → ¬cond4_1 (grid4.coords t) → (cfg4.win 4).flush t = false := by decide +kernel
theorem liveAt4_3_B : ∀ t : Fin cfg4.N, ¬cond4_0 (grid4.coords t) → cond4_1 (grid4.coords t) → cfg4.idle 3 (grid4.coords t) = false := by decide +kernel
theorem liveAt4_4_B : ∀ t : Fin cfg4.N, ¬cond4_0 (grid4.coords t) → cond4_1 (grid4.coords t) → cfg4.idle 4 (grid4.coords t) = false := by decide +kernel

/-! ### What each case leaves: (output 3, output 4, accumulator 0, accumulator 1) -/

/-- The reset case: the outputs are not touched (placeholders nothing reads); each accumulator holds its pieces. -/
def res4A (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) : (Vec F S2048x128 .f32 × Vec F S2048x128 .f32 × Vec F S2048x128 .f32 × Vec F S2048x128 .f32) :=
  (VO4_3.read (Elt F) VO4_3.junk, VO4_4.read (Elt F) VO4_4.junk,
   VS4_0.read (Elt F) (VS4_0.writes (Elt F) VS4_0.junk (kernelRun4_A c i arg2 harg2 arg3 harg3 arg4 harg4 arg5 harg5 arg6 harg6 arg7 harg7 arg8 harg8 hc0 hc1 x0 x1 x2).1),
   VS4_1.read (Elt F) (VS4_1.writes (Elt F) VS4_1.junk (kernelRun4_A c i arg2 harg2 arg3 harg3 arg4 harg4 arg5 harg5 arg6 harg6 arg7 harg7 arg8 harg8 hc0 hc1 x0 x1 x2).2.1))

theorem scover4A_0 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) (y : S2048x128.Idx) :
    ∃ pc ∈ (kernelRun4_A c i arg2 harg2 arg3 harg3 arg4 harg4 arg5 harg5 arg6 harg6 arg7 harg7 arg8 harg8 hc0 hc1 x0 x1 x2).1, y ∈ pc.1.set :=
  View.cover_of_tiledL (kernelRun4_A c i arg2 harg2 arg3 harg3 arg4 harg4 arg5 harg5 arg6 harg6 arg7 harg7 arg8 harg8 hc0 hc1 x0 x1 x2).1 S2048x128.size (by sl_kernel_rfl) y
theorem scover4A_1 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) (y : S2048x128.Idx) :
    ∃ pc ∈ (kernelRun4_A c i arg2 harg2 arg3 harg3 arg4 harg4 arg5 harg5 arg6 harg6 arg7 harg7 arg8 harg8 hc0 hc1 x0 x1 x2).2.1, y ∈ pc.1.set :=
  View.cover_of_tiledL (kernelRun4_A c i arg2 harg2 arg3 harg3 arg4 harg4 arg5 harg5 arg6 harg6 arg7 harg7 arg8 harg8 hc0 hc1 x0 x1 x2).2.1 S2048x128.size (by sl_kernel_rfl) y

/-- The write-out case, over what the point before left in the accumulators. -/
def res4B (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) : (Vec F S2048x128 .f32 × Vec F S2048x128 .f32 × Vec F S2048x128 .f32 × Vec F S2048x128 .f32) :=
  (VO4_3.read (Elt F) (VO4_3.writes (Elt F) VO4_3.junk (kernelRun4_B c i arg2 harg2 arg3 harg3 arg4 harg4 arg5 harg5 arg6 harg6 arg7 harg7 arg8 harg8 hc0 hc1 x0 x1 x2 xs0 xs1).1),
   VO4_4.read (Elt F) (VO4_4.writes (Elt F) VO4_4.junk (kernelRun4_B c i arg2 harg2 arg3 harg3 arg4 harg4 arg5 harg5 arg6 harg6 arg7 harg7 arg8 harg8 hc0 hc1 x0 x1 x2 xs0 xs1).2.1),
   VS4_0.read (Elt F) (VS4_0.writes (Elt F) VS4_0.junk (kernelRun4_B c i arg2 harg2 arg3 harg3 arg4 harg4 arg5 harg5 arg6 harg6 arg7 harg7 arg8 harg8 hc0 hc1 x0 x1 x2 xs0 xs1).2.2.1),
   VS4_1.read (Elt F) (VS4_1.writes (Elt F) VS4_1.junk (kernelRun4_B c i arg2 harg2 arg3 harg3 arg4 harg4 arg5 harg5 arg6 harg6 arg7 harg7 arg8 harg8 hc0 hc1 x0 x1 x2 xs0 xs1).2.2.2.1))

theorem cover4B_3 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).1, y ∈ pc.1.set :=
  View.cover_of_tiledL (kernelRun4_B c i arg2 harg2 arg3 harg3 arg4 harg4 arg5 harg5 arg6 harg6 arg7 harg7 arg8 harg8 hc0 hc1 x0 x1 x2 xs0 xs1).1 S2048x128.size (by sl_kernel_rfl) y
theorem cover4B_4 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).2.1, y ∈ pc.1.set :=
  View.cover_of_tiledL (kernelRun4_B c i arg2 harg2 arg3 harg3 arg4 harg4 arg5 harg5 arg6 harg6 arg7 harg7 arg8 harg8 hc0 hc1 x0 x1 x2 xs0 xs1).2.1 S2048x128.size (by sl_kernel_rfl) y
theorem scover4B_0 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).2.2.1, y ∈ pc.1.set :=
  View.cover_of_tiledL (kernelRun4_B c i arg2 harg2 arg3 harg3 arg4 harg4 arg5 harg5 arg6 harg6 arg7 harg7 arg8 harg8 hc0 hc1 x0 x1 x2 xs0 xs1).2.2.1 S2048x128.size (by sl_kernel_rfl) y
theorem scover4B_1 (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1 : Vec F S2048x128 .f32) (y : S2048x128.Idx) :
    ∃ pc ∈ (kernelRun4_B c i arg2 harg2 arg3 harg3 arg4 harg4 arg5 harg5 arg6 harg6 arg7 harg7 arg8 harg8 hc0 hc1 x0 x1 x2 xs0 xs1).2.2.2.1, y ∈ pc.1.set :=
  View.cover_of_tiledL (kernelRun4_B c i arg2 harg2 arg3 harg3 arg4 harg4 arg5 harg5 arg6 harg6 arg7 harg7 arg8 harg8 hc0 hc1 x0 x1 x2 xs0 xs1).2.2.2.1 S2048x128.size (by sl_kernel_rfl) y

/-! ### The accumulation over the grid -/

theorem N4_eq : cfg4.N = 8 := N_4

/-- What the two outputs' staging buffers and the two accumulators hold after the body at position `n`: the reset case at
    even positions, the write-out case at odd ones over what the position before left in the accumulators. -/
def outsAt4 : (n : ℕ) → n < cfg4.N → (Vec F S2048x128 .f32 × Vec F S2048x128 .f32 × Vec F S2048x128 .f32 × Vec F S2048x128 .f32)
  | 0, hn => res4A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 c W 0 ⟨0, hn⟩) (iblk4 c W 1 ⟨0, hn⟩) (iblk4 c W 2 ⟨0, hn⟩)
  | n + 1, hn =>
    if h0 : (n + 1) % 2 = 0 then
      res4A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) ((hcond4_0 ⟨n + 1, hn⟩).mpr h0) (fun h => (fun h => by (try dsimp only at h); omega) ((hcond4_1 ⟨n + 1, hn⟩).mp h)) (iblk4 c W 0 ⟨n + 1, hn⟩) (iblk4 c W 1 ⟨n + 1, hn⟩) (iblk4 c W 2 ⟨n + 1, hn⟩)
    else
      res4B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) scM4_1 (Memref.isWhole_whole _) (fun h => h0 ((hcond4_0 ⟨n + 1, hn⟩).mp h)) ((hcond4_1 ⟨n + 1, hn⟩).mpr (by (try dsimp only); omega)) (iblk4 c W 0 ⟨n + 1, hn⟩) (iblk4 c W 1 ⟨n + 1, hn⟩) (iblk4 c W 2 ⟨n + 1, hn⟩)
        (outsAt4 n (Nat.lt_of_succ_lt hn)).2.2.1 (outsAt4 n (Nat.lt_of_succ_lt hn)).2.2.2

theorem outsAt4_A (t : Fin cfg4.N) (h0 : t.val % 2 = 0) :
    outsAt4 c W t.val t.isLt = res4A c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) ((hcond4_0 t).mpr h0) (fun h => (fun h => by omega) ((hcond4_1 t).mp h)) (iblk4 c W 0 t) (iblk4 c W 1 t) (iblk4 c W 2 t) := by
  obtain ⟨n, hn⟩ := t
  cases n with
  | zero => exact rfl
  | succ n => exact (dif_pos h0).trans rfl

theorem outsAt4_B (t : Fin cfg4.N) (h0 : ¬t.val % 2 = 0) :
    outsAt4 c W t.val t.isLt = res4B c (grid4.coords t) (ms4_0 t) (hs4_0 t) (ms4_1 t) (hs4_1 t) (ms4_2 t) (hs4_2 t) (ms4_3 t) (hs4_3 t) (ms4_4 t) (hs4_4 t) scM4_0 (Memref.isWhole_whole _) scM4_1 (Memref.isWhole_whole _) (fun h => h0 ((hcond4_0 t).mp h)) ((hcond4_1 t).mpr (by omega)) (iblk4 c W 0 t) (iblk4 c W 1 t) (iblk4 c W 2 t)
      (outsAt4 c W (t.val - 1) (Nat.lt_of_le_of_lt (Nat.sub_le _ _) t.isLt)).2.2.1 (outsAt4 c W (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

end Cert.KernelIdeal.Hand

end
-- ==== Proof.KI.R4Body.lean ====
import proofs.«117539_j28759101014307_2_alg».proof.Proof.KI.R4Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (c : Dev nD) (W : (b : Ref sig .tc) → Buf (Elt F) ((c : Thread nD τ).loc b))

/-! ## The matmul region: the invariant, the proof data and the body at every point -/

/-- The scoped buffers no window stages, with the two accumulators taken out as whole memrefs at some contents. -/
theorem scopedRest4_eq :
    (Pipeline.scopedRest (Ix := Unit) (Name := ℕ) (U := UR sig nD τ) (Lvl := ℕ) (Val := Elt F) spec4 c : sProp 𝕄)
      = iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [scM4_0, scM4_1, owns_whole]; try rfl

/-- The region's invariant before position `n`: before the first point the scoped rest as the launch hands it; afterwards
    the two accumulators at what the point before left in them, beside the other scoped buffers. -/
def PhiS4 : (n : ℕ) → n ≤ cfg4.N → sProp 𝕄
  | 0, _ => Pipeline.scopedRest (Ix := Unit) (Name := ℕ) (U := UR sig nD τ) (Lvl := ℕ) (Val := Elt F) spec4 c
  | n + 1, hn => iprop(iprop(owns (c : Thread nD τ) scM4_0 fullShare ((outsAt4 c W n hn).2.2.1) ∗ owns (c : Thread nD τ) scM4_1 fullShare ((outsAt4 c W n hn).2.2.2))
      ∗ Pipeline.scopedRestBut (Ix := Unit) (Name := ℕ) (U := UR sig nD τ) (Lvl := ℕ) (Val := Elt F) spec4 c [cc4_scratch0, cc4_scratch1])

theorem PhiS4_zero (n : ℕ) (h : n ≤ cfg4.N) (hz : n = 0) :
    PhiS4 c W n h = Pipeline.scopedRest (Ix := Unit) (Name := ℕ) (U := UR sig nD τ) (Lvl := ℕ) (Val := Elt F) spec4 c := by
  subst hz; rfl

theorem PhiS4_succ (n : ℕ) (hn : n < cfg4.N) :
    PhiS4 c W (n + 1) hn = iprop(iprop(owns (c : Thread nD τ) scM4_0 fullShare ((outsAt4 c W n hn).2.2.1) ∗ owns (c : Thread nD τ) scM4_1 fullShare ((outsAt4 c W n hn).2.2.2))
      ∗ Pipeline.scopedRestBut (Ix := Unit) (Name := ℕ) (U := UR sig nD τ) (Lvl := ℕ) (Val := Elt F) spec4 c [cc4_scratch0, cc4_scratch1]) := rfl

theorem PhiS4_pos (n : ℕ) (h : n ≤ cfg4.N) (hz : n ≠ 0) :
    PhiS4 c W n h = iprop(iprop(owns (c : Thread nD τ) scM4_0 fullShare ((outsAt4 c W (n - 1) (by omega)).2.2.1) ∗ owns (c : Thread nD τ) scM4_1 fullShare ((outsAt4 c W (n - 1) (by omega)).2.2.2))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-- The proof data of the matmul region on core `c`, entered with the unscoped buffers at `W`: each input's buffer at its
    block, each output's at the accumulation's component, the invariant above, nothing owed, full shares. -/
def dats4 : Dat τ (Elt F) Unit ℕ (UR sig nD τ) ℕ cfg4 c where
  A w := W (Pipeline.arrRef spec4 w)
  after w t := match w with
    | ⟨0, _⟩ => iblk4 c W 0 t
    | ⟨1, _⟩ => iblk4 c W 1 t
    | ⟨2, _⟩ => iblk4 c W 2 t
    | ⟨3, _⟩ => (outsAt4 c W t.val t.isLt).1
    | ⟨4, _⟩ => (outsAt4 c W t.val t.isLt).2.1
  Φ t := PhiS4 c W t.val (Nat.le_of_lt_succ t.isLt)
  q _ := fullShare
  owed _ := 0

theorem A4_eq (w : Fin cfg4.W) : (dats4 c W).A w = W (Pipeline.arrRef spec4 w) := by dsimp only [dats4]

theorem PhiS4_castSucc (t : Fin cfg4.N) : (dats4 c W).Φ t.castSucc = PhiS4 c W t.val (Nat.le_of_lt t.isLt) := by
  dsimp only [dats4]; simp only [Fin.coe_castSucc]

theorem after4_0 (t : Fin cfg4.N) : (dats4 c W).after 0 t = iblk4 c W 0 t := by dsimp only [dats4]
theorem after4_1 (t : Fin cfg4.N) : (dats4 c W).after 1 t = iblk4 c W 1 t := by dsimp only [dats4]
theorem after4_2 (t : Fin cfg4.N) : (dats4 c W).after 2 t = iblk4 c W 2 t := by dsimp only [dats4]
theorem after4_3 (t : Fin cfg4.N) : (dats4 c W).after 3 t = (outsAt4 c W t.val t.isLt).1 := by dsimp only [dats4]
theorem after4_4 (t : Fin cfg4.N) : (dats4 c W).after 4 t = (outsAt4 c W t.val t.isLt).2.1 := by dsimp only [dats4]

/-- Each input's current staging buffer holds its block at every point (every point fetches it). -/
theorem before4_0 (t : Fin cfg4.N) (d) : (dats4 c W).before 0 t d = iblk4 c W 0 t :=
  ((dats4 c W).before_in_eq_fetched 0 rfl (fun _ => rfl) (fun _ _ _ => rfl) (fun t => by rw [after4_0]; unfold Dat.blockOf iblk4; rw [A4_eq]; try rfl) t d).trans
    (by unfold Dat.fetched Dat.blockOf iblk4; rw [A4_eq]; try rfl)
theorem before4_1 (t : Fin cfg4.N) (d) : (dats4 c W).before 1 t d = iblk4 c W 1 t :=
  ((dats4 c W).before_in_eq_fetched 1 rfl (fun _ => rfl) (fun _ _ _ => rfl) (fun t => by rw [after4_1]; unfold Dat.blockOf iblk4; rw [A4_eq]; try rfl) t d).trans
    (by unfold Dat.fetched Dat.blockOf iblk4; rw [A4_eq]; try rfl)
theorem before4_2 (t : Fin cfg4.N) (d) : (dats4 c W).before 2 t d = iblk4 c W 2 t :=
  ((dats4 c W).before_in_eq_fetched 2 rfl (fun _ => rfl) (fun _ _ _ => rfl) (fun t => by rw [after4_2]; unfold Dat.blockOf iblk4; rw [A4_eq]; try rfl) t d).trans
    (by unfold Dat.fetched Dat.blockOf iblk4; rw [A4_eq]; try rfl)

/-- What the body is called with at point `t`, the windows one by one, -/
def bodyPre4 (t : Fin cfg4.N) : sProp 𝕄 :=
  iprop((dats4 c W).Φ t.castSucc ∗ (dats4 c W).owesAt () t.castSucc
    ∗ (∃ d, owns (c : Thread nD τ) (ms4_0 t) fullShare ((dats4 c W).before 0 t d))
    ∗ (∃ d, owns (c : Thread nD τ) (ms4_1 t) fullShare ((dats4 c W).before 1 t d))
    ∗ (∃ d, owns (c : Thread nD τ) (ms4_2 t) fullShare ((dats4 c W).before 2 t d))
    ∗ (∃ d, owns (c : Thread nD τ) (ms4_3 t) fullShare ((dats4 c W).before 3 t d))
    ∗ (∃ d, owns (c : Thread nD τ) (ms4_4 t) fullShare ((dats4 c W).before 4 t d)))

/-- and what it returns. -/
def bodyPost4 (t : Fin cfg4.N) : sProp 𝕄 :=
  iprop((dats4 c W).Φ t.succ ∗ (dats4 c W).owesAt () t.succ
    ∗ (dats4 c W).leavesExact 0 t ∗ (dats4 c W).leavesExact 1 t ∗ (dats4 c W).leavesExact 2 t
    ∗ (dats4 c W).leavesExact 3 t ∗ (dats4 c W).leavesExact 4 t)

set_option maxHeartbeats 4800000 in
/-- The body at any point: the inputs' memrefs hold their blocks; the parity of the point says which case it is in; the
    invariant hands the body the accumulators (at anything at the first point, else at what the point before left) and takes
    them back at this point's contents; the core owes nothing throughout. -/
theorem sound_body4 (t : Fin cfg4.N) :
    bodyPre4 c W t ⊢ wp frame (wpE (defs₀ (F := F)) Variants.none c none) Set.univ (bodyAt4 t) (fun _ => bodyPost4 c W t) := by
  unfold bodyPre4 bodyPost4 bodyAt4
  simp only [before4_0, before4_1, before4_2]
  rw [show (dats4 c W).owesAt () t.succ = (dats4 c W).owesAt () t.castSucc from rfl]
  rw [show (dats4 c W).Φ t.succ = PhiS4 c W (t.val + 1) t.isLt from rfl, PhiS4_succ]
  have hN : t.val < 8 := lt_of_lt_of_eq t.isLt N4_eq
  rw [show (dats4 c W).leavesExact 0 t = owns (c : Thread nD τ) (ms4_0 t) fullShare ((dats4 c W).after 0 t) from by
    unfold Dat.leavesExact; rw [liveAt4_0 t], after4_0]
  rw [show (dats4 c W).leavesExact 1 t = owns (c : Thread nD τ) (ms4_1 t) fullShare ((dats4 c W).after 1 t) from by
    unfold Dat.leavesExact; rw [liveAt4_1 t], after4_1]
  rw [show (dats4 c W).leavesExact 2 t = owns (c : Thread nD τ) (ms4_2 t) fullShare ((dats4 c W).after 2 t) from by
    unfold Dat.leavesExact; rw [liveAt4_2 t], after4_2]
  by_cases h0 : t.val % 2 = 0
  · have hcA0 : cond4_0 (grid4.coords t) := (hcond4_0 t).mpr h0
    have hcA1 : ¬cond4_1 (grid4.coords t) := fun h => (fun h => by omega) ((hcond4_1 t).mp h)
    rw [Dat.leavesExact_idle (dats4 c W) 3 t (idleAt4_3_A t hcA0 hcA1) (noFlush4_3_A t hcA0 hcA1)]
    rw [Dat.leavesExact_idle (dats4 c W) 4 t (idleAt4_4_A t hcA0 hcA1) (noFlush4_4_A t hcA0 hcA1)]
    rw [outsAt4_A c W t h0]
    unfold res4A; (try dsimp only)
    by_cases hz : t.val = 0
    · rw [PhiS4_castSucc c W t, PhiS4_zero c W _ _ hz, scopedRest4_eq]
      iintro ⟨⟨⟨HS0, HS1⟩, Hr⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ _ _ ((hcond4_0 t).mpr h0) (fun h => (fun h => by omega) ((hcond4_1 t).mp h)) (iblk4 c W 0 t) (iblk4 c W 1 t) (iblk4 c W 2 t)).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover4A_0 c _ _ _ _ _ _ _ _ _ _ _ _ _ _ _ _ _ _ _ _)
          · unfold owns; iexists _; isplitr
            swap; · iexact HS1
            ipureintro; exact View.read_writes_of_cover _ _ _ _ _ (scover4A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
    · rw [PhiS4_castSucc c W t, PhiS4_pos c W _ _ hz]
      iintro ⟨⟨⟨HS0, HS1⟩, Hr⟩, Ho, ⟨%d0, H0⟩, ⟨%d1, H1⟩, ⟨%d2, H2⟩, ⟨%d3, H3⟩, ⟨%d4, H4⟩⟩
      iapply ((kernelRun4_A c (grid4.coords t) _ _ _ _ _ _ _ _ _ _ _ _ _ _ ((hcond4_0 t).mpr h0) (fun h => (fun h => by omega) ((hcond4_1 t).mp h)) (iblk4 c W 0 t) (iblk4 c W 1 t) (iblk4 c W 2 t)).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 Hr]
      · isplitr [Hr]
        · isplitl [HS0]
          · unfold owns; iexists _; isplitr
            swap; · iexact HS0
            ipureintro; exact View.read_writes_of_cover _ _ _ _ _ (scover4A_0 c _ _ _ _ _ _ _ _ _ _ _ _ _ _ _ _ _ _ _ _)
          · unfold owns; iexists _; isplitr
            swap; · iexact HS1
            ipureintro; exact View.read_writes_of_cover _ _ _ _ _ (scover4A_1 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexists _; iexact H3
      iexists _; iexact H4
  · have hcB0 : ¬cond4_0 (grid4.coords t) := fun h => h0 ((hcond4_0 t).mp h)
    have hcB1 : cond4_1 (grid4.coords t) := (hcond4_1 t).mpr (by omega)
    rw [show (dats4 c W).leavesExact 3 t = owns (c : Thread nD τ) (ms4_3 t) fullShare ((dats4 c W).after 3 t) from by
      unfold Dat.leavesExact; rw [liveAt4_3_B t hcB0 hcB1], after4_3]
    rw [show (dats4 c W).leavesExact 4 t = owns (c : Thread nD τ) (ms4_4 t) fullShare ((dats4 c W).after 4 t) from by
      unfold Dat.leavesExact; rw [liveAt4_4_B t hcB0 hcB1], after4_4]
    rw [outsAt4_B c W t h0]
    unfold res4B; (try dsimp only)
    have hz : t.val ≠ 0 := by omega
    rw [PhiS4_castSucc c W t, PhiS4_pos c W _ _ hz]
    iintro ⟨⟨⟨HS0, HS1⟩, Hr⟩, Ho, ⟨%d0, H0⟩, ⟨%d1, H1⟩, ⟨%d2, H2⟩, ⟨%d3, H3⟩, ⟨%d4, H4⟩⟩
    iapply ((kernelRun4_B c (grid4.coords t) _ _ _ _ _ _ _ _ _ _ _ _ _ _ (fun h => h0 ((hcond4_0 t).mp h)) ((hcond4_1 t).mpr (by omega)) (iblk4 c W 0 t) (iblk4 c W 1 t) (iblk4 c W 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, ⟨%es0, HS0⟩, ⟨%es1, HS1⟩⟩
    isplitl [HS0 HS1 Hr]
    · isplitr [Hr]
      · isplitl [HS0]
        · unfold owns; iexists _; isplitr
          swap; · iexact HS0
          ipureintro; exact View.read_writes_of_cover _ _ _ _ _ (scover4B_0 c _ _ _ _ _ _ _ _ _ _ _ _ _ _ _ _ _ _ _ _ _ _)
        · unfold owns; iexists _; isplitr
          swap; · iexact HS1
          ipureintro; exact View.read_writes_of_cover _ _ _ _ _ (scover4B_1 c _ _ _ _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4B_3 c _ _ _ _ _ _ _ _ _ _ _ _ _ _ _ _ _ _ _ _ _ _)
    · unfold owns; iexists _; isplitr
      swap; · iexact H4
      ipureintro; exact View.read_writes_of_cover _ _ _ _ _ (cover4B_4 c _ _ _ _ _ _ _ _ _ _ _ _ _ _ _ _ _ _ _ _ _ _)

/-- The library's body obligation, at every point. -/
theorem body_obligation4 : BodyObligation (dats4 (F := F) c W) (defs₀ (F := F)) Variants.none () Set.univ := fun t => by
  rw [bigSep_W4, bigSep_W4]
  exact sound_body4 c W t

/-- The scoped rest as the launch hands it is the invariant before the first point. -/
theorem Phi4_in (t : Fin (cfg4.N + 1)) (ht : t.val = 0) : Pipeline.scopedRest (Ix := Unit) (Name := ℕ) (U := UR sig nD τ) (Lvl := ℕ) (Val := Elt F) spec4 c ⊢ (dats4 c W).Φ t := by
  rw [show (dats4 c W).Φ t = PhiS4 c W t.val (Nat.le_of_lt_succ t.isLt) from rfl, PhiS4_zero c W _ _ ht]

/-- After any point but the first the invariant gives the scoped rest back: the accumulators' contents are forgotten. -/
theorem Phi4_out (t : Fin (cfg4.N + 1)) (ht : t.val ≠ 0) : (dats4 c W).Φ t ⊢ (Pipeline.scopedRest (Ix := Unit) (Name := ℕ) (U := UR sig nD τ) (Lvl := ℕ) (Val := Elt F) spec4 c : sProp 𝕄) := by
  rw [show (dats4 c W).Φ t = PhiS4 c W t.val (Nat.le_of_lt_succ t.isLt) from rfl, PhiS4_pos c W _ _ ht, scopedRest4_eq]
  iintro ⟨⟨HS0, HS1⟩, Hr⟩
  isplitl [HS0 HS1]
  · isplitl [HS0]; · iexists _; iexact HS0
    iexists _; iexact HS1
  iexact Hr

end Cert.KernelIdeal.Hand

end
-- ==== Proof.KI.Segs.lean ====
import proofs.«117539_j28759101014307_2_alg».proof.Proof.KI.R0Body
import proofs.«117539_j28759101014307_2_alg».proof.Proof.KI.R1Body
import proofs.«117539_j28759101014307_2_alg».proof.Proof.KI.R2Body
import proofs.«117539_j28759101014307_2_alg».proof.Proof.KI.R3Body
import proofs.«117539_j28759101014307_2_alg».proof.Proof.KI.R4Body
import proofs.«117539_j28759101014307_2_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

open Cert.KernelIdeal Cert.KernelIdeal.Gen

/-! ## The five regions' proof data as one family, and the regions as segments

Each region is entered with the core's unscoped buffers at a valuation (`W0` … `W18`, one per region: the launch contents,
then what the host operations and the earlier regions left) and leaves them at that valuation updated at its two result
arrays. Only the scratch accumulators (scoped buffers) enter the invariant; every unscoped buffer that is no array of the
region bypasses it. -/

variable (W0 W6 W10 W14 W18 : Dev nD → Valuation τ sig (Elt F))

-- the recursions over the grid stay folded here: a region's record speaks of its first and last points only through the
-- lemmas about them
attribute [local irreducible] Pipeline.Dat.arrAt PhiS0 PhiS1 PhiS2 PhiS3 PhiS4 outsAt0 outsAt1 outsAt2 outsAt3 outsAt4

/-- The proof data of the five pipelines: a literal match on the pipeline index. -/
def pdats : (p : Fin 5) → (c : Dev nD) → Dat τ (Elt F) Unit ℕ (UR sig nD τ) ℕ (cfgs p) c
  | ⟨0, _⟩ => fun c => dats0 c (fun b => W0 c b)
  | ⟨1, _⟩ => fun c => dats1 c (fun b => W6 c b)
  | ⟨2, _⟩ => fun c => dats2 c (fun b => W10 c b)
  | ⟨3, _⟩ => fun c => dats3 c (fun b => W14 c b)
  | ⟨4, _⟩ => fun c => dats4 c (fun b => W18 c b)

/-- No core owes another anything: no level is assigned. -/
abbrev L₀ : GSem nD τ sig → Finset Unit := fun _ => ∅
abbrev lv₀ : GSem nD τ sig → Unit → ℕ := fun _ _ => 0

/-- What rides beside the buffers between the items: the core owing nothing. -/
abbrev Rest (c : Dev nD) : sProp 𝕄 := iprop(∃ Wd, owes (c : Thread nD τ) (0 : CellTallies nD τ sig Unit) Wd)

set_option maxHeartbeats 800000 in
set_option backward.isDefEq.respectTransparency.types false in
/-- THE ROW-SUM REGION as a segment: entered with the unscoped buffers at `W0`, left with them at any valuation that holds
    the region's arrays at their final contents and agrees with `W0` elsewhere. -/
def reg0 (Wb : Dev nD → Valuation τ sig (Elt F))
    (hF : ∀ c w, ((pdats W0 W6 W10 W14 W18) 0 c).arrAt w cfg0.N = Wb c (Pipeline.arrRef spec0 w))
    (hrest : ∀ c (b : Ref sig .tc), b ∉ Finset.univ.image (Pipeline.arrRef spec0) → Wb c b = W0 c b) :
    RegionSeg (pcfgs (F := F)) adm (pdats W0 W6 W10 W14 W18) () defs₀ Variants.none L₀ lv₀ 0 where
  win := launch0.win.to₀
  block_pos := launch0.block_pos
  stage_whole := launch0.stage_whole
  K := PEmpty
  osem := fun k => k.elim
  ho := Pipeline.OwnSemFacts.none _
  hbody c := (body_obligation0 c (fun b => W0 c b)).loose
  hwaits := Pipeline.hwaits_of_owed_zero _ _ _ _ L₀ lv₀ 0 fun _ _ => rfl
  pre c := iprop(StableHlo.held (c : Thread nD τ) (Pipeline.ucRefs τ sig) (W0 c) ∗ Rest c)
  post c := iprop(StableHlo.held (c : Thread nD τ) (Pipeline.ucRefs τ sig) (Wb c) ∗ Rest c)
  X _ := iprop(emp)
  Y _ := iprop(emp)
  Z c := Pipeline.unscopedRest spec0 c (fun b => W0 c b)
  hentry c := by
    rw [show StableHlo.held (c : Thread nD τ) (Pipeline.ucRefs τ sig) (W0 c) = unscopedBufs c (fun b => W0 c b) from (Pipeline.unscopedBufs_held c _).symm,
      Pipeline.ownSems0_none]
    have hsplit := Pipeline.arrays_of_unscopedBufs (p := (0 : Fin 5)) (pcfgs (F := F)) adm (pdats W0 W6 W10 W14 W18) launch0.win launch0.arr_whole c
      (((pdats W0 W6 W10 W14 W18) 0 c).share_full fun _ => rfl) (fun b => W0 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi0_in c (fun b => W0 c b) 0 rfl)
    iintro ⟨-, -, Hr⟩
    iexact Hr
  hout c := by
    refine .trans (Phi0_out c (fun b => W0 c b) (Fin.last cfg0.N) (by rw [Fin.val_last]; have : cfg0.N = 16 := N_0; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (0 : Fin 5)) (pcfgs (F := F)) adm launch0.win launch0.arr_whole c (pdats W0 W6 W10 W14 W18)
        (((pdats W0 W6 W10 W14 W18) 0 c).share_full fun _ => rfl) (fun b => W0 c b) (fun b => Wb c b) (fun w => ((pdats W0 W6 W10 W14 W18) 0 c).arrAt w cfg0.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 1 as a segment: entered with the unscoped buffers at `W6`, left with them at any valuation that holds
    the region's arrays at their final contents and agrees with `W6` elsewhere. -/
def reg1 (Wb : Dev nD → Valuation τ sig (Elt F))
    (hF : ∀ c w, ((pdats W0 W6 W10 W14 W18) 1 c).arrAt w cfg1.N = Wb c (Pipeline.arrRef spec1 w))
    (hrest : ∀ c (b : Ref sig .tc), b ∉ Finset.univ.image (Pipeline.arrRef spec1) → Wb c b = W6 c b) :
    RegionSeg (pcfgs (F := F)) adm (pdats W0 W6 W10 W14 W18) () defs₀ Variants.none L₀ lv₀ 1 where
  win := launch1.win.to₀
  block_pos := launch1.block_pos
  stage_whole := launch1.stage_whole
  K := PEmpty
  osem := fun k => k.elim
  ho := Pipeline.OwnSemFacts.none _
  hbody c := (body_obligation1 c (fun b => W6 c b)).loose
  hwaits := Pipeline.hwaits_of_owed_zero _ _ _ _ L₀ lv₀ 1 fun _ _ => rfl
  pre c := iprop(StableHlo.held (c : Thread nD τ) (Pipeline.ucRefs τ sig) (W6 c) ∗ Rest c)
  post c := iprop(StableHlo.held (c : Thread nD τ) (Pipeline.ucRefs τ sig) (Wb c) ∗ Rest c)
  X _ := iprop(emp)
  Y _ := iprop(emp)
  Z c := Pipeline.unscopedRest spec1 c (fun b => W6 c b)
  hentry c := by
    rw [show StableHlo.held (c : Thread nD τ) (Pipeline.ucRefs τ sig) (W6 c) = unscopedBufs c (fun b => W6 c b) from (Pipeline.unscopedBufs_held c _).symm,
      Pipeline.ownSems0_none]
    have hsplit := Pipeline.arrays_of_unscopedBufs (p := (1 : Fin 5)) (pcfgs (F := F)) adm (pdats W0 W6 W10 W14 W18) launch1.win launch1.arr_whole c
      (((pdats W0 W6 W10 W14 W18) 1 c).share_full fun _ => rfl) (fun b => W6 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi1_in c (fun b => W6 c b) 0 rfl)
    iintro ⟨-, -, Hr⟩
    iexact Hr
  hout c := by
    refine .trans (Phi1_out c (fun b => W6 c b) (Fin.last cfg1.N) (by rw [Fin.val_last]; have : cfg1.N = 8 := N_1; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (1 : Fin 5)) (pcfgs (F := F)) adm launch1.win launch1.arr_whole c (pdats W0 W6 W10 W14 W18)
        (((pdats W0 W6 W10 W14 W18) 1 c).share_full fun _ => rfl) (fun b => W6 c b) (fun b => Wb c b) (fun w => ((pdats W0 W6 W10 W14 W18) 1 c).arrAt w cfg1.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 2 as a segment: entered with the unscoped buffers at `W10`, left with them at any valuation that holds
    the region's arrays at their final contents and agrees with `W10` elsewhere. -/
def reg2 (Wb : Dev nD → Valuation τ sig (Elt F))
    (hF : ∀ c w, ((pdats W0 W6 W10 W14 W18) 2 c).arrAt w cfg2.N = Wb c (Pipeline.arrRef spec2 w))
    (hrest : ∀ c (b : Ref sig .tc), b ∉ Finset.univ.image (Pipeline.arrRef spec2) → Wb c b = W10 c b) :
    RegionSeg (pcfgs (F := F)) adm (pdats W0 W6 W10 W14 W18) () defs₀ Variants.none L₀ lv₀ 2 where
  win := launch2.win.to₀
  block_pos := launch2.block_pos
  stage_whole := launch2.stage_whole
  K := PEmpty
  osem := fun k => k.elim
  ho := Pipeline.OwnSemFacts.none _
  hbody c := (body_obligation2 c (fun b => W10 c b)).loose
  hwaits := Pipeline.hwaits_of_owed_zero _ _ _ _ L₀ lv₀ 2 fun _ _ => rfl
  pre c := iprop(StableHlo.held (c : Thread nD τ) (Pipeline.ucRefs τ sig) (W10 c) ∗ Rest c)
  post c := iprop(StableHlo.held (c : Thread nD τ) (Pipeline.ucRefs τ sig) (Wb c) ∗ Rest c)
  X _ := iprop(emp)
  Y _ := iprop(emp)
  Z c := Pipeline.unscopedRest spec2 c (fun b => W10 c b)
  hentry c := by
    rw [show StableHlo.held (c : Thread nD τ) (Pipeline.ucRefs τ sig) (W10 c) = unscopedBufs c (fun b => W10 c b) from (Pipeline.unscopedBufs_held c _).symm,
      Pipeline.ownSems0_none]
    have hsplit := Pipeline.arrays_of_unscopedBufs (p := (2 : Fin 5)) (pcfgs (F := F)) adm (pdats W0 W6 W10 W14 W18) launch2.win launch2.arr_whole c
      (((pdats W0 W6 W10 W14 W18) 2 c).share_full fun _ => rfl) (fun b => W10 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi2_in c (fun b => W10 c b) 0 rfl)
    iintro ⟨-, -, Hr⟩
    iexact Hr
  hout c := by
    refine .trans (Phi2_out c (fun b => W10 c b) (Fin.last cfg2.N) (by rw [Fin.val_last]; have : cfg2.N = 8 := N_2; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (2 : Fin 5)) (pcfgs (F := F)) adm launch2.win launch2.arr_whole c (pdats W0 W6 W10 W14 W18)
        (((pdats W0 W6 W10 W14 W18) 2 c).share_full fun _ => rfl) (fun b => W10 c b) (fun b => Wb c b) (fun w => ((pdats W0 W6 W10 W14 W18) 2 c).arrAt w cfg2.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 3 as a segment: entered with the unscoped buffers at `W14`, left with them at any valuation that holds
    the region's arrays at their final contents and agrees with `W14` elsewhere. -/
def reg3 (Wb : Dev nD → Valuation τ sig (Elt F))
    (hF : ∀ c w, ((pdats W0 W6 W10 W14 W18) 3 c).arrAt w cfg3.N = Wb c (Pipeline.arrRef spec3 w))
    (hrest : ∀ c (b : Ref sig .tc), b ∉ Finset.univ.image (Pipeline.arrRef spec3) → Wb c b = W14 c b) :
    RegionSeg (pcfgs (F := F)) adm (pdats W0 W6 W10 W14 W18) () defs₀ Variants.none L₀ lv₀ 3 where
  win := launch3.win.to₀
  block_pos := launch3.block_pos
  stage_whole := launch3.stage_whole
  K := PEmpty
  osem := fun k => k.elim
  ho := Pipeline.OwnSemFacts.none _
  hbody c := (body_obligation3 c (fun b => W14 c b)).loose
  hwaits := Pipeline.hwaits_of_owed_zero _ _ _ _ L₀ lv₀ 3 fun _ _ => rfl
  pre c := iprop(StableHlo.held (c : Thread nD τ) (Pipeline.ucRefs τ sig) (W14 c) ∗ Rest c)
  post c := iprop(StableHlo.held (c : Thread nD τ) (Pipeline.ucRefs τ sig) (Wb c) ∗ Rest c)
  X _ := iprop(emp)
  Y _ := iprop(emp)
  Z c := Pipeline.unscopedRest spec3 c (fun b => W14 c b)
  hentry c := by
    rw [show StableHlo.held (c : Thread nD τ) (Pipeline.ucRefs τ sig) (W14 c) = unscopedBufs c (fun b => W14 c b) from (Pipeline.unscopedBufs_held c _).symm,
      Pipeline.ownSems0_none]
    have hsplit := Pipeline.arrays_of_unscopedBufs (p := (3 : Fin 5)) (pcfgs (F := F)) adm (pdats W0 W6 W10 W14 W18) launch3.win launch3.arr_whole c
      (((pdats W0 W6 W10 W14 W18) 3 c).share_full fun _ => rfl) (fun b => W14 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi3_in c (fun b => W14 c b) 0 rfl)
    iintro ⟨-, -, Hr⟩
    iexact Hr
  hout c := by
    refine .trans (Phi3_out c (fun b => W14 c b) (Fin.last cfg3.N) (by rw [Fin.val_last]; have : cfg3.N = 8 := N_3; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (3 : Fin 5)) (pcfgs (F := F)) adm launch3.win launch3.arr_whole c (pdats W0 W6 W10 W14 W18)
        (((pdats W0 W6 W10 W14 W18) 3 c).share_full fun _ => rfl) (fun b => W14 c b) (fun b => Wb c b) (fun w => ((pdats W0 W6 W10 W14 W18) 3 c).arrAt w cfg3.N) (hF c) (hrest c))
      isplitl [Ha]; · iexact Ha
      iexact Hrest
    · unfold Pipeline.Dat.owesAt Pipeline.owesWithin
      icases HO with ⟨%Wd, -, HO⟩; iexists Wd; iexact HO

set_option maxHeartbeats 800000 in
set_option backward.isDefEq.respectTransparency.types false in
/-- THE MATMUL REGION OF LAYER 4 as a segment: entered with the unscoped buffers at `W18`, left with them at any valuation that holds
    the region's arrays at their final contents and agrees with `W18` elsewhere. -/
def reg4 (Wb : Dev nD → Valuation τ sig (Elt F))
    (hF : ∀ c w, ((pdats W0 W6 W10 W14 W18) 4 c).arrAt w cfg4.N = Wb c (Pipeline.arrRef spec4 w))
    (hrest : ∀ c (b : Ref sig .tc), b ∉ Finset.univ.image (Pipeline.arrRef spec4) → Wb c b = W18 c b) :
    RegionSeg (pcfgs (F := F)) adm (pdats W0 W6 W10 W14 W18) () defs₀ Variants.none L₀ lv₀ 4 where
  win := launch4.win.to₀
  block_pos := launch4.block_pos
  stage_whole := launch4.stage_whole
  K := PEmpty
  osem := fun k => k.elim
  ho := Pipeline.OwnSemFacts.none _
  hbody c := (body_obligation4 c (fun b => W18 c b)).loose
  hwaits := Pipeline.hwaits_of_owed_zero _ _ _ _ L₀ lv₀ 4 fun _ _ => rfl
  pre c := iprop(StableHlo.held (c : Thread nD τ) (Pipeline.ucRefs τ sig) (W18 c) ∗ Rest c)
  post c := iprop(StableHlo.held (c : Thread nD τ) (Pipeline.ucRefs τ sig) (Wb c) ∗ Rest c)
  X _ := iprop(emp)
  Y _ := iprop(emp)
  Z c := Pipeline.unscopedRest spec4 c (fun b => W18 c b)
  hentry c := by
    rw [show StableHlo.held (c : Thread nD τ) (Pipeline.ucRefs τ sig) (W18 c) = unscopedBufs c (fun b => W18 c b) from (Pipeline.unscopedBufs_held c _).symm,
      Pipeline.ownSems0_none]
    have hsplit := Pipeline.arrays_of_unscopedBufs (p := (4 : Fin 5)) (pcfgs (F := F)) adm (pdats W0 W6 W10 W14 W18) launch4.win launch4.arr_whole c
      (((pdats W0 W6 W10 W14 W18) 4 c).share_full fun _ => rfl) (fun b => W18 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitr; · iempintro
    iexact Hrest
  hin c := by
    refine .trans ?_ (Phi4_in c (fun b => W18 c b) 0 rfl)
    iintro ⟨-, -, Hr⟩
    iexact Hr
  hout c := by
    refine .trans (Phi4_out c (fun b => W18 c b) (Fin.last cfg4.N) (by rw [Fin.val_last]; have : cfg4.N = 8 := N_4; omega)) ?_
    rw [Pipeline.ownSems0_none]
    iintro H
    isplitr; · iempintro
    isplitr; · iempintro
    iexact H
  hexit c := by
    iintro ⟨Ha, HO, -, Hrest⟩
    imodintro
    isplitr [HO]
    · rw [show StableHlo.held (c : Thread nD τ) (Pipeline.ucRefs τ sig) (Wb c) = unscopedBufs c (fun b => Wb c b) from (Pipeline.unscopedBufs_held c _).symm]
      iapply (Pipeline.unscopedBufs_of_arrays (p := (4 : Fin 5)) (pcfgs (F := F)) adm launch4.win launch4.arr_whole c (pdats W0 W6 W10 W14 W18)
        (((pdats W0 W6 W10 W14 W18) 4 c).share_full fun _ => rfl) (fun b => W18 c b) (fun b => Wb c b) (fun w => ((pdats W0 W6 W10 W14 W18) 4 c).arrAt w cfg4.N) (hF c) (hrest c))
      isplitl [Ha]; · iexact Ha
      iexact Hrest
    · unfold Pipeline.Dat.owesAt Pipeline.owesWithin
      icases HO with ⟨%Wd, -, HO⟩; iexists Wd; iexact HO

end Cert.KernelIdeal.Hand

end
-- ==== Proof.KI.Vals.lean ====
import proofs.«117539_j28759101014307_2_alg».proof.Proof.KI.Segs
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

open Cert.KernelIdeal Cert.KernelIdeal.Gen

/-! ## The unscoped buffers between @main's items, and the frame

@main is: the row-sum region; host operations (degree normalisation, the input layer, the first layer's two scaled
right-hand sides); then four times a matmul region followed by host operations (the layer's combination and the next
layer's right-hand sides; after the last region the output layer). The unscoped buffers before each region are the launch
contents pushed through what came before: host stretches by `StableHlo.after`, regions by updating their two results at
what their proof data computes. -/

variable (m : (ℓ : Loc nD τ sig) → Buf (Elt F) ℓ)

-- the recursions over the grid stay folded: only the arrays' entry contents and the names of the final ones are used here
attribute [local irreducible] Pipeline.Dat.arrAt PhiS0 PhiS1 PhiS2 PhiS3 PhiS4 outsAt0 outsAt1 outsAt2 outsAt3 outsAt4

/-- The unscoped buffers after region 0: as before it, but the two results at what the region leaves in them. -/
def X1 (c : Dev nD) : Valuation τ sig (Elt F) :=
  Function.update (Function.update (V0 m c) main_v0_0 ((dats0 c (fun b => V0 m c b)).arrAt 1 cfg0.N)) main_v0_1 ((dats0 c (fun b => V0 m c b)).arrAt 2 cfg0.N)
theorem X1_a (c : Dev nD) : X1 m c main_v0_0 = (dats0 c (fun b => V0 m c b)).arrAt 1 cfg0.N := by
  unfold X1; rw [Function.update_of_ne (StableHlo.devRef_ne_of_ne (by decide : (main_v0_0 : Ref sig .tc) ≠ main_v0_1) : (Proc.devRef .tc main_v0_0 : DevRef τ sig) ≠ Proc.devRef .tc main_v0_1), Function.update_self]
theorem X1_b (c : Dev nD) : X1 m c main_v0_1 = (dats0 c (fun b => V0 m c b)).arrAt 2 cfg0.N := by
  unfold X1; rw [Function.update_self]
theorem X1_of (c : Dev nD) (r : Ref sig .tc) (h : r ∉ ([main_v0_0, main_v0_1] : List (Ref sig .tc))) : X1 m c r = V0 m c r := by
  unfold X1
  rw [Function.update_of_ne (StableHlo.devRef_ne_of_ne (List.ne_of_not_mem_cons (List.not_mem_of_not_mem_cons h)) : (Proc.devRef .tc r : DevRef τ sig) ≠ Proc.devRef .tc main_v0_1),
    Function.update_of_ne (StableHlo.devRef_ne_of_ne (List.ne_of_not_mem_cons h) : (Proc.devRef .tc r : DevRef τ sig) ≠ Proc.devRef .tc main_v0_0)]

/-- The unscoped buffers when the first matmul region is entered. -/
def X6 (c : Dev nD) : Valuation τ sig (Elt F) :=
  StableHlo.after hostOps1_4 (StableHlo.after hostOps1_3 (StableHlo.after hostOps1_2 (StableHlo.after hostOps1_1 (StableHlo.after hostOps1 (X1 m c)))))

/-- The unscoped buffers after region 1: as before it, but the two results at what the region leaves in them. -/
def X7 (c : Dev nD) : Valuation τ sig (Elt F) :=
  Function.update (Function.update (X6 m c) main_v29_0 ((dats1 c (fun b => X6 m c b)).arrAt 3 cfg1.N)) main_v29_1 ((dats1 c (fun b => X6 m c b)).arrAt 4 cfg1.N)
theorem X7_a (c : Dev nD) : X7 m c main_v29_0 = (dats1 c (fun b => X6 m c b)).arrAt 3 cfg1.N := by
  unfold X7; rw [Function.update_of_ne (StableHlo.devRef_ne_of_ne (by decide : (main_v29_0 : Ref sig .tc) ≠ main_v29_1) : (Proc.devRef .tc main_v29_0 : DevRef τ sig) ≠ Proc.devRef .tc main_v29_1), Function.update_self]
theorem X7_b (c : Dev nD) : X7 m c main_v29_1 = (dats1 c (fun b => X6 m c b)).arrAt 4 cfg1.N := by
  unfold X7; rw [Function.update_self]
theorem X7_of (c : Dev nD) (r : Ref sig .tc) (h : r ∉ ([main_v29_0, main_v29_1] : List (Ref sig .tc))) : X7 m c r = X6 m c r := by
  unfold X7
  rw [Function.update_of_ne (StableHlo.devRef_ne_of_ne (List.ne_of_not_mem_cons (List.not_mem_of_not_mem_cons h)) : (Proc.devRef .tc r : DevRef τ sig) ≠ Proc.devRef .tc main_v29_1),
    Function.update_of_ne (StableHlo.devRef_ne_of_ne (List.ne_of_not_mem_cons h) : (Proc.devRef .tc r : DevRef τ sig) ≠ Proc.devRef .tc main_v29_0)]

def X10 (c : Dev nD) : Valuation τ sig (Elt F) :=
  StableHlo.after hostOps2_2 (StableHlo.after hostOps2_1 (StableHlo.after hostOps2 (X7 m c)))

/-- The unscoped buffers after region 2: as before it, but the two results at what the region leaves in them. -/
def X11 (c : Dev nD) : Valuation τ sig (Elt F) :=
  Function.update (Function.update (X10 m c) main_v74_0 ((dats2 c (fun b => X10 m c b)).arrAt 3 cfg2.N)) main_v74_1 ((dats2 c (fun b => X10 m c b)).arrAt 4 cfg2.N)
theorem X11_a (c : Dev nD) : X11 m c main_v74_0 = (dats2 c (fun b => X10 m c b)).arrAt 3 cfg2.N := by
  unfold X11; rw [Function.update_of_ne (StableHlo.devRef_ne_of_ne (by decide : (main_v74_0 : Ref sig .tc) ≠ main_v74_1) : (Proc.devRef .tc main_v74_0 : DevRef τ sig) ≠ Proc.devRef .tc main_v74_1), Function.update_self]
theorem X11_b (c : Dev nD) : X11 m c main_v74_1 = (dats2 c (fun b => X10 m c b)).arrAt 4 cfg2.N := by
  unfold X11; rw [Function.update_self]
theorem X11_of (c : Dev nD) (r : Ref sig .tc) (h : r ∉ ([main_v74_0, main_v74_1] : List (Ref sig .tc))) : X11 m c r = X10 m c r := by
  unfold X11
  rw [Function.update_of_ne (StableHlo.devRef_ne_of_ne (List.ne_of_not_mem_cons (List.not_mem_of_not_mem_cons h)) : (Proc.devRef .tc r : DevRef τ sig) ≠ Proc.devRef .tc main_v74_1),
    Function.update_of_ne (StableHlo.devRef_ne_of_ne (List.ne_of_not_mem_cons h) : (Proc.devRef .tc r : DevRef τ sig) ≠ Proc.devRef .tc main_v74_0)]

def X14 (c : Dev nD) : Valuation τ sig (Elt F) :=
  StableHlo.after hostOps3_2 (StableHlo.after hostOps3_1 (StableHlo.after hostOps3 (X11 m c)))

/-- The unscoped buffers after region 3: as before it, but the two results at what the region leaves in them. -/
def X15 (c : Dev nD) : Valuation τ sig (Elt F) :=
  Function.update (Function.update (X14 m c) main_v119_0 ((dats3 c (fun b => X14 m c b)).arrAt 3 cfg3.N)) main_v119_1 ((dats3 c (fun b => X14 m c b)).arrAt 4 cfg3.N)
theorem X15_a (c : Dev nD) : X15 m c main_v119_0 = (dats3 c (fun b => X14 m c b)).arrAt 3 cfg3.N := by
  unfold X15; rw [Function.update_of_ne (StableHlo.devRef_ne_of_ne (by decide : (main_v119_0 : Ref sig .tc) ≠ main_v119_1) : (Proc.devRef .tc main_v119_0 : DevRef τ sig) ≠ Proc.devRef .tc main_v119_1), Function.update_self]
theorem X15_b (c : Dev nD) : X15 m c main_v119_1 = (dats3 c (fun b => X14 m c b)).arrAt 4 cfg3.N := by
  unfold X15; rw [Function.update_self]
theorem X15_of (c : Dev nD) (r : Ref sig .tc) (h : r ∉ ([main_v119_0, main_v119_1] : List (Ref sig .tc))) : X15 m c r = X14 m c r := by
  unfold X15
  rw [Function.update_of_ne (StableHlo.devRef_ne_of_ne (List.ne_of_not_mem_cons (List.not_mem_of_not_mem_cons h)) : (Proc.devRef .tc r : DevRef τ sig) ≠ Proc.devRef .tc main_v119_1),
    Function.update_of_ne (StableHlo.devRef_ne_of_ne (List.ne_of_not_mem_cons h) : (Proc.devRef .tc r : DevRef τ sig) ≠ Proc.devRef .tc main_v119_0)]

def X18 (c : Dev nD) : Valuation τ sig (Elt F) :=
  StableHlo.after hostOps4_2 (StableHlo.after hostOps4_1 (StableHlo.after hostOps4 (X15 m c)))

/-- The unscoped buffers after region 4: as before it, but the two results at what the region leaves in them. -/
def X19 (c : Dev nD) : Valuation τ sig (Elt F) :=
  Function.update (Function.update (X18 m c) main_v164_0 ((dats4 c (fun b => X18 m c b)).arrAt 3 cfg4.N)) main_v164_1 ((dats4 c (fun b => X18 m c b)).arrAt 4 cfg4.N)
theorem X19_a (c : Dev nD) : X19 m c main_v164_0 = (dats4 c (fun b => X18 m c b)).arrAt 3 cfg4.N := by
  unfold X19; rw [Function.update_of_ne (StableHlo.devRef_ne_of_ne (by decide : (main_v164_0 : Ref sig .tc) ≠ main_v164_1) : (Proc.devRef .tc main_v164_0 : DevRef τ sig) ≠ Proc.devRef .tc main_v164_1), Function.update_self]
theorem X19_b (c : Dev nD) : X19 m c main_v164_1 = (dats4 c (fun b => X18 m c b)).arrAt 4 cfg4.N := by
  unfold X19; rw [Function.update_self]
theorem X19_of (c : Dev nD) (r : Ref sig .tc) (h : r ∉ ([main_v164_0, main_v164_1] : List (Ref sig .tc))) : X19 m c r = X18 m c r := by
  unfold X19
  rw [Function.update_of_ne (StableHlo.devRef_ne_of_ne (List.ne_of_not_mem_cons (List.not_mem_of_not_mem_cons h)) : (Proc.devRef .tc r : DevRef τ sig) ≠ Proc.devRef .tc main_v164_1),
    Function.update_of_ne (StableHlo.devRef_ne_of_ne (List.ne_of_not_mem_cons h) : (Proc.devRef .tc r : DevRef τ sig) ≠ Proc.devRef .tc main_v164_0)]

/-- What the regions leave, as the generated thread states read it: at item `J` the valuation after that item. -/
def outsX : Outs (F := F) := fun J r c =>
  match J with
  | 1 => X1 m c r
  | 7 => X7 m c r
  | 11 => X11 m c r
  | 15 => X15 m c r
  | 19 => X19 m c r
  | _ => m ((c : Thread nD τ).loc r)

/-- Updating a function at two distinct points with the values of its own twice-updated self gives that self. -/
theorem update2_self {α : Type} [DecidableEq α] {β : α → Type} (f : ∀ a, β a) (a b : α) (hab : a ≠ b) (x : β a) (y : β b) :
    Function.update (Function.update f a (Function.update (Function.update f a x) b y a)) b (Function.update (Function.update f a x) b y b)
      = Function.update (Function.update f a x) b y := by
  rw [Function.update_self, Function.update_of_ne hab, Function.update_self]

/-! ### The generated thread states at these unknowns are the valuations above -/

theorem V1_eq (c : Dev nD) : V1 m (outsX m) c = X1 m c := by
  show Function.update (Function.update (V0 m c) main_v0_0 (X1 m c main_v0_0)) main_v0_1 (X1 m c main_v0_1) = X1 m c
  unfold X1
  exact update2_self _ _ _ (StableHlo.devRef_ne_of_ne (by decide)) _ _
theorem V6_eq (c : Dev nD) : V6 m (outsX m) c = X6 m c := by
  show StableHlo.after hostOps1_4 (StableHlo.after hostOps1_3 (StableHlo.after hostOps1_2 (StableHlo.after hostOps1_1 (StableHlo.after hostOps1 (V1 m (outsX m) c))))) = _
  rw [V1_eq]; rfl
theorem V7_eq (c : Dev nD) : V7 m (outsX m) c = X7 m c := by
  show Function.update (Function.update (V6 m (outsX m) c) main_v29_0 (X7 m c main_v29_0)) main_v29_1 (X7 m c main_v29_1) = X7 m c
  rw [V6_eq]; unfold X7
  exact update2_self _ _ _ (StableHlo.devRef_ne_of_ne (by decide)) _ _
theorem V10_eq (c : Dev nD) : V10 m (outsX m) c = X10 m c := by
  show StableHlo.after hostOps2_2 (StableHlo.after hostOps2_1 (StableHlo.after hostOps2 (V7 m (outsX m) c))) = _
  rw [V7_eq]; rfl
theorem V11_eq (c : Dev nD) : V11 m (outsX m) c = X11 m c := by
  show Function.update (Function.update (V10 m (outsX m) c) main_v74_0 (X11 m c main_v74_0)) main_v74_1 (X11 m c main_v74_1) = X11 m c
  rw [V10_eq]; unfold X11
  exact update2_self _ _ _ (StableHlo.devRef_ne_of_ne (by decide)) _ _
theorem V14_eq (c : Dev nD) : V14 m (outsX m) c = X14 m c := by
  show StableHlo.after hostOps3_2 (StableHlo.after hostOps3_1 (StableHlo.after hostOps3 (V11 m (outsX m) c))) = _
  rw [V11_eq]; rfl
theorem V15_eq (c : Dev nD) : V15 m (outsX m) c = X15 m c := by
  show Function.update (Function.update (V14 m (outsX m) c) main_v119_0 (X15 m c main_v119_0)) main_v119_1 (X15 m c main_v119_1) = X15 m c
  rw [V14_eq]; unfold X15
  exact update2_self _ _ _ (StableHlo.devRef_ne_of_ne (by decide)) _ _
theorem V18_eq (c : Dev nD) : V18 m (outsX m) c = X18 m c := by
  show StableHlo.after hostOps4_2 (StableHlo.after hostOps4_1 (StableHlo.after hostOps4 (V15 m (outsX m) c))) = _
  rw [V15_eq]; rfl
theorem V19_eq (c : Dev nD) : V19 m (outsX m) c = X19 m c := by
  show Function.update (Function.update (V18 m (outsX m) c) main_v164_0 (X19 m c main_v164_0)) main_v164_1 (X19 m c main_v164_1) = X19 m c
  rw [V18_eq]; unfold X19
  exact update2_self _ _ _ (StableHlo.devRef_ne_of_ne (by decide)) _ _

-- from here on the valuations are opaque: what is used of them is the lemmas above
attribute [irreducible] X1 X6 X7 X10 X11 X14 X15 X18 X19

/-! ### Each region's arrays at its exit -/

set_option maxHeartbeats 1600000 in
/-- The valuation after region 0 holds each of the region's arrays at its final contents: an input at what it held (the
    region does not write it), each result at what the region's last write-back left. -/
theorem hF0 (c : Dev nD) (w : Fin cfg0.W) : ((pdats (V0 m) (X6 m) (X10 m) (X14 m) (X18 m)) 0 c).arrAt w cfg0.N = X1 m c (Pipeline.arrRef spec0 w) := by
  match w with
  | ⟨0, _⟩ =>
    rw [Dat.arrAt_in _ _ rfl]
    exact (X1_of m c main_arg1 (by decide)).symm
  | ⟨1, _⟩ => exact (X1_a m c).symm
  | ⟨2, _⟩ => exact (X1_b m c).symm

set_option maxHeartbeats 1600000 in
/-- Off the region's arrays the valuation after region 0 is the one before it. -/
theorem hrest0 (c : Dev nD) (b : Ref sig .tc) (hb : b ∉ Finset.univ.image (Pipeline.arrRef spec0)) : X1 m c b = V0 m c b :=
  X1_of m c b (fun h => hb (by
    simp only [List.mem_cons, List.mem_nil_iff, or_false] at h
    rcases h with rfl | rfl
    · exact Finset.mem_image.mpr ⟨1, Finset.mem_univ _, rfl⟩
    · exact Finset.mem_image.mpr ⟨2, Finset.mem_univ _, rfl⟩))

set_option maxHeartbeats 1600000 in
/-- The valuation after region 1 holds each of the region's arrays at its final contents: an input at what it held (the
    region does not write it), each result at what the region's last write-back left. -/
theorem hF1 (c : Dev nD) (w : Fin cfg1.W) : ((pdats (V0 m) (X6 m) (X10 m) (X14 m) (X18 m)) 1 c).arrAt w cfg1.N = X7 m c (Pipeline.arrRef spec1 w) := by
  match w with
  | ⟨0, _⟩ =>
    rw [Dat.arrAt_in _ _ rfl]
    exact (X7_of m c main_v0_1 (by decide)).symm
  | ⟨1, _⟩ =>
    rw [Dat.arrAt_in _ _ rfl]
    exact (X7_of m c main_v25 (by decide)).symm
  | ⟨2, _⟩ =>
    rw [Dat.arrAt_in _ _ rfl]
    exact (X7_of m c main_v28 (by decide)).symm
  | ⟨3, _⟩ => exact (X7_a m c).symm
  | ⟨4, _⟩ => exact (X7_b m c).symm

set_option maxHeartbeats 1600000 in
/-- Off the region's arrays the valuation after region 1 is the one before it. -/
theorem hrest1 (c : Dev nD) (b : Ref sig .tc) (hb : b ∉ Finset.univ.image (Pipeline.arrRef spec1)) : X7 m c b = X6 m c b :=
  X7_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

set_option maxHeartbeats 1600000 in
/-- The valuation after region 2 holds each of the region's arrays at its final contents: an input at what it held (the
    region does not write it), each result at what the region's last write-back left. -/
theorem hF2 (c : Dev nD) (w : Fin cfg2.W) : ((pdats (V0 m) (X6 m) (X10 m) (X14 m) (X18 m)) 2 c).arrAt w cfg2.N = X11 m c (Pipeline.arrRef spec2 w) := by
  match w with
  | ⟨0, _⟩ =>
    rw [Dat.arrAt_in _ _ rfl]
    exact (X11_of m c main_v0_1 (by decide)).symm
  | ⟨1, _⟩ =>
    rw [Dat.arrAt_in _ _ rfl]
    exact (X11_of m c main_v70 (by decide)).symm
  | ⟨2, _⟩ =>
    rw [Dat.arrAt_in _ _ rfl]
    exact (X11_of m c main_v73 (by decide)).symm
  | ⟨3, _⟩ => exact (X11_a m c).symm
  | ⟨4, _⟩ => exact (X11_b m c).symm

set_option maxHeartbeats 1600000 in
/-- Off the region's arrays the valuation after region 2 is the one before it. -/
theorem hrest2 (c : Dev nD) (b : Ref sig .tc) (hb : b ∉ Finset.univ.image (Pipeline.arrRef spec2)) : X11 m c b = X10 m c b :=
  X11_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

set_option maxHeartbeats 1600000 in
/-- The valuation after region 3 holds each of the region's arrays at its final contents: an input at what it held (the
    region does not write it), each result at what the region's last write-back left. -/
theorem hF3 (c : Dev nD) (w : Fin cfg3.W) : ((pdats (V0 m) (X6 m) (X10 m) (X14 m) (X18 m)) 3 c).arrAt w cfg3.N = X15 m c (Pipeline.arrRef spec3 w) := by
  match w with
  | ⟨0, _⟩ =>
    rw [Dat.arrAt_in _ _ rfl]
    exact (X15_of m c main_v0_1 (by decide)).symm
  | ⟨1, _⟩ =>
    rw [Dat.arrAt_in _ _ rfl]
    exact (X15_of m c main_v115 (by decide)).symm
  | ⟨2, _⟩ =>
    rw [Dat.arrAt_in _ _ rfl]
    exact (X15_of m c main_v118 (by decide)).symm
  | ⟨3, _⟩ => exact (X15_a m c).symm
  | ⟨4, _⟩ => exact (X15_b m c).symm

set_option maxHeartbeats 1600000 in
/-- Off the region's arrays the valuation after region 3 is the one before it. -/
theorem hrest3 (c : Dev nD) (b : Ref sig .tc) (hb : b ∉ Finset.univ.image (Pipeline.arrRef spec3)) : X15 m c b = X14 m c b :=
  X15_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

set_option maxHeartbeats 1600000 in
/-- The valuation after region 4 holds each of the region's arrays at its final contents: an input at what it held (the
    region does not write it), each result at what the region's last write-back left. -/
theorem hF4 (c : Dev nD) (w : Fin cfg4.W) : ((pdats (V0 m) (X6 m) (X10 m) (X14 m) (X18 m)) 4 c).arrAt w cfg4.N = X19 m c (Pipeline.arrRef spec4 w) := by
  match w with
  | ⟨0, _⟩ =>
    rw [Dat.arrAt_in _ _ rfl]
    exact (X19_of m c main_v0_1 (by decide)).symm
  | ⟨1, _⟩ =>
    rw [Dat.arrAt_in _ _ rfl]
    exact (X19_of m c main_v160 (by decide)).symm
  | ⟨2, _⟩ =>
    rw [Dat.arrAt_in _ _ rfl]
    exact (X19_of m c main_v163 (by decide)).symm
  | ⟨3, _⟩ => exact (X19_a m c).symm
  | ⟨4, _⟩ => exact (X19_b m c).symm

set_option maxHeartbeats 1600000 in
/-- Off the region's arrays the valuation after region 4 is the one before it. -/
theorem hrest4 (c : Dev nD) (b : Ref sig .tc) (hb : b ∉ Finset.univ.image (Pipeline.arrRef spec4)) : X19 m c b = X18 m c b :=
  X19_of m c b (fun h => hb (by
    simp only [List.mem_cons, List.mem_nil_iff, or_false] at h
    rcases h with rfl | rfl
    · exact Finset.mem_image.mpr ⟨3, Finset.mem_univ _, rfl⟩
    · exact Finset.mem_image.mpr ⟨4, Finset.mem_univ _, rfl⟩))

end Cert.KernelIdeal.Hand

end
-- ==== Proof.KI.Frame.lean ====
import proofs.«117539_j28759101014307_2_alg».proof.Proof.KI.Vals
import proofs.«117539_j28759101014307_2_alg».proof.Proof.KI.RunCond
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

attribute [local irreducible] Pipeline.Dat.arrAt PhiS0 PhiS1 PhiS2 PhiS3 PhiS4 outsAt0 outsAt1 outsAt2 outsAt3 outsAt4

/-! ### The frame -/

/-- The launch element: the pipeline library's, at the staging cells and the pipelines' transfers. -/
def u₀ : UR sig nD τ := initOf (Pipeline.cells cfgs cellOf_inj) (Pipeline.launchToks cfgs cellOf_inj)

set_option backward.isDefEq.respectTransparency.types false in
/-- THE FRAME of the program at any float instance: every weakly fair execution of @main from a memory with zero counters
    terminates, nothing faulting, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine frame_cond (F := F) m (Ix := Unit) (U := UR sig nD τ) (Lvl := ℕ) (EP := emb₁) () Variants.none L₀ lv₀ (fun _ _ => rfl) ρ (outsX m) (pdats (V0 m) (X6 m) (X10 m) (X14 m) (X18 m))
    (fun _ => 0) (fun _ => iprop(emp)) u₀ ?hu (fun _ c => Rest c) ?hE0 (fun c => .rfl)
    (reg0 (V0 m) (X6 m) (X10 m) (X14 m) (X18 m) (X1 m) (hF0 m) (hrest0 m)) (fun c => .rfl) (fun c => by rw [V1_eq]; exact .rfl)
    (reg1 (V0 m) (X6 m) (X10 m) (X14 m) (X18 m) (X7 m) (hF1 m) (hrest1 m)) (fun c => by rw [V6_eq]; exact .rfl) (fun c => by rw [V7_eq]; exact .rfl)
    (reg2 (V0 m) (X6 m) (X10 m) (X14 m) (X18 m) (X11 m) (hF2 m) (hrest2 m)) (fun c => by rw [V10_eq]; exact .rfl) (fun c => by rw [V11_eq]; exact .rfl)
    (reg3 (V0 m) (X6 m) (X10 m) (X14 m) (X18 m) (X15 m) (hF3 m) (hrest3 m)) (fun c => by rw [V14_eq]; exact .rfl) (fun c => by rw [V15_eq]; exact .rfl)
    (reg4 (V0 m) (X6 m) (X10 m) (X14 m) (X18 m) (X19 m) (hF4 m) (hrest4 m)) (fun c => by rw [V18_eq]; exact .rfl) (fun c => by rw [V19_eq]; exact .rfl)
  case hu =>
    unfold u₀
    rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  case hE0 =>
    refine Pipeline.initEach L₀ lv₀ fun c => ?_
    iintro ⟨⟨-, HO, -, -, -⟩, -⟩
    imodintro
    iexists ∅; iexact HO

set_option backward.isDefEq.respectTransparency.types false in
/-- THE RUN WITH THE RESULT, at any float instance: as the frame, and the result's buffer ends at what the last valuation
    holds there — the host operations after the last region applied to what the regions and the earlier operations left. -/
theorem run_value (ρ : Dev nD → PrngReg) :
    θ_run defs (onTc (τ := τ) (main (F := F))) ⟨m, fun _ => 0, ρ⟩ (fun r => ∀ c : Dev nD,
      r.2.mem ((c.tc : Thread nD τ).loc main_v203) = V22 m (outsX m) c main_v203
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine run_cond (F := F) m (Ix := Unit) (U := UR sig nD τ) (Lvl := ℕ) (EP := emb₁) () Variants.none L₀ lv₀ (fun _ _ => rfl) ρ (outsX m) (pdats (V0 m) (X6 m) (X10 m) (X14 m) (X18 m))
    (fun _ => 0) (fun _ => iprop(emp)) u₀ ?hu (fun _ c => Rest c) ?hE0 (fun c => .rfl)
    (reg0 (V0 m) (X6 m) (X10 m) (X14 m) (X18 m) (X1 m) (hF0 m) (hrest0 m)) (fun c => .rfl) (fun c => by rw [V1_eq]; exact .rfl)
    (reg1 (V0 m) (X6 m) (X10 m) (X14 m) (X18 m) (X7 m) (hF1 m) (hrest1 m)) (fun c => by rw [V6_eq]; exact .rfl) (fun c => by rw [V7_eq]; exact .rfl)
    (reg2 (V0 m) (X6 m) (X10 m) (X14 m) (X18 m) (X11 m) (hF2 m) (hrest2 m)) (fun c => by rw [V10_eq]; exact .rfl) (fun c => by rw [V11_eq]; exact .rfl)
    (reg3 (V0 m) (X6 m) (X10 m) (X14 m) (X18 m) (X15 m) (hF3 m) (hrest3 m)) (fun c => by rw [V14_eq]; exact .rfl) (fun c => by rw [V15_eq]; exact .rfl)
    (reg4 (V0 m) (X6 m) (X10 m) (X14 m) (X18 m) (X19 m) (hF4 m) (hrest4 m)) (fun c => by rw [V18_eq]; exact .rfl) (fun c => by rw [V19_eq]; exact .rfl)
  case hu =>
    unfold u₀
    rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  case hE0 =>
    refine Pipeline.initEach L₀ lv₀ fun c => ?_
    iintro ⟨⟨-, HO, -, -, -⟩, -⟩
    imodintro
    iexists ∅; iexact HO

end Cert.KernelIdeal.Hand

end
-- ==== Proof.RefFrame.lean ====
import proofs.«117539_j28759101014307_2_alg».proof.Defs
import proofs.«117539_j28759101014307_2_alg».proof.Proof.Gen.ReferenceIdeal
import proofs.«117539_j28759101014307_2_alg».proof.Proof.Gen.Pre_finite_inputs
import proofs.«117539_j28759101014307_2_alg».proof.Proof.Gen.ReferenceIdeal.Run

noncomputable section

namespace Cert.Proof.RefFrame

open Idealize.ShloMosaic Idealize.SL.Sem

/-- The reference is a straight line of host operations: its run says every execution terminates with each result at the
    operations' composed term and the arguments untouched; the frame is that run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

end Cert.Proof.RefFrame

end
-- ==== Proof.Spec.lean ====
import Idealize.ShloMosaic.PureOps.Ideal
import Idealize.ShloMosaic.PureOps.Ideal.Laws
import Idealize.ShloMosaic.Lib.ValueIdx

/-!
# The network both programs compute, as one function of the arguments over the extended reals

A four-layer graph network on `N` nodes with `H` hidden features. With `A` the raw adjacency, `D` the degrees of `A + I`
and `dv = D^-1/2` (zero where the degree is not positive), one propagation step `Â X`, `Â = D^-1/2 (A + I) D^-1/2`, is
spelt two ways:

* `propR`: `∑ₖ ((dvᵢ · (Aᵢₖ + δᵢₖ)) · dvₖ) · Xₖⱼ` — the normalised matrix built whole, then multiplied;
* `propK`: `dvᵢ · ∑ₖ Aᵢₖ · (dvₖ · Xₖⱼ) + (dvᵢ · dvᵢ) · Xᵢⱼ` — the raw adjacency multiplied, the scaling outside.

Everything else (the input layer, each layer's combination, the output layer) is the same text around either spelling:
`net prop dv`. The index types are arbitrary finite types here; `Shaped` below reads the programs' arrays into them.
-/

noncomputable section

namespace Cert.Spec

open Idealize.ShloMosaic
open scoped BigOperators

variable {N Fe H C : Type} [Fintype N] [DecidableEq N] [Fintype Fe] [Fintype H] [Fintype C]

/-- `max x 0`. -/
def relu (x : EReal) : EReal := max x 0

/-- The degree as the kernel program takes it: the raw row sum, plus one. -/
def degK (adj : N → N → EReal) (i : N) : EReal := (∑ k, adj i k) + 1
/-- The degree as the reference takes it: the row sum of `A + I`. -/
def degR (adj : N → N → EReal) (i : N) : EReal := ∑ k, (adj i k + if i = k then 1 else 0)
/-- `D^-1/2`, zero where the degree is not positive. -/
def dinv (d : N → EReal) (i : N) : EReal := if 0 < d i then Ideal.rsqrt (d i) else 0

/-- The input layer: `a9 · relu (x W + b) + a1 · c`. -/
def h0 (a9 a1 : EReal) (x : N → Fe → EReal) (w : Fe → H → EReal) (b cv : H → EReal) (i : N) (j : H) : EReal :=
  a9 * relu ((∑ k, x i k * w k j) + b j) + a1 * cv j

/-- `Â X`, the normalised matrix built whole. -/
def propR (adj : N → N → EReal) (dv : N → EReal) (X : N → H → EReal) (i : N) (j : H) : EReal :=
  ∑ k, ((dv i * (adj i k + if i = k then 1 else 0)) * dv k) * X k j
/-- `Â X`, the raw adjacency multiplied and the scaling applied outside. -/
def propK (adj : N → N → EReal) (dv : N → EReal) (X : N → H → EReal) (i : N) (j : H) : EReal :=
  dv i * (∑ k, adj i k * (dv k * X k j)) + (dv i * dv i) * X i j

/-- The second branch of a layer: `relu ((ob · S + be · (S Wg)) + bg)`. -/
def gpart (ob be : EReal) (S : N → H → EReal) (wg : H → H → EReal) (bg : H → EReal) (i : N) (j : H) : EReal :=
  relu ((ob * S i j + be * (∑ k, S i k * wg k j)) + bg j)

/-- One layer around a propagation step `prop`: `(prop (h Wl) + bl) + gpart (a9 · prop h + a1 · hz)`. -/
def layer (prop : (N → H → EReal) → N → H → EReal) (a9 a1 ob be : EReal) (hz : N → H → EReal)
    (wl wg : H → H → EReal) (bl bg : H → EReal) (h : N → H → EReal) : N → H → EReal := fun i j =>
  (prop (fun i j => ∑ l, h i l * wl l j) i j + bl j) + gpart ob be (fun i j => a9 * prop h i j + a1 * hz i j) wg bg i j

/-- The output layer. -/
def out (h : N → H → EReal) (wo : H → C → EReal) (bo : C → EReal) (i : N) (c : C) : EReal := (∑ k, h i k * wo k c) + bo c

/-- The whole network around a propagation step. -/
def net (prop : (N → H → EReal) → N → H → EReal) (a9 a1 : EReal) (ob be : Fin 4 → EReal)
    (x : N → Fe → EReal) (win : Fe → H → EReal) (bin cv : H → EReal)
    (wg : Fin 4 → H → H → EReal) (bg : Fin 4 → H → EReal) (wl : Fin 4 → H → H → EReal) (bl : Fin 4 → H → EReal)
    (wo : H → C → EReal) (bo : C → EReal) : N → C → EReal :=
  let hz := h0 a9 a1 x win bin cv
  let L := fun (l : Fin 4) => layer prop a9 a1 (ob l) (be l) hz (wl l) (wg l) (bl l) (bg l)
  out (L 3 (L 2 (L 1 (L 0 hz)))) wo bo

/-- The kernel program's spelling. -/
def netK (a9 a1 : EReal) (ob be : Fin 4 → EReal) (x : N → Fe → EReal) (adj : N → N → EReal) (win : Fe → H → EReal) (bin cv : H → EReal)
    (wg : Fin 4 → H → H → EReal) (bg : Fin 4 → H → EReal) (wl : Fin 4 → H → H → EReal) (bl : Fin 4 → H → EReal)
    (wo : H → C → EReal) (bo : C → EReal) : N → C → EReal :=
  net (propK adj (dinv (degK adj))) a9 a1 ob be x win bin cv wg bg wl bl wo bo
/-- The reference's spelling. -/
def netR (a9 a1 : EReal) (ob be : Fin 4 → EReal) (x : N → Fe → EReal) (adj : N → N → EReal) (win : Fe → H → EReal) (bin cv : H → EReal)
    (wg : Fin 4 → H → H → EReal) (bg : Fin 4 → H → EReal) (wl : Fin 4 → H → H → EReal) (bl : Fin 4 → H → EReal)
    (wo : H → C → EReal) (bo : C → EReal) : N → C → EReal :=
  net (propR adj (dinv (degR adj))) a9 a1 ob be x win bin cv wg bg wl bl wo bo

/-- An extended real that is a real number. -/
def IsReal (x : EReal) : Prop := ∃ r : ℝ, x = (r : EReal)

/-! ## The programs' arrays read into these index types -/

namespace Shaped

open Idealize.ShloMosaic.ValueIdx

abbrev SX : Shape := ⟨2, ![8192, 500]⟩
abbrev SA : Shape := ⟨2, ![8192, 8192]⟩
abbrev SWin : Shape := ⟨2, ![500, 128]⟩
abbrev SH : Shape := ⟨1, ![128]⟩
abbrev SW4 : Shape := ⟨3, ![4, 128, 128]⟩
abbrev SB4 : Shape := ⟨2, ![4, 128]⟩
abbrev SWo : Shape := ⟨2, ![128, 40]⟩
abbrev SC : Shape := ⟨1, ![40]⟩
abbrev SOut : Shape := ⟨2, ![8192, 40]⟩

/-- The four float literals of the two programs that are not 0 or 1, and the eight layer constants, as the words both print. -/
def a9 : EReal := Ideal.ofBits .f32 0x3F666666#32
def a1 : EReal := Ideal.ofBits .f32 0x3DCCCCCD#32
def ob : Fin 4 → EReal := ![Ideal.ofBits .f32 0x3F183370#32, Ideal.ofBits .f32 0x3F46E010#32, Ideal.ofBits .f32 0x3F588995#32, Ideal.ofBits .f32 0x3F61D8F9#32]
def be : Fin 4 → EReal := ![Ideal.ofBits .f32 0x3ECF991F#32, Ideal.ofBits .f32 0x3E647FBE#32, Ideal.ofBits .f32 0x3E1DD9AD#32, Ideal.ofBits .f32 0x3DF1383B#32]

section
variable (x : SX.Idx → EReal) (adj : SA.Idx → EReal) (win : SWin.Idx → EReal) (bin cv : SH.Idx → EReal)
  (wg : SW4.Idx → EReal) (bg : SB4.Idx → EReal) (wl : SW4.Idx → EReal) (bl : SB4.Idx → EReal) (wo : SWo.Idx → EReal) (bo : SC.Idx → EReal)

/-- The kernel program's network on the eleven argument arrays, in the programs' argument order
    (x, adj, fc_in_w, fc_in_b, c, w_gcnii, b_gcnii, w_lin, b_lin, fc_out_w, fc_out_b). -/
def netK : SOut.Idx → EReal := fun idx =>
  Cert.Spec.netK (N := Fin 8192) (Fe := Fin 500) (H := Fin 128) (C := Fin 40) a9 a1 ob be
    (fun i k => x (ix2 i k)) (fun i k => adj (ix2 i k)) (fun k j => win (ix2 k j)) (fun j => bin (ix1 j)) (fun j => cv (ix1 j))
    (fun l k j => wg (ix3 l k j)) (fun l j => bg (ix2 l j)) (fun l k j => wl (ix3 l k j)) (fun l j => bl (ix2 l j))
    (fun k c => wo (ix2 k c)) (fun c => bo (ix1 c)) (idx 0) (idx 1)
/-- The reference's network on the same arrays. -/
def netR : SOut.Idx → EReal := fun idx =>
  Cert.Spec.netR (N := Fin 8192) (Fe := Fin 500) (H := Fin 128) (C := Fin 40) a9 a1 ob be
    (fun i k => x (ix2 i k)) (fun i k => adj (ix2 i k)) (fun k j => win (ix2 k j)) (fun j => bin (ix1 j)) (fun j => cv (ix1 j))
    (fun l k j => wg (ix3 l k j)) (fun l j => bg (ix2 l j)) (fun l k j => wl (ix3 l k j)) (fun l j => bl (ix2 l j))
    (fun k c => wo (ix2 k c)) (fun c => bo (ix1 c)) (idx 0) (idx 1)
end

end Shaped

end Cert.Spec

end
-- ==== Proof.KerSpec.lean ====
import Idealize.ShloMosaic.PureOps.Ideal
import Idealize.ShloMosaic.Lib.ValueIdx

/-!
# What the two kinds of Pallas region compute, as functions of their input arrays over the extended reals
-/

noncomputable section

namespace Cert.Spec.Region

open Idealize.ShloMosaic Idealize.ShloMosaic.ValueIdx
open scoped BigOperators

/-- The row sums of an 8192 × 8192 array, as an 8192 × 1 column. -/
def rowsum (A : (⟨2, ![8192, 8192]⟩ : Shape).Idx → EReal) : (⟨2, ![8192, 1]⟩ : Shape).Idx → EReal :=
  fun idx => ∑ k : Fin 8192, A (ix2 (idx 0) k)

/-- The product of an 8192 × 8192 array with an 8192 × 128 array. -/
def mm (A : (⟨2, ![8192, 8192]⟩ : Shape).Idx → EReal) (B : (⟨2, ![8192, 128]⟩ : Shape).Idx → EReal) :
    (⟨2, ![8192, 128]⟩ : Shape).Idx → EReal :=
  fun idx => ∑ j : Fin 8192, A (ix2 (idx 0) j) * B (ix2 j (idx 1))

end Cert.Spec.Region

end
-- ==== Proof.KI.R0Val.lean ====
import proofs.«117539_j28759101014307_2_alg».proof.Proof.KI.R0Body
import proofs.«117539_j28759101014307_2_alg».proof.Proof.KerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.ValueIdx

/-! ## The row-sum region: what it leaves in its two result arrays

Along a block row the accumulator holds `0 + s₀` after the first column block, then `+ s₁`, `+ s₂`, `+ s₃` (`sₖ` the row
sums of column block `k`), and the last point copies it to the degree output: the whole row sum. Every point stores its
block, cast, into the second output: over the extended reals the cast is the identity, so that output ends as the input. -/

theorem hz2_r0 : (![0, 0] : Fin 2 → Nat) = fun _ => 0 := funext fun a => by fin_cases a <;> rfl

/-- First column block: the accumulator ends at the zero block plus this block's row sums. -/
theorem res0A_s (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) :
    (res0A c i arg2 harg2 arg3 harg3 arg4 harg4 arg5 harg5 hc0 hc1 x0).2.2 = k0_pay2 x0 (k0_pay1 (F := F)) := by
  unfold res0A
  dsimp only
  rw [View.read_writes_eq_canon _ _ _ (scover0A_0 c i arg2 harg2 arg3 harg3 arg4 harg4 arg5 harg5 hc0 hc1 x0)]
  unfold kernelRun0_A
  dsimp only
  sl_unfold_words
  rw [View.canon_cons_unit_zero (S := S2048x1) hz2_r0, View.readCov_unit_zero (S := S2048x1) _ hz2_r0]
  simp only [View.readAt_eq_ld, harg2.read_unread, harg3.read_unread, harg4.read_unread, harg5.read_unread, View.ld_unit_zero (S := S2048x2048) hz2_r0, View.ld_unit_zero (S := S2048x1) hz2_r0]

/-- First column block: the cast output's buffer holds the block, cast. -/
theorem res0A_c (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : cond0_0 i) (hc1 : ¬cond0_1 i) (x0 : Vec F S2048x2048 .f32) :
    (res0A c i arg2 harg2 arg3 harg3 arg4 harg4 arg5 harg5 hc0 hc1 x0).2.1 = k0_pay3 x0 := by
  unfold res0A
  dsimp only
  rw [View.read_writes_eq_canon _ _ _ (cover0A_2 c i arg2 harg2 arg3 harg3 arg4 harg4 arg5 harg5 hc0 hc1 x0)]
  unfold kernelRun0_A
  dsimp only
  sl_unfold_words
  rw [View.canon_unit_zero hz2_r0]
  simp only [View.readAt_eq_ld, harg2.read_unread, harg3.read_unread, harg4.read_unread, harg5.read_unread, View.ld_unit_zero (S := S2048x2048) hz2_r0, View.ld_unit_zero (S := S2048x1) hz2_r0]

/-- A middle column block: the accumulator, found at `xs0`, ends at `xs0` plus this block's row sums. -/
theorem res0B_s (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) :
    (res0B c i arg2 harg2 arg3 harg3 arg4 harg4 arg5 harg5 hc0 hc1 x0 xs0).2.2 = k0_pay2 x0 xs0 := by
  unfold res0B
  dsimp only
  rw [View.read_writes_eq_canon _ _ _ (scover0B_0 c i arg2 harg2 arg3 harg3 arg4 harg4 arg5 harg5 hc0 hc1 x0 xs0)]
  unfold kernelRun0_B
  dsimp only
  sl_unfold_words
  rw [View.canon_unit_zero hz2_r0]
  simp only [View.readAt_eq_ld, harg2.read_unread, harg3.read_unread, harg4.read_unread, harg5.read_unread, View.ld_unit_zero (S := S2048x2048) hz2_r0, View.ld_unit_zero (S := S2048x1) hz2_r0]

theorem res0B_c (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : ¬cond0_1 i) (x0 : Vec F S2048x2048 .f32) (xs0 : Vec F S2048x1 .f32) :
    (res0B c i arg2 harg2 arg3 harg3 arg4 harg4 arg5 harg5 hc0 hc1 x0 xs0).2.1 = k0_pay3 x0 := by
  unfold res0B
  dsimp only
  rw [View.read_writes_eq_canon _ _ _ (cover0B_2 c i arg2 harg2 arg3 harg3 arg4 harg4 arg5 harg5 hc0 hc1 x0 xs0)]
  unfold kernelRun0_B
  dsimp only
  sl_unfold_words
  rw [View.canon_unit_zero hz2_r0]
  simp only [View.readAt_eq_ld, harg2.read_unread, harg3.read_unread, harg4.read_unread, harg5.read_unread, View.ld_unit_zero (S := S2048x2048) hz2_r0, View.ld_unit_zero (S := S2048x1) hz2_r0]

/-- The last column block: the degree output's buffer receives the accumulator after this block's row sums were added. -/
theorem res0C_o (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) :
    (res0C c i arg2 harg2 arg3 harg3 arg4 harg4 arg5 harg5 hc0 hc1 x0 xs0).1 = k0_pay2 x0 xs0 := by
  unfold res0C
  dsimp only
  rw [View.read_writes_eq_canon _ _ _ (cover0C_1 c i arg2 harg2 arg3 harg3 arg4 harg4 arg5 harg5 hc0 hc1 x0 xs0)]
  unfold kernelRun0_C
  dsimp only
  sl_unfold_words
  rw [View.canon_unit_zero hz2_r0, View.readCov_unit_zero (S := S2048x1) _ hz2_r0]
  simp only [View.readAt_eq_ld, harg2.read_unread, harg3.read_unread, harg4.read_unread, harg5.read_unread, View.ld_unit_zero (S := S2048x2048) hz2_r0, View.ld_unit_zero (S := S2048x1) hz2_r0]

theorem res0C_c (c : Dev nD) (i : grid0.Coords) (arg2 : Memref sig .tc .vmem S2048x2048 .f32) (harg2 : arg2.IsWhole) (arg3 : Memref sig .tc .vmem S2048x1 .f32) (harg3 : arg3.IsWhole) (arg4 : Memref sig .tc .vmem S2048x2048 .bf16) (harg4 : arg4.IsWhole) (arg5 : Memref sig .tc .vmem S2048x1 .f32) (harg5 : arg5.IsWhole) (hc0 : ¬cond0_0 i) (hc1 : cond0_1 i) (x0 : Vec F S2048x2048 .f32) (xs0 : Vec F S2048x1 .f32) :
    (res0C c i arg2 harg2 arg3 harg3 arg4 harg4 arg5 harg5 hc0 hc1 x0 xs0).2.1 = k0_pay3 x0 := by
  unfold res0C
  dsimp only
  rw [View.read_writes_eq_canon _ _ _ (cover0C_2 c i arg2 harg2 arg3 harg3 arg4 harg4 arg5 harg5 hc0 hc1 x0 xs0)]
  unfold kernelRun0_C
  dsimp only
  sl_unfold_words
  rw [View.canon_unit_zero hz2_r0]
  simp only [View.readAt_eq_ld, harg2.read_unread, harg3.read_unread, harg4.read_unread, harg5.read_unread, View.ld_unit_zero (S := S2048x2048) hz2_r0, View.ld_unit_zero (S := S2048x1) hz2_r0]

/-! ### The payloads over the extended reals -/

/-- A `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem pay1_apply_r0 (y : S2048x1.Idx) : k0_pay1 (F := Ideal) y = 0 := by
  unfold k0_pay1
  simp only [shapeCast_self, broadcast]
  exact Ideal.ofBits_zero_f32

/-- The cast to bf16 is the identity over the extended reals. -/
theorem pay3_apply_r0 (v3 : Vec Ideal S2048x2048 .f32) (y : S2048x2048.Idx) : k0_pay3 (F := Ideal) v3 y = v3 y := rfl

/-- The accumulating store at a row: the accumulator's entry plus the sum of the block's row. -/
theorem pay2_apply_r0 (v3 : Vec Ideal S2048x2048 .f32) (v4 : Vec Ideal S2048x1 .f32) (r : Fin 2048) (z : Fin 1) :
    k0_pay2 (F := Ideal) v3 v4 (ix2 r z) = v4 (ix2 r z) + ∑ k : Fin 2048, v3 (ix2 r k) := by
  unfold k0_pay2
  simp only [shapeCast_self, addf, Ideal.addf_def]
  congr 1
  rw [shapeCast_a_a1_apply]
  refine (Ideal.multiReduction_add_single (φ := .f32) v3 _ reduces_S2048x2048_S2048 _ _ (ix1 r)).trans ?_
  refine Finset.sum_congr rfl fun k _ => congrArg v3 ?_
  funext a
  apply Fin.ext
  match a with
  | ⟨0, _⟩ => rfl
  | ⟨1, _⟩ => rfl

/-- A sum over 4096 is the sum over the first 2048 plus the sum over the last 2048. -/
theorem sum_halves4096 (g : Fin 4096 → EReal) :
    (∑ k : Fin 2048, g ⟨k.val, by omega⟩) + (∑ k : Fin 2048, g ⟨2048 + k.val, by omega⟩) = ∑ j : Fin 4096, g j :=
  (Fin.sum_univ_add (fun j : Fin (2048 + 2048) => g j)).symm

/-- A sum over 8192 is the sum over the first 4096 plus the sum over the last 4096. -/
theorem sum_halves8192 (f : Fin 8192 → EReal) :
    (∑ k : Fin 4096, f ⟨k.val, by omega⟩) + (∑ k : Fin 4096, f ⟨4096 + k.val, by omega⟩) = ∑ j : Fin 8192, f j :=
  (Fin.sum_univ_add (fun j : Fin (4096 + 4096) => f j)).symm

/-- The chain `((0 + s₀) + s₁) + s₂) + s₃` of the four column blocks' sums is the sum over the whole row: addition of
    extended reals is commutative and associative. -/
theorem sum_quarters (f : Fin 8192 → EReal) :
    (((0 + ∑ k : Fin 2048, f ⟨k.val, by omega⟩) + ∑ k : Fin 2048, f ⟨2048 + k.val, by omega⟩)
      + ∑ k : Fin 2048, f ⟨4096 + k.val, by omega⟩) + ∑ k : Fin 2048, f ⟨6144 + k.val, by omega⟩ = ∑ j : Fin 8192, f j := by
  have hlo := sum_halves4096 (fun j : Fin 4096 => f ⟨j.val, by omega⟩)
  have hhi := sum_halves4096 (fun j : Fin 4096 => f ⟨4096 + j.val, by omega⟩)
  have e : (∑ k : Fin 2048, f ⟨6144 + k.val, by omega⟩) = ∑ k : Fin 2048, f ⟨4096 + (2048 + k.val), by omega⟩ :=
    Finset.sum_congr rfl fun k _ => congrArg f (Fin.ext (by show 6144 + k.val = 4096 + (2048 + k.val); omega))
  rw [zero_add, e, add_assoc, ← sum_halves8192 f]
  exact congrArg₂ (· + ·) hlo hhi

section Ideal

variable (c : Dev nD) (W : (b : Ref sig .tc) → Buf (Elt Ideal) ((c : Thread nD τ).loc b))

/-- Where the windows' blocks sit, over the grid: block row `t / 4`, column block `t % 4`. -/
theorem idx0 : ∀ t : Fin cfg0.N,
    win0_0.index t 0 = t.val / 4 ∧ win0_0.index t 1 = t.val % 4 ∧ win0_1.index t 0 = t.val / 4 ∧ win0_1.index t 1 = 0
      ∧ win0_2.index t 0 = t.val / 4 ∧ win0_2.index t 1 = t.val % 4 :=
  (by decide +kernel : ∀ t : Fin grid0.N, _)

/-- No block of the two outputs is cut. -/
theorem xs0 : ∀ t : Fin cfg0.N, win0_1.xsize (grid0.coords t) 0 = 2048 ∧ win0_1.xsize (grid0.coords t) 1 = 1
      ∧ win0_2.xsize (grid0.coords t) 0 = 2048 ∧ win0_2.xsize (grid0.coords t) 1 = 2048 :=
  (by decide +kernel : ∀ t : Fin grid0.N, _)

/-- The input block at a point, and the input array, as functions to the extended reals. -/
abbrev blk0 (t : Fin cfg0.N) : Vec Ideal S2048x2048 .f32 := iblk0 c W 0 t
abbrev Ain : Vec Ideal S8192x8192 .f32 := W main_arg1

/-- The input block at a point, at an entry: the array at the block's offset. -/
theorem iblk0_apply (t : Fin cfg0.N) (r k : Fin 2048) (i : S8192x8192.Idx)
    (h0 : (i 0).val = t.val / 4 * 2048 + r.val) (h1 : (i 1).val = t.val % 4 * 2048 + k.val) :
    blk0 c W t (ix2 r k) = Ain c W i := by
  show iblk0 c W 0 t (ix2 r k) = W main_arg1 i
  unfold iblk0
  rw [View.read_apply]
  show W main_arg1 _ = W main_arg1 i
  congr 1
  funext a
  apply Fin.ext
  match a with
  | ⟨0, _⟩ => show win0_0.index t 0 * 2048 + 1 * r.val = (i 0).val; rw [(idx0 t).1, h0]; omega
  | ⟨1, _⟩ => show win0_0.index t 1 * 2048 + 1 * k.val = (i 1).val; rw [(idx0 t).2.1, h1]; omega

/-- The accumulator after the first column block of a block row, at a row: zero plus the block's row sum. -/
theorem acc_A (n : ℕ) (hn : n < cfg0.N) (h0 : n % 4 = 0) (r : Fin 2048) (z : Fin 1) :
    (outsAt0 c W n hn).2.2 (ix2 r z) = 0 + ∑ k : Fin 2048, blk0 c W ⟨n, hn⟩ (ix2 r k) := by
  have h1 : ¬n % 4 = 3 := by omega
  rw [show outsAt0 c W n hn = _ from outsAt0_A c W ⟨n, hn⟩ h0 h1, res0A_s, pay2_apply_r0, pay1_apply_r0] <;> rfl

/-- The accumulator after a middle column block: what the point before left, plus the block's row sum. -/
theorem acc_B (n : ℕ) (hn : n < cfg0.N) (h0 : ¬n % 4 = 0) (h1 : ¬n % 4 = 3) (r : Fin 2048) (z : Fin 1) :
    (outsAt0 c W n hn).2.2 (ix2 r z)
      = (outsAt0 c W (n - 1) (Nat.lt_of_le_of_lt (Nat.sub_le _ _) hn)).2.2 (ix2 r z) + ∑ k : Fin 2048, blk0 c W ⟨n, hn⟩ (ix2 r k) := by
  rw [show outsAt0 c W n hn = _ from outsAt0_B c W ⟨n, hn⟩ h0 h1, res0B_s, pay2_apply_r0] <;> rfl

/-- The degree output's buffer after the last column block: what the point before left in the accumulator, plus the block's row sum. -/
theorem out_C (n : ℕ) (hn : n < cfg0.N) (h1 : n % 4 = 3) (r : Fin 2048) (z : Fin 1) :
    (outsAt0 c W n hn).1 (ix2 r z)
      = (outsAt0 c W (n - 1) (Nat.lt_of_le_of_lt (Nat.sub_le _ _) hn)).2.2 (ix2 r z) + ∑ k : Fin 2048, blk0 c W ⟨n, hn⟩ (ix2 r k) := by
  have h0 : ¬n % 4 = 0 := by omega
  rw [show outsAt0 c W n hn = _ from outsAt0_C c W ⟨n, hn⟩ h0 h1, res0C_o, pay2_apply_r0] <;> rfl

/-- At the last point of a block row the degree output's buffer holds that row block of the row sums. -/
theorem out1_last (t : Fin cfg0.N) (ht : t.val % 4 = 3) (r : Fin 2048) (z : Fin 1) (R : Fin 8192) (hR : R.val = t.val / 4 * 2048 + r.val) :
    (outsAt0 c W t.val t.isLt).1 (ix2 r z) = Cert.Spec.Region.rowsum (W main_arg1) (ix2 R z) := by
  have hN : t.val < 16 := lt_of_lt_of_eq t.isLt N_0
  have hl1 : t.val - 1 < cfg0.N := Nat.lt_of_le_of_lt (Nat.sub_le _ _) t.isLt
  have hl2 : t.val - 1 - 1 < cfg0.N := Nat.lt_of_le_of_lt (Nat.sub_le _ _) hl1
  have hl3 : t.val - 1 - 1 - 1 < cfg0.N := Nat.lt_of_le_of_lt (Nat.sub_le _ _) hl2
  have e0 : (∑ k : Fin 2048, blk0 c W ⟨t.val - 1 - 1 - 1, hl3⟩ (ix2 r k)) = ∑ k : Fin 2048, Ain c W (ix2 R ⟨k.val, by omega⟩) :=
    Finset.sum_congr rfl fun k _ => iblk0_apply c W ⟨t.val - 1 - 1 - 1, hl3⟩ r k (ix2 R ⟨k.val, by omega⟩)
      (by show R.val = (t.val - 1 - 1 - 1) / 4 * 2048 + r.val; omega) (by show k.val = (t.val - 1 - 1 - 1) % 4 * 2048 + k.val; omega)
  have e1 : (∑ k : Fin 2048, blk0 c W ⟨t.val - 1 - 1, hl2⟩ (ix2 r k)) = ∑ k : Fin 2048, Ain c W (ix2 R ⟨2048 + k.val, by omega⟩) :=
    Finset.sum_congr rfl fun k _ => iblk0_apply c W ⟨t.val - 1 - 1, hl2⟩ r k (ix2 R ⟨2048 + k.val, by omega⟩)
      (by show R.val = (t.val - 1 - 1) / 4 * 2048 + r.val; omega) (by show 2048 + k.val = (t.val - 1 - 1) % 4 * 2048 + k.val; omega)
  have e2 : (∑ k : Fin 2048, blk0 c W ⟨t.val - 1, hl1⟩ (ix2 r k)) = ∑ k : Fin 2048, Ain c W (ix2 R ⟨4096 + k.val, by omega⟩) :=
    Finset.sum_congr rfl fun k _ => iblk0_apply c W ⟨t.val - 1, hl1⟩ r k (ix2 R ⟨4096 + k.val, by omega⟩)
      (by show R.val = (t.val - 1) / 4 * 2048 + r.val; omega) (by show 4096 + k.val = (t.val - 1) % 4 * 2048 + k.val; omega)
  have e3 : (∑ k : Fin 2048, blk0 c W ⟨t.val, t.isLt⟩ (ix2 r k)) = ∑ k : Fin 2048, Ain c W (ix2 R ⟨6144 + k.val, by omega⟩) :=
    Finset.sum_congr rfl fun k _ => iblk0_apply c W ⟨t.val, t.isLt⟩ r k (ix2 R ⟨6144 + k.val, by omega⟩)
      (by show R.val = t.val / 4 * 2048 + r.val; omega) (by show 6144 + k.val = t.val % 4 * 2048 + k.val; omega)
  rw [out_C c W t.val t.isLt ht r z, acc_B c W (t.val - 1) hl1 (by omega) (by omega) r z,
    acc_B c W (t.val - 1 - 1) hl2 (by omega) (by omega) r z, acc_A c W (t.val - 1 - 1 - 1) hl3 (by omega) r z, e0, e1, e2, e3]
  exact sum_quarters (fun j => Ain c W (ix2 R j))

/-- The write-back at the last point of a block row writes that row block of the row sums. -/
theorem flushed1_eq (t : Fin cfg0.N) (hf : (cfg0.win 1).flush t = true) :
    (dats0 c W).flushed 1 t = ((cfg0.win 1).blk t).view.read (Elt Ideal) (Cert.Spec.Region.rowsum (W main_arg1)) := by
  have ht : t.val % 4 = 3 := (flush0_1 t).mp hf
  have hN : t.val < 16 := lt_of_lt_of_eq t.isLt N_0
  show (cfg0.win 1).cut (grid0.coords t) ((dats0 c W).after 1 t) = _
  rw [after0_1]
  funext y
  obtain ⟨r, z, rfl⟩ : ∃ (r : Fin 2048) (z : Fin 1), y = ix2 r z := ⟨y 0, y 1, eq_ix2 y⟩
  rw [View.read_apply]
  refine (out1_last c W t ht r z ⟨t.val / 4 * 2048 + r.val, by omega⟩ rfl).trans ?_
  show Cert.Spec.Region.rowsum _ _ = Cert.Spec.Region.rowsum _ _
  congr 1
  funext a
  apply Fin.ext
  match a with
  | ⟨0, _⟩ => show t.val / 4 * 2048 + r.val = win0_1.index t 0 * 2048 + 1 * r.val; rw [(idx0 t).2.2.1]; omega
  | ⟨1, _⟩ => show z.val = win0_1.index t 1 * 1 + 1 * z.val; rw [(idx0 t).2.2.2.1]; omega

/-- Every entry of the degree column lies in the block some last point writes back: the one of its block row. -/
theorem cover1 (i : S8192x1.Idx) : ∃ t : Fin cfg0.N, (cfg0.win 1).flush t = true ∧ i ∈ ((cfg0.win 1).blk t).view.set := by
  have h0 : (i 0).val < 8192 := (i 0).isLt
  have h1 : (i 1).val < 1 := (i 1).isLt
  let t : Fin cfg0.N := ⟨4 * ((i 0).val / 2048) + 3, by rw [N0_eq]; omega⟩
  have htv : t.val = 4 * ((i 0).val / 2048) + 3 := rfl
  refine ⟨t, (flush0_1 t).mpr (by rw [htv]; omega), ?_⟩
  show i ∈ ((View.whole main_v0_0).slice (win0_1.rect t)).set
  rw [View.set_slice_whole, Rect.mem_set_unit]
  intro a
  match a with
  | ⟨0, _⟩ =>
    show win0_1.index t 0 * win0_1.size 0 ≤ (i 0 : Nat) ∧ (i 0 : Nat) < win0_1.index t 0 * win0_1.size 0 + win0_1.xsize (grid0.coords t) 0
    rw [(idx0 t).2.2.1, show win0_1.size 0 = 2048 from rfl, (xs0 t).1, htv]; omega
  | ⟨1, _⟩ =>
    show win0_1.index t 1 * win0_1.size 1 ≤ (i 1 : Nat) ∧ (i 1 : Nat) < win0_1.index t 1 * win0_1.size 1 + win0_1.xsize (grid0.coords t) 1
    rw [(idx0 t).2.2.2.1, show win0_1.size 1 = 1 from rfl, (xs0 t).2.1]; omega

/-- So the degree output ends holding the row sums of the whole input. -/
theorem final0_1 : (dats0 c W).arrAt 1 cfg0.N = Cert.Spec.Region.rowsum (W main_arg1) :=
  (dats0 c W).arrAt_eq_of_cover 1 _ (flushed1_eq c W) (cover1)

/-- At every point the cast output's buffer holds the point's input block: the cast is the identity over the extended reals. -/
theorem out2_eq (t : Fin cfg0.N) (y : S2048x2048.Idx) :
    (outsAt0 c W t.val t.isLt).2.1 y = blk0 c W t y := by
  by_cases h0 : t.val % 4 = 0
  · have h1 : ¬t.val % 4 = 3 := by omega
    rw [outsAt0_A c W t h0 h1, res0A_c]
    exact pay3_apply_r0 _ y
  · by_cases h1 : t.val % 4 = 3
    · rw [outsAt0_C c W t h0 h1, res0C_c]
      exact pay3_apply_r0 _ y
    · rw [outsAt0_B c W t h0 h1, res0B_c]
      exact pay3_apply_r0 _ y

/-- The write-back at a point writes the input's block there. -/
theorem flushed2_eq (t : Fin cfg0.N) (hf : (cfg0.win 2).flush t = true) :
    (dats0 c W).flushed 2 t = ((cfg0.win 2).blk t).view.read (Elt Ideal) (W main_arg1) := by
  have hN : t.val < 16 := lt_of_lt_of_eq t.isLt N_0
  show (cfg0.win 2).cut (grid0.coords t) ((dats0 c W).after 2 t) = _
  rw [after0_2]
  funext y
  obtain ⟨r, k, rfl⟩ : ∃ (r k : Fin 2048), y = ix2 r k := ⟨y 0, y 1, eq_ix2 y⟩
  rw [View.read_apply]
  refine (out2_eq c W t (ix2 r k)).trans ?_
  refine (iblk0_apply c W t r k (ix2 ⟨t.val / 4 * 2048 + r.val, by omega⟩ ⟨t.val % 4 * 2048 + k.val, by omega⟩) rfl rfl).trans ?_
  show W main_arg1 _ = W main_arg1 _
  congr 1
  funext a
  apply Fin.ext
  match a with
  | ⟨0, _⟩ => show t.val / 4 * 2048 + r.val = win0_2.index t 0 * 2048 + 1 * r.val; rw [(idx0 t).2.2.2.2.1]; omega
  | ⟨1, _⟩ => show t.val % 4 * 2048 + k.val = win0_2.index t 1 * 2048 + 1 * k.val; rw [(idx0 t).2.2.2.2.2]; omega

/-- Every entry of the cast output lies in the block of the point at its block row and column block. -/
theorem cover2 (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  let t : Fin cfg0.N := ⟨4 * ((i 0).val / 2048) + (i 1).val / 2048, by rw [N0_eq]; omega⟩
  have htv : t.val = 4 * ((i 0).val / 2048) + (i 1).val / 2048 := rfl
  refine ⟨t, flush0_2 t, ?_⟩
  show i ∈ ((View.whole main_v0_1).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [(idx0 t).2.2.2.2.1, show win0_2.size 0 = 2048 from rfl, (xs0 t).2.2.1, htv]; omega
  | ⟨1, _⟩ =>
    show win0_2.index t 1 * win0_2.size 1 ≤ (i 1 : Nat) ∧ (i 1 : Nat) < win0_2.index t 1 * win0_2.size 1 + win0_2.xsize (grid0.coords t) 1
    rw [(idx0 t).2.2.2.2.2, show win0_2.size 1 = 2048 from rfl, (xs0 t).2.2.2, htv]; omega

/-- So the cast output ends holding the input array. -/
theorem final0_2 : (dats0 c W).arrAt 2 cfg0.N = W main_arg1 :=
  (dats0 c W).arrAt_eq_of_cover 2 (W main_arg1) (flushed2_eq c W) (cover2)

end Ideal

end Cert.KernelIdeal.Hand

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KI.R1Val.lean ====
import proofs.«117539_j28759101014307_2_alg».proof.Proof.KI.R1Body
import proofs.«117539_j28759101014307_2_alg».proof.Proof.LibPlainDot
import proofs.«117539_j28759101014307_2_alg».proof.Proof.KerSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.ValueIdx

/-! ## The matmul region: what it leaves in its two result arrays

The reset case leaves in each accumulator `0 + A·B` of the point's blocks; the write-out case leaves `acc + A·B` and copies
it to the output's staging buffer. Over the two points of a block row the output block is therefore the sum over the first
4096 columns plus the sum over the last 4096: the whole row of the product. -/

theorem hz2 : (![0, 0] : Fin 2 → Nat) = fun _ => 0 := funext fun a => by fin_cases a <;> rfl

theorem resA_s0 (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) :
    (resA c i arg2 harg2 arg3 harg3 arg4 harg4 arg5 harg5 arg6 harg6 arg7 harg7 arg8 harg8 hc0 hc1 x0 x1 x2).2.2.1 = k1_pay4 x0 (k1_pay1 (F := F)) x1 := by
  unfold resA
  dsimp only
  rw [View.read_writes_eq_canon _ _ _ (scoverA_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S2048x128) hz2, View.readCov_unit_zero (S := S2048x128) _ hz2]
  simp only [View.readAt_eq_ld, harg2.read_unread, harg3.read_unread, harg4.read_unread, harg7.read_unread, harg8.read_unread, View.ld_unit_zero (S := S2048x4096) hz2, View.ld_unit_zero (S := S4096x128) hz2, View.ld_unit_zero (S := S2048x128) hz2]

theorem resA_s1 (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x4096 .bf16) (x1 : Vec F S4096x128 .bf16) (x2 : Vec F S4096x128 .bf16) :
    (resA c i arg2 harg2 arg3 harg3 arg4 harg4 arg5 harg5 arg6 harg6 arg7 harg7 arg8 harg8 hc0 hc1 x0 x1 x2).2.2.2 = k1_pay5 x0 (k1_pay2 (F := F)) x2 := by
  unfold resA
  dsimp only
  rw [View.read_writes_eq_canon _ _ _ (scoverA_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S2048x128) hz2, View.readCov_unit_zero (S := S2048x128) _ hz2]
  simp only [View.readAt_eq_ld, harg2.read_unread, harg3.read_unread, harg4.read_unread, harg7.read_unread, harg8.read_unread, View.ld_unit_zero (S := S2048x4096) hz2, View.ld_unit_zero (S := S4096x128) hz2, View.ld_unit_zero (S := S2048x128) hz2]

theorem resB_s0 (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) :
    (resB c i arg2 harg2 arg3 harg3 arg4 harg4 arg5 harg5 arg6 harg6 arg7 harg7 arg8 harg8 hc0 hc1 x0 x1 x2 xs0 xs1).2.2.1 = k1_pay4 x0 xs0 x1 := by
  unfold resB
  dsimp only
  rw [View.read_writes_eq_canon _ _ _ (scoverB_0 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero hz2]
  simp only [View.readAt_eq_ld, harg2.read_unread, harg3.read_unread, harg4.read_unread, harg7.read_unread, harg8.read_unread, View.ld_unit_zero (S := S2048x4096) hz2, View.ld_unit_zero (S := S4096x128) hz2, View.ld_unit_zero (S := S2048x128) hz2]

theorem resB_s1 (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) :
    (resB c i arg2 harg2 arg3 harg3 arg4 harg4 arg5 harg5 arg6 harg6 arg7 harg7 arg8 harg8 hc0 hc1 x0 x1 x2 xs0 xs1).2.2.2 = k1_pay5 x0 xs1 x2 := by
  unfold resB
  dsimp only
  rw [View.read_writes_eq_canon _ _ _ (scoverB_1 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero hz2]
  simp only [View.readAt_eq_ld, harg2.read_unread, harg3.read_unread, harg4.read_unread, harg7.read_unread, harg8.read_unread, View.ld_unit_zero (S := S2048x4096) hz2, View.ld_unit_zero (S := S4096x128) hz2, View.ld_unit_zero (S := S2048x128) hz2]

theorem resB_o3 (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) :
    (resB c i arg2 harg2 arg3 harg3 arg4 harg4 arg5 harg5 arg6 harg6 arg7 harg7 arg8 harg8 hc0 hc1 x0 x1 x2 xs0 xs1).1 = k1_pay4 x0 xs0 x1 := by
  unfold resB
  dsimp only
  rw [View.read_writes_eq_canon _ _ _ (coverB_3 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero hz2, View.readCov_unit_zero (S := S2048x128) _ hz2]
  simp only [View.readAt_eq_ld, harg2.read_unread, harg3.read_unread, harg4.read_unread, harg7.read_unread, harg8.read_unread, View.ld_unit_zero (S := S2048x4096) hz2, View.ld_unit_zero (S := S4096x128) hz2, View.ld_unit_zero (S := S2048x128) hz2]

theorem resB_o4 (c : Dev nD) (i : grid1.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x4096 .bf16) (x1 : Vec F S4096x128 .bf16) (x2 : Vec F S4096x128 .bf16) (xs0 xs1 : Vec F S2048x128 .f32) :
    (resB c i arg2 harg2 arg3 harg3 arg4 harg4 arg5 harg5 arg6 harg6 arg7 harg7 arg8 harg8 hc0 hc1 x0 x1 x2 xs0 xs1).2.1 = k1_pay5 x0 xs1 x2 := by
  unfold resB
  dsimp only
  rw [View.read_writes_eq_canon _ _ _ (coverB_4 c i arg2 harg2 arg3 harg3 arg4 harg4 arg5 harg5 arg6 harg6 arg7 harg7 arg8 harg8 hc0 hc1 x0 x1 x2 xs0 xs1)]
  unfold kernelRun1_B
  dsimp only
  sl_unfold_words
  rw [View.canon_unit_zero hz2, View.readCov_unit_zero (S := S2048x128) _ hz2]
  simp only [View.readAt_eq_ld, harg2.read_unread, harg3.read_unread, harg4.read_unread, harg7.read_unread, harg8.read_unread, View.ld_unit_zero (S := S2048x4096) hz2, View.ld_unit_zero (S := S4096x128) hz2, View.ld_unit_zero (S := S2048x128) hz2]

/-! ### The payloads over the extended reals -/

theorem pay1_apply (y : S2048x128.Idx) : k1_pay1 (F := Ideal) y = 0 := by
  unfold k1_pay1
  simp only [shapeCast_self, broadcast]
  exact Ideal.ofBits_zero_f32
theorem pay2_apply (y : S2048x128.Idx) : k1_pay2 (F := Ideal) y = 0 := by
  unfold k1_pay2
  simp only [shapeCast_self, broadcast]
  exact Ideal.ofBits_zero_f32

/-- The accumulating store at an entry: the accumulator's entry plus the row of the left block times the column of the right. -/
theorem pay4_apply (x0 : Vec Ideal S2048x4096 .bf16) (acc : Vec Ideal S2048x128 .f32) (x1 : Vec Ideal S4096x128 .bf16) (r : Fin 2048) (cc : Fin 128) :
    k1_pay4 (F := Ideal) x0 acc x1 (ix2 r cc) = acc (ix2 r cc) + ∑ k : Fin 4096, x0 (ix2 r k) * x1 (ix2 k cc) := by
  unfold k1_pay4 k1_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x1 r cc
theorem pay5_apply (x0 : Vec Ideal S2048x4096 .bf16) (acc : Vec Ideal S2048x128 .f32) (x2 : Vec Ideal S4096x128 .bf16) (r : Fin 2048) (cc : Fin 128) :
    k1_pay5 (F := Ideal) x0 acc x2 (ix2 r cc) = acc (ix2 r cc) + ∑ k : Fin 4096, x0 (ix2 r k) * x2 (ix2 k cc) := by
  unfold k1_pay5 k1_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x2 r cc

/-- A sum over 8192 is the sum over the first 4096 plus the sum over the last 4096. -/
theorem sum_halves (f : Fin 8192 → EReal) :
    (∑ k : Fin 4096, f ⟨k.val, by omega⟩) + (∑ k : Fin 4096, f ⟨4096 + k.val, by omega⟩) = ∑ j : Fin 8192, f j :=
  (Fin.sum_univ_add (fun j : Fin (4096 + 4096) => f j)).symm

section Ideal

variable (c : Dev nD) (W : (b : Ref sig .tc) → Buf (Elt Ideal) ((c : Thread nD τ).loc b))

/-- Where the windows' blocks sit, over the grid: block row `t / 2`, column half `t % 2`. -/
theorem idx1 : ∀ t : Fin cfg1.N,
    win1_0.index t 0 = t.val / 2 ∧ win1_0.index t 1 = t.val % 2 ∧ win1_1.index t 0 = t.val % 2 ∧ win1_1.index t 1 = 0
      ∧ win1_2.index t 0 = t.val % 2 ∧ win1_2.index t 1 = 0 ∧ win1_3.index t 0 = t.val / 2 ∧ win1_3.index t 1 = 0
      ∧ win1_4.index t 0 = t.val / 2 ∧ win1_4.index t 1 = 0 :=
  (by decide +kernel : ∀ t : Fin grid1.N, _)

/-- The adjacency block at a point, at an entry: the array at the block's offset. -/
theorem iblk_0_apply (t : Fin cfg1.N) (r : Fin 2048) (k : Fin 4096) (i : S8192x8192.Idx)
    (h0 : (i 0).val = t.val / 2 * 2048 + r.val) (h1 : (i 1).val = t.val % 2 * 4096 + k.val) :
    iblk c W 0 t (ix2 r k) = W main_v0_1 i := by
  unfold iblk
  rw [View.read_apply]
  show W main_v0_1 _ = W main_v0_1 i
  congr 1
  funext a
  apply Fin.ext
  match a with
  | ⟨0, _⟩ => show win1_0.index t 0 * 2048 + 1 * r.val = (i 0).val; rw [(idx1 t).1, h0]; omega
  | ⟨1, _⟩ => show win1_0.index t 1 * 4096 + 1 * k.val = (i 1).val; rw [(idx1 t).2.1, h1]; omega

/-- A right-hand side's block at a point, at an entry. -/
theorem iblk_1_apply (t : Fin cfg1.N) (k : Fin 4096) (cc : Fin 128) (i : S8192x128.Idx)
    (h0 : (i 0).val = t.val % 2 * 4096 + k.val) (h1 : (i 1).val = cc.val) :
    iblk c W 1 t (ix2 k cc) = W main_v25 i := by
  unfold iblk
  rw [View.read_apply]
  show W main_v25 _ = W main_v25 i
  congr 1
  funext a
  apply Fin.ext
  match a with
  | ⟨0, _⟩ => show win1_1.index t 0 * 4096 + 1 * k.val = (i 0).val; rw [(idx1 t).2.2.1, h0]; omega
  | ⟨1, _⟩ => show win1_1.index t 1 * 128 + 1 * cc.val = (i 1).val; rw [(idx1 t).2.2.2.1, h1]; omega
theorem iblk_2_apply (t : Fin cfg1.N) (k : Fin 4096) (cc : Fin 128) (i : S8192x128.Idx)
    (h0 : (i 0).val = t.val % 2 * 4096 + k.val) (h1 : (i 1).val = cc.val) :
    iblk c W 2 t (ix2 k cc) = W main_v28 i := by
  unfold iblk
  rw [View.read_apply]
  show W main_v28 _ = W main_v28 i
  congr 1
  funext a
  apply Fin.ext
  match a with
  | ⟨0, _⟩ => show win1_2.index t 0 * 4096 + 1 * k.val = (i 0).val; rw [(idx1 t).2.2.2.2.1, h0]; omega
  | ⟨1, _⟩ => show win1_2.index t 1 * 128 + 1 * cc.val = (i 1).val; rw [(idx1 t).2.2.2.2.2.1, h1]; omega

/-- At the second point of a block row the first output's staging buffer holds that row block of the whole product. -/
theorem out3_odd (t : Fin cfg1.N) (ht : t.val % 2 = 1) (r : Fin 2048) (cc : Fin 128) (R : Fin 8192) (hR : R.val = t.val / 2 * 2048 + r.val) :
    (outsAt1 c W t.val t.isLt).1 (ix2 r cc) = Cert.Spec.Region.mm (W main_v0_1) (W main_v25) (ix2 R cc) := by
  have hN : t.val < 8 := lt_of_lt_of_eq t.isLt N_1
  have h0 : ¬ t.val % 2 = 0 := by omega
  have hlt : t.val - 1 < cfg1.N := Nat.lt_of_le_of_lt (Nat.sub_le _ _) t.isLt
  have hp : (⟨t.val - 1, hlt⟩ : Fin cfg1.N).val % 2 = 0 := by show (t.val - 1) % 2 = 0; omega
  rw [outsAt1_B c W t h0, resB_o3, pay4_apply]
  rw [show outsAt1 c W (t.val - 1) _ = _ from outsAt1_A c W ⟨t.val - 1, hlt⟩ hp]
  rw [resA_s0, pay4_apply, pay1_apply, zero_add]
  unfold Cert.Spec.Region.mm
  rw [← sum_halves]
  congr 1
  · refine Finset.sum_congr rfl fun k _ => ?_
    rw [iblk_0_apply c W ⟨t.val - 1, hlt⟩ r k (ix2 R ⟨k.val, by omega⟩) (by show R.val = (t.val - 1) / 2 * 2048 + r.val; omega) (by show k.val = (t.val - 1) % 2 * 4096 + k.val; omega),
      iblk_1_apply c W ⟨t.val - 1, hlt⟩ k cc (ix2 ⟨k.val, by omega⟩ cc) (by show k.val = (t.val - 1) % 2 * 4096 + k.val; omega) rfl]
  · refine Finset.sum_congr rfl fun k _ => ?_
    rw [iblk_0_apply c W t r k (ix2 R ⟨4096 + k.val, by omega⟩) (by show R.val = t.val / 2 * 2048 + r.val; omega) (by show 4096 + k.val = t.val % 2 * 4096 + k.val; omega),
      iblk_1_apply c W t k cc (ix2 ⟨4096 + k.val, by omega⟩ cc) (by show 4096 + k.val = t.val % 2 * 4096 + k.val; omega) rfl]
theorem out4_odd (t : Fin cfg1.N) (ht : t.val % 2 = 1) (r : Fin 2048) (cc : Fin 128) (R : Fin 8192) (hR : R.val = t.val / 2 * 2048 + r.val) :
    (outsAt1 c W t.val t.isLt).2.1 (ix2 r cc) = Cert.Spec.Region.mm (W main_v0_1) (W main_v28) (ix2 R cc) := by
  have hN : t.val < 8 := lt_of_lt_of_eq t.isLt N_1
  have h0 : ¬ t.val % 2 = 0 := by omega
  have hlt : t.val - 1 < cfg1.N := Nat.lt_of_le_of_lt (Nat.sub_le _ _) t.isLt
  have hp : (⟨t.val - 1, hlt⟩ : Fin cfg1.N).val % 2 = 0 := by show (t.val - 1) % 2 = 0; omega
  rw [outsAt1_B c W t h0, resB_o4, pay5_apply]
  rw [show outsAt1 c W (t.val - 1) _ = _ from outsAt1_A c W ⟨t.val - 1, hlt⟩ hp]
  rw [resA_s1, pay5_apply, pay2_apply, zero_add]
  unfold Cert.Spec.Region.mm
  rw [← sum_halves]
  congr 1
  · refine Finset.sum_congr rfl fun k _ => ?_
    rw [iblk_0_apply c W ⟨t.val - 1, hlt⟩ r k (ix2 R ⟨k.val, by omega⟩) (by show R.val = (t.val - 1) / 2 * 2048 + r.val; omega) (by show k.val = (t.val - 1) % 2 * 4096 + k.val; omega),
      iblk_2_apply c W ⟨t.val - 1, hlt⟩ k cc (ix2 ⟨k.val, by omega⟩ cc) (by show k.val = (t.val - 1) % 2 * 4096 + k.val; omega) rfl]
  · refine Finset.sum_congr rfl fun k _ => ?_
    rw [iblk_0_apply c W t r k (ix2 R ⟨4096 + k.val, by omega⟩) (by show R.val = t.val / 2 * 2048 + r.val; omega) (by show 4096 + k.val = t.val % 2 * 4096 + k.val; omega),
      iblk_2_apply c W t k cc (ix2 ⟨4096 + k.val, by omega⟩ cc) (by show 4096 + k.val = t.val % 2 * 4096 + k.val; omega) rfl]

/-- No block of the two outputs is cut. -/
theorem xs1 : ∀ t : Fin cfg1.N, win1_3.xsize (grid1.coords t) 0 = 2048 ∧ win1_3.xsize (grid1.coords t) 1 = 128
      ∧ win1_4.xsize (grid1.coords t) 0 = 2048 ∧ win1_4.xsize (grid1.coords t) 1 = 128 :=
  (by decide +kernel : ∀ t : Fin grid1.N, _)

/-- The write-back at the second point of a block row writes that row block of the whole product. -/
theorem flushed3_eq (t : Fin cfg1.N) (hf : (cfg1.win 3).flush t = true) :
    (dats1 c W).flushed 3 t = ((cfg1.win 3).blk t).view.read (Elt Ideal) (Cert.Spec.Region.mm (W main_v0_1) (W main_v25)) := by
  have ht : t.val % 2 = 1 := (flush1_3 t).mp hf
  have hN : t.val < 8 := lt_of_lt_of_eq t.isLt N_1
  show (cfg1.win 3).cut (grid1.coords t) ((dats1 c W).after 3 t) = _
  rw [after1_3]
  funext y
  obtain ⟨r, cc, rfl⟩ : ∃ (r : Fin 2048) (cc : Fin 128), y = ix2 r cc := ⟨y 0, y 1, eq_ix2 y⟩
  rw [View.read_apply]
  refine (out3_odd c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win1_3.index t 0 * 2048 + 1 * r.val; rw [(idx1 t).2.2.2.2.2.2.1]; omega
  | ⟨1, _⟩ => show cc.val = win1_3.index t 1 * 128 + 1 * cc.val; rw [(idx1 t).2.2.2.2.2.2.2.1]; omega

/-- Every entry of the result lies in the block some second point writes back: the one of its block row. -/
theorem cover3 (i : S8192x128.Idx) : ∃ t : Fin cfg1.N, (cfg1.win 3).flush t = true ∧ i ∈ ((cfg1.win 3).blk t).view.set := by
  have h0 : (i 0).val < 8192 := (i 0).isLt
  have h1 : (i 1).val < 128 := (i 1).isLt
  let t : Fin cfg1.N := ⟨2 * ((i 0).val / 2048) + 1, by rw [N1_eq]; omega⟩
  have htv : t.val = 2 * ((i 0).val / 2048) + 1 := rfl
  refine ⟨t, (flush1_3 t).mpr (by rw [htv]; omega), ?_⟩
  show i ∈ ((View.whole main_v29_0).slice (win1_3.rect t)).set
  rw [View.set_slice_whole, Rect.mem_set_unit]
  intro a
  match a with
  | ⟨0, _⟩ =>
    show win1_3.index t 0 * win1_3.size 0 ≤ (i 0 : Nat) ∧ (i 0 : Nat) < win1_3.index t 0 * win1_3.size 0 + win1_3.xsize (grid1.coords t) 0
    rw [(idx1 t).2.2.2.2.2.2.1, show win1_3.size 0 = 2048 from rfl, (xs1 t).1, htv]; omega
  | ⟨1, _⟩ =>
    show win1_3.index t 1 * win1_3.size 1 ≤ (i 1 : Nat) ∧ (i 1 : Nat) < win1_3.index t 1 * win1_3.size 1 + win1_3.xsize (grid1.coords t) 1
    rw [(idx1 t).2.2.2.2.2.2.2.1, show win1_3.size 1 = 128 from rfl, (xs1 t).2.1]; omega

/-- So the result array ends holding the whole product. -/
theorem final3 : (dats1 c W).arrAt 3 cfg1.N = Cert.Spec.Region.mm (W main_v0_1) (W main_v25) :=
  (dats1 c W).arrAt_eq_of_cover 3 _ (flushed3_eq c W) (cover3)

/-- The write-back at the second point of a block row writes that row block of the whole product. -/
theorem flushed4_eq (t : Fin cfg1.N) (hf : (cfg1.win 4).flush t = true) :
    (dats1 c W).flushed 4 t = ((cfg1.win 4).blk t).view.read (Elt Ideal) (Cert.Spec.Region.mm (W main_v0_1) (W main_v28)) := by
  have ht : t.val % 2 = 1 := (flush1_4 t).mp hf
  have hN : t.val < 8 := lt_of_lt_of_eq t.isLt N_1
  show (cfg1.win 4).cut (grid1.coords t) ((dats1 c W).after 4 t) = _
  rw [after1_4]
  funext y
  obtain ⟨r, cc, rfl⟩ : ∃ (r : Fin 2048) (cc : Fin 128), y = ix2 r cc := ⟨y 0, y 1, eq_ix2 y⟩
  rw [View.read_apply]
  refine (out4_odd c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win1_4.index t 0 * 2048 + 1 * r.val; rw [(idx1 t).2.2.2.2.2.2.2.2.1]; omega
  | ⟨1, _⟩ => show cc.val = win1_4.index t 1 * 128 + 1 * cc.val; rw [(idx1 t).2.2.2.2.2.2.2.2.2]; omega

/-- Every entry of the result lies in the block some second point writes back: the one of its block row. -/
theorem cover4 (i : S8192x128.Idx) : ∃ t : Fin cfg1.N, (cfg1.win 4).flush t = true ∧ i ∈ ((cfg1.win 4).blk t).view.set := by
  have h0 : (i 0).val < 8192 := (i 0).isLt
  have h1 : (i 1).val < 128 := (i 1).isLt
  let t : Fin cfg1.N := ⟨2 * ((i 0).val / 2048) + 1, by rw [N1_eq]; omega⟩
  have htv : t.val = 2 * ((i 0).val / 2048) + 1 := rfl
  refine ⟨t, (flush1_4 t).mpr (by rw [htv]; omega), ?_⟩
  show i ∈ ((View.whole main_v29_1).slice (win1_4.rect t)).set
  rw [View.set_slice_whole, Rect.mem_set_unit]
  intro a
  match a with
  | ⟨0, _⟩ =>
    show win1_4.index t 0 * win1_4.size 0 ≤ (i 0 : Nat) ∧ (i 0 : Nat) < win1_4.index t 0 * win1_4.size 0 + win1_4.xsize (grid1.coords t) 0
    rw [(idx1 t).2.2.2.2.2.2.2.2.1, show win1_4.size 0 = 2048 from rfl, (xs1 t).2.2.1, htv]; omega
  | ⟨1, _⟩ =>
    show win1_4.index t 1 * win1_4.size 1 ≤ (i 1 : Nat) ∧ (i 1 : Nat) < win1_4.index t 1 * win1_4.size 1 + win1_4.xsize (grid1.coords t) 1
    rw [(idx1 t).2.2.2.2.2.2.2.2.2, show win1_4.size 1 = 128 from rfl, (xs1 t).2.2.2]; omega

/-- So the result array ends holding the whole product. -/
theorem final4 : (dats1 c W).arrAt 4 cfg1.N = Cert.Spec.Region.mm (W main_v0_1) (W main_v28) :=
  (dats1 c W).arrAt_eq_of_cover 4 _ (flushed4_eq c W) (cover4)

end Ideal

end Cert.KernelIdeal.Hand

end
-- ==== Proof.KI.R2Val.lean ====
import proofs.«117539_j28759101014307_2_alg».proof.Proof.KI.R2Body
import proofs.«117539_j28759101014307_2_alg».proof.Proof.LibPlainDot
import proofs.«117539_j28759101014307_2_alg».proof.Proof.KerSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.ValueIdx

/-! ## The matmul region: what it leaves in its two result arrays

The reset case leaves in each accumulator `0 + A·B` of the point's blocks; the write-out case leaves `acc + A·B` and copies
it to the output's staging buffer. Over the two points of a block row the output block is therefore the sum over the first
4096 columns plus the sum over the last 4096: the whole row of the product. -/

theorem hz2_r2 : (![0, 0] : Fin 2 → Nat) = fun _ => 0 := funext fun a => by fin_cases a <;> rfl

theorem resA_s0_r2 (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) :
    (res2A c i arg2 harg2 arg3 harg3 arg4 harg4 arg5 harg5 arg6 harg6 arg7 harg7 arg8 harg8 hc0 hc1 x0 x1 x2).2.2.1 = k2_pay4 x0 (k2_pay1 (F := F)) x1 := by
  unfold res2A
  dsimp only
  rw [View.read_writes_eq_canon _ _ _ (scover2A_0 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S2048x128) hz2_r2, View.readCov_unit_zero (S := S2048x128) _ hz2_r2]
  simp only [View.readAt_eq_ld, harg2.read_unread, harg3.read_unread, harg4.read_unread, harg7.read_unread, harg8.read_unread, View.ld_unit_zero (S := S2048x4096) hz2_r2, View.ld_unit_zero (S := S4096x128) hz2_r2, View.ld_unit_zero (S := S2048x128) hz2_r2]

theorem resA_s1_r2 (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond2_0 i) (hc1 : ¬cond2_1 i)
    (x0 : Vec F S2048x4096 .bf16) (x1 : Vec F S4096x128 .bf16) (x2 : Vec F S4096x128 .bf16) :
    (res2A c i arg2 harg2 arg3 harg3 arg4 harg4 arg5 harg5 arg6 harg6 arg7 harg7 arg8 harg8 hc0 hc1 x0 x1 x2).2.2.2 = k2_pay5 x0 (k2_pay2 (F := F)) x2 := by
  unfold res2A
  dsimp only
  rw [View.read_writes_eq_canon _ _ _ (scover2A_1 c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S2048x128) hz2_r2, View.readCov_unit_zero (S := S2048x128) _ hz2_r2]
  simp only [View.readAt_eq_ld, harg2.read_unread, harg3.read_unread, harg4.read_unread, harg7.read_unread, harg8.read_unread, View.ld_unit_zero (S := S2048x4096) hz2_r2, View.ld_unit_zero (S := S4096x128) hz2_r2, View.ld_unit_zero (S := S2048x128) hz2_r2]

theorem resB_s0_r2 (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1_r2 : Vec F S2048x128 .f32) :
    (res2B c i arg2 harg2 arg3 harg3 arg4 harg4 arg5 harg5 arg6 harg6 arg7 harg7 arg8 harg8 hc0 hc1 x0 x1 x2 xs0 xs1_r2).2.2.1 = k2_pay4 x0 xs0 x1 := by
  unfold res2B
  dsimp only
  rw [View.read_writes_eq_canon _ _ _ (scover2B_0 c i arg2 harg2 arg3 harg3 arg4 harg4 arg5 harg5 arg6 harg6 arg7 harg7 arg8 harg8 hc0 hc1 x0 x1 x2 xs0 xs1_r2)]
  unfold kernelRun2_B
  dsimp only
  sl_unfold_words
  rw [View.canon_unit_zero hz2_r2]
  simp only [View.readAt_eq_ld, harg2.read_unread, harg3.read_unread, harg4.read_unread, harg7.read_unread, harg8.read_unread, View.ld_unit_zero (S := S2048x4096) hz2_r2, View.ld_unit_zero (S := S4096x128) hz2_r2, View.ld_unit_zero (S := S2048x128) hz2_r2]

theorem resB_s1_r2 (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1_r2 : Vec F S2048x128 .f32) :
    (res2B c i arg2 harg2 arg3 harg3 arg4 harg4 arg5 harg5 arg6 harg6 arg7 harg7 arg8 harg8 hc0 hc1 x0 x1 x2 xs0 xs1_r2).2.2.2 = k2_pay5 x0 xs1_r2 x2 := by
  unfold res2B
  dsimp only
  rw [View.read_writes_eq_canon _ _ _ (scover2B_1 c i arg2 harg2 arg3 harg3 arg4 harg4 arg5 harg5 arg6 harg6 arg7 harg7 arg8 harg8 hc0 hc1 x0 x1 x2 xs0 xs1_r2)]
  unfold kernelRun2_B
  dsimp only
  sl_unfold_words
  rw [View.canon_unit_zero hz2_r2]
  simp only [View.readAt_eq_ld, harg2.read_unread, harg3.read_unread, harg4.read_unread, harg7.read_unread, harg8.read_unread, View.ld_unit_zero (S := S2048x4096) hz2_r2, View.ld_unit_zero (S := S4096x128) hz2_r2, View.ld_unit_zero (S := S2048x128) hz2_r2]

theorem resB_o3_r2 (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1_r2 : Vec F S2048x128 .f32) :
    (res2B c i arg2 harg2 arg3 harg3 arg4 harg4 arg5 harg5 arg6 harg6 arg7 harg7 arg8 harg8 hc0 hc1 x0 x1 x2 xs0 xs1_r2).1 = k2_pay4 x0 xs0 x1 := by
  unfold res2B
  dsimp only
  rw [View.read_writes_eq_canon _ _ _ (cover2B_3 c i arg2 harg2 arg3 harg3 arg4 harg4 arg5 harg5 arg6 harg6 arg7 harg7 arg8 harg8 hc0 hc1 x0 x1 x2 xs0 xs1_r2)]
  unfold kernelRun2_B
  dsimp only
  sl_unfold_words
  rw [View.canon_unit_zero hz2_r2, View.readCov_unit_zero (S := S2048x128) _ hz2_r2]
  simp only [View.readAt_eq_ld, harg2.read_unread, harg3.read_unread, harg4.read_unread, harg7.read_unread, harg8.read_unread, View.ld_unit_zero (S := S2048x4096) hz2_r2, View.ld_unit_zero (S := S4096x128) hz2_r2, View.ld_unit_zero (S := S2048x128) hz2_r2]

theorem resB_o4_r2 (c : Dev nD) (i : grid2.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond2_0 i) (hc1 : cond2_1 i)
    (x0 : Vec F S2048x4096 .bf16) (x1 : Vec F S4096x128 .bf16) (x2 : Vec F S4096x128 .bf16) (xs0 xs1_r2 : Vec F S2048x128 .f32) :
    (res2B c i arg2 harg2 arg3 harg3 arg4 harg4 arg5 harg5 arg6 harg6 arg7 harg7 arg8 harg8 hc0 hc1 x0 x1 x2 xs0 xs1_r2).2.1 = k2_pay5 x0 xs1_r2 x2 := by
  unfold res2B
  dsimp only
  rw [View.read_writes_eq_canon _ _ _ (cover2B_4 c i arg2 harg2 arg3 harg3 arg4 harg4 arg5 harg5 arg6 harg6 arg7 harg7 arg8 harg8 hc0 hc1 x0 x1 x2 xs0 xs1_r2)]
  unfold kernelRun2_B
  dsimp only
  sl_unfold_words
  rw [View.canon_unit_zero hz2_r2, View.readCov_unit_zero (S := S2048x128) _ hz2_r2]
  simp only [View.readAt_eq_ld, harg2.read_unread, harg3.read_unread, harg4.read_unread, harg7.read_unread, harg8.read_unread, View.ld_unit_zero (S := S2048x4096) hz2_r2, View.ld_unit_zero (S := S4096x128) hz2_r2, View.ld_unit_zero (S := S2048x128) hz2_r2]

/-! ### The payloads over the extended reals -/

theorem pay1_apply_r2 (y : S2048x128.Idx) : k2_pay1 (F := Ideal) y = 0 := by
  unfold k2_pay1
  simp only [shapeCast_self, broadcast]
  exact Ideal.ofBits_zero_f32
theorem pay2_apply_r2 (y : S2048x128.Idx) : k2_pay2 (F := Ideal) y = 0 := by
  unfold k2_pay2
  simp only [shapeCast_self, broadcast]
  exact Ideal.ofBits_zero_f32

/-- The accumulating store at an entry: the accumulator's entry plus the row of the left block times the column of the right. -/
theorem pay4_apply_r2 (x0 : Vec Ideal S2048x4096 .bf16) (acc : Vec Ideal S2048x128 .f32) (x1 : Vec Ideal S4096x128 .bf16) (r : Fin 2048) (cc : Fin 128) :
    k2_pay4 (F := Ideal) x0 acc x1 (ix2 r cc) = acc (ix2 r cc) + ∑ k : Fin 4096, x0 (ix2 r k) * x1 (ix2 k cc) := by
  unfold k2_pay4 k2_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x1 r cc
theorem pay5_apply_r2 (x0 : Vec Ideal S2048x4096 .bf16) (acc : Vec Ideal S2048x128 .f32) (x2 : Vec Ideal S4096x128 .bf16) (r : Fin 2048) (cc : Fin 128) :
    k2_pay5 (F := Ideal) x0 acc x2 (ix2 r cc) = acc (ix2 r cc) + ∑ k : Fin 4096, x0 (ix2 r k) * x2 (ix2 k cc) := by
  unfold k2_pay5 k2_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x2 r cc

/-- A sum over 8192 is the sum over the first 4096 plus the sum over the last 4096. -/
theorem sum_halves_r2 (f : Fin 8192 → EReal) :
    (∑ k : Fin 4096, f ⟨k.val, by omega⟩) + (∑ k : Fin 4096, f ⟨4096 + k.val, by omega⟩) = ∑ j : Fin 8192, f j :=
  (Fin.sum_univ_add (fun j : Fin (4096 + 4096) => f j)).symm

section Ideal

variable (c : Dev nD) (W : (b : Ref sig .tc) → Buf (Elt Ideal) ((c : Thread nD τ).loc b))

/-- Where the windows' blocks sit, over the grid: block row `t / 2`, column half `t % 2`. -/
theorem idx1_r2 : ∀ t : Fin cfg2.N,
    win2_0.index t 0 = t.val / 2 ∧ win2_0.index t 1 = t.val % 2 ∧ win2_1.index t 0 = t.val % 2 ∧ win2_1.index t 1 = 0
      ∧ win2_2.index t 0 = t.val % 2 ∧ win2_2.index t 1 = 0 ∧ win2_3.index t 0 = t.val / 2 ∧ win2_3.index t 1 = 0
      ∧ win2_4.index t 0 = t.val / 2 ∧ win2_4.index t 1 = 0 :=
  (by decide +kernel : ∀ t : Fin grid2.N, _)

/-- The adjacency block at a point, at an entry: the array at the block's offset. -/
theorem iblk_0_apply_r2 (t : Fin cfg2.N) (r : Fin 2048) (k : Fin 4096) (i : S8192x8192.Idx)
    (h0 : (i 0).val = t.val / 2 * 2048 + r.val) (h1 : (i 1).val = t.val % 2 * 4096 + k.val) :
    iblk2 c W 0 t (ix2 r k) = W main_v0_1 i := by
  unfold iblk2
  rw [View.read_apply]
  show W main_v0_1 _ = W main_v0_1 i
  congr 1
  funext a
  apply Fin.ext
  match a with
  | ⟨0, _⟩ => show win2_0.index t 0 * 2048 + 1 * r.val = (i 0).val; rw [(idx1_r2 t).1, h0]; omega
  | ⟨1, _⟩ => show win2_0.index t 1 * 4096 + 1 * k.val = (i 1).val; rw [(idx1_r2 t).2.1, h1]; omega

/-- A right-hand side's block at a point, at an entry. -/
theorem iblk_1_apply_r2 (t : Fin cfg2.N) (k : Fin 4096) (cc : Fin 128) (i : S8192x128.Idx)
    (h0 : (i 0).val = t.val % 2 * 4096 + k.val) (h1 : (i 1).val = cc.val) :
    iblk2 c W 1 t (ix2 k cc) = W main_v70 i := by
  unfold iblk2
  rw [View.read_apply]
  show W main_v70 _ = W main_v70 i
  congr 1
  funext a
  apply Fin.ext
  match a with
  | ⟨0, _⟩ => show win2_1.index t 0 * 4096 + 1 * k.val = (i 0).val; rw [(idx1_r2 t).2.2.1, h0]; omega
  | ⟨1, _⟩ => show win2_1.index t 1 * 128 + 1 * cc.val = (i 1).val; rw [(idx1_r2 t).2.2.2.1, h1]; omega
theorem iblk_2_apply_r2 (t : Fin cfg2.N) (k : Fin 4096) (cc : Fin 128) (i : S8192x128.Idx)
    (h0 : (i 0).val = t.val % 2 * 4096 + k.val) (h1 : (i 1).val = cc.val) :
    iblk2 c W 2 t (ix2 k cc) = W main_v73 i := by
  unfold iblk2
  rw [View.read_apply]
  show W main_v73 _ = W main_v73 i
  congr 1
  funext a
  apply Fin.ext
  match a with
  | ⟨0, _⟩ => show win2_2.index t 0 * 4096 + 1 * k.val = (i 0).val; rw [(idx1_r2 t).2.2.2.2.1, h0]; omega
  | ⟨1, _⟩ => show win2_2.index t 1 * 128 + 1 * cc.val = (i 1).val; rw [(idx1_r2 t).2.2.2.2.2.1, h1]; omega

/-- At the second point of a block row the first output's staging buffer holds that row block of the whole product. -/
theorem out3_odd_r2 (t : Fin cfg2.N) (ht : t.val % 2 = 1) (r : Fin 2048) (cc : Fin 128) (R : Fin 8192) (hR : R.val = t.val / 2 * 2048 + r.val) :
    (outsAt2 c W t.val t.isLt).1 (ix2 r cc) = Cert.Spec.Region.mm (W main_v0_1) (W main_v70) (ix2 R cc) := by
  have hN : t.val < 8 := lt_of_lt_of_eq t.isLt N_2
  have h0 : ¬ t.val % 2 = 0 := by omega
  have hlt : t.val - 1 < cfg2.N := Nat.lt_of_le_of_lt (Nat.sub_le _ _) t.isLt
  have hp : (⟨t.val - 1, hlt⟩ : Fin cfg2.N).val % 2 = 0 := by show (t.val - 1) % 2 = 0; omega
  rw [outsAt2_B c W t h0, resB_o3_r2, pay4_apply_r2]
  rw [show outsAt2 c W (t.val - 1) _ = _ from outsAt2_A c W ⟨t.val - 1, hlt⟩ hp]
  rw [resA_s0_r2, pay4_apply_r2, pay1_apply_r2, zero_add]
  unfold Cert.Spec.Region.mm
  rw [← sum_halves_r2]
  congr 1
  · refine Finset.sum_congr rfl fun k _ => ?_
    rw [iblk_0_apply_r2 c W ⟨t.val - 1, hlt⟩ r k (ix2 R ⟨k.val, by omega⟩) (by show R.val = (t.val - 1) / 2 * 2048 + r.val; omega) (by show k.val = (t.val - 1) % 2 * 4096 + k.val; omega),
      iblk_1_apply_r2 c W ⟨t.val - 1, hlt⟩ k cc (ix2 ⟨k.val, by omega⟩ cc) (by show k.val = (t.val - 1) % 2 * 4096 + k.val; omega) rfl]
  · refine Finset.sum_congr rfl fun k _ => ?_
    rw [iblk_0_apply_r2 c W t r k (ix2 R ⟨4096 + k.val, by omega⟩) (by show R.val = t.val / 2 * 2048 + r.val; omega) (by show 4096 + k.val = t.val % 2 * 4096 + k.val; omega),
      iblk_1_apply_r2 c W t k cc (ix2 ⟨4096 + k.val, by omega⟩ cc) (by show 4096 + k.val = t.val % 2 * 4096 + k.val; omega) rfl]
theorem out4_odd_r2 (t : Fin cfg2.N) (ht : t.val % 2 = 1) (r : Fin 2048) (cc : Fin 128) (R : Fin 8192) (hR : R.val = t.val / 2 * 2048 + r.val) :
    (outsAt2 c W t.val t.isLt).2.1 (ix2 r cc) = Cert.Spec.Region.mm (W main_v0_1) (W main_v73) (ix2 R cc) := by
  have hN : t.val < 8 := lt_of_lt_of_eq t.isLt N_2
  have h0 : ¬ t.val % 2 = 0 := by omega
  have hlt : t.val - 1 < cfg2.N := Nat.lt_of_le_of_lt (Nat.sub_le _ _) t.isLt
  have hp : (⟨t.val - 1, hlt⟩ : Fin cfg2.N).val % 2 = 0 := by show (t.val - 1) % 2 = 0; omega
  rw [outsAt2_B c W t h0, resB_o4_r2, pay5_apply_r2]
  rw [show outsAt2 c W (t.val - 1) _ = _ from outsAt2_A c W ⟨t.val - 1, hlt⟩ hp]
  rw [resA_s1_r2, pay5_apply_r2, pay2_apply_r2, zero_add]
  unfold Cert.Spec.Region.mm
  rw [← sum_halves_r2]
  congr 1
  · refine Finset.sum_congr rfl fun k _ => ?_
    rw [iblk_0_apply_r2 c W ⟨t.val - 1, hlt⟩ r k (ix2 R ⟨k.val, by omega⟩) (by show R.val = (t.val - 1) / 2 * 2048 + r.val; omega) (by show k.val = (t.val - 1) % 2 * 4096 + k.val; omega),
      iblk_2_apply_r2 c W ⟨t.val - 1, hlt⟩ k cc (ix2 ⟨k.val, by omega⟩ cc) (by show k.val = (t.val - 1) % 2 * 4096 + k.val; omega) rfl]
  · refine Finset.sum_congr rfl fun k _ => ?_
    rw [iblk_0_apply_r2 c W t r k (ix2 R ⟨4096 + k.val, by omega⟩) (by show R.val = t.val / 2 * 2048 + r.val; omega) (by show 4096 + k.val = t.val % 2 * 4096 + k.val; omega),
      iblk_2_apply_r2 c W t k cc (ix2 ⟨4096 + k.val, by omega⟩ cc) (by show 4096 + k.val = t.val % 2 * 4096 + k.val; omega) rfl]

/-- No block of the two outputs is cut. -/
theorem xs1_r2 : ∀ t : Fin cfg2.N, win2_3.xsize (grid2.coords t) 0 = 2048 ∧ win2_3.xsize (grid2.coords t) 1 = 128
      ∧ win2_4.xsize (grid2.coords t) 0 = 2048 ∧ win2_4.xsize (grid2.coords t) 1 = 128 :=
  (by decide +kernel : ∀ t : Fin grid2.N, _)

/-- The write-back at the second point of a block row writes that row block of the whole product. -/
theorem flushed3_eq_r2 (t : Fin cfg2.N) (hf : (cfg2.win 3).flush t = true) :
    (dats2 c W).flushed 3 t = ((cfg2.win 3).blk t).view.read (Elt Ideal) (Cert.Spec.Region.mm (W main_v0_1) (W main_v70)) := by
  have ht : t.val % 2 = 1 := (flush2_3 t).mp hf
  have hN : t.val < 8 := lt_of_lt_of_eq t.isLt N_2
  show (cfg2.win 3).cut (grid2.coords t) ((dats2 c W).after 3 t) = _
  rw [after2_3]
  funext y
  obtain ⟨r, cc, rfl⟩ : ∃ (r : Fin 2048) (cc : Fin 128), y = ix2 r cc := ⟨y 0, y 1, eq_ix2 y⟩
  rw [View.read_apply]
  refine (out3_odd_r2 c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win2_3.index t 0 * 2048 + 1 * r.val; rw [(idx1_r2 t).2.2.2.2.2.2.1]; omega
  | ⟨1, _⟩ => show cc.val = win2_3.index t 1 * 128 + 1 * cc.val; rw [(idx1_r2 t).2.2.2.2.2.2.2.1]; omega

/-- Every entry of the result lies in the block some second point writes back: the one of its block row. -/
theorem cover3_r2 (i : S8192x128.Idx) : ∃ t : Fin cfg2.N, (cfg2.win 3).flush t = true ∧ i ∈ ((cfg2.win 3).blk t).view.set := by
  have h0 : (i 0).val < 8192 := (i 0).isLt
  have h1 : (i 1).val < 128 := (i 1).isLt
  let t : Fin cfg2.N := ⟨2 * ((i 0).val / 2048) + 1, by rw [N2_eq]; omega⟩
  have htv : t.val = 2 * ((i 0).val / 2048) + 1 := rfl
  refine ⟨t, (flush2_3 t).mpr (by rw [htv]; omega), ?_⟩
  show i ∈ ((View.whole main_v74_0).slice (win2_3.rect t)).set
  rw [View.set_slice_whole, Rect.mem_set_unit]
  intro a
  match a with
  | ⟨0, _⟩ =>
    show win2_3.index t 0 * win2_3.size 0 ≤ (i 0 : Nat) ∧ (i 0 : Nat) < win2_3.index t 0 * win2_3.size 0 + win2_3.xsize (grid2.coords t) 0
    rw [(idx1_r2 t).2.2.2.2.2.2.1, show win2_3.size 0 = 2048 from rfl, (xs1_r2 t).1, htv]; omega
  | ⟨1, _⟩ =>
    show win2_3.index t 1 * win2_3.size 1 ≤ (i 1 : Nat) ∧ (i 1 : Nat) < win2_3.index t 1 * win2_3.size 1 + win2_3.xsize (grid2.coords t) 1
    rw [(idx1_r2 t).2.2.2.2.2.2.2.1, show win2_3.size 1 = 128 from rfl, (xs1_r2 t).2.1]; omega

/-- So the result array ends holding the whole product. -/
theorem final3_r2 : (dats2 c W).arrAt 3 cfg2.N = Cert.Spec.Region.mm (W main_v0_1) (W main_v70) :=
  (dats2 c W).arrAt_eq_of_cover 3 _ (flushed3_eq_r2 c W) (cover3_r2)

/-- The write-back at the second point of a block row writes that row block of the whole product. -/
theorem flushed4_eq_r2 (t : Fin cfg2.N) (hf : (cfg2.win 4).flush t = true) :
    (dats2 c W).flushed 4 t = ((cfg2.win 4).blk t).view.read (Elt Ideal) (Cert.Spec.Region.mm (W main_v0_1) (W main_v73)) := by
  have ht : t.val % 2 = 1 := (flush2_4 t).mp hf
  have hN : t.val < 8 := lt_of_lt_of_eq t.isLt N_2
  show (cfg2.win 4).cut (grid2.coords t) ((dats2 c W).after 4 t) = _
  rw [after2_4]
  funext y
  obtain ⟨r, cc, rfl⟩ : ∃ (r : Fin 2048) (cc : Fin 128), y = ix2 r cc := ⟨y 0, y 1, eq_ix2 y⟩
  rw [View.read_apply]
  refine (out4_odd_r2 c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win2_4.index t 0 * 2048 + 1 * r.val; rw [(idx1_r2 t).2.2.2.2.2.2.2.2.1]; omega
  | ⟨1, _⟩ => show cc.val = win2_4.index t 1 * 128 + 1 * cc.val; rw [(idx1_r2 t).2.2.2.2.2.2.2.2.2]; omega

/-- Every entry of the result lies in the block some second point writes back: the one of its block row. -/
theorem cover4_r2 (i : S8192x128.Idx) : ∃ t : Fin cfg2.N, (cfg2.win 4).flush t = true ∧ i ∈ ((cfg2.win 4).blk t).view.set := by
  have h0 : (i 0).val < 8192 := (i 0).isLt
  have h1 : (i 1).val < 128 := (i 1).isLt
  let t : Fin cfg2.N := ⟨2 * ((i 0).val / 2048) + 1, by rw [N2_eq]; omega⟩
  have htv : t.val = 2 * ((i 0).val / 2048) + 1 := rfl
  refine ⟨t, (flush2_4 t).mpr (by rw [htv]; omega), ?_⟩
  show i ∈ ((View.whole main_v74_1).slice (win2_4.rect t)).set
  rw [View.set_slice_whole, Rect.mem_set_unit]
  intro a
  match a with
  | ⟨0, _⟩ =>
    show win2_4.index t 0 * win2_4.size 0 ≤ (i 0 : Nat) ∧ (i 0 : Nat) < win2_4.index t 0 * win2_4.size 0 + win2_4.xsize (grid2.coords t) 0
    rw [(idx1_r2 t).2.2.2.2.2.2.2.2.1, show win2_4.size 0 = 2048 from rfl, (xs1_r2 t).2.2.1, htv]; omega
  | ⟨1, _⟩ =>
    show win2_4.index t 1 * win2_4.size 1 ≤ (i 1 : Nat) ∧ (i 1 : Nat) < win2_4.index t 1 * win2_4.size 1 + win2_4.xsize (grid2.coords t) 1
    rw [(idx1_r2 t).2.2.2.2.2.2.2.2.2, show win2_4.size 1 = 128 from rfl, (xs1_r2 t).2.2.2]; omega

/-- So the result array ends holding the whole product. -/
theorem final4_r2 : (dats2 c W).arrAt 4 cfg2.N = Cert.Spec.Region.mm (W main_v0_1) (W main_v73) :=
  (dats2 c W).arrAt_eq_of_cover 4 _ (flushed4_eq_r2 c W) (cover4_r2)

end Ideal

end Cert.KernelIdeal.Hand

end
-- ==== Proof.KI.R3Val.lean ====
import proofs.«117539_j28759101014307_2_alg».proof.Proof.KI.R3Body
import proofs.«117539_j28759101014307_2_alg».proof.Proof.LibPlainDot
import proofs.«117539_j28759101014307_2_alg».proof.Proof.KerSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.ValueIdx

/-! ## The matmul region: what it leaves in its two result arrays

The reset case leaves in each accumulator `0 + A·B` of the point's blocks; the write-out case leaves `acc + A·B` and copies
it to the output's staging buffer. Over the two points of a block row the output block is therefore the sum over the first
4096 columns plus the sum over the last 4096: the whole row of the product. -/

theorem hz2_r3 : (![0, 0] : Fin 2 → Nat) = fun _ => 0 := funext fun a => by fin_cases a <;> rfl

theorem resA_s0_r3 (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) :
    (res3A c i arg2 harg2 arg3 harg3 arg4 harg4 arg5 harg5 arg6 harg6 arg7 harg7 arg8 harg8 hc0 hc1 x0 x1 x2).2.2.1 = k3_pay4 x0 (k3_pay1 (F := F)) x1 := by
  unfold res3A
  dsimp only
  rw [View.read_writes_eq_canon _ _ _ (scover3A_0 c i arg2 harg2 arg3 harg3 arg4 harg4 arg5 harg5 arg6 harg6 arg7 harg7 arg8 harg8 hc0 hc1 x0 x1 x2)]
  unfold kernelRun3_A
  dsimp only
  sl_unfold_words
  rw [View.canon_cons_unit_zero (S := S2048x128) hz2_r3, View.readCov_unit_zero (S := S2048x128) _ hz2_r3]
  simp only [View.readAt_eq_ld, harg2.read_unread, harg3.read_unread, harg4.read_unread, harg7.read_unread, harg8.read_unread, View.ld_unit_zero (S := S2048x4096) hz2_r3, View.ld_unit_zero (S := S4096x128) hz2_r3, View.ld_unit_zero (S := S2048x128) hz2_r3]

theorem resA_s1_r3 (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond3_0 i) (hc1 : ¬cond3_1 i)
    (x0 : Vec F S2048x4096 .bf16) (x1 : Vec F S4096x128 .bf16) (x2 : Vec F S4096x128 .bf16) :
    (res3A c i arg2 harg2 arg3 harg3 arg4 harg4 arg5 harg5 arg6 harg6 arg7 harg7 arg8 harg8 hc0 hc1 x0 x1 x2).2.2.2 = k3_pay5 x0 (k3_pay2 (F := F)) x2 := by
  unfold res3A
  dsimp only
  rw [View.read_writes_eq_canon _ _ _ (scover3A_1 c i arg2 harg2 arg3 harg3 arg4 harg4 arg5 harg5 arg6 harg6 arg7 harg7 arg8 harg8 hc0 hc1 x0 x1 x2)]
  unfold kernelRun3_A
  dsimp only
  sl_unfold_words
  rw [View.canon_cons_unit_zero (S := S2048x128) hz2_r3, View.readCov_unit_zero (S := S2048x128) _ hz2_r3]
  simp only [View.readAt_eq_ld, harg2.read_unread, harg3.read_unread, harg4.read_unread, harg7.read_unread, harg8.read_unread, View.ld_unit_zero (S := S2048x4096) hz2_r3, View.ld_unit_zero (S := S4096x128) hz2_r3, View.ld_unit_zero (S := S2048x128) hz2_r3]

theorem resB_s0_r3 (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1_r3 : Vec F S2048x128 .f32) :
    (res3B c i arg2 harg2 arg3 harg3 arg4 harg4 arg5 harg5 arg6 harg6 arg7 harg7 arg8 harg8 hc0 hc1 x0 x1 x2 xs0 xs1_r3).2.2.1 = k3_pay4 x0 xs0 x1 := by
  unfold res3B
  dsimp only
  rw [View.read_writes_eq_canon _ _ _ (scover3B_0 c i arg2 harg2 arg3 harg3 arg4 harg4 arg5 harg5 arg6 harg6 arg7 harg7 arg8 harg8 hc0 hc1 x0 x1 x2 xs0 xs1_r3)]
  unfold kernelRun3_B
  dsimp only
  sl_unfold_words
  rw [View.canon_unit_zero hz2_r3]
  simp only [View.readAt_eq_ld, harg2.read_unread, harg3.read_unread, harg4.read_unread, harg7.read_unread, harg8.read_unread, View.ld_unit_zero (S := S2048x4096) hz2_r3, View.ld_unit_zero (S := S4096x128) hz2_r3, View.ld_unit_zero (S := S2048x128) hz2_r3]

theorem resB_s1_r3 (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1_r3 : Vec F S2048x128 .f32) :
    (res3B c i arg2 harg2 arg3 harg3 arg4 harg4 arg5 harg5 arg6 harg6 arg7 harg7 arg8 harg8 hc0 hc1 x0 x1 x2 xs0 xs1_r3).2.2.2 = k3_pay5 x0 xs1_r3 x2 := by
  unfold res3B
  dsimp only
  rw [View.read_writes_eq_canon _ _ _ (scover3B_1 c i arg2 harg2 arg3 harg3 arg4 harg4 arg5 harg5 arg6 harg6 arg7 harg7 arg8 harg8 hc0 hc1 x0 x1 x2 xs0 xs1_r3)]
  unfold kernelRun3_B
  dsimp only
  sl_unfold_words
  rw [View.canon_unit_zero hz2_r3]
  simp only [View.readAt_eq_ld, harg2.read_unread, harg3.read_unread, harg4.read_unread, harg7.read_unread, harg8.read_unread, View.ld_unit_zero (S := S2048x4096) hz2_r3, View.ld_unit_zero (S := S4096x128) hz2_r3, View.ld_unit_zero (S := S2048x128) hz2_r3]

theorem resB_o3_r3 (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1_r3 : Vec F S2048x128 .f32) :
    (res3B c i arg2 harg2 arg3 harg3 arg4 harg4 arg5 harg5 arg6 harg6 arg7 harg7 arg8 harg8 hc0 hc1 x0 x1 x2 xs0 xs1_r3).1 = k3_pay4 x0 xs0 x1 := by
  unfold res3B
  dsimp only
  rw [View.read_writes_eq_canon _ _ _ (cover3B_3 c i arg2 harg2 arg3 harg3 arg4 harg4 arg5 harg5 arg6 harg6 arg7 harg7 arg8 harg8 hc0 hc1 x0 x1 x2 xs0 xs1_r3)]
  unfold kernelRun3_B
  dsimp only
  sl_unfold_words
  rw [View.canon_unit_zero hz2_r3, View.readCov_unit_zero (S := S2048x128) _ hz2_r3]
  simp only [View.readAt_eq_ld, harg2.read_unread, harg3.read_unread, harg4.read_unread, harg7.read_unread, harg8.read_unread, View.ld_unit_zero (S := S2048x4096) hz2_r3, View.ld_unit_zero (S := S4096x128) hz2_r3, View.ld_unit_zero (S := S2048x128) hz2_r3]

theorem resB_o4_r3 (c : Dev nD) (i : grid3.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond3_0 i) (hc1 : cond3_1 i)
    (x0 : Vec F S2048x4096 .bf16) (x1 : Vec F S4096x128 .bf16) (x2 : Vec F S4096x128 .bf16) (xs0 xs1_r3 : Vec F S2048x128 .f32) :
    (res3B c i arg2 harg2 arg3 harg3 arg4 harg4 arg5 harg5 arg6 harg6 arg7 harg7 arg8 harg8 hc0 hc1 x0 x1 x2 xs0 xs1_r3).2.1 = k3_pay5 x0 xs1_r3 x2 := by
  unfold res3B
  dsimp only
  rw [View.read_writes_eq_canon _ _ _ (cover3B_4 c i arg2 harg2 arg3 harg3 arg4 harg4 arg5 harg5 arg6 harg6 arg7 harg7 arg8 harg8 hc0 hc1 x0 x1 x2 xs0 xs1_r3)]
  unfold kernelRun3_B
  dsimp only
  sl_unfold_words
  rw [View.canon_unit_zero hz2_r3, View.readCov_unit_zero (S := S2048x128) _ hz2_r3]
  simp only [View.readAt_eq_ld, harg2.read_unread, harg3.read_unread, harg4.read_unread, harg7.read_unread, harg8.read_unread, View.ld_unit_zero (S := S2048x4096) hz2_r3, View.ld_unit_zero (S := S4096x128) hz2_r3, View.ld_unit_zero (S := S2048x128) hz2_r3]

/-! ### The payloads over the extended reals -/

theorem pay1_apply_r3 (y : S2048x128.Idx) : k3_pay1 (F := Ideal) y = 0 := by
  unfold k3_pay1
  simp only [shapeCast_self, broadcast]
  exact Ideal.ofBits_zero_f32
theorem pay2_apply_r3 (y : S2048x128.Idx) : k3_pay2 (F := Ideal) y = 0 := by
  unfold k3_pay2
  simp only [shapeCast_self, broadcast]
  exact Ideal.ofBits_zero_f32

/-- The accumulating store at an entry: the accumulator's entry plus the row of the left block times the column of the right. -/
theorem pay4_apply_r3 (x0 : Vec Ideal S2048x4096 .bf16) (acc : Vec Ideal S2048x128 .f32) (x1 : Vec Ideal S4096x128 .bf16) (r : Fin 2048) (cc : Fin 128) :
    k3_pay4 (F := Ideal) x0 acc x1 (ix2 r cc) = acc (ix2 r cc) + ∑ k : Fin 4096, x0 (ix2 r k) * x1 (ix2 k cc) := by
  unfold k3_pay4 k3_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x1 r cc
theorem pay5_apply_r3 (x0 : Vec Ideal S2048x4096 .bf16) (acc : Vec Ideal S2048x128 .f32) (x2 : Vec Ideal S4096x128 .bf16) (r : Fin 2048) (cc : Fin 128) :
    k3_pay5 (F := Ideal) x0 acc x2 (ix2 r cc) = acc (ix2 r cc) + ∑ k : Fin 4096, x0 (ix2 r k) * x2 (ix2 k cc) := by
  unfold k3_pay5 k3_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x2 r cc

/-- A sum over 8192 is the sum over the first 4096 plus the sum over the last 4096. -/
theorem sum_halves_r3 (f : Fin 8192 → EReal) :
    (∑ k : Fin 4096, f ⟨k.val, by omega⟩) + (∑ k : Fin 4096, f ⟨4096 + k.val, by omega⟩) = ∑ j : Fin 8192, f j :=
  (Fin.sum_univ_add (fun j : Fin (4096 + 4096) => f j)).symm

section Ideal

variable (c : Dev nD) (W : (b : Ref sig .tc) → Buf (Elt Ideal) ((c : Thread nD τ).loc b))

/-- Where the windows' blocks sit, over the grid: block row `t / 2`, column half `t % 2`. -/
theorem idx1_r3 : ∀ t : Fin cfg3.N,
    win3_0.index t 0 = t.val / 2 ∧ win3_0.index t 1 = t.val % 2 ∧ win3_1.index t 0 = t.val % 2 ∧ win3_1.index t 1 = 0
      ∧ win3_2.index t 0 = t.val % 2 ∧ win3_2.index t 1 = 0 ∧ win3_3.index t 0 = t.val / 2 ∧ win3_3.index t 1 = 0
      ∧ win3_4.index t 0 = t.val / 2 ∧ win3_4.index t 1 = 0 :=
  (by decide +kernel : ∀ t : Fin grid3.N, _)

/-- The adjacency block at a point, at an entry: the array at the block's offset. -/
theorem iblk_0_apply_r3 (t : Fin cfg3.N) (r : Fin 2048) (k : Fin 4096) (i : S8192x8192.Idx)
    (h0 : (i 0).val = t.val / 2 * 2048 + r.val) (h1 : (i 1).val = t.val % 2 * 4096 + k.val) :
    iblk3 c W 0 t (ix2 r k) = W main_v0_1 i := by
  unfold iblk3
  rw [View.read_apply]
  show W main_v0_1 _ = W main_v0_1 i
  congr 1
  funext a
  apply Fin.ext
  match a with
  | ⟨0, _⟩ => show win3_0.index t 0 * 2048 + 1 * r.val = (i 0).val; rw [(idx1_r3 t).1, h0]; omega
  | ⟨1, _⟩ => show win3_0.index t 1 * 4096 + 1 * k.val = (i 1).val; rw [(idx1_r3 t).2.1, h1]; omega

/-- A right-hand side's block at a point, at an entry. -/
theorem iblk_1_apply_r3 (t : Fin cfg3.N) (k : Fin 4096) (cc : Fin 128) (i : S8192x128.Idx)
    (h0 : (i 0).val = t.val % 2 * 4096 + k.val) (h1 : (i 1).val = cc.val) :
    iblk3 c W 1 t (ix2 k cc) = W main_v115 i := by
  unfold iblk3
  rw [View.read_apply]
  show W main_v115 _ = W main_v115 i
  congr 1
  funext a
  apply Fin.ext
  match a with
  | ⟨0, _⟩ => show win3_1.index t 0 * 4096 + 1 * k.val = (i 0).val; rw [(idx1_r3 t).2.2.1, h0]; omega
  | ⟨1, _⟩ => show win3_1.index t 1 * 128 + 1 * cc.val = (i 1).val; rw [(idx1_r3 t).2.2.2.1, h1]; omega
theorem iblk_2_apply_r3 (t : Fin cfg3.N) (k : Fin 4096) (cc : Fin 128) (i : S8192x128.Idx)
    (h0 : (i 0).val = t.val % 2 * 4096 + k.val) (h1 : (i 1).val = cc.val) :
    iblk3 c W 2 t (ix2 k cc) = W main_v118 i := by
  unfold iblk3
  rw [View.read_apply]
  show W main_v118 _ = W main_v118 i
  congr 1
  funext a
  apply Fin.ext
  match a with
  | ⟨0, _⟩ => show win3_2.index t 0 * 4096 + 1 * k.val = (i 0).val; rw [(idx1_r3 t).2.2.2.2.1, h0]; omega
  | ⟨1, _⟩ => show win3_2.index t 1 * 128 + 1 * cc.val = (i 1).val; rw [(idx1_r3 t).2.2.2.2.2.1, h1]; omega

/-- At the second point of a block row the first output's staging buffer holds that row block of the whole product. -/
theorem out3_odd_r3 (t : Fin cfg3.N) (ht : t.val % 2 = 1) (r : Fin 2048) (cc : Fin 128) (R : Fin 8192) (hR : R.val = t.val / 2 * 2048 + r.val) :
    (outsAt3 c W t.val t.isLt).1 (ix2 r cc) = Cert.Spec.Region.mm (W main_v0_1) (W main_v115) (ix2 R cc) := by
  have hN : t.val < 8 := lt_of_lt_of_eq t.isLt N_3
  have h0 : ¬ t.val % 2 = 0 := by omega
  have hlt : t.val - 1 < cfg3.N := Nat.lt_of_le_of_lt (Nat.sub_le _ _) t.isLt
  have hp : (⟨t.val - 1, hlt⟩ : Fin cfg3.N).val % 2 = 0 := by show (t.val - 1) % 2 = 0; omega
  rw [outsAt3_B c W t h0, resB_o3_r3, pay4_apply_r3]
  rw [show outsAt3 c W (t.val - 1) _ = _ from outsAt3_A c W ⟨t.val - 1, hlt⟩ hp]
  rw [resA_s0_r3, pay4_apply_r3, pay1_apply_r3, zero_add]
  unfold Cert.Spec.Region.mm
  rw [← sum_halves_r3]
  congr 1
  · refine Finset.sum_congr rfl fun k _ => ?_
    rw [iblk_0_apply_r3 c W ⟨t.val - 1, hlt⟩ r k (ix2 R ⟨k.val, by omega⟩) (by show R.val = (t.val - 1) / 2 * 2048 + r.val; omega) (by show k.val = (t.val - 1) % 2 * 4096 + k.val; omega),
      iblk_1_apply_r3 c W ⟨t.val - 1, hlt⟩ k cc (ix2 ⟨k.val, by omega⟩ cc) (by show k.val = (t.val - 1) % 2 * 4096 + k.val; omega) rfl]
  · refine Finset.sum_congr rfl fun k _ => ?_
    rw [iblk_0_apply_r3 c W t r k (ix2 R ⟨4096 + k.val, by omega⟩) (by show R.val = t.val / 2 * 2048 + r.val; omega) (by show 4096 + k.val = t.val % 2 * 4096 + k.val; omega),
      iblk_1_apply_r3 c W t k cc (ix2 ⟨4096 + k.val, by omega⟩ cc) (by show 4096 + k.val = t.val % 2 * 4096 + k.val; omega) rfl]
theorem out4_odd_r3 (t : Fin cfg3.N) (ht : t.val % 2 = 1) (r : Fin 2048) (cc : Fin 128) (R : Fin 8192) (hR : R.val = t.val / 2 * 2048 + r.val) :
    (outsAt3 c W t.val t.isLt).2.1 (ix2 r cc) = Cert.Spec.Region.mm (W main_v0_1) (W main_v118) (ix2 R cc) := by
  have hN : t.val < 8 := lt_of_lt_of_eq t.isLt N_3
  have h0 : ¬ t.val % 2 = 0 := by omega
  have hlt : t.val - 1 < cfg3.N := Nat.lt_of_le_of_lt (Nat.sub_le _ _) t.isLt
  have hp : (⟨t.val - 1, hlt⟩ : Fin cfg3.N).val % 2 = 0 := by show (t.val - 1) % 2 = 0; omega
  rw [outsAt3_B c W t h0, resB_o4_r3, pay5_apply_r3]
  rw [show outsAt3 c W (t.val - 1) _ = _ from outsAt3_A c W ⟨t.val - 1, hlt⟩ hp]
  rw [resA_s1_r3, pay5_apply_r3, pay2_apply_r3, zero_add]
  unfold Cert.Spec.Region.mm
  rw [← sum_halves_r3]
  congr 1
  · refine Finset.sum_congr rfl fun k _ => ?_
    rw [iblk_0_apply_r3 c W ⟨t.val - 1, hlt⟩ r k (ix2 R ⟨k.val, by omega⟩) (by show R.val = (t.val - 1) / 2 * 2048 + r.val; omega) (by show k.val = (t.val - 1) % 2 * 4096 + k.val; omega),
      iblk_2_apply_r3 c W ⟨t.val - 1, hlt⟩ k cc (ix2 ⟨k.val, by omega⟩ cc) (by show k.val = (t.val - 1) % 2 * 4096 + k.val; omega) rfl]
  · refine Finset.sum_congr rfl fun k _ => ?_
    rw [iblk_0_apply_r3 c W t r k (ix2 R ⟨4096 + k.val, by omega⟩) (by show R.val = t.val / 2 * 2048 + r.val; omega) (by show 4096 + k.val = t.val % 2 * 4096 + k.val; omega),
      iblk_2_apply_r3 c W t k cc (ix2 ⟨4096 + k.val, by omega⟩ cc) (by show 4096 + k.val = t.val % 2 * 4096 + k.val; omega) rfl]

/-- No block of the two outputs is cut. -/
theorem xs1_r3 : ∀ t : Fin cfg3.N, win3_3.xsize (grid3.coords t) 0 = 2048 ∧ win3_3.xsize (grid3.coords t) 1 = 128
      ∧ win3_4.xsize (grid3.coords t) 0 = 2048 ∧ win3_4.xsize (grid3.coords t) 1 = 128 :=
  (by decide +kernel : ∀ t : Fin grid3.N, _)

/-- The write-back at the second point of a block row writes that row block of the whole product. -/
theorem flushed3_eq_r3 (t : Fin cfg3.N) (hf : (cfg3.win 3).flush t = true) :
    (dats3 c W).flushed 3 t = ((cfg3.win 3).blk t).view.read (Elt Ideal) (Cert.Spec.Region.mm (W main_v0_1) (W main_v115)) := by
  have ht : t.val % 2 = 1 := (flush3_3 t).mp hf
  have hN : t.val < 8 := lt_of_lt_of_eq t.isLt N_3
  show (cfg3.win 3).cut (grid3.coords t) ((dats3 c W).after 3 t) = _
  rw [after3_3]
  funext y
  obtain ⟨r, cc, rfl⟩ : ∃ (r : Fin 2048) (cc : Fin 128), y = ix2 r cc := ⟨y 0, y 1, eq_ix2 y⟩
  rw [View.read_apply]
  refine (out3_odd_r3 c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win3_3.index t 0 * 2048 + 1 * r.val; rw [(idx1_r3 t).2.2.2.2.2.2.1]; omega
  | ⟨1, _⟩ => show cc.val = win3_3.index t 1 * 128 + 1 * cc.val; rw [(idx1_r3 t).2.2.2.2.2.2.2.1]; omega

/-- Every entry of the result lies in the block some second point writes back: the one of its block row. -/
theorem cover3_r3 (i : S8192x128.Idx) : ∃ t : Fin cfg3.N, (cfg3.win 3).flush t = true ∧ i ∈ ((cfg3.win 3).blk t).view.set := by
  have h0 : (i 0).val < 8192 := (i 0).isLt
  have h1 : (i 1).val < 128 := (i 1).isLt
  let t : Fin cfg3.N := ⟨2 * ((i 0).val / 2048) + 1, by rw [N3_eq]; omega⟩
  have htv : t.val = 2 * ((i 0).val / 2048) + 1 := rfl
  refine ⟨t, (flush3_3 t).mpr (by rw [htv]; omega), ?_⟩
  show i ∈ ((View.whole main_v119_0).slice (win3_3.rect t)).set
  rw [View.set_slice_whole, Rect.mem_set_unit]
  intro a
  match a with
  | ⟨0, _⟩ =>
    show win3_3.index t 0 * win3_3.size 0 ≤ (i 0 : Nat) ∧ (i 0 : Nat) < win3_3.index t 0 * win3_3.size 0 + win3_3.xsize (grid3.coords t) 0
    rw [(idx1_r3 t).2.2.2.2.2.2.1, show win3_3.size 0 = 2048 from rfl, (xs1_r3 t).1, htv]; omega
  | ⟨1, _⟩ =>
    show win3_3.index t 1 * win3_3.size 1 ≤ (i 1 : Nat) ∧ (i 1 : Nat) < win3_3.index t 1 * win3_3.size 1 + win3_3.xsize (grid3.coords t) 1
    rw [(idx1_r3 t).2.2.2.2.2.2.2.1, show win3_3.size 1 = 128 from rfl, (xs1_r3 t).2.1]; omega

/-- So the result array ends holding the whole product. -/
theorem final3_r3 : (dats3 c W).arrAt 3 cfg3.N = Cert.Spec.Region.mm (W main_v0_1) (W main_v115) :=
  (dats3 c W).arrAt_eq_of_cover 3 _ (flushed3_eq_r3 c W) (cover3_r3)

/-- The write-back at the second point of a block row writes that row block of the whole product. -/
theorem flushed4_eq_r3 (t : Fin cfg3.N) (hf : (cfg3.win 4).flush t = true) :
    (dats3 c W).flushed 4 t = ((cfg3.win 4).blk t).view.read (Elt Ideal) (Cert.Spec.Region.mm (W main_v0_1) (W main_v118)) := by
  have ht : t.val % 2 = 1 := (flush3_4 t).mp hf
  have hN : t.val < 8 := lt_of_lt_of_eq t.isLt N_3
  show (cfg3.win 4).cut (grid3.coords t) ((dats3 c W).after 4 t) = _
  rw [after3_4]
  funext y
  obtain ⟨r, cc, rfl⟩ : ∃ (r : Fin 2048) (cc : Fin 128), y = ix2 r cc := ⟨y 0, y 1, eq_ix2 y⟩
  rw [View.read_apply]
  refine (out4_odd_r3 c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win3_4.index t 0 * 2048 + 1 * r.val; rw [(idx1_r3 t).2.2.2.2.2.2.2.2.1]; omega
  | ⟨1, _⟩ => show cc.val = win3_4.index t 1 * 128 + 1 * cc.val; rw [(idx1_r3 t).2.2.2.2.2.2.2.2.2]; omega

/-- Every entry of the result lies in the block some second point writes back: the one of its block row. -/
theorem cover4_r3 (i : S8192x128.Idx) : ∃ t : Fin cfg3.N, (cfg3.win 4).flush t = true ∧ i ∈ ((cfg3.win 4).blk t).view.set := by
  have h0 : (i 0).val < 8192 := (i 0).isLt
  have h1 : (i 1).val < 128 := (i 1).isLt
  let t : Fin cfg3.N := ⟨2 * ((i 0).val / 2048) + 1, by rw [N3_eq]; omega⟩
  have htv : t.val = 2 * ((i 0).val / 2048) + 1 := rfl
  refine ⟨t, (flush3_4 t).mpr (by rw [htv]; omega), ?_⟩
  show i ∈ ((View.whole main_v119_1).slice (win3_4.rect t)).set
  rw [View.set_slice_whole, Rect.mem_set_unit]
  intro a
  match a with
  | ⟨0, _⟩ =>
    show win3_4.index t 0 * win3_4.size 0 ≤ (i 0 : Nat) ∧ (i 0 : Nat) < win3_4.index t 0 * win3_4.size 0 + win3_4.xsize (grid3.coords t) 0
    rw [(idx1_r3 t).2.2.2.2.2.2.2.2.1, show win3_4.size 0 = 2048 from rfl, (xs1_r3 t).2.2.1, htv]; omega
  | ⟨1, _⟩ =>
    show win3_4.index t 1 * win3_4.size 1 ≤ (i 1 : Nat) ∧ (i 1 : Nat) < win3_4.index t 1 * win3_4.size 1 + win3_4.xsize (grid3.coords t) 1
    rw [(idx1_r3 t).2.2.2.2.2.2.2.2.2, show win3_4.size 1 = 128 from rfl, (xs1_r3 t).2.2.2]; omega

/-- So the result array ends holding the whole product. -/
theorem final4_r3 : (dats3 c W).arrAt 4 cfg3.N = Cert.Spec.Region.mm (W main_v0_1) (W main_v118) :=
  (dats3 c W).arrAt_eq_of_cover 4 _ (flushed4_eq_r3 c W) (cover4_r3)

end Ideal

end Cert.KernelIdeal.Hand

end
-- ==== Proof.KI.R4Val.lean ====
import proofs.«117539_j28759101014307_2_alg».proof.Proof.KI.R4Body
import proofs.«117539_j28759101014307_2_alg».proof.Proof.LibPlainDot
import proofs.«117539_j28759101014307_2_alg».proof.Proof.KerSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.ValueIdx

/-! ## The matmul region: what it leaves in its two result arrays

The reset case leaves in each accumulator `0 + A·B` of the point's blocks; the write-out case leaves `acc + A·B` and copies
it to the output's staging buffer. Over the two points of a block row the output block is therefore the sum over the first
4096 columns plus the sum over the last 4096: the whole row of the product. -/

theorem hz2_r4 : (![0, 0] : Fin 2 → Nat) = fun _ => 0 := funext fun a => by fin_cases a <;> rfl

theorem resA_s0_r4 (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) :
    (res4A c i arg2 harg2 arg3 harg3 arg4 harg4 arg5 harg5 arg6 harg6 arg7 harg7 arg8 harg8 hc0 hc1 x0 x1 x2).2.2.1 = k4_pay4 x0 (k4_pay1 (F := F)) x1 := by
  unfold res4A
  dsimp only
  rw [View.read_writes_eq_canon _ _ _ (scover4A_0 c i arg2 harg2 arg3 harg3 arg4 harg4 arg5 harg5 arg6 harg6 arg7 harg7 arg8 harg8 hc0 hc1 x0 x1 x2)]
  unfold kernelRun4_A
  dsimp only
  sl_unfold_words
  rw [View.canon_cons_unit_zero (S := S2048x128) hz2_r4, View.readCov_unit_zero (S := S2048x128) _ hz2_r4]
  simp only [View.readAt_eq_ld, harg2.read_unread, harg3.read_unread, harg4.read_unread, harg7.read_unread, harg8.read_unread, View.ld_unit_zero (S := S2048x4096) hz2_r4, View.ld_unit_zero (S := S4096x128) hz2_r4, View.ld_unit_zero (S := S2048x128) hz2_r4]

theorem resA_s1_r4 (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : cond4_0 i) (hc1 : ¬cond4_1 i)
    (x0 : Vec F S2048x4096 .bf16) (x1 : Vec F S4096x128 .bf16) (x2 : Vec F S4096x128 .bf16) :
    (res4A c i arg2 harg2 arg3 harg3 arg4 harg4 arg5 harg5 arg6 harg6 arg7 harg7 arg8 harg8 hc0 hc1 x0 x1 x2).2.2.2 = k4_pay5 x0 (k4_pay2 (F := F)) x2 := by
  unfold res4A
  dsimp only
  rw [View.read_writes_eq_canon _ _ _ (scover4A_1 c i arg2 harg2 arg3 harg3 arg4 harg4 arg5 harg5 arg6 harg6 arg7 harg7 arg8 harg8 hc0 hc1 x0 x1 x2)]
  unfold kernelRun4_A
  dsimp only
  sl_unfold_words
  rw [View.canon_cons_unit_zero (S := S2048x128) hz2_r4, View.readCov_unit_zero (S := S2048x128) _ hz2_r4]
  simp only [View.readAt_eq_ld, harg2.read_unread, harg3.read_unread, harg4.read_unread, harg7.read_unread, harg8.read_unread, View.ld_unit_zero (S := S2048x4096) hz2_r4, View.ld_unit_zero (S := S4096x128) hz2_r4, View.ld_unit_zero (S := S2048x128) hz2_r4]

theorem resB_s0_r4 (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1_r4 : Vec F S2048x128 .f32) :
    (res4B c i arg2 harg2 arg3 harg3 arg4 harg4 arg5 harg5 arg6 harg6 arg7 harg7 arg8 harg8 hc0 hc1 x0 x1 x2 xs0 xs1_r4).2.2.1 = k4_pay4 x0 xs0 x1 := by
  unfold res4B
  dsimp only
  rw [View.read_writes_eq_canon _ _ _ (scover4B_0 c i arg2 harg2 arg3 harg3 arg4 harg4 arg5 harg5 arg6 harg6 arg7 harg7 arg8 harg8 hc0 hc1 x0 x1 x2 xs0 xs1_r4)]
  unfold kernelRun4_B
  dsimp only
  sl_unfold_words
  rw [View.canon_unit_zero hz2_r4]
  simp only [View.readAt_eq_ld, harg2.read_unread, harg3.read_unread, harg4.read_unread, harg7.read_unread, harg8.read_unread, View.ld_unit_zero (S := S2048x4096) hz2_r4, View.ld_unit_zero (S := S4096x128) hz2_r4, View.ld_unit_zero (S := S2048x128) hz2_r4]

theorem resB_s1_r4 (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1_r4 : Vec F S2048x128 .f32) :
    (res4B c i arg2 harg2 arg3 harg3 arg4 harg4 arg5 harg5 arg6 harg6 arg7 harg7 arg8 harg8 hc0 hc1 x0 x1 x2 xs0 xs1_r4).2.2.2 = k4_pay5 x0 xs1_r4 x2 := by
  unfold res4B
  dsimp only
  rw [View.read_writes_eq_canon _ _ _ (scover4B_1 c i arg2 harg2 arg3 harg3 arg4 harg4 arg5 harg5 arg6 harg6 arg7 harg7 arg8 harg8 hc0 hc1 x0 x1 x2 xs0 xs1_r4)]
  unfold kernelRun4_B
  dsimp only
  sl_unfold_words
  rw [View.canon_unit_zero hz2_r4]
  simp only [View.readAt_eq_ld, harg2.read_unread, harg3.read_unread, harg4.read_unread, harg7.read_unread, harg8.read_unread, View.ld_unit_zero (S := S2048x4096) hz2_r4, View.ld_unit_zero (S := S4096x128) hz2_r4, View.ld_unit_zero (S := S2048x128) hz2_r4]

theorem resB_o3_r4 (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1_r4 : Vec F S2048x128 .f32) :
    (res4B c i arg2 harg2 arg3 harg3 arg4 harg4 arg5 harg5 arg6 harg6 arg7 harg7 arg8 harg8 hc0 hc1 x0 x1 x2 xs0 xs1_r4).1 = k4_pay4 x0 xs0 x1 := by
  unfold res4B
  dsimp only
  rw [View.read_writes_eq_canon _ _ _ (cover4B_3 c i arg2 harg2 arg3 harg3 arg4 harg4 arg5 harg5 arg6 harg6 arg7 harg7 arg8 harg8 hc0 hc1 x0 x1 x2 xs0 xs1_r4)]
  unfold kernelRun4_B
  dsimp only
  sl_unfold_words
  rw [View.canon_unit_zero hz2_r4, View.readCov_unit_zero (S := S2048x128) _ hz2_r4]
  simp only [View.readAt_eq_ld, harg2.read_unread, harg3.read_unread, harg4.read_unread, harg7.read_unread, harg8.read_unread, View.ld_unit_zero (S := S2048x4096) hz2_r4, View.ld_unit_zero (S := S4096x128) hz2_r4, View.ld_unit_zero (S := S2048x128) hz2_r4]

theorem resB_o4_r4 (c : Dev nD) (i : grid4.Coords) (arg2 : Memref sig .tc .vmem S2048x4096 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (hc0 : ¬cond4_0 i) (hc1 : cond4_1 i)
    (x0 : Vec F S2048x4096 .bf16) (x1 : Vec F S4096x128 .bf16) (x2 : Vec F S4096x128 .bf16) (xs0 xs1_r4 : Vec F S2048x128 .f32) :
    (res4B c i arg2 harg2 arg3 harg3 arg4 harg4 arg5 harg5 arg6 harg6 arg7 harg7 arg8 harg8 hc0 hc1 x0 x1 x2 xs0 xs1_r4).2.1 = k4_pay5 x0 xs1_r4 x2 := by
  unfold res4B
  dsimp only
  rw [View.read_writes_eq_canon _ _ _ (cover4B_4 c i arg2 harg2 arg3 harg3 arg4 harg4 arg5 harg5 arg6 harg6 arg7 harg7 arg8 harg8 hc0 hc1 x0 x1 x2 xs0 xs1_r4)]
  unfold kernelRun4_B
  dsimp only
  sl_unfold_words
  rw [View.canon_unit_zero hz2_r4, View.readCov_unit_zero (S := S2048x128) _ hz2_r4]
  simp only [View.readAt_eq_ld, harg2.read_unread, harg3.read_unread, harg4.read_unread, harg7.read_unread, harg8.read_unread, View.ld_unit_zero (S := S2048x4096) hz2_r4, View.ld_unit_zero (S := S4096x128) hz2_r4, View.ld_unit_zero (S := S2048x128) hz2_r4]

/-! ### The payloads over the extended reals -/

theorem pay1_apply_r4 (y : S2048x128.Idx) : k4_pay1 (F := Ideal) y = 0 := by
  unfold k4_pay1
  simp only [shapeCast_self, broadcast]
  exact Ideal.ofBits_zero_f32
theorem pay2_apply_r4 (y : S2048x128.Idx) : k4_pay2 (F := Ideal) y = 0 := by
  unfold k4_pay2
  simp only [shapeCast_self, broadcast]
  exact Ideal.ofBits_zero_f32

/-- The accumulating store at an entry: the accumulator's entry plus the row of the left block times the column of the right. -/
theorem pay4_apply_r4 (x0 : Vec Ideal S2048x4096 .bf16) (acc : Vec Ideal S2048x128 .f32) (x1 : Vec Ideal S4096x128 .bf16) (r : Fin 2048) (cc : Fin 128) :
    k4_pay4 (F := Ideal) x0 acc x1 (ix2 r cc) = acc (ix2 r cc) + ∑ k : Fin 4096, x0 (ix2 r k) * x1 (ix2 k cc) := by
  unfold k4_pay4 k4_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x1 r cc
theorem pay5_apply_r4 (x0 : Vec Ideal S2048x4096 .bf16) (acc : Vec Ideal S2048x128 .f32) (x2 : Vec Ideal S4096x128 .bf16) (r : Fin 2048) (cc : Fin 128) :
    k4_pay5 (F := Ideal) x0 acc x2 (ix2 r cc) = acc (ix2 r cc) + ∑ k : Fin 4096, x0 (ix2 r k) * x2 (ix2 k cc) := by
  unfold k4_pay5 k4_pay3
  simp only [shapeCast_self, addf, Ideal.addf_def]
  congr 1
  exact Cert.LibPlainDot.matmul_zero_apply dot_S2048x4096_S4096x128_S2048x128_1_0_0_1_n_n rfl rfl rfl rfl (fun _ _ => rfl) (fun _ _ => rfl) none x0 x2 r cc

/-- A sum over 8192 is the sum over the first 4096 plus the sum over the last 4096. -/
theorem sum_halves_r4 (f : Fin 8192 → EReal) :
    (∑ k : Fin 4096, f ⟨k.val, by omega⟩) + (∑ k : Fin 4096, f ⟨4096 + k.val, by omega⟩) = ∑ j : Fin 8192, f j :=
  (Fin.sum_univ_add (fun j : Fin (4096 + 4096) => f j)).symm

section Ideal

variable (c : Dev nD) (W : (b : Ref sig .tc) → Buf (Elt Ideal) ((c : Thread nD τ).loc b))

/-- Where the windows' blocks sit, over the grid: block row `t / 2`, column half `t % 2`. -/
theorem idx1_r4 : ∀ t : Fin cfg4.N,
    win4_0.index t 0 = t.val / 2 ∧ win4_0.index t 1 = t.val % 2 ∧ win4_1.index t 0 = t.val % 2 ∧ win4_1.index t 1 = 0
      ∧ win4_2.index t 0 = t.val % 2 ∧ win4_2.index t 1 = 0 ∧ win4_3.index t 0 = t.val / 2 ∧ win4_3.index t 1 = 0
      ∧ win4_4.index t 0 = t.val / 2 ∧ win4_4.index t 1 = 0 :=
  (by decide +kernel : ∀ t : Fin grid4.N, _)

/-- The adjacency block at a point, at an entry: the array at the block's offset. -/
theorem iblk_0_apply_r4 (t : Fin cfg4.N) (r : Fin 2048) (k : Fin 4096) (i : S8192x8192.Idx)
    (h0 : (i 0).val = t.val / 2 * 2048 + r.val) (h1 : (i 1).val = t.val % 2 * 4096 + k.val) :
    iblk4 c W 0 t (ix2 r k) = W main_v0_1 i := by
  unfold iblk4
  rw [View.read_apply]
  show W main_v0_1 _ = W main_v0_1 i
  congr 1
  funext a
  apply Fin.ext
  match a with
  | ⟨0, _⟩ => show win4_0.index t 0 * 2048 + 1 * r.val = (i 0).val; rw [(idx1_r4 t).1, h0]; omega
  | ⟨1, _⟩ => show win4_0.index t 1 * 4096 + 1 * k.val = (i 1).val; rw [(idx1_r4 t).2.1, h1]; omega

/-- A right-hand side's block at a point, at an entry. -/
theorem iblk_1_apply_r4 (t : Fin cfg4.N) (k : Fin 4096) (cc : Fin 128) (i : S8192x128.Idx)
    (h0 : (i 0).val = t.val % 2 * 4096 + k.val) (h1 : (i 1).val = cc.val) :
    iblk4 c W 1 t (ix2 k cc) = W main_v160 i := by
  unfold iblk4
  rw [View.read_apply]
  show W main_v160 _ = W main_v160 i
  congr 1
  funext a
  apply Fin.ext
  match a with
  | ⟨0, _⟩ => show win4_1.index t 0 * 4096 + 1 * k.val = (i 0).val; rw [(idx1_r4 t).2.2.1, h0]; omega
  | ⟨1, _⟩ => show win4_1.index t 1 * 128 + 1 * cc.val = (i 1).val; rw [(idx1_r4 t).2.2.2.1, h1]; omega
theorem iblk_2_apply_r4 (t : Fin cfg4.N) (k : Fin 4096) (cc : Fin 128) (i : S8192x128.Idx)
    (h0 : (i 0).val = t.val % 2 * 4096 + k.val) (h1 : (i 1).val = cc.val) :
    iblk4 c W 2 t (ix2 k cc) = W main_v163 i := by
  unfold iblk4
  rw [View.read_apply]
  show W main_v163 _ = W main_v163 i
  congr 1
  funext a
  apply Fin.ext
  match a with
  | ⟨0, _⟩ => show win4_2.index t 0 * 4096 + 1 * k.val = (i 0).val; rw [(idx1_r4 t).2.2.2.2.1, h0]; omega
  | ⟨1, _⟩ => show win4_2.index t 1 * 128 + 1 * cc.val = (i 1).val; rw [(idx1_r4 t).2.2.2.2.2.1, h1]; omega

/-- At the second point of a block row the first output's staging buffer holds that row block of the whole product. -/
theorem out3_odd_r4 (t : Fin cfg4.N) (ht : t.val % 2 = 1) (r : Fin 2048) (cc : Fin 128) (R : Fin 8192) (hR : R.val = t.val / 2 * 2048 + r.val) :
    (outsAt4 c W t.val t.isLt).1 (ix2 r cc) = Cert.Spec.Region.mm (W main_v0_1) (W main_v160) (ix2 R cc) := by
  have hN : t.val < 8 := lt_of_lt_of_eq t.isLt N_4
  have h0 : ¬ t.val % 2 = 0 := by omega
  have hlt : t.val - 1 < cfg4.N := Nat.lt_of_le_of_lt (Nat.sub_le _ _) t.isLt
  have hp : (⟨t.val - 1, hlt⟩ : Fin cfg4.N).val % 2 = 0 := by show (t.val - 1) % 2 = 0; omega
  rw [outsAt4_B c W t h0, resB_o3_r4, pay4_apply_r4]
  rw [show outsAt4 c W (t.val - 1) _ = _ from outsAt4_A c W ⟨t.val - 1, hlt⟩ hp]
  rw [resA_s0_r4, pay4_apply_r4, pay1_apply_r4, zero_add]
  unfold Cert.Spec.Region.mm
  rw [← sum_halves_r4]
  congr 1
  · refine Finset.sum_congr rfl fun k _ => ?_
    rw [iblk_0_apply_r4 c W ⟨t.val - 1, hlt⟩ r k (ix2 R ⟨k.val, by omega⟩) (by show R.val = (t.val - 1) / 2 * 2048 + r.val; omega) (by show k.val = (t.val - 1) % 2 * 4096 + k.val; omega),
      iblk_1_apply_r4 c W ⟨t.val - 1, hlt⟩ k cc (ix2 ⟨k.val, by omega⟩ cc) (by show k.val = (t.val - 1) % 2 * 4096 + k.val; omega) rfl]
  · refine Finset.sum_congr rfl fun k _ => ?_
    rw [iblk_0_apply_r4 c W t r k (ix2 R ⟨4096 + k.val, by omega⟩) (by show R.val = t.val / 2 * 2048 + r.val; omega) (by show 4096 + k.val = t.val % 2 * 4096 + k.val; omega),
      iblk_1_apply_r4 c W t k cc (ix2 ⟨4096 + k.val, by omega⟩ cc) (by show 4096 + k.val = t.val % 2 * 4096 + k.val; omega) rfl]
theorem out4_odd_r4 (t : Fin cfg4.N) (ht : t.val % 2 = 1) (r : Fin 2048) (cc : Fin 128) (R : Fin 8192) (hR : R.val = t.val / 2 * 2048 + r.val) :
    (outsAt4 c W t.val t.isLt).2.1 (ix2 r cc) = Cert.Spec.Region.mm (W main_v0_1) (W main_v163) (ix2 R cc) := by
  have hN : t.val < 8 := lt_of_lt_of_eq t.isLt N_4
  have h0 : ¬ t.val % 2 = 0 := by omega
  have hlt : t.val - 1 < cfg4.N := Nat.lt_of_le_of_lt (Nat.sub_le _ _) t.isLt
  have hp : (⟨t.val - 1, hlt⟩ : Fin cfg4.N).val % 2 = 0 := by show (t.val - 1) % 2 = 0; omega
  rw [outsAt4_B c W t h0, resB_o4_r4, pay5_apply_r4]
  rw [show outsAt4 c W (t.val - 1) _ = _ from outsAt4_A c W ⟨t.val - 1, hlt⟩ hp]
  rw [resA_s1_r4, pay5_apply_r4, pay2_apply_r4, zero_add]
  unfold Cert.Spec.Region.mm
  rw [← sum_halves_r4]
  congr 1
  · refine Finset.sum_congr rfl fun k _ => ?_
    rw [iblk_0_apply_r4 c W ⟨t.val - 1, hlt⟩ r k (ix2 R ⟨k.val, by omega⟩) (by show R.val = (t.val - 1) / 2 * 2048 + r.val; omega) (by show k.val = (t.val - 1) % 2 * 4096 + k.val; omega),
      iblk_2_apply_r4 c W ⟨t.val - 1, hlt⟩ k cc (ix2 ⟨k.val, by omega⟩ cc) (by show k.val = (t.val - 1) % 2 * 4096 + k.val; omega) rfl]
  · refine Finset.sum_congr rfl fun k _ => ?_
    rw [iblk_0_apply_r4 c W t r k (ix2 R ⟨4096 + k.val, by omega⟩) (by show R.val = t.val / 2 * 2048 + r.val; omega) (by show 4096 + k.val = t.val % 2 * 4096 + k.val; omega),
      iblk_2_apply_r4 c W t k cc (ix2 ⟨4096 + k.val, by omega⟩ cc) (by show 4096 + k.val = t.val % 2 * 4096 + k.val; omega) rfl]

/-- No block of the two outputs is cut. -/
theorem xs1_r4 : ∀ t : Fin cfg4.N, win4_3.xsize (grid4.coords t) 0 = 2048 ∧ win4_3.xsize (grid4.coords t) 1 = 128
      ∧ win4_4.xsize (grid4.coords t) 0 = 2048 ∧ win4_4.xsize (grid4.coords t) 1 = 128 :=
  (by decide +kernel : ∀ t : Fin grid4.N, _)

/-- The write-back at the second point of a block row writes that row block of the whole product. -/
theorem flushed3_eq_r4 (t : Fin cfg4.N) (hf : (cfg4.win 3).flush t = true) :
    (dats4 c W).flushed 3 t = ((cfg4.win 3).blk t).view.read (Elt Ideal) (Cert.Spec.Region.mm (W main_v0_1) (W main_v160)) := by
  have ht : t.val % 2 = 1 := (flush4_3 t).mp hf
  have hN : t.val < 8 := lt_of_lt_of_eq t.isLt N_4
  show (cfg4.win 3).cut (grid4.coords t) ((dats4 c W).after 3 t) = _
  rw [after4_3]
  funext y
  obtain ⟨r, cc, rfl⟩ : ∃ (r : Fin 2048) (cc : Fin 128), y = ix2 r cc := ⟨y 0, y 1, eq_ix2 y⟩
  rw [View.read_apply]
  refine (out3_odd_r4 c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win4_3.index t 0 * 2048 + 1 * r.val; rw [(idx1_r4 t).2.2.2.2.2.2.1]; omega
  | ⟨1, _⟩ => show cc.val = win4_3.index t 1 * 128 + 1 * cc.val; rw [(idx1_r4 t).2.2.2.2.2.2.2.1]; omega

/-- Every entry of the result lies in the block some second point writes back: the one of its block row. -/
theorem cover3_r4 (i : S8192x128.Idx) : ∃ t : Fin cfg4.N, (cfg4.win 3).flush t = true ∧ i ∈ ((cfg4.win 3).blk t).view.set := by
  have h0 : (i 0).val < 8192 := (i 0).isLt
  have h1 : (i 1).val < 128 := (i 1).isLt
  let t : Fin cfg4.N := ⟨2 * ((i 0).val / 2048) + 1, by rw [N4_eq]; omega⟩
  have htv : t.val = 2 * ((i 0).val / 2048) + 1 := rfl
  refine ⟨t, (flush4_3 t).mpr (by rw [htv]; omega), ?_⟩
  show i ∈ ((View.whole main_v164_0).slice (win4_3.rect t)).set
  rw [View.set_slice_whole, Rect.mem_set_unit]
  intro a
  match a with
  | ⟨0, _⟩ =>
    show win4_3.index t 0 * win4_3.size 0 ≤ (i 0 : Nat) ∧ (i 0 : Nat) < win4_3.index t 0 * win4_3.size 0 + win4_3.xsize (grid4.coords t) 0
    rw [(idx1_r4 t).2.2.2.2.2.2.1, show win4_3.size 0 = 2048 from rfl, (xs1_r4 t).1, htv]; omega
  | ⟨1, _⟩ =>
    show win4_3.index t 1 * win4_3.size 1 ≤ (i 1 : Nat) ∧ (i 1 : Nat) < win4_3.index t 1 * win4_3.size 1 + win4_3.xsize (grid4.coords t) 1
    rw [(idx1_r4 t).2.2.2.2.2.2.2.1, show win4_3.size 1 = 128 from rfl, (xs1_r4 t).2.1]; omega

/-- So the result array ends holding the whole product. -/
theorem final3_r4 : (dats4 c W).arrAt 3 cfg4.N = Cert.Spec.Region.mm (W main_v0_1) (W main_v160) :=
  (dats4 c W).arrAt_eq_of_cover 3 _ (flushed3_eq_r4 c W) (cover3_r4)

/-- The write-back at the second point of a block row writes that row block of the whole product. -/
theorem flushed4_eq_r4 (t : Fin cfg4.N) (hf : (cfg4.win 4).flush t = true) :
    (dats4 c W).flushed 4 t = ((cfg4.win 4).blk t).view.read (Elt Ideal) (Cert.Spec.Region.mm (W main_v0_1) (W main_v163)) := by
  have ht : t.val % 2 = 1 := (flush4_4 t).mp hf
  have hN : t.val < 8 := lt_of_lt_of_eq t.isLt N_4
  show (cfg4.win 4).cut (grid4.coords t) ((dats4 c W).after 4 t) = _
  rw [after4_4]
  funext y
  obtain ⟨r, cc, rfl⟩ : ∃ (r : Fin 2048) (cc : Fin 128), y = ix2 r cc := ⟨y 0, y 1, eq_ix2 y⟩
  rw [View.read_apply]
  refine (out4_odd_r4 c W t ht r cc ⟨t.val / 2 * 2048 + r.val, by omega⟩ rfl).trans ?_
  show Cert.Spec.Region.mm _ _ _ = Cert.Spec.Region.mm _ _ _
  congr 1
  funext a
  apply Fin.ext
  match a with
  | ⟨0, _⟩ => show t.val / 2 * 2048 + r.val = win4_4.index t 0 * 2048 + 1 * r.val; rw [(idx1_r4 t).2.2.2.2.2.2.2.2.1]; omega
  | ⟨1, _⟩ => show cc.val = win4_4.index t 1 * 128 + 1 * cc.val; rw [(idx1_r4 t).2.2.2.2.2.2.2.2.2]; omega

/-- Every entry of the result lies in the block some second point writes back: the one of its block row. -/
theorem cover4_r4 (i : S8192x128.Idx) : ∃ t : Fin cfg4.N, (cfg4.win 4).flush t = true ∧ i ∈ ((cfg4.win 4).blk t).view.set := by
  have h0 : (i 0).val < 8192 := (i 0).isLt
  have h1 : (i 1).val < 128 := (i 1).isLt
  let t : Fin cfg4.N := ⟨2 * ((i 0).val / 2048) + 1, by rw [N4_eq]; omega⟩
  have htv : t.val = 2 * ((i 0).val / 2048) + 1 := rfl
  refine ⟨t, (flush4_4 t).mpr (by rw [htv]; omega), ?_⟩
  show i ∈ ((View.whole main_v164_1).slice (win4_4.rect t)).set
  rw [View.set_slice_whole, Rect.mem_set_unit]
  intro a
  match a with
  | ⟨0, _⟩ =>
    show win4_4.index t 0 * win4_4.size 0 ≤ (i 0 : Nat) ∧ (i 0 : Nat) < win4_4.index t 0 * win4_4.size 0 + win4_4.xsize (grid4.coords t) 0
    rw [(idx1_r4 t).2.2.2.2.2.2.2.2.1, show win4_4.size 0 = 2048 from rfl, (xs1_r4 t).2.2.1, htv]; omega
  | ⟨1, _⟩ =>
    show win4_4.index t 1 * win4_4.size 1 ≤ (i 1 : Nat) ∧ (i 1 : Nat) < win4_4.index t 1 * win4_4.size 1 + win4_4.xsize (grid4.coords t) 1
    rw [(idx1_r4 t).2.2.2.2.2.2.2.2.2, show win4_4.size 1 = 128 from rfl, (xs1_r4 t).2.2.2]; omega

/-- So the result array ends holding the whole product. -/
theorem final4_r4 : (dats4 c W).arrAt 4 cfg4.N = Cert.Spec.Region.mm (W main_v0_1) (W main_v163) :=
  (dats4 c W).arrAt_eq_of_cover 4 _ (flushed4_eq_r4 c W) (cover4_r4)

end Ideal

end Cert.KernelIdeal.Hand

end
-- ==== Proof.Host.Ops.lean ====
import proofs.«117539_j28759101014307_2_alg».proof.Proof.Gen.KernelIdeal.Regions
import proofs.«117539_j28759101014307_2_alg».proof.Proof.Spec
import proofs.«117539_j28759101014307_2_alg».proof.Proof.KerSpec
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # The host operations of the kernel program read at an index, over the extended reals -/

/-- The word of the float one denotes the extended real one. -/
theorem ofBits_one_f32 : Ideal.ofBits .f32 0x3F800000#32 = 1 := by
  simp [Ideal.ofBits, Ideal.ieee]
  first
    | (rw [← EReal.coe_mul, ← EReal.coe_one]; norm_num)
    | (norm_cast; norm_num)
    | (rw [← EReal.coe_mul]; norm_num)

section Bcast
variable {α : Type}

/-- A scalar broadcast to any shape reads the scalar everywhere. -/
theorem bcast0_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector laid along the second axis of a one-row array. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) :=
  broadcastInDim_apply _ h x _ _ (fun c => match c with
    | ⟨0, _⟩ => by
      show i.val = if a = 1 then 0 else i.val
      split
      · have := i.isLt; omega
      · rfl)

/-- One row repeated down the rows. -/
theorem bcast_1b_ab_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ (![0, 1] : Fin 2 → Fin 2) h x (ix2 i j) = x (ix2 (0 : Fin 1) j) :=
  broadcastInDim_apply _ h x _ _ (fun c => match c with
    | ⟨0, _⟩ => by
      show (0 : ℕ) = if (1 : ℕ) = 1 then 0 else i.val
      rw [if_pos rfl]
    | ⟨1, _⟩ => by
      show j.val = if b = 1 then 0 else j.val
      split
      · have := j.isLt; omega
      · rfl)

/-- One column repeated across the columns. -/
theorem bcast_a1_ab_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ (![0, 1] : Fin 2 → Fin 2) h x (ix2 i j) = x (ix2 i (0 : Fin 1)) :=
  broadcastInDim_apply _ h x _ _ (fun c => match c with
    | ⟨0, _⟩ => by
      show i.val = if a = 1 then 0 else i.val
      split
      · have := i.isLt; omega
      · rfl
    | ⟨1, _⟩ => by
      show (0 : ℕ) = if (1 : ℕ) = 1 then 0 else j.val
      rw [if_pos rfl])

/-- Slab `l` of a stack of matrices, as a matrix. -/
theorem slab3_apply {n a b : ℕ} (l : ℕ) (X : (⟨3, ![n, a, b]⟩ : Shape).Idx → α)
    (hs : (⟨3, ![n, a, b]⟩ : Shape).Slices ![l, 0, 0] ⟨3, ![1, a, b]⟩)
    (hc : (⟨3, ![1, a, b]⟩ : Shape).ShapeCasts ⟨2, ![a, b]⟩) (hl : l < n) (i : Fin a) (j : Fin b) :
    shapeCast ⟨2, ![a, b]⟩ (extractStridedSlice ⟨3, ![1, a, b]⟩ ![l, 0, 0] X hs) hc (ix2 i j) = X (ix3 ⟨l, hl⟩ i j) := by
  rw [shapeCast_1ab_ab_apply]
  exact extractStridedSlice_apply _ X hs _ _ (fun c => match c with
    | ⟨0, _⟩ => by show l = l + 0; rfl
    | ⟨1, _⟩ => by show i.val = 0 + i.val; omega
    | ⟨2, _⟩ => by show j.val = 0 + j.val; omega)

/-- Row `l` of a stack of vectors, as a vector. -/
theorem row2_apply {n a : ℕ} (l : ℕ) (X : (⟨2, ![n, a]⟩ : Shape).Idx → α)
    (hs : (⟨2, ![n, a]⟩ : Shape).Slices ![l, 0] ⟨2, ![1, a]⟩)
    (hc : (⟨2, ![1, a]⟩ : Shape).ShapeCasts ⟨1, ![a]⟩) (hl : l < n) (i : Fin a) :
    shapeCast ⟨1, ![a]⟩ (extractStridedSlice ⟨2, ![1, a]⟩ ![l, 0] X hs) hc (ix1 i) = X (ix2 ⟨l, hl⟩ i) := by
  rw [shapeCast_1a_a_apply]
  exact extractStridedSlice_apply _ X hs _ _ (fun c => match c with
    | ⟨0, _⟩ => by show l = l + 0; rfl
    | ⟨1, _⟩ => by show i.val = 0 + i.val; omega)

end Bcast

theorem dotIn_l0 (i : S8192x128.Idx) (q : dot_S8192x500_S500x128_S8192x128_1_0_0_1_n_n.contr.Idx) : (dot_S8192x500_S500x128_S8192x128_1_0_0_1_n_n.lhsIdx i q 0).val = (i 0).val := by
  unfold DotDims.lhsIdx
  rw [dif_neg (show ¬(0 : Fin S8192x500.rank) ∈ dot_S8192x500_S500x128_S8192x128_1_0_0_1_n_n.lhsBatch by decide), dif_pos (show (0 : Fin S8192x500.rank) ∈ dot_S8192x500_S500x128_S8192x128_1_0_0_1_n_n.lhsNonContracting by decide)]
  rfl
theorem dotIn_l1 (i : S8192x128.Idx) (q : dot_S8192x500_S500x128_S8192x128_1_0_0_1_n_n.contr.Idx) : (dot_S8192x500_S500x128_S8192x128_1_0_0_1_n_n.lhsIdx i q 1).val = (q ⟨0, by decide⟩).val :=
  dot_S8192x500_S500x128_S8192x128_1_0_0_1_n_n.lhsIdx_val_of_single rfl i q
theorem dotIn_r0 (i : S8192x128.Idx) (q : dot_S8192x500_S500x128_S8192x128_1_0_0_1_n_n.contr.Idx) : (dot_S8192x500_S500x128_S8192x128_1_0_0_1_n_n.rhsIdx i q 0).val = (q ⟨0, by decide⟩).val :=
  dot_S8192x500_S500x128_S8192x128_1_0_0_1_n_n.rhsIdx_val_of_single rfl i q
theorem dotIn_r1 (i : S8192x128.Idx) (q : dot_S8192x500_S500x128_S8192x128_1_0_0_1_n_n.contr.Idx) : (dot_S8192x500_S500x128_S8192x128_1_0_0_1_n_n.rhsIdx i q 1).val = (i 1).val := by
  unfold DotDims.rhsIdx
  rw [dif_neg (show ¬(1 : Fin S500x128.rank) ∈ dot_S8192x500_S500x128_S8192x128_1_0_0_1_n_n.rhsBatch by decide), dif_pos (show (1 : Fin S500x128.rank) ∈ dot_S8192x500_S500x128_S8192x128_1_0_0_1_n_n.rhsNonContracting by decide)]
  rfl
/-- The host's matrix product read at an entry: the sum over the contracted axis. -/
theorem dotIn_apply (x : FVec Ideal S8192x500 .f32) (w : FVec Ideal S500x128 .f32) (i : Fin 8192) (j : Fin 128) :
    Host.dotGeneral (F := Ideal) dot_S8192x500_S500x128_S8192x128_1_0_0_1_n_n none x w (ix2 i j) = ∑ k : Fin 500, x (ix2 i k) * w (ix2 k j) := by
  simp only [Host.dotGeneral]
  rw [Ideal.dotGeneral_apply, ← Equiv.sum_comp (ValueIdx.contrEquiv1 dot_S8192x500_S500x128_S8192x128_1_0_0_1_n_n 500 rfl rfl).symm]
  refine Finset.sum_congr rfl fun k _ => ?_
  have hk := ValueIdx.contrEquiv1_symm_val dot_S8192x500_S500x128_S8192x128_1_0_0_1_n_n 500 rfl rfl k
  have el : dot_S8192x500_S500x128_S8192x128_1_0_0_1_n_n.lhsIdx (ix2 i j) ((ValueIdx.contrEquiv1 dot_S8192x500_S500x128_S8192x128_1_0_0_1_n_n 500 rfl rfl).symm k) = ix2 i k := funext fun a => Fin.ext (by
    match a with
    | ⟨0, _⟩ => exact dotIn_l0 _ _
    | ⟨1, _⟩ => exact (dotIn_l1 _ _).trans hk)
  have er : dot_S8192x500_S500x128_S8192x128_1_0_0_1_n_n.rhsIdx (ix2 i j) ((ValueIdx.contrEquiv1 dot_S8192x500_S500x128_S8192x128_1_0_0_1_n_n 500 rfl rfl).symm k) = ix2 k j := funext fun a => Fin.ext (by
    match a with
    | ⟨0, _⟩ => exact (dotIn_r0 _ _).trans hk
    | ⟨1, _⟩ => exact dotIn_r1 _ _)
  rw [el, er]

theorem dotHid_l0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem dotHid_l1 (i : S8192x128.Idx) (q : dot_S8192x128_S128x128_S8192x128_1_0_0_1_n_n.contr.Idx) : (dot_S8192x128_S128x128_S8192x128_1_0_0_1_n_n.lhsIdx i q 1).val = (q ⟨0, by decide⟩).val :=
  dot_S8192x128_S128x128_S8192x128_1_0_0_1_n_n.lhsIdx_val_of_single rfl i q
theorem dotHid_r0 (i : S8192x128.Idx) (q : dot_S8192x128_S128x128_S8192x128_1_0_0_1_n_n.contr.Idx) : (dot_S8192x128_S128x128_S8192x128_1_0_0_1_n_n.rhsIdx i q 0).val = (q ⟨0, by decide⟩).val :=
  dot_S8192x128_S128x128_S8192x128_1_0_0_1_n_n.rhsIdx_val_of_single rfl i q
theorem dotHid_r1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl
/-- The host's matrix product read at an entry: the sum over the contracted axis. -/
theorem dotHid_apply (x : FVec Ideal S8192x128 .f32) (w : FVec Ideal S128x128 .f32) (i : Fin 8192) (j : Fin 128) :
    Host.dotGeneral (F := Ideal) dot_S8192x128_S128x128_S8192x128_1_0_0_1_n_n none x w (ix2 i j) = ∑ k : Fin 128, x (ix2 i k) * w (ix2 k j) := by
  simp only [Host.dotGeneral]
  rw [Ideal.dotGeneral_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 i j) ((ValueIdx.contrEquiv1 dot_S8192x128_S128x128_S8192x128_1_0_0_1_n_n 128 rfl rfl).symm k) = ix2 i k := funext fun a => Fin.ext (by
    match a with
    | ⟨0, _⟩ => exact dotHid_l0 _ _
    | ⟨1, _⟩ => exact (dotHid_l1 _ _).trans hk)
  have er : dot_S8192x128_S128x128_S8192x128_1_0_0_1_n_n.rhsIdx (ix2 i j) ((ValueIdx.contrEquiv1 dot_S8192x128_S128x128_S8192x128_1_0_0_1_n_n 128 rfl rfl).symm k) = ix2 k j := funext fun a => Fin.ext (by
    match a with
    | ⟨0, _⟩ => exact (dotHid_r0 _ _).trans hk
    | ⟨1, _⟩ => exact dotHid_r1 _ _)
  rw [el, er]

theorem dotOut_l0 (i : S8192x40.Idx) (q : dot_S8192x128_S128x40_S8192x40_1_0_0_1_n_n.contr.Idx) : (dot_S8192x128_S128x40_S8192x40_1_0_0_1_n_n.lhsIdx i q 0).val = (i 0).val := by
  unfold DotDims.lhsIdx
  rw [dif_neg (show ¬(0 : Fin S8192x128.rank) ∈ dot_S8192x128_S128x40_S8192x40_1_0_0_1_n_n.lhsBatch by decide), dif_pos (show (0 : Fin S8192x128.rank) ∈ dot_S8192x128_S128x40_S8192x40_1_0_0_1_n_n.lhsNonContracting by decide)]
  rfl
theorem dotOut_l1 (i : S8192x40.Idx) (q : dot_S8192x128_S128x40_S8192x40_1_0_0_1_n_n.contr.Idx) : (dot_S8192x128_S128x40_S8192x40_1_0_0_1_n_n.lhsIdx i q 1).val = (q ⟨0, by decide⟩).val :=
  dot_S8192x128_S128x40_S8192x40_1_0_0_1_n_n.lhsIdx_val_of_single rfl i q
theorem dotOut_r0 (i : S8192x40.Idx) (q : dot_S8192x128_S128x40_S8192x40_1_0_0_1_n_n.contr.Idx) : (dot_S8192x128_S128x40_S8192x40_1_0_0_1_n_n.rhsIdx i q 0).val = (q ⟨0, by decide⟩).val :=
  dot_S8192x128_S128x40_S8192x40_1_0_0_1_n_n.rhsIdx_val_of_single rfl i q
theorem dotOut_r1 (i : S8192x40.Idx) (q : dot_S8192x128_S128x40_S8192x40_1_0_0_1_n_n.contr.Idx) : (dot_S8192x128_S128x40_S8192x40_1_0_0_1_n_n.rhsIdx i q 1).val = (i 1).val := by
  unfold DotDims.rhsIdx
  rw [dif_neg (show ¬(1 : Fin S128x40.rank) ∈ dot_S8192x128_S128x40_S8192x40_1_0_0_1_n_n.rhsBatch by decide), dif_pos (show (1 : Fin S128x40.rank) ∈ dot_S8192x128_S128x40_S8192x40_1_0_0_1_n_n.rhsNonContracting by decide)]
  rfl
/-- The host's matrix product read at an entry: the sum over the contracted axis. -/
theorem dotOut_apply (x : FVec Ideal S8192x128 .f32) (w : FVec Ideal S128x40 .f32) (i : Fin 8192) (j : Fin 40) :
    Host.dotGeneral (F := Ideal) dot_S8192x128_S128x40_S8192x40_1_0_0_1_n_n none x w (ix2 i j) = ∑ k : Fin 128, x (ix2 i k) * w (ix2 k j) := by
  simp only [Host.dotGeneral]
  rw [Ideal.dotGeneral_apply, ← Equiv.sum_comp (ValueIdx.contrEquiv1 dot_S8192x128_S128x40_S8192x40_1_0_0_1_n_n 128 rfl rfl).symm]
  refine Finset.sum_congr rfl fun k _ => ?_
  have hk := ValueIdx.contrEquiv1_symm_val dot_S8192x128_S128x40_S8192x40_1_0_0_1_n_n 128 rfl rfl k
  have el : dot_S8192x128_S128x40_S8192x40_1_0_0_1_n_n.lhsIdx (ix2 i j) ((ValueIdx.contrEquiv1 dot_S8192x128_S128x40_S8192x40_1_0_0_1_n_n 128 rfl rfl).symm k) = ix2 i k := funext fun a => Fin.ext (by
    match a with
    | ⟨0, _⟩ => exact dotOut_l0 _ _
    | ⟨1, _⟩ => exact (dotOut_l1 _ _).trans hk)
  have er : dot_S8192x128_S128x40_S8192x40_1_0_0_1_n_n.rhsIdx (ix2 i j) ((ValueIdx.contrEquiv1 dot_S8192x128_S128x40_S8192x40_1_0_0_1_n_n 128 rfl rfl).symm k) = ix2 k j := funext fun a => Fin.ext (by
    match a with
    | ⟨0, _⟩ => exact (dotOut_r0 _ _).trans hk
    | ⟨1, _⟩ => exact dotOut_r1 _ _)
  rw [el, er]

end Cert.Proof.KerVal

end
-- ==== Proof.Host.TermsIn.lean ====
import proofs.«117539_j28759101014307_2_alg».proof.Proof.Host.Ops
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # What the host stretches leave in their result buffers, as terms over the buffers they read -/

theorem tm_v6 (W : Valuation τ sig (Elt Ideal)) :
    ((after hostOps1_1 (after hostOps1 W)) main_v6 : (⟨S8192x1, .f32⟩ : BufTy).Contents (Elt Ideal)) = ((select : (⟨S8192x1, .i1⟩ : BufTy).Contents (Elt Ideal) → (⟨S8192x1, .f32⟩ : BufTy).Contents (Elt Ideal) → (⟨S8192x1, .f32⟩ : BufTy).Contents (Elt Ideal) → (⟨S8192x1, .f32⟩ : BufTy).Contents (Elt Ideal)) ((cmpf (F := Ideal) (φ := .f32) .ogt : (⟨S8192x1, .f32⟩ : BufTy).Contents (Elt Ideal) → (⟨S8192x1, .f32⟩ : BufTy).Contents (Elt Ideal) → (⟨S8192x1, .i1⟩ : BufTy).Contents (Elt Ideal)) ((addf (F := Ideal) (φ := .f32) : (⟨S8192x1, .f32⟩ : BufTy).Contents (Elt Ideal) → (⟨S8192x1, .f32⟩ : BufTy).Contents (Elt Ideal) → (⟨S8192x1, .f32⟩ : BufTy).Contents (Elt Ideal)) (W main_v0_0 : (⟨S8192x1, .f32⟩ : BufTy).Contents (Elt Ideal)) ((broadcastInDim S8192x1 ![] bcast_S_S8192x1 : (⟨S_, .f32⟩ : BufTy).Contents (Elt Ideal) → (⟨S8192x1, .f32⟩ : BufTy).Contents (Elt Ideal)) (constant (F := Ideal) S_ .f32 0x3F800000#32))) ((broadcastInDim S8192x1 ![] bcast_S_S8192x1 : (⟨S_, .f32⟩ : BufTy).Contents (Elt Ideal) → (⟨S8192x1, .f32⟩ : BufTy).Contents (Elt Ideal)) (constant (F := Ideal) S_ .f32 0x00000000#32))) ((Host.rsqrt (F := Ideal) (φ := .f32) : (⟨S8192x1, .f32⟩ : BufTy).Contents (Elt Ideal) → (⟨S8192x1, .f32⟩ : BufTy).Contents (Elt Ideal)) ((addf (F := Ideal) (φ := .f32) : (⟨S8192x1, .f32⟩ : BufTy).Contents (Elt Ideal) → (⟨S8192x1, .f32⟩ : BufTy).Contents (Elt Ideal) → (⟨S8192x1, .f32⟩ : BufTy).Contents (Elt Ideal)) (W main_v0_0 : (⟨S8192x1, .f32⟩ : BufTy).Contents (Elt Ideal)) ((broadcastInDim S8192x1 ![] bcast_S_S8192x1 : (⟨S_, .f32⟩ : BufTy).Contents (Elt Ideal) → (⟨S8192x1, .f32⟩ : BufTy).Contents (Elt Ideal)) (constant (F := Ideal) S_ .f32 0x3F800000#32)))) (((broadcastInDim S8192x1 ![] bcast_S_S8192x1) : (⟨S_, .f32⟩ : BufTy).Contents (Elt Ideal) → (⟨S8192x1, .f32⟩ : BufTy).Contents (Elt Ideal)) ((id : (⟨S_, .f32⟩ : BufTy).Contents (Elt Ideal) → (⟨S_, .f32⟩ : BufTy).Contents (Elt Ideal)) (constant (F := Ideal) S_ .f32 0x00000000#32)))) := by
  dsimp only [hostOps1, hostOps1_1]
  after_results_simp
  all_goals rfl

theorem tm_v7 (W : Valuation τ sig (Elt Ideal)) :
    ((after hostOps1_2 W) main_v7 : (⟨S8192x1, .f32⟩ : BufTy).Contents (Elt Ideal)) = ((mulf (F := Ideal) (φ := .f32) : (⟨S8192x1, .f32⟩ : BufTy).Contents (Elt Ideal) → (⟨S8192x1, .f32⟩ : BufTy).Contents (Elt Ideal) → (⟨S8192x1, .f32⟩ : BufTy).Contents (Elt Ideal)) (W main_v6 : (⟨S8192x1, .f32⟩ : BufTy).Contents (Elt Ideal)) (W main_v6 : (⟨S8192x1, .f32⟩ : BufTy).Contents (Elt Ideal))) := by
  dsimp only [hostOps1_2]
  after_results_simp
  all_goals rfl

theorem tm_v19 (W : Valuation τ sig (Elt Ideal)) :
    ((after hostOps1_4 (after hostOps1_3 (after hostOps1_2 W))) main_v19 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (((fun l r => Host.dotGeneral (F := Ideal) (φ₁ := .f32) (φ₂ := .f32) dot_S8192x500_S500x128_S8192x128_1_0_0_1_n_n none l r) : (⟨S8192x500, .f32⟩ : BufTy).Contents (Elt Ideal) → (⟨S500x128, .f32⟩ : BufTy).Contents (Elt Ideal) → (⟨S8192x128, .f32⟩ : BufTy).Contents (Elt Ideal)) (W main_arg0 : (⟨S8192x500, .f32⟩ : BufTy).Contents (Elt Ideal)) (W main_arg2 : (⟨S500x128, .f32⟩ : BufTy).Contents (Elt Ideal))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (W main_arg3 : (⟨S128, .f32⟩ : BufTy).Contents (Elt Ideal))))) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32)))) ((broadcastInDim S8192x128 ![0, 1] bcast_S1x128_S8192x128_0_1 : (⟨S1x128, .f32⟩ : BufTy).Contents (Elt Ideal) → (⟨S8192x128, .f32⟩ : BufTy).Contents (Elt Ideal)) ((mulf (F := Ideal) (φ := .f32) : (⟨S1x128, .f32⟩ : BufTy).Contents (Elt Ideal) → (⟨S1x128, .f32⟩ : BufTy).Contents (Elt Ideal) → (⟨S1x128, .f32⟩ : BufTy).Contents (Elt Ideal)) ((broadcastInDim S1x128 ![] bcast_S_S1x128 : (⟨S_, .f32⟩ : BufTy).Contents (Elt Ideal) → (⟨S1x128, .f32⟩ : BufTy).Contents (Elt Ideal)) (constant (F := Ideal) S_ .f32 0x3DCCCCCD#32)) ((broadcastInDim S1x128 ![1] bcast_S128_S1x128_1 : (⟨S128, .f32⟩ : BufTy).Contents (Elt Ideal) → (⟨S1x128, .f32⟩ : BufTy).Contents (Elt Ideal)) (W main_arg4 : (⟨S128, .f32⟩ : BufTy).Contents (Elt Ideal)))))) := by
  dsimp only [hostOps1_2, hostOps1_3, hostOps1_4]
  after_results_simp
  all_goals rfl

theorem tm_v22 (W : Valuation τ sig (Elt Ideal)) :
    ((after hostOps1_4 (after hostOps1_3 (after hostOps1_2 W))) main_v22 : (⟨S8192x128, .f32⟩ : BufTy).Contents (Elt Ideal)) = (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (((fun l r => Host.dotGeneral (F := Ideal) (φ₁ := .f32) (φ₂ := .f32) dot_S8192x500_S500x128_S8192x128_1_0_0_1_n_n none l r) : (⟨S8192x500, .f32⟩ : BufTy).Contents (Elt Ideal) → (⟨S500x128, .f32⟩ : BufTy).Contents (Elt Ideal) → (⟨S8192x128, .f32⟩ : BufTy).Contents (Elt Ideal)) (W main_arg0 : (⟨S8192x500, .f32⟩ : BufTy).Contents (Elt Ideal)) (W main_arg2 : (⟨S500x128, .f32⟩ : BufTy).Contents (Elt Ideal))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (W main_arg3 : (⟨S128, .f32⟩ : BufTy).Contents (Elt Ideal))))) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32)))) ((broadcastInDim S8192x128 ![0, 1] bcast_S1x128_S8192x128_0_1 : (⟨S1x128, .f32⟩ : BufTy).Contents (Elt Ideal) → (⟨S8192x128, .f32⟩ : BufTy).Contents (Elt Ideal)) ((mulf (F := Ideal) (φ := .f32) : (⟨S1x128, .f32⟩ : BufTy).Contents (Elt Ideal) → (⟨S1x128, .f32⟩ : BufTy).Contents (Elt Ideal) → (⟨S1x128, .f32⟩ : BufTy).Contents (Elt Ideal)) ((broadcastInDim S1x128 ![] bcast_S_S1x128 : (⟨S_, .f32⟩ : BufTy).Contents (Elt Ideal) → (⟨S1x128, .f32⟩ : BufTy).Contents (Elt Ideal)) (constant (F := Ideal) S_ .f32 0x3DCCCCCD#32)) ((broadcastInDim S1x128 ![1] bcast_S128_S1x128_1 : (⟨S128, .f32⟩ : BufTy).Contents (Elt Ideal) → (⟨S1x128, .f32⟩ : BufTy).Contents (Elt Ideal)) (W main_arg4 : (⟨S128, .f32⟩ : BufTy).Contents (Elt Ideal)))))) (shapeCast S128x128 (((extractStridedSlice S1x128x128 ![0, 0, 0] · slices_S4x128x128_S1x128x128_0_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)) := by
  dsimp only [hostOps1_2, hostOps1_3, hostOps1_4]
  after_results_simp
  all_goals rfl

theorem tm_v25 (W : Valuation τ sig (Elt Ideal)) :
    ((after hostOps1_4 (after hostOps1_3 (after hostOps1_2 W))) main_v25 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (((fun l r => Host.dotGeneral (F := Ideal) (φ₁ := .f32) (φ₂ := .f32) dot_S8192x500_S500x128_S8192x128_1_0_0_1_n_n none l r) : (⟨S8192x500, .f32⟩ : BufTy).Contents (Elt Ideal) → (⟨S500x128, .f32⟩ : BufTy).Contents (Elt Ideal) → (⟨S8192x128, .f32⟩ : BufTy).Contents (Elt Ideal)) (W main_arg0 : (⟨S8192x500, .f32⟩ : BufTy).Contents (Elt Ideal)) (W main_arg2 : (⟨S500x128, .f32⟩ : BufTy).Contents (Elt Ideal))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (W main_arg3 : (⟨S128, .f32⟩ : BufTy).Contents (Elt Ideal))))) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32)))) ((broadcastInDim S8192x128 ![0, 1] bcast_S1x128_S8192x128_0_1 : (⟨S1x128, .f32⟩ : BufTy).Contents (Elt Ideal) → (⟨S8192x128, .f32⟩ : BufTy).Contents (Elt Ideal)) ((mulf (F := Ideal) (φ := .f32) : (⟨S1x128, .f32⟩ : BufTy).Contents (Elt Ideal) → (⟨S1x128, .f32⟩ : BufTy).Contents (Elt Ideal) → (⟨S1x128, .f32⟩ : BufTy).Contents (Elt Ideal)) ((broadcastInDim S1x128 ![] bcast_S_S1x128 : (⟨S_, .f32⟩ : BufTy).Contents (Elt Ideal) → (⟨S1x128, .f32⟩ : BufTy).Contents (Elt Ideal)) (constant (F := Ideal) S_ .f32 0x3DCCCCCD#32)) ((broadcastInDim S1x128 ![1] bcast_S128_S1x128_1 : (⟨S128, .f32⟩ : BufTy).Contents (Elt Ideal) → (⟨S1x128, .f32⟩ : BufTy).Contents (Elt Ideal)) (W main_arg4 : (⟨S128, .f32⟩ : BufTy).Contents (Elt Ideal)))))) (shapeCast S128x128 (((extractStridedSlice S1x128x128 ![0, 0, 0] · slices_S4x128x128_S1x128x128_0_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)))) := by
  dsimp only [hostOps1_2, hostOps1_3, hostOps1_4]
  after_results_simp
  all_goals rfl

theorem tm_v28 (W : Valuation τ sig (Elt Ideal)) :
    ((after hostOps1_4 (after hostOps1_3 (after hostOps1_2 W))) main_v28 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (((fun l r => Host.dotGeneral (F := Ideal) (φ₁ := .f32) (φ₂ := .f32) dot_S8192x500_S500x128_S8192x128_1_0_0_1_n_n none l r) : (⟨S8192x500, .f32⟩ : BufTy).Contents (Elt Ideal) → (⟨S500x128, .f32⟩ : BufTy).Contents (Elt Ideal) → (⟨S8192x128, .f32⟩ : BufTy).Contents (Elt Ideal)) (W main_arg0 : (⟨S8192x500, .f32⟩ : BufTy).Contents (Elt Ideal)) (W main_arg2 : (⟨S500x128, .f32⟩ : BufTy).Contents (Elt Ideal))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (W main_arg3 : (⟨S128, .f32⟩ : BufTy).Contents (Elt Ideal))))) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32)))) ((broadcastInDim S8192x128 ![0, 1] bcast_S1x128_S8192x128_0_1 : (⟨S1x128, .f32⟩ : BufTy).Contents (Elt Ideal) → (⟨S8192x128, .f32⟩ : BufTy).Contents (Elt Ideal)) ((mulf (F := Ideal) (φ := .f32) : (⟨S1x128, .f32⟩ : BufTy).Contents (Elt Ideal) → (⟨S1x128, .f32⟩ : BufTy).Contents (Elt Ideal) → (⟨S1x128, .f32⟩ : BufTy).Contents (Elt Ideal)) ((broadcastInDim S1x128 ![] bcast_S_S1x128 : (⟨S_, .f32⟩ : BufTy).Contents (Elt Ideal) → (⟨S1x128, .f32⟩ : BufTy).Contents (Elt Ideal)) (constant (F := Ideal) S_ .f32 0x3DCCCCCD#32)) ((broadcastInDim S1x128 ![1] bcast_S128_S1x128_1 : (⟨S128, .f32⟩ : BufTy).Contents (Elt Ideal) → (⟨S1x128, .f32⟩ : BufTy).Contents (Elt Ideal)) (W main_arg4 : (⟨S128, .f32⟩ : BufTy).Contents (Elt Ideal)))))))) := by
  dsimp only [hostOps1_2, hostOps1_3, hostOps1_4]
  after_results_simp
  all_goals rfl

end Cert.Proof.KerVal

end
-- ==== Proof.Host.In.lean ====
import proofs.«117539_j28759101014307_2_alg».proof.Proof.Host.TermsIn
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # The input stage: the normalising column, the input layer, the first right-hand sides -/

theorem slabW_0 (X : S4x128x128.Idx → EReal) (hs : S4x128x128.Slices ![0, 0, 0] S1x128x128) (hc : S1x128x128.ShapeCasts S128x128) (i j : Fin 128) :
    shapeCast S128x128 (extractStridedSlice S1x128x128 ![0, 0, 0] X hs) hc (ix2 i j) = X (ix3 (0 : Fin 4) i j) :=
  slab3_apply 0 X hs hc (by decide) i j
theorem rowB_0 (X : S4x128.Idx → EReal) (hs : S4x128.Slices ![0, 0] S1x128) (hc : S1x128.ShapeCasts S128) (i : Fin 128) :
    shapeCast S128 (extractStridedSlice S1x128 ![0, 0] X hs) hc (ix1 i) = X (ix2 (0 : Fin 4) i) :=
  row2_apply 0 X hs hc (by decide) i

theorem slabW_1 (X : S4x128x128.Idx → EReal) (hs : S4x128x128.Slices ![1, 0, 0] S1x128x128) (hc : S1x128x128.ShapeCasts S128x128) (i j : Fin 128) :
    shapeCast S128x128 (extractStridedSlice S1x128x128 ![1, 0, 0] X hs) hc (ix2 i j) = X (ix3 (1 : Fin 4) i j) :=
  slab3_apply 1 X hs hc (by decide) i j
theorem rowB_1 (X : S4x128.Idx → EReal) (hs : S4x128.Slices ![1, 0] S1x128) (hc : S1x128.ShapeCasts S128) (i : Fin 128) :
    shapeCast S128 (extractStridedSlice S1x128 ![1, 0] X hs) hc (ix1 i) = X (ix2 (1 : Fin 4) i) :=
  row2_apply 1 X hs hc (by decide) i

theorem slabW_2 (X : S4x128x128.Idx → EReal) (hs : S4x128x128.Slices ![2, 0, 0] S1x128x128) (hc : S1x128x128.ShapeCasts S128x128) (i j : Fin 128) :
    shapeCast S128x128 (extractStridedSlice S1x128x128 ![2, 0, 0] X hs) hc (ix2 i j) = X (ix3 (2 : Fin 4) i j) :=
  slab3_apply 2 X hs hc (by decide) i j
theorem rowB_2 (X : S4x128.Idx → EReal) (hs : S4x128.Slices ![2, 0] S1x128) (hc : S1x128.ShapeCasts S128) (i : Fin 128) :
    shapeCast S128 (extractStridedSlice S1x128 ![2, 0] X hs) hc (ix1 i) = X (ix2 (2 : Fin 4) i) :=
  row2_apply 2 X hs hc (by decide) i

theorem slabW_3 (X : S4x128x128.Idx → EReal) (hs : S4x128x128.Slices ![3, 0, 0] S1x128x128) (hc : S1x128x128.ShapeCasts S128x128) (i j : Fin 128) :
    shapeCast S128x128 (extractStridedSlice S1x128x128 ![3, 0, 0] X hs) hc (ix2 i j) = X (ix3 (3 : Fin 4) i j) :=
  slab3_apply 3 X hs hc (by decide) i j
theorem rowB_3 (X : S4x128.Idx → EReal) (hs : S4x128.Slices ![3, 0] S1x128) (hc : S1x128.ShapeCasts S128) (i : Fin 128) :
    shapeCast S128 (extractStridedSlice S1x128 ![3, 0] X hs) hc (ix1 i) = X (ix2 (3 : Fin 4) i) :=
  row2_apply 3 X hs hc (by decide) i

/-- A select on a decided comparison is the `if`. -/
theorem select_ofBool (p : Prop) [Decidable p] {α : Type} (a b : α) :
    Scalar.select (BitVec.ofBool (decide p)) a b = if p then a else b := by
  by_cases h : p <;> simp [Scalar.select, h]

/-- The input layer on the argument arrays. -/
abbrev hzA (A0 : S8192x500.Idx → EReal) (A2 : S500x128.Idx → EReal) (A3 A4 : S128.Idx → EReal) : Fin 8192 → Fin 128 → EReal :=
  Spec.h0 Spec.Shaped.a9 Spec.Shaped.a1 (fun i k => A0 (ix2 i k)) (fun k j => A2 (ix2 k j)) (fun j => A3 (ix1 j)) (fun j => A4 (ix1 j))

theorem val_v6 (W : Valuation τ sig (Elt Ideal)) (adj : Fin 8192 → Fin 8192 → EReal)
    (h00 : (W main_v0_0 : S8192x1.Idx → EReal) = fun idx => ∑ k, adj (idx 0) k) :
    ((after hostOps1_1 (after hostOps1 W)) main_v6 : S8192x1.Idx → EReal) = fun idx => Spec.dinv (Spec.degK adj) (idx 0) := by
  refine (tm_v6 W).trans ?_
  funext idx
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq, Host.rsqrt, Ideal.cmpf_def, Ideal.cmp, ofBits_one_f32, Ideal.hostUnary_rsqrt_def, select_ofBool]
  rw [h00]
  rfl

abbrev stB (W : Valuation τ sig (Elt Ideal)) : Valuation τ sig (Elt Ideal) := after hostOps1_4 (after hostOps1_3 (after hostOps1_2 W))

theorem val_v7 (W : Valuation τ sig (Elt Ideal)) (dv : Fin 8192 → EReal)
    (h6 : (W main_v6 : S8192x1.Idx → EReal) = fun idx => dv (idx 0)) :
    (after hostOps1_2 W main_v7 : S8192x1.Idx → EReal) = fun idx => dv (idx 0) * dv (idx 0) := by
  refine (tm_v7 W).trans ?_
  funext idx
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  rw [h6]

theorem val_v19 (W : Valuation τ sig (Elt Ideal)) (A0 : S8192x500.Idx → EReal) (A2 : S500x128.Idx → EReal) (A3 A4 : S128.Idx → EReal)
    (h0 : (W main_arg0 : S8192x500.Idx → EReal) = A0) (h2 : (W main_arg2 : S500x128.Idx → EReal) = A2)
    (h3 : (W main_arg3 : S128.Idx → EReal) = A3) (h4 : (W main_arg4 : S128.Idx → EReal) = A4) :
    (stB W main_v19 : S8192x128.Idx → EReal) = fun idx => hzA A0 A2 A3 A4 (idx 0) (idx 1) := by
  subst h0 h2 h3 h4
  refine (tm_v19 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  rfl

theorem val_v22 (W : Valuation τ sig (Elt Ideal)) (A0 : S8192x500.Idx → EReal) (A2 : S500x128.Idx → EReal) (A3 A4 : S128.Idx → EReal) (A7 : S4x128x128.Idx → EReal)
    (h0 : (W main_arg0 : S8192x500.Idx → EReal) = A0) (h2 : (W main_arg2 : S500x128.Idx → EReal) = A2)
    (h3 : (W main_arg3 : S128.Idx → EReal) = A3) (h4 : (W main_arg4 : S128.Idx → EReal) = A4) (h7 : (W main_arg7 : S4x128x128.Idx → EReal) = A7) :
    (stB W main_v22 : S8192x128.Idx → EReal) = fun idx => ∑ t : Fin 128, hzA A0 A2 A3 A4 (idx 0) t * A7 (ix3 (0 : Fin 4) t (idx 1)) := by
  subst h0 h2 h3 h4 h7
  refine (tm_v22 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  rfl

theorem val_v25 (W : Valuation τ sig (Elt Ideal)) (dv : Fin 8192 → EReal) (A0 : S8192x500.Idx → EReal) (A2 : S500x128.Idx → EReal) (A3 A4 : S128.Idx → EReal) (A7 : S4x128x128.Idx → EReal)
    (h6 : (W main_v6 : S8192x1.Idx → EReal) = fun idx => dv (idx 0))
    (h0 : (W main_arg0 : S8192x500.Idx → EReal) = A0) (h2 : (W main_arg2 : S500x128.Idx → EReal) = A2)
    (h3 : (W main_arg3 : S128.Idx → EReal) = A3) (h4 : (W main_arg4 : S128.Idx → EReal) = A4) (h7 : (W main_arg7 : S4x128x128.Idx → EReal) = A7) :
    (stB W main_v25 : S8192x128.Idx → EReal) = fun idx => dv (idx 0) * ∑ t : Fin 128, hzA A0 A2 A3 A4 (idx 0) t * A7 (ix3 (0 : Fin 4) t (idx 1)) := by
  subst h0 h2 h3 h4 h7
  refine (tm_v25 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  rw [h6]
  rfl

theorem val_v28 (W : Valuation τ sig (Elt Ideal)) (dv : Fin 8192 → EReal) (A0 : S8192x500.Idx → EReal) (A2 : S500x128.Idx → EReal) (A3 A4 : S128.Idx → EReal)
    (h6 : (W main_v6 : S8192x1.Idx → EReal) = fun idx => dv (idx 0))
    (h0 : (W main_arg0 : S8192x500.Idx → EReal) = A0) (h2 : (W main_arg2 : S500x128.Idx → EReal) = A2)
    (h3 : (W main_arg3 : S128.Idx → EReal) = A3) (h4 : (W main_arg4 : S128.Idx → EReal) = A4) :
    (stB W main_v28 : S8192x128.Idx → EReal) = fun idx => dv (idx 0) * hzA A0 A2 A3 A4 (idx 0) (idx 1) := by
  subst h0 h2 h3 h4
  refine (tm_v28 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  rw [h6]
  rfl

end Cert.Proof.KerVal

end
-- ==== Proof.Host.L0.lean ====
import proofs.«117539_j28759101014307_2_alg».proof.Proof.Host.In
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # Layer 1: its combination, its second branch, and what it hands to the next product -/

theorem tm0_v44 (W : Valuation τ sig (Elt Ideal)) :
    ((after hostOps2 W) main_v44 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v29_0 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v22 : (⟨S8192x128, .f32⟩ : BufTy).Contents (Elt Ideal)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![0, 0] · slices_S4x128_S1x128_0_0) : (⟨S4x128, .f32⟩ : BufTy).Contents (Elt Ideal) → (⟨S1x128, .f32⟩ : BufTy).Contents (Elt Ideal)) (W main_arg8 : (⟨S4x128, .f32⟩ : BufTy).Contents (Elt Ideal))) shapeCasts_S1x128_S128)))) := by
  dsimp only [hostOps2]
  after_results_simp
  all_goals rfl

theorem tm0_v62 (W : Valuation τ sig (Elt Ideal)) :
    ((after hostOps2 W) main_v62 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F183370#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v29_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v19 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3ECF991F#32)) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v29_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v19 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal)))) (shapeCast S128x128 (((extractStridedSlice S1x128x128 ![0, 0, 0] · slices_S4x128x128_S1x128x128_0_0_0) : (⟨S4x128x128, .f32⟩ : BufTy).Contents (Elt Ideal) → (⟨S1x128x128, .f32⟩ : BufTy).Contents (Elt Ideal)) (W main_arg5 : (⟨S4x128x128, .f32⟩ : BufTy).Contents (Elt Ideal))) shapeCasts_S1x128x128_S128x128)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![0, 0] · slices_S4x128_S1x128_0_0) : (⟨S4x128, .f32⟩ : BufTy).Contents (Elt Ideal) → (⟨S1x128, .f32⟩ : BufTy).Contents (Elt Ideal)) (W main_arg6 : (⟨S4x128, .f32⟩ : BufTy).Contents (Elt Ideal))) shapeCasts_S1x128_S128)))) := by
  dsimp only [hostOps2]
  after_results_simp
  all_goals rfl

theorem tm0_v63 (W : Valuation τ sig (Elt Ideal)) :
    ((after hostOps2_1 W) main_v63 : (⟨S8192x128, .f32⟩ : BufTy).Contents (Elt Ideal)) = ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v62 : (⟨S8192x128, .f32⟩ : BufTy).Contents (Elt Ideal)) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32))) := by
  dsimp only [hostOps2_1]
  after_results_simp
  all_goals rfl

theorem tm0_v64 (W : Valuation τ sig (Elt Ideal)) :
    ((after hostOps2_2 W) main_v64 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v44 : (⟨S8192x128, .f32⟩ : BufTy).Contents (Elt Ideal)) (W main_v63 : (⟨S8192x128, .f32⟩ : BufTy).Contents (Elt Ideal))) := by
  dsimp only [hostOps2_2]
  after_results_simp
  all_goals rfl

theorem tm0_v67 (W : Valuation τ sig (Elt Ideal)) :
    ((after hostOps2_2 W) main_v67 : (⟨S8192x128, .f32⟩ : BufTy).Contents (Elt Ideal)) = (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v44 : (⟨S8192x128, .f32⟩ : BufTy).Contents (Elt Ideal)) (W main_v63 : (⟨S8192x128, .f32⟩ : BufTy).Contents (Elt Ideal))) (shapeCast S128x128 (((extractStridedSlice S1x128x128 ![1, 0, 0] · slices_S4x128x128_S1x128x128_1_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)) := by
  dsimp only [hostOps2_2]
  after_results_simp
  all_goals rfl

theorem tm0_v70 (W : Valuation τ sig (Elt Ideal)) :
    ((after hostOps2_2 W) main_v70 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v44 : (⟨S8192x128, .f32⟩ : BufTy).Contents (Elt Ideal)) (W main_v63 : (⟨S8192x128, .f32⟩ : BufTy).Contents (Elt Ideal))) (shapeCast S128x128 (((extractStridedSlice S1x128x128 ![1, 0, 0] · slices_S4x128x128_S1x128x128_1_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)))) := by
  dsimp only [hostOps2_2]
  after_results_simp
  all_goals rfl

theorem tm0_v73 (W : Valuation τ sig (Elt Ideal)) :
    ((after hostOps2_2 W) main_v73 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v44 : (⟨S8192x128, .f32⟩ : BufTy).Contents (Elt Ideal)) (W main_v63 : (⟨S8192x128, .f32⟩ : BufTy).Contents (Elt Ideal))))) := by
  dsimp only [hostOps2_2]
  after_results_simp
  all_goals rfl

/-- The first branch: the propagated product, plus the bias. -/
theorem val0_v44 (W : Valuation τ sig (Elt Ideal)) (dv : Fin 8192 → EReal) (hz y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1))
    (hy : (W main_v22 : S8192x128.Idx → EReal) = fun idx => y (idx 0) (idx 1))
    (hr0 : (W main_v29_0 : S8192x128.Idx → EReal) = fun idx => r0 (idx 0) (idx 1)) (hr1 : (W main_v29_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps2 W main_v44 : S8192x128.Idx → EReal) = fun idx => (dv (idx 0) * r0 (idx 0) (idx 1) + dv (idx 0) * dv (idx 0) * y (idx 0) (idx 1)) + A8 (ix2 (0 : Fin 4) (idx 1)) := by
  subst h5 h6a h8
  refine (tm0_v44 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hy, hr0, hr1]
  try rfl

/-- The second branch before its maximum with zero. -/
theorem val0_v62 (W : Valuation τ sig (Elt Ideal)) (dv : Fin 8192 → EReal) (hz y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1))
    (hy : (W main_v22 : S8192x128.Idx → EReal) = fun idx => y (idx 0) (idx 1))
    (hr0 : (W main_v29_0 : S8192x128.Idx → EReal) = fun idx => r0 (idx 0) (idx 1)) (hr1 : (W main_v29_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps2 W main_v62 : S8192x128.Idx → EReal) = fun idx =>
      (Spec.Shaped.ob 0 * (Spec.Shaped.a9 * (dv (idx 0) * r1 (idx 0) (idx 1) + dv (idx 0) * dv (idx 0) * hz (idx 0) (idx 1)) + Spec.Shaped.a1 * hz (idx 0) (idx 1))
        + Spec.Shaped.be 0 * ∑ k : Fin 128, (Spec.Shaped.a9 * (dv (idx 0) * r1 (idx 0) k + dv (idx 0) * dv (idx 0) * hz (idx 0) k) + Spec.Shaped.a1 * hz (idx 0) k) * A5 (ix3 (0 : Fin 4) k (idx 1)))
        + A6 (ix2 (0 : Fin 4) (idx 1)) := by
  subst h5 h6a h8
  refine (tm0_v62 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hy, hr0, hr1]
  try rfl

/-- The maximum with zero. -/
theorem val0_v63 (W : Valuation τ sig (Elt Ideal)) (q : S8192x128.Idx → EReal) (h62 : (W main_v62 : S8192x128.Idx → EReal) = q) :
    (after hostOps2_1 W main_v63 : S8192x128.Idx → EReal) = fun idx => max (q idx) 0 := by
  subst h62
  refine (tm0_v63 W).trans ?_
  funext idx
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]

theorem val0_v64 (W : Valuation τ sig (Elt Ideal)) (dv : Fin 8192 → EReal) (P G : Fin 8192 → Fin 128 → EReal)
    (h44 : (W main_v44 : S8192x128.Idx → EReal) = fun idx => P (idx 0) (idx 1)) (h63 : (W main_v63 : S8192x128.Idx → EReal) = fun idx => G (idx 0) (idx 1))
    (h6 : (W main_v6 : S8192x1.Idx → EReal) = fun idx => dv (idx 0)) :
    (after hostOps2_2 W main_v64 : S8192x128.Idx → EReal) = fun idx => P (idx 0) (idx 1) + G (idx 0) (idx 1) := by
  refine (tm0_v64 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val0_v67 (W : Valuation τ sig (Elt Ideal)) (dv : Fin 8192 → EReal) (P G : Fin 8192 → Fin 128 → EReal)
    (h44 : (W main_v44 : S8192x128.Idx → EReal) = fun idx => P (idx 0) (idx 1)) (h63 : (W main_v63 : S8192x128.Idx → EReal) = fun idx => G (idx 0) (idx 1))
    (h6 : (W main_v6 : S8192x1.Idx → EReal) = fun idx => dv (idx 0)) (A7 : S4x128x128.Idx → EReal) (h7a : (W main_arg7 : S4x128x128.Idx → EReal) = A7) :
    (after hostOps2_2 W main_v67 : S8192x128.Idx → EReal) = fun idx => ∑ t : Fin 128, (P (idx 0) t + G (idx 0) t) * A7 (ix3 (1 : Fin 4) t (idx 1)) := by
  subst h7a
  refine (tm0_v67 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val0_v70 (W : Valuation τ sig (Elt Ideal)) (dv : Fin 8192 → EReal) (P G : Fin 8192 → Fin 128 → EReal)
    (h44 : (W main_v44 : S8192x128.Idx → EReal) = fun idx => P (idx 0) (idx 1)) (h63 : (W main_v63 : S8192x128.Idx → EReal) = fun idx => G (idx 0) (idx 1))
    (h6 : (W main_v6 : S8192x1.Idx → EReal) = fun idx => dv (idx 0)) (A7 : S4x128x128.Idx → EReal) (h7a : (W main_arg7 : S4x128x128.Idx → EReal) = A7) :
    (after hostOps2_2 W main_v70 : S8192x128.Idx → EReal) = fun idx => dv (idx 0) * ∑ t : Fin 128, (P (idx 0) t + G (idx 0) t) * A7 (ix3 (1 : Fin 4) t (idx 1)) := by
  subst h7a
  refine (tm0_v70 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val0_v73 (W : Valuation τ sig (Elt Ideal)) (dv : Fin 8192 → EReal) (P G : Fin 8192 → Fin 128 → EReal)
    (h44 : (W main_v44 : S8192x128.Idx → EReal) = fun idx => P (idx 0) (idx 1)) (h63 : (W main_v63 : S8192x128.Idx → EReal) = fun idx => G (idx 0) (idx 1))
    (h6 : (W main_v6 : S8192x1.Idx → EReal) = fun idx => dv (idx 0)) :
    (after hostOps2_2 W main_v73 : S8192x128.Idx → EReal) = fun idx => dv (idx 0) * (P (idx 0) (idx 1) + G (idx 0) (idx 1)) := by
  refine (tm0_v73 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

end Cert.Proof.KerVal

end
-- ==== Proof.Host.L1.lean ====
import proofs.«117539_j28759101014307_2_alg».proof.Proof.Host.In
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # Layer 2: its combination, its second branch, and what it hands to the next product -/

theorem tm1_v44 (W : Valuation τ sig (Elt Ideal)) :
    ((after hostOps3 W) main_v89 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v74_0 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v67 : (⟨S8192x128, .f32⟩ : BufTy).Contents (Elt Ideal)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![1, 0] · slices_S4x128_S1x128_1_0) : (⟨S4x128, .f32⟩ : BufTy).Contents (Elt Ideal) → (⟨S1x128, .f32⟩ : BufTy).Contents (Elt Ideal)) (W main_arg8 : (⟨S4x128, .f32⟩ : BufTy).Contents (Elt Ideal))) shapeCasts_S1x128_S128)))) := by
  dsimp only [hostOps3]
  after_results_simp
  all_goals rfl

theorem tm1_v62 (W : Valuation τ sig (Elt Ideal)) :
    ((after hostOps3 W) main_v107 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F46E010#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v74_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v64 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3E647FBE#32)) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v74_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v64 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal)))) (shapeCast S128x128 (((extractStridedSlice S1x128x128 ![1, 0, 0] · slices_S4x128x128_S1x128x128_1_0_0) : (⟨S4x128x128, .f32⟩ : BufTy).Contents (Elt Ideal) → (⟨S1x128x128, .f32⟩ : BufTy).Contents (Elt Ideal)) (W main_arg5 : (⟨S4x128x128, .f32⟩ : BufTy).Contents (Elt Ideal))) shapeCasts_S1x128x128_S128x128)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![1, 0] · slices_S4x128_S1x128_1_0) : (⟨S4x128, .f32⟩ : BufTy).Contents (Elt Ideal) → (⟨S1x128, .f32⟩ : BufTy).Contents (Elt Ideal)) (W main_arg6 : (⟨S4x128, .f32⟩ : BufTy).Contents (Elt Ideal))) shapeCasts_S1x128_S128)))) := by
  dsimp only [hostOps3]
  after_results_simp
  all_goals rfl

theorem tm1_v63 (W : Valuation τ sig (Elt Ideal)) :
    ((after hostOps3_1 W) main_v108 : (⟨S8192x128, .f32⟩ : BufTy).Contents (Elt Ideal)) = ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v107 : (⟨S8192x128, .f32⟩ : BufTy).Contents (Elt Ideal)) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32))) := by
  dsimp only [hostOps3_1]
  after_results_simp
  all_goals rfl

theorem tm1_v64 (W : Valuation τ sig (Elt Ideal)) :
    ((after hostOps3_2 W) main_v109 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v89 : (⟨S8192x128, .f32⟩ : BufTy).Contents (Elt Ideal)) (W main_v108 : (⟨S8192x128, .f32⟩ : BufTy).Contents (Elt Ideal))) := by
  dsimp only [hostOps3_2]
  after_results_simp
  all_goals rfl

theorem tm1_v67 (W : Valuation τ sig (Elt Ideal)) :
    ((after hostOps3_2 W) main_v112 : (⟨S8192x128, .f32⟩ : BufTy).Contents (Elt Ideal)) = (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v89 : (⟨S8192x128, .f32⟩ : BufTy).Contents (Elt Ideal)) (W main_v108 : (⟨S8192x128, .f32⟩ : BufTy).Contents (Elt Ideal))) (shapeCast S128x128 (((extractStridedSlice S1x128x128 ![2, 0, 0] · slices_S4x128x128_S1x128x128_2_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)) := by
  dsimp only [hostOps3_2]
  after_results_simp
  all_goals rfl

theorem tm1_v70 (W : Valuation τ sig (Elt Ideal)) :
    ((after hostOps3_2 W) main_v115 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v89 : (⟨S8192x128, .f32⟩ : BufTy).Contents (Elt Ideal)) (W main_v108 : (⟨S8192x128, .f32⟩ : BufTy).Contents (Elt Ideal))) (shapeCast S128x128 (((extractStridedSlice S1x128x128 ![2, 0, 0] · slices_S4x128x128_S1x128x128_2_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)))) := by
  dsimp only [hostOps3_2]
  after_results_simp
  all_goals rfl

theorem tm1_v73 (W : Valuation τ sig (Elt Ideal)) :
    ((after hostOps3_2 W) main_v118 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v89 : (⟨S8192x128, .f32⟩ : BufTy).Contents (Elt Ideal)) (W main_v108 : (⟨S8192x128, .f32⟩ : BufTy).Contents (Elt Ideal))))) := by
  dsimp only [hostOps3_2]
  after_results_simp
  all_goals rfl

/-- The first branch: the propagated product, plus the bias. -/
theorem val1_v44 (W : Valuation τ sig (Elt Ideal)) (dv : Fin 8192 → EReal) (hz h y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1)) (hh : (W main_v64 : S8192x128.Idx → EReal) = fun idx => h (idx 0) (idx 1))
    (hy : (W main_v67 : S8192x128.Idx → EReal) = fun idx => y (idx 0) (idx 1))
    (hr0 : (W main_v74_0 : S8192x128.Idx → EReal) = fun idx => r0 (idx 0) (idx 1)) (hr1 : (W main_v74_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps3 W main_v89 : S8192x128.Idx → EReal) = fun idx => (dv (idx 0) * r0 (idx 0) (idx 1) + dv (idx 0) * dv (idx 0) * y (idx 0) (idx 1)) + A8 (ix2 (1 : Fin 4) (idx 1)) := by
  subst h5 h6a h8
  refine (tm1_v44 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hh, hy, hr0, hr1]
  try rfl

/-- The second branch before its maximum with zero. -/
theorem val1_v62 (W : Valuation τ sig (Elt Ideal)) (dv : Fin 8192 → EReal) (hz h y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1)) (hh : (W main_v64 : S8192x128.Idx → EReal) = fun idx => h (idx 0) (idx 1))
    (hy : (W main_v67 : S8192x128.Idx → EReal) = fun idx => y (idx 0) (idx 1))
    (hr0 : (W main_v74_0 : S8192x128.Idx → EReal) = fun idx => r0 (idx 0) (idx 1)) (hr1 : (W main_v74_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps3 W main_v107 : S8192x128.Idx → EReal) = fun idx =>
      (Spec.Shaped.ob 1 * (Spec.Shaped.a9 * (dv (idx 0) * r1 (idx 0) (idx 1) + dv (idx 0) * dv (idx 0) * h (idx 0) (idx 1)) + Spec.Shaped.a1 * hz (idx 0) (idx 1))
        + Spec.Shaped.be 1 * ∑ k : Fin 128, (Spec.Shaped.a9 * (dv (idx 0) * r1 (idx 0) k + dv (idx 0) * dv (idx 0) * h (idx 0) k) + Spec.Shaped.a1 * hz (idx 0) k) * A5 (ix3 (1 : Fin 4) k (idx 1)))
        + A6 (ix2 (1 : Fin 4) (idx 1)) := by
  subst h5 h6a h8
  refine (tm1_v62 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hh, hy, hr0, hr1]
  try rfl

/-- The maximum with zero. -/
theorem val1_v63 (W : Valuation τ sig (Elt Ideal)) (q : S8192x128.Idx → EReal) (h62 : (W main_v107 : S8192x128.Idx → EReal) = q) :
    (after hostOps3_1 W main_v108 : S8192x128.Idx → EReal) = fun idx => max (q idx) 0 := by
  subst h62
  refine (tm1_v63 W).trans ?_
  funext idx
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]

theorem val1_v64 (W : Valuation τ sig (Elt Ideal)) (dv : Fin 8192 → EReal) (P G : Fin 8192 → Fin 128 → EReal)
    (h44 : (W main_v89 : S8192x128.Idx → EReal) = fun idx => P (idx 0) (idx 1)) (h63 : (W main_v108 : S8192x128.Idx → EReal) = fun idx => G (idx 0) (idx 1))
    (h6 : (W main_v6 : S8192x1.Idx → EReal) = fun idx => dv (idx 0)) :
    (after hostOps3_2 W main_v109 : S8192x128.Idx → EReal) = fun idx => P (idx 0) (idx 1) + G (idx 0) (idx 1) := by
  refine (tm1_v64 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val1_v67 (W : Valuation τ sig (Elt Ideal)) (dv : Fin 8192 → EReal) (P G : Fin 8192 → Fin 128 → EReal)
    (h44 : (W main_v89 : S8192x128.Idx → EReal) = fun idx => P (idx 0) (idx 1)) (h63 : (W main_v108 : S8192x128.Idx → EReal) = fun idx => G (idx 0) (idx 1))
    (h6 : (W main_v6 : S8192x1.Idx → EReal) = fun idx => dv (idx 0)) (A7 : S4x128x128.Idx → EReal) (h7a : (W main_arg7 : S4x128x128.Idx → EReal) = A7) :
    (after hostOps3_2 W main_v112 : S8192x128.Idx → EReal) = fun idx => ∑ t : Fin 128, (P (idx 0) t + G (idx 0) t) * A7 (ix3 (2 : Fin 4) t (idx 1)) := by
  subst h7a
  refine (tm1_v67 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val1_v70 (W : Valuation τ sig (Elt Ideal)) (dv : Fin 8192 → EReal) (P G : Fin 8192 → Fin 128 → EReal)
    (h44 : (W main_v89 : S8192x128.Idx → EReal) = fun idx => P (idx 0) (idx 1)) (h63 : (W main_v108 : S8192x128.Idx → EReal) = fun idx => G (idx 0) (idx 1))
    (h6 : (W main_v6 : S8192x1.Idx → EReal) = fun idx => dv (idx 0)) (A7 : S4x128x128.Idx → EReal) (h7a : (W main_arg7 : S4x128x128.Idx → EReal) = A7) :
    (after hostOps3_2 W main_v115 : S8192x128.Idx → EReal) = fun idx => dv (idx 0) * ∑ t : Fin 128, (P (idx 0) t + G (idx 0) t) * A7 (ix3 (2 : Fin 4) t (idx 1)) := by
  subst h7a
  refine (tm1_v70 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val1_v73 (W : Valuation τ sig (Elt Ideal)) (dv : Fin 8192 → EReal) (P G : Fin 8192 → Fin 128 → EReal)
    (h44 : (W main_v89 : S8192x128.Idx → EReal) = fun idx => P (idx 0) (idx 1)) (h63 : (W main_v108 : S8192x128.Idx → EReal) = fun idx => G (idx 0) (idx 1))
    (h6 : (W main_v6 : S8192x1.Idx → EReal) = fun idx => dv (idx 0)) :
    (after hostOps3_2 W main_v118 : S8192x128.Idx → EReal) = fun idx => dv (idx 0) * (P (idx 0) (idx 1) + G (idx 0) (idx 1)) := by
  refine (tm1_v73 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

end Cert.Proof.KerVal

end
-- ==== Proof.Host.L2.lean ====
import proofs.«117539_j28759101014307_2_alg».proof.Proof.Host.In
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # Layer 3: its combination, its second branch, and what it hands to the next product -/

theorem tm2_v44 (W : Valuation τ sig (Elt Ideal)) :
    ((after hostOps4 W) main_v134 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v119_0 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v112 : (⟨S8192x128, .f32⟩ : BufTy).Contents (Elt Ideal)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![2, 0] · slices_S4x128_S1x128_2_0) : (⟨S4x128, .f32⟩ : BufTy).Contents (Elt Ideal) → (⟨S1x128, .f32⟩ : BufTy).Contents (Elt Ideal)) (W main_arg8 : (⟨S4x128, .f32⟩ : BufTy).Contents (Elt Ideal))) shapeCasts_S1x128_S128)))) := by
  dsimp only [hostOps4]
  after_results_simp
  all_goals rfl

theorem tm2_v62 (W : Valuation τ sig (Elt Ideal)) :
    ((after hostOps4 W) main_v152 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F588995#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v119_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v109 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3E1DD9AD#32)) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v119_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v109 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal)))) (shapeCast S128x128 (((extractStridedSlice S1x128x128 ![2, 0, 0] · slices_S4x128x128_S1x128x128_2_0_0) : (⟨S4x128x128, .f32⟩ : BufTy).Contents (Elt Ideal) → (⟨S1x128x128, .f32⟩ : BufTy).Contents (Elt Ideal)) (W main_arg5 : (⟨S4x128x128, .f32⟩ : BufTy).Contents (Elt Ideal))) shapeCasts_S1x128x128_S128x128)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![2, 0] · slices_S4x128_S1x128_2_0) : (⟨S4x128, .f32⟩ : BufTy).Contents (Elt Ideal) → (⟨S1x128, .f32⟩ : BufTy).Contents (Elt Ideal)) (W main_arg6 : (⟨S4x128, .f32⟩ : BufTy).Contents (Elt Ideal))) shapeCasts_S1x128_S128)))) := by
  dsimp only [hostOps4]
  after_results_simp
  all_goals rfl

theorem tm2_v63 (W : Valuation τ sig (Elt Ideal)) :
    ((after hostOps4_1 W) main_v153 : (⟨S8192x128, .f32⟩ : BufTy).Contents (Elt Ideal)) = ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v152 : (⟨S8192x128, .f32⟩ : BufTy).Contents (Elt Ideal)) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32))) := by
  dsimp only [hostOps4_1]
  after_results_simp
  all_goals rfl

theorem tm2_v64 (W : Valuation τ sig (Elt Ideal)) :
    ((after hostOps4_2 W) main_v154 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v134 : (⟨S8192x128, .f32⟩ : BufTy).Contents (Elt Ideal)) (W main_v153 : (⟨S8192x128, .f32⟩ : BufTy).Contents (Elt Ideal))) := by
  dsimp only [hostOps4_2]
  after_results_simp
  all_goals rfl

theorem tm2_v67 (W : Valuation τ sig (Elt Ideal)) :
    ((after hostOps4_2 W) main_v157 : (⟨S8192x128, .f32⟩ : BufTy).Contents (Elt Ideal)) = (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v134 : (⟨S8192x128, .f32⟩ : BufTy).Contents (Elt Ideal)) (W main_v153 : (⟨S8192x128, .f32⟩ : BufTy).Contents (Elt Ideal))) (shapeCast S128x128 (((extractStridedSlice S1x128x128 ![3, 0, 0] · slices_S4x128x128_S1x128x128_3_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)) := by
  dsimp only [hostOps4_2]
  after_results_simp
  all_goals rfl

theorem tm2_v70 (W : Valuation τ sig (Elt Ideal)) :
    ((after hostOps4_2 W) main_v160 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v134 : (⟨S8192x128, .f32⟩ : BufTy).Contents (Elt Ideal)) (W main_v153 : (⟨S8192x128, .f32⟩ : BufTy).Contents (Elt Ideal))) (shapeCast S128x128 (((extractStridedSlice S1x128x128 ![3, 0, 0] · slices_S4x128x128_S1x128x128_3_0_0) : (⟨S4x128x128, .f32⟩ : BufTy).Contents (Elt Ideal) → (⟨S1x128x128, .f32⟩ : BufTy).Contents (Elt Ideal)) (W main_arg7 : (⟨S4x128x128, .f32⟩ : BufTy).Contents (Elt Ideal))) shapeCasts_S1x128x128_S128x128)))) := by
  dsimp only [hostOps4_2]
  after_results_simp
  all_goals rfl

theorem tm2_v73 (W : Valuation τ sig (Elt Ideal)) :
    ((after hostOps4_2 W) main_v163 : (⟨S8192x128, .bf16⟩ : BufTy).Contents (Elt Ideal)) = (((truncf (F := Ideal) (φ := .f32) .bf16 · bitsLt_bf16_f32) : (⟨S8192x128, .f32⟩ : BufTy).Contents (Elt Ideal) → (⟨S8192x128, .bf16⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v134 : (⟨S8192x128, .f32⟩ : BufTy).Contents (Elt Ideal)) (W main_v153 : (⟨S8192x128, .f32⟩ : BufTy).Contents (Elt Ideal))))) := by
  dsimp only [hostOps4_2]
  after_results_simp
  all_goals rfl

/-- The first branch: the propagated product, plus the bias. -/
theorem val2_v44 (W : Valuation τ sig (Elt Ideal)) (dv : Fin 8192 → EReal) (hz h y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1)) (hh : (W main_v109 : S8192x128.Idx → EReal) = fun idx => h (idx 0) (idx 1))
    (hy : (W main_v112 : S8192x128.Idx → EReal) = fun idx => y (idx 0) (idx 1))
    (hr0 : (W main_v119_0 : S8192x128.Idx → EReal) = fun idx => r0 (idx 0) (idx 1)) (hr1 : (W main_v119_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps4 W main_v134 : S8192x128.Idx → EReal) = fun idx => (dv (idx 0) * r0 (idx 0) (idx 1) + dv (idx 0) * dv (idx 0) * y (idx 0) (idx 1)) + A8 (ix2 (2 : Fin 4) (idx 1)) := by
  subst h5 h6a h8
  refine (tm2_v44 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hh, hy, hr0, hr1]
  try rfl

/-- The second branch before its maximum with zero. -/
theorem val2_v62 (W : Valuation τ sig (Elt Ideal)) (dv : Fin 8192 → EReal) (hz h y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1)) (hh : (W main_v109 : S8192x128.Idx → EReal) = fun idx => h (idx 0) (idx 1))
    (hy : (W main_v112 : S8192x128.Idx → EReal) = fun idx => y (idx 0) (idx 1))
    (hr0 : (W main_v119_0 : S8192x128.Idx → EReal) = fun idx => r0 (idx 0) (idx 1)) (hr1 : (W main_v119_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps4 W main_v152 : S8192x128.Idx → EReal) = fun idx =>
      (Spec.Shaped.ob 2 * (Spec.Shaped.a9 * (dv (idx 0) * r1 (idx 0) (idx 1) + dv (idx 0) * dv (idx 0) * h (idx 0) (idx 1)) + Spec.Shaped.a1 * hz (idx 0) (idx 1))
        + Spec.Shaped.be 2 * ∑ k : Fin 128, (Spec.Shaped.a9 * (dv (idx 0) * r1 (idx 0) k + dv (idx 0) * dv (idx 0) * h (idx 0) k) + Spec.Shaped.a1 * hz (idx 0) k) * A5 (ix3 (2 : Fin 4) k (idx 1)))
        + A6 (ix2 (2 : Fin 4) (idx 1)) := by
  subst h5 h6a h8
  refine (tm2_v62 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hh, hy, hr0, hr1]
  try rfl

/-- The maximum with zero. -/
theorem val2_v63 (W : Valuation τ sig (Elt Ideal)) (q : S8192x128.Idx → EReal) (h62 : (W main_v152 : S8192x128.Idx → EReal) = q) :
    (after hostOps4_1 W main_v153 : S8192x128.Idx → EReal) = fun idx => max (q idx) 0 := by
  subst h62
  refine (tm2_v63 W).trans ?_
  funext idx
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]

theorem val2_v64 (W : Valuation τ sig (Elt Ideal)) (dv : Fin 8192 → EReal) (P G : Fin 8192 → Fin 128 → EReal)
    (h44 : (W main_v134 : S8192x128.Idx → EReal) = fun idx => P (idx 0) (idx 1)) (h63 : (W main_v153 : S8192x128.Idx → EReal) = fun idx => G (idx 0) (idx 1))
    (h6 : (W main_v6 : S8192x1.Idx → EReal) = fun idx => dv (idx 0)) :
    (after hostOps4_2 W main_v154 : S8192x128.Idx → EReal) = fun idx => P (idx 0) (idx 1) + G (idx 0) (idx 1) := by
  refine (tm2_v64 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val2_v67 (W : Valuation τ sig (Elt Ideal)) (dv : Fin 8192 → EReal) (P G : Fin 8192 → Fin 128 → EReal)
    (h44 : (W main_v134 : S8192x128.Idx → EReal) = fun idx => P (idx 0) (idx 1)) (h63 : (W main_v153 : S8192x128.Idx → EReal) = fun idx => G (idx 0) (idx 1))
    (h6 : (W main_v6 : S8192x1.Idx → EReal) = fun idx => dv (idx 0)) (A7 : S4x128x128.Idx → EReal) (h7a : (W main_arg7 : S4x128x128.Idx → EReal) = A7) :
    (after hostOps4_2 W main_v157 : S8192x128.Idx → EReal) = fun idx => ∑ t : Fin 128, (P (idx 0) t + G (idx 0) t) * A7 (ix3 (3 : Fin 4) t (idx 1)) := by
  subst h7a
  refine (tm2_v67 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val2_v70 (W : Valuation τ sig (Elt Ideal)) (dv : Fin 8192 → EReal) (P G : Fin 8192 → Fin 128 → EReal)
    (h44 : (W main_v134 : S8192x128.Idx → EReal) = fun idx => P (idx 0) (idx 1)) (h63 : (W main_v153 : S8192x128.Idx → EReal) = fun idx => G (idx 0) (idx 1))
    (h6 : (W main_v6 : S8192x1.Idx → EReal) = fun idx => dv (idx 0)) (A7 : S4x128x128.Idx → EReal) (h7a : (W main_arg7 : S4x128x128.Idx → EReal) = A7) :
    (after hostOps4_2 W main_v160 : S8192x128.Idx → EReal) = fun idx => dv (idx 0) * ∑ t : Fin 128, (P (idx 0) t + G (idx 0) t) * A7 (ix3 (3 : Fin 4) t (idx 1)) := by
  subst h7a
  refine (tm2_v70 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

theorem val2_v73 (W : Valuation τ sig (Elt Ideal)) (dv : Fin 8192 → EReal) (P G : Fin 8192 → Fin 128 → EReal)
    (h44 : (W main_v134 : S8192x128.Idx → EReal) = fun idx => P (idx 0) (idx 1)) (h63 : (W main_v153 : S8192x128.Idx → EReal) = fun idx => G (idx 0) (idx 1))
    (h6 : (W main_v6 : S8192x1.Idx → EReal) = fun idx => dv (idx 0)) :
    (after hostOps4_2 W main_v163 : S8192x128.Idx → EReal) = fun idx => dv (idx 0) * (P (idx 0) (idx 1) + G (idx 0) (idx 1)) := by
  refine (tm2_v73 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63, h6]
  try rfl

end Cert.Proof.KerVal

end
-- ==== Proof.Host.L3.lean ====
import proofs.«117539_j28759101014307_2_alg».proof.Proof.Host.In
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # Layer 4: its combination, its second branch, and what it hands to the next product -/

theorem tm3_v44 (W : Valuation τ sig (Elt Ideal)) :
    ((after hostOps5 W) main_v179 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v164_0 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v157 : (⟨S8192x128, .f32⟩ : BufTy).Contents (Elt Ideal)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![3, 0] · slices_S4x128_S1x128_3_0) : (⟨S4x128, .f32⟩ : BufTy).Contents (Elt Ideal) → (⟨S1x128, .f32⟩ : BufTy).Contents (Elt Ideal)) (W main_arg8 : (⟨S4x128, .f32⟩ : BufTy).Contents (Elt Ideal))) shapeCasts_S1x128_S128)))) := by
  dsimp only [hostOps5]
  after_results_simp
  all_goals rfl

theorem tm3_v62 (W : Valuation τ sig (Elt Ideal)) :
    ((after hostOps5 W) main_v197 : (⟨S8192x128, .f32⟩ : BufTy).Contents (Elt Ideal)) = ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F61D8F9#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v164_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v154 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DF1383B#32)) (((fun l r => Host.dotGeneral (F := Ideal) (φ₁ := .f32) (φ₂ := .f32) dot_S8192x128_S128x128_S8192x128_1_0_0_1_n_n none l r) : (⟨S8192x128, .f32⟩ : BufTy).Contents (Elt Ideal) → (⟨S128x128, .f32⟩ : BufTy).Contents (Elt Ideal) → (⟨S8192x128, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3F666666#32)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v6 : (⟨S8192x1, .f32⟩ : BufTy).Contents (Elt Ideal))) (W main_v164_1 : (⟨S8192x128, .f32⟩ : BufTy).Contents (Elt Ideal))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![0, 1] bcast_S8192x1_S8192x128_0_1 : (⟨S8192x1, .f32⟩ : BufTy).Contents (Elt Ideal) → (⟨S8192x128, .f32⟩ : BufTy).Contents (Elt Ideal)) (W main_v7 : (⟨S8192x1, .f32⟩ : BufTy).Contents (Elt Ideal))) (W main_v154 : (⟨S8192x128, .f32⟩ : BufTy).Contents (Elt Ideal))))) ((mulf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) ((broadcastInDim S8192x128 ![] bcast_S_S8192x128 : (⟨S_, .f32⟩ : BufTy).Contents (Elt Ideal) → (⟨S8192x128, .f32⟩ : BufTy).Contents (Elt Ideal)) (constant (F := Ideal) S_ .f32 0x3DCCCCCD#32)) (W main_v19 : (⟨S8192x128, .f32⟩ : BufTy).Contents (Elt Ideal)))) (shapeCast S128x128 (((extractStridedSlice S1x128x128 ![3, 0, 0] · slices_S4x128x128_S1x128x128_3_0_0) : (⟨S4x128x128, .f32⟩ : BufTy).Contents (Elt Ideal) → (⟨S1x128x128, .f32⟩ : BufTy).Contents (Elt Ideal)) (W main_arg5 : (⟨S4x128x128, .f32⟩ : BufTy).Contents (Elt Ideal))) shapeCasts_S1x128x128_S128x128)))) ((broadcastInDim S8192x128 ![0, 1] bcast_S1x128_S8192x128_0_1 : (⟨S1x128, .f32⟩ : BufTy).Contents (Elt Ideal) → (⟨S8192x128, .f32⟩ : BufTy).Contents (Elt Ideal)) ((broadcastInDim S1x128 ![1] bcast_S128_S1x128_1 : (⟨S128, .f32⟩ : BufTy).Contents (Elt Ideal) → (⟨S1x128, .f32⟩ : BufTy).Contents (Elt Ideal)) (shapeCast S128 (((extractStridedSlice S1x128 ![3, 0] · slices_S4x128_S1x128_3_0) : (⟨S4x128, .f32⟩ : BufTy).Contents (Elt Ideal) → (⟨S1x128, .f32⟩ : BufTy).Contents (Elt Ideal)) (W main_arg6 : (⟨S4x128, .f32⟩ : BufTy).Contents (Elt Ideal))) shapeCasts_S1x128_S128)))) := by
  dsimp only [hostOps5]
  after_results_simp
  all_goals rfl

theorem tm3_v63 (W : Valuation τ sig (Elt Ideal)) :
    ((after hostOps5_1 W) main_v198 : (⟨S8192x128, .f32⟩ : BufTy).Contents (Elt Ideal)) = ((maximumf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v197 : (⟨S8192x128, .f32⟩ : BufTy).Contents (Elt Ideal)) (((broadcastInDim S8192x128 ![] bcast_S_S8192x128) : (⟨S_, .f32⟩ : BufTy).Contents (Elt Ideal) → (⟨S8192x128, .f32⟩ : BufTy).Contents (Elt Ideal)) (constant (F := Ideal) S_ .f32 0x00000000#32))) := by
  dsimp only [hostOps5_1]
  after_results_simp
  all_goals rfl

theorem tm3_v203 (W : Valuation τ sig (Elt Ideal)) :
    ((after hostOps5_2 W) main_v203 : (⟨S8192x40, .f32⟩ : BufTy).Contents (Elt Ideal)) = ((addf (F := Ideal) (φ := .f32) : (⟨S8192x40, .f32⟩ : BufTy).Contents (Elt Ideal) → (⟨S8192x40, .f32⟩ : BufTy).Contents (Elt Ideal) → (⟨S8192x40, .f32⟩ : BufTy).Contents (Elt Ideal)) (((fun l r => Host.dotGeneral (F := Ideal) (φ₁ := .f32) (φ₂ := .f32) dot_S8192x128_S128x40_S8192x40_1_0_0_1_n_n none l r) : (⟨S8192x128, .f32⟩ : BufTy).Contents (Elt Ideal) → (⟨S128x40, .f32⟩ : BufTy).Contents (Elt Ideal) → (⟨S8192x40, .f32⟩ : BufTy).Contents (Elt Ideal)) ((addf (F := Ideal) (φ := .f32) : (⟨S8192x128, .f32⟩ : BufTy).Contents (Elt Ideal) → (⟨S8192x128, .f32⟩ : BufTy).Contents (Elt Ideal) → (⟨S8192x128, .f32⟩ : BufTy).Contents (Elt Ideal)) (W main_v179 : (⟨S8192x128, .f32⟩ : BufTy).Contents (Elt Ideal)) (W main_v198 : (⟨S8192x128, .f32⟩ : BufTy).Contents (Elt Ideal))) (W main_arg9 : (⟨S128x40, .f32⟩ : BufTy).Contents (Elt Ideal))) ((broadcastInDim S8192x40 ![0, 1] bcast_S1x40_S8192x40_0_1 : (⟨S1x40, .f32⟩ : BufTy).Contents (Elt Ideal) → (⟨S8192x40, .f32⟩ : BufTy).Contents (Elt Ideal)) ((broadcastInDim S1x40 ![1] bcast_S40_S1x40_1 : (⟨S40, .f32⟩ : BufTy).Contents (Elt Ideal) → (⟨S1x40, .f32⟩ : BufTy).Contents (Elt Ideal)) (W main_arg10 : (⟨S40, .f32⟩ : BufTy).Contents (Elt Ideal))))) := by
  dsimp only [hostOps5_2]
  after_results_simp
  all_goals rfl

/-- The first branch: the propagated product, plus the bias. -/
theorem val3_v44 (W : Valuation τ sig (Elt Ideal)) (dv : Fin 8192 → EReal) (hz h y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1)) (hh : (W main_v154 : S8192x128.Idx → EReal) = fun idx => h (idx 0) (idx 1))
    (hy : (W main_v157 : S8192x128.Idx → EReal) = fun idx => y (idx 0) (idx 1))
    (hr0 : (W main_v164_0 : S8192x128.Idx → EReal) = fun idx => r0 (idx 0) (idx 1)) (hr1 : (W main_v164_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps5 W main_v179 : S8192x128.Idx → EReal) = fun idx => (dv (idx 0) * r0 (idx 0) (idx 1) + dv (idx 0) * dv (idx 0) * y (idx 0) (idx 1)) + A8 (ix2 (3 : Fin 4) (idx 1)) := by
  subst h5 h6a h8
  refine (tm3_v44 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hh, hy, hr0, hr1]
  try rfl

/-- The second branch before its maximum with zero. -/
theorem val3_v62 (W : Valuation τ sig (Elt Ideal)) (dv : Fin 8192 → EReal) (hz h y r0 r1 : Fin 8192 → Fin 128 → EReal) (A5 : S4x128x128.Idx → EReal) (A6 A8 : S4x128.Idx → EReal)
    (h6 : (W main_v6 : S8192x1.Idx → EReal) = fun idx => dv (idx 0)) (h7 : (W main_v7 : S8192x1.Idx → EReal) = fun idx => dv (idx 0) * dv (idx 0))
    (h19 : (W main_v19 : S8192x128.Idx → EReal) = fun idx => hz (idx 0) (idx 1)) (hh : (W main_v154 : S8192x128.Idx → EReal) = fun idx => h (idx 0) (idx 1))
    (hy : (W main_v157 : S8192x128.Idx → EReal) = fun idx => y (idx 0) (idx 1))
    (hr0 : (W main_v164_0 : S8192x128.Idx → EReal) = fun idx => r0 (idx 0) (idx 1)) (hr1 : (W main_v164_1 : S8192x128.Idx → EReal) = fun idx => r1 (idx 0) (idx 1))
    (h5 : (W main_arg5 : S4x128x128.Idx → EReal) = A5) (h6a : (W main_arg6 : S4x128.Idx → EReal) = A6) (h8 : (W main_arg8 : S4x128.Idx → EReal) = A8) :
    (after hostOps5 W main_v197 : S8192x128.Idx → EReal) = fun idx =>
      (Spec.Shaped.ob 3 * (Spec.Shaped.a9 * (dv (idx 0) * r1 (idx 0) (idx 1) + dv (idx 0) * dv (idx 0) * h (idx 0) (idx 1)) + Spec.Shaped.a1 * hz (idx 0) (idx 1))
        + Spec.Shaped.be 3 * ∑ k : Fin 128, (Spec.Shaped.a9 * (dv (idx 0) * r1 (idx 0) k + dv (idx 0) * dv (idx 0) * h (idx 0) k) + Spec.Shaped.a1 * hz (idx 0) k) * A5 (ix3 (3 : Fin 4) k (idx 1)))
        + A6 (ix2 (3 : Fin 4) (idx 1)) := by
  subst h5 h6a h8
  refine (tm3_v62 W).trans ?_
  funext idx
  obtain ⟨i, j, rfl⟩ : ∃ (i : Fin 8192) (j : Fin 128), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h6, h7, h19, hh, hy, hr0, hr1]
  try rfl

/-- The maximum with zero. -/
theorem val3_v63 (W : Valuation τ sig (Elt Ideal)) (q : S8192x128.Idx → EReal) (h62 : (W main_v197 : S8192x128.Idx → EReal) = q) :
    (after hostOps5_1 W main_v198 : S8192x128.Idx → EReal) = fun idx => max (q idx) 0 := by
  subst h62
  refine (tm3_v63 W).trans ?_
  funext idx
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]

theorem val3_v203 (W : Valuation τ sig (Elt Ideal)) (P G : Fin 8192 → Fin 128 → EReal)
    (h44 : (W main_v179 : S8192x128.Idx → EReal) = fun idx => P (idx 0) (idx 1)) (h63 : (W main_v198 : S8192x128.Idx → EReal) = fun idx => G (idx 0) (idx 1))
    (A9 : S128x40.Idx → EReal) (A10 : S40.Idx → EReal) (h9 : (W main_arg9 : S128x40.Idx → EReal) = A9) (h10 : (W main_arg10 : S40.Idx → EReal) = A10) :
    (after hostOps5_2 W main_v203 : S8192x40.Idx → EReal) = fun idx => (∑ t : Fin 128, (P (idx 0) t + G (idx 0) t) * A9 (ix2 t (idx 1))) + A10 (ix1 (idx 1)) := by
  subst h9 h10
  refine (tm3_v203 W).trans ?_
  funext idx
  obtain ⟨i, j, rfl⟩ : ∃ (i : Fin 8192) (j : Fin 40), idx = ix2 i j := ⟨idx 0, idx 1, eq_ix2 idx⟩
  simp only [select_apply, cmpf_apply, addf_apply, mulf_apply, maximumf_apply, truncf_apply, constant_apply, bcast0_apply, bcast_a_1a_apply, bcast_1b_ab_apply, bcast_a1_ab_apply, slabW_0, slabW_1, slabW_2, slabW_3, rowB_0, rowB_1, rowB_2, rowB_3, dotIn_apply, dotHid_apply, dotOut_apply, Ideal.ofBits_zero_f32, id_eq]
  simp only [h44, h63]
  try rfl

end Cert.Proof.KerVal

end
-- ==== Proof.Host.Frame.lean ====
import proofs.«117539_j28759101014307_2_alg».proof.Proof.Gen.KernelIdeal.Regions
import Idealize.ShloMosaic.PureOps.Ideal

/-!
# The unscoped buffers between @main's items: which item writes which buffer

A buffer's contents after an item are its contents before it unless the item writes it: a region writes its two result
arrays, a stretch of host operations the results of its operations. So a buffer read late is read where it was written.
-/

set_option maxRecDepth 4096

noncomputable section

namespace Cert.Proof.KerVal

open Cert.KernelIdeal Cert.KernelIdeal.Gen Idealize.ShloMosaic Idealize.ShloMosaic.TcCoe

variable (m : (ℓ : Loc nD τ sig) → Buf (Elt Ideal) ℓ) (outs : Outs (F := Ideal)) (c : Dev nD)

/-! ## What a region leaves in its two result arrays -/

theorem V1_v0_0 : V1 m outs c main_v0_0 = outs 1 main_v0_0 c := by
  show Function.update (Function.update (V0 m c) main_v0_0 (outs 1 main_v0_0 c)) main_v0_1 (outs 1 main_v0_1 c) main_v0_0 = _
  rw [Function.update_of_ne (StableHlo.devRef_ne_of_ne (by decide : (main_v0_0 : Ref sig .tc) ≠ main_v0_1)), Function.update_self]
theorem V1_v0_1 : V1 m outs c main_v0_1 = outs 1 main_v0_1 c := by
  show Function.update (Function.update (V0 m c) main_v0_0 (outs 1 main_v0_0 c)) main_v0_1 (outs 1 main_v0_1 c) main_v0_1 = _
  rw [Function.update_self]

theorem V7_v29_0 : V7 m outs c main_v29_0 = outs 7 main_v29_0 c := by
  show Function.update (Function.update (V6 m outs c) main_v29_0 (outs 7 main_v29_0 c)) main_v29_1 (outs 7 main_v29_1 c) main_v29_0 = _
  rw [Function.update_of_ne (StableHlo.devRef_ne_of_ne (by decide : (main_v29_0 : Ref sig .tc) ≠ main_v29_1)), Function.update_self]
theorem V7_v29_1 : V7 m outs c main_v29_1 = outs 7 main_v29_1 c := by
  show Function.update (Function.update (V6 m outs c) main_v29_0 (outs 7 main_v29_0 c)) main_v29_1 (outs 7 main_v29_1 c) main_v29_1 = _
  rw [Function.update_self]

theorem V11_v74_0 : V11 m outs c main_v74_0 = outs 11 main_v74_0 c := by
  show Function.update (Function.update (V10 m outs c) main_v74_0 (outs 11 main_v74_0 c)) main_v74_1 (outs 11 main_v74_1 c) main_v74_0 = _
  rw [Function.update_of_ne (StableHlo.devRef_ne_of_ne (by decide : (main_v74_0 : Ref sig .tc) ≠ main_v74_1)), Function.update_self]
theorem V11_v74_1 : V11 m outs c main_v74_1 = outs 11 main_v74_1 c := by
  show Function.update (Function.update (V10 m outs c) main_v74_0 (outs 11 main_v74_0 c)) main_v74_1 (outs 11 main_v74_1 c) main_v74_1 = _
  rw [Function.update_self]

theorem V15_v119_0 : V15 m outs c main_v119_0 = outs 15 main_v119_0 c := by
  show Function.update (Function.update (V14 m outs c) main_v119_0 (outs 15 main_v119_0 c)) main_v119_1 (outs 15 main_v119_1 c) main_v119_0 = _
  rw [Function.update_of_ne (StableHlo.devRef_ne_of_ne (by decide : (main_v119_0 : Ref sig .tc) ≠ main_v119_1)), Function.update_self]
theorem V15_v119_1 : V15 m outs c main_v119_1 = outs 15 main_v119_1 c := by
  show Function.update (Function.update (V14 m outs c) main_v119_0 (outs 15 main_v119_0 c)) main_v119_1 (outs 15 main_v119_1 c) main_v119_1 = _
  rw [Function.update_self]

theorem V19_v164_0 : V19 m outs c main_v164_0 = outs 19 main_v164_0 c := by
  show Function.update (Function.update (V18 m outs c) main_v164_0 (outs 19 main_v164_0 c)) main_v164_1 (outs 19 main_v164_1 c) main_v164_0 = _
  rw [Function.update_of_ne (StableHlo.devRef_ne_of_ne (by decide : (main_v164_0 : Ref sig .tc) ≠ main_v164_1)), Function.update_self]
theorem V19_v164_1 : V19 m outs c main_v164_1 = outs 19 main_v164_1 c := by
  show Function.update (Function.update (V18 m outs c) main_v164_0 (outs 19 main_v164_0 c)) main_v164_1 (outs 19 main_v164_1 c) main_v164_1 = _
  rw [Function.update_self]

/-- At launch a buffer holds the launch memory's contents. -/
theorem V0_arg (r : Ref sig .tc) : V0 m c r = m ((c : Thread nD τ).loc r) := rfl

/-- Carry every buffer read back through the items that do not write it. -/
macro "vframe" : tactic => `(tactic| repeat (first
  | (rw [V22_of]; rotate_left; decide)
  | (rw [V21_of]; rotate_left; decide)
  | (rw [V20_of]; rotate_left; decide)
  | (rw [V19_of]; rotate_left; decide)
  | (rw [V18_of]; rotate_left; decide)
  | (rw [V17_of]; rotate_left; decide)
  | (rw [V16_of]; rotate_left; decide)
  | (rw [V15_of]; rotate_left; decide)
  | (rw [V14_of]; rotate_left; decide)
  | (rw [V13_of]; rotate_left; decide)
  | (rw [V12_of]; rotate_left; decide)
  | (rw [V11_of]; rotate_left; decide)
  | (rw [V10_of]; rotate_left; decide)
  | (rw [V9_of]; rotate_left; decide)
  | (rw [V8_of]; rotate_left; decide)
  | (rw [V7_of]; rotate_left; decide)
  | (rw [V6_of]; rotate_left; decide)
  | (rw [V5_of]; rotate_left; decide)
  | (rw [V4_of]; rotate_left; decide)
  | (rw [V3_of]; rotate_left; decide)
  | (rw [V2_of]; rotate_left; decide)
  | (rw [V1_of]; rotate_left; decide)))

example : V22 m outs c main_v6 = V3 m outs c main_v6 := by vframe
example : V18 m outs c main_v0_1 = outs 1 main_v0_1 c := by vframe; exact V1_v0_1 m outs c
example : V10 m outs c main_arg7 = m ((c : Thread nD τ).loc main_arg7) := by vframe

end Cert.Proof.KerVal

end
-- ==== Proof.Host.Value.lean ====
import proofs.«117539_j28759101014307_2_alg».proof.Proof.Host.L0
import proofs.«117539_j28759101014307_2_alg».proof.Proof.Host.L1
import proofs.«117539_j28759101014307_2_alg».proof.Proof.Host.L2
import proofs.«117539_j28759101014307_2_alg».proof.Proof.Host.L3
import proofs.«117539_j28759101014307_2_alg».proof.Proof.Host.Frame
import Idealize.ShloMosaic.Lib.Pipeline.Value
import Idealize.ShloMosaic.Lib.ValueIdx
import Idealize.ShloMosaic.Lib.ValueLayout
import Idealize.ShloMosaic.PureOps.Ideal.Laws

set_option maxRecDepth 4096

noncomputable section

namespace Cert.Proof.KerVal

open Cert.KernelIdeal Cert.KernelIdeal.Gen Idealize.ShloMosaic Idealize.ShloMosaic.TcCoe Idealize.ShloMosaic.ValueIdx
open Idealize.ShloMosaic.StableHlo
open scoped BigOperators

/-! # The kernel program's host operations compute the network, given what its five regions leave -/

section
variable (m : (ℓ : Loc nD τ sig) → Buf (Elt Ideal) ℓ) (c : Dev nD)

/-- The eleven argument arrays at launch. -/
abbrev A0 : S8192x500.Idx → EReal := m ((c : Thread nD τ).loc main_arg0)
abbrev A1 : S8192x8192.Idx → EReal := m ((c : Thread nD τ).loc main_arg1)
abbrev A2 : S500x128.Idx → EReal := m ((c : Thread nD τ).loc main_arg2)
abbrev A3 : S128.Idx → EReal := m ((c : Thread nD τ).loc main_arg3)
abbrev A4 : S128.Idx → EReal := m ((c : Thread nD τ).loc main_arg4)
abbrev A5 : S4x128x128.Idx → EReal := m ((c : Thread nD τ).loc main_arg5)
abbrev A6 : S4x128.Idx → EReal := m ((c : Thread nD τ).loc main_arg6)
abbrev A7 : S4x128x128.Idx → EReal := m ((c : Thread nD τ).loc main_arg7)
abbrev A8 : S4x128.Idx → EReal := m ((c : Thread nD τ).loc main_arg8)
abbrev A9 : S128x40.Idx → EReal := m ((c : Thread nD τ).loc main_arg9)
abbrev A10 : S40.Idx → EReal := m ((c : Thread nD τ).loc main_arg10)

/-- The adjacency as a matrix, the normalising column, the input layer, the propagation step, the layers. -/
abbrev adjM : Fin 8192 → Fin 8192 → EReal := fun i k => A1 m c (ix2 i k)
abbrev dvM : Fin 8192 → EReal := Spec.dinv (Spec.degK (adjM m c))
abbrev hzM : Fin 8192 → Fin 128 → EReal := hzA (A0 m c) (A2 m c) (A3 m c) (A4 m c)
abbrev prM : (Fin 8192 → Fin 128 → EReal) → Fin 8192 → Fin 128 → EReal := Spec.propK (adjM m c) (dvM m c)
abbrev wlM (l : Fin 4) : Fin 128 → Fin 128 → EReal := fun k j => A7 m c (ix3 l k j)
abbrev wgM (l : Fin 4) : Fin 128 → Fin 128 → EReal := fun k j => A5 m c (ix3 l k j)
abbrev blM (l : Fin 4) : Fin 128 → EReal := fun j => A8 m c (ix2 l j)
abbrev bgM (l : Fin 4) : Fin 128 → EReal := fun j => A6 m c (ix2 l j)
abbrev Lyr (l : Fin 4) (h : Fin 8192 → Fin 128 → EReal) : Fin 8192 → Fin 128 → EReal :=
  Spec.layer (prM m c) Spec.Shaped.a9 Spec.Shaped.a1 (Spec.Shaped.ob l) (Spec.Shaped.be l) (hzM m c) (wlM m c l) (wgM m c l) (blM m c l) (bgM m c l) h
/-- A layer's two branches. -/
abbrev Pbr (l : Fin 4) (h : Fin 8192 → Fin 128 → EReal) : Fin 8192 → Fin 128 → EReal :=
  fun i j => prM m c (fun i j => ∑ t, h i t * wlM m c l t j) i j + blM m c l j
abbrev Gbr (l : Fin 4) (h : Fin 8192 → Fin 128 → EReal) : Fin 8192 → Fin 128 → EReal :=
  fun i j => Spec.gpart (Spec.Shaped.ob l) (Spec.Shaped.be l) (fun i j => Spec.Shaped.a9 * prM m c h i j + Spec.Shaped.a1 * hzM m c i j) (wgM m c l) (bgM m c l) i j
abbrev HH1 : Fin 8192 → Fin 128 → EReal := Lyr m c 0 (hzM m c)
abbrev HH2 : Fin 8192 → Fin 128 → EReal := Lyr m c 1 (HH1 m c)
abbrev HH3 : Fin 8192 → Fin 128 → EReal := Lyr m c 2 (HH2 m c)
abbrev HH4 : Fin 8192 → Fin 128 → EReal := Lyr m c 3 (HH3 m c)

/-- The specification's network on the argument arrays, as the output layer of the fourth layer. -/
theorem netK_eq :
    Spec.Shaped.netK (A0 m c) (A1 m c) (A2 m c) (A3 m c) (A4 m c) (A5 m c) (A6 m c) (A7 m c) (A8 m c) (A9 m c) (A10 m c)
      = fun idx => Spec.out (HH4 m c) (fun k j => A9 m c (ix2 k j)) (fun j => A10 m c (ix1 j)) (idx 0) (idx 1) := rfl

end

/-- The region's product with a scaled right-hand side, entry by entry. -/
theorem mm_form (A : S8192x8192.Idx → EReal) (dv : Fin 8192 → EReal) (Y : Fin 8192 → Fin 128 → EReal) :
    Spec.Region.mm A (fun idx => dv (idx 0) * Y (idx 0) (idx 1)) = fun idx => (fun i j => ∑ k : Fin 8192, A (ix2 i k) * (dv k * Y k j)) (idx 0) (idx 1) := rfl

set_option maxHeartbeats 16000000 in  -- one chain of some hundred and fifty steps over the twenty-two items
theorem host_value (m : (ℓ : Loc nD τ sig) → Buf (Elt Ideal) ℓ) (outs : Outs (F := Ideal)) (c : Dev nD)
    (h0a : outs 1 main_v0_0 c = Cert.Spec.Region.rowsum (m ((c : Thread nD τ).loc main_arg1)))
    (h0b : outs 1 main_v0_1 c = m ((c : Thread nD τ).loc main_arg1))
    (h7a : outs 7 main_v29_0 c = Cert.Spec.Region.mm (V6 m outs c main_v0_1) (V6 m outs c main_v25)) (h7b : outs 7 main_v29_1 c = Cert.Spec.Region.mm (V6 m outs c main_v0_1) (V6 m outs c main_v28))
    (h11a : outs 11 main_v74_0 c = Cert.Spec.Region.mm (V10 m outs c main_v0_1) (V10 m outs c main_v70)) (h11b : outs 11 main_v74_1 c = Cert.Spec.Region.mm (V10 m outs c main_v0_1) (V10 m outs c main_v73))
    (h15a : outs 15 main_v119_0 c = Cert.Spec.Region.mm (V14 m outs c main_v0_1) (V14 m outs c main_v115)) (h15b : outs 15 main_v119_1 c = Cert.Spec.Region.mm (V14 m outs c main_v0_1) (V14 m outs c main_v118))
    (h19a : outs 19 main_v164_0 c = Cert.Spec.Region.mm (V18 m outs c main_v0_1) (V18 m outs c main_v160)) (h19b : outs 19 main_v164_1 c = Cert.Spec.Region.mm (V18 m outs c main_v0_1) (V18 m outs c main_v163)) :
    V22 m outs c main_v203 = Cert.Spec.Shaped.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  -- the input stage
  have F00 : (V1 m outs c main_v0_0 : S8192x1.Idx → EReal) = fun idx => ∑ k, adjM m c (idx 0) k :=
    (V1_v0_0 m outs c).trans h0a
  have F6 : (V3 m outs c main_v6 : S8192x1.Idx → EReal) = fun idx => dvM m c (idx 0) := val_v6 (V1 m outs c) (adjM m c) F00
  have F7 : (V4 m outs c main_v7 : S8192x1.Idx → EReal) = fun idx => dvM m c (idx 0) * dvM m c (idx 0) := val_v7 (V3 m outs c) (dvM m c) F6
  have a0 : (V3 m outs c main_arg0 : S8192x500.Idx → EReal) = A0 m c := by vframe
  have a2 : (V3 m outs c main_arg2 : S500x128.Idx → EReal) = A2 m c := by vframe
  have a3 : (V3 m outs c main_arg3 : S128.Idx → EReal) = A3 m c := by vframe
  have a4 : (V3 m outs c main_arg4 : S128.Idx → EReal) = A4 m c := by vframe
  have a7 : (V3 m outs c main_arg7 : S4x128x128.Idx → EReal) = A7 m c := by vframe
  have F19 : (V6 m outs c main_v19 : S8192x128.Idx → EReal) = fun idx => hzM m c (idx 0) (idx 1) :=
    val_v19 (V3 m outs c) (A0 m c) (A2 m c) (A3 m c) (A4 m c) a0 a2 a3 a4
  have F22 : (V6 m outs c main_v22 : S8192x128.Idx → EReal) = fun idx => ∑ t : Fin 128, hzM m c (idx 0) t * A7 m c (ix3 (0 : Fin 4) t (idx 1)) :=
    val_v22 (V3 m outs c) (A0 m c) (A2 m c) (A3 m c) (A4 m c) (A7 m c) a0 a2 a3 a4 a7
  have F25 : (V6 m outs c main_v25 : S8192x128.Idx → EReal) = fun idx => dvM m c (idx 0) * ∑ t : Fin 128, hzM m c (idx 0) t * A7 m c (ix3 (0 : Fin 4) t (idx 1)) :=
    val_v25 (V3 m outs c) (dvM m c) (A0 m c) (A2 m c) (A3 m c) (A4 m c) (A7 m c) F6 a0 a2 a3 a4 a7
  have F28 : (V6 m outs c main_v28 : S8192x128.Idx → EReal) = fun idx => dvM m c (idx 0) * hzM m c (idx 0) (idx 1) :=
    val_v28 (V3 m outs c) (dvM m c) (A0 m c) (A2 m c) (A3 m c) (A4 m c) F6 a0 a2 a3 a4

  -- layer 1
  have E_0 : (V6 m outs c main_v0_1 : S8192x8192.Idx → EReal) = A1 m c := by
    vframe
    exact (V1_v0_1 m outs c).trans h0b
  have R0_0 : (V7 m outs c main_v29_0 : S8192x128.Idx → EReal) = fun idx => (fun i j => ∑ k : Fin 8192, adjM m c i k * (dvM m c k * (fun i j => ∑ t : Fin 128, (hzM m c) i t * A7 m c (ix3 (0 : Fin 4) t j)) k j)) (idx 0) (idx 1) :=
    ((V7_v29_0 m outs c).trans (h7a.trans (congrArg₂ Spec.Region.mm E_0 F25))).trans (mm_form (A1 m c) (dvM m c) (fun i j => ∑ t : Fin 128, (hzM m c) i t * A7 m c (ix3 (0 : Fin 4) t j)))
  have R1_0 : (V7 m outs c main_v29_1 : S8192x128.Idx → EReal) = fun idx => (fun i j => ∑ k : Fin 8192, adjM m c i k * (dvM m c k * (hzM m c) k j)) (idx 0) (idx 1) :=
    ((V7_v29_1 m outs c).trans (h7b.trans (congrArg₂ Spec.Region.mm E_0 F28))).trans (mm_form (A1 m c) (dvM m c) (hzM m c))
  have c6_0 : (V7 m outs c main_v6 : S8192x1.Idx → EReal) = fun idx => dvM m c (idx 0) := by vframe; exact F6
  have c7_0 : (V7 m outs c main_v7 : S8192x1.Idx → EReal) = fun idx => dvM m c (idx 0) * dvM m c (idx 0) := by vframe; exact F7
  have c19_0 : (V7 m outs c main_v19 : S8192x128.Idx → EReal) = fun idx => hzM m c (idx 0) (idx 1) := by vframe; exact F19
  have cy_0 : (V7 m outs c main_v22 : S8192x128.Idx → EReal) = fun idx => (fun i j => ∑ t : Fin 128, (hzM m c) i t * A7 m c (ix3 (0 : Fin 4) t j)) (idx 0) (idx 1) := by vframe; exact F22
  have c5_0 : (V7 m outs c main_arg5 : S4x128x128.Idx → EReal) = A5 m c := by vframe
  have c6a_0 : (V7 m outs c main_arg6 : S4x128.Idx → EReal) = A6 m c := by vframe
  have c8_0 : (V7 m outs c main_arg8 : S4x128.Idx → EReal) = A8 m c := by vframe
  have F44_0 : (V8 m outs c main_v44 : S8192x128.Idx → EReal) = fun idx => Pbr m c (0 : Fin 4) (hzM m c) (idx 0) (idx 1) :=
    val0_v44 (V7 m outs c) (dvM m c) (hzM m c) (fun i j => ∑ t : Fin 128, (hzM m c) i t * A7 m c (ix3 (0 : Fin 4) t j)) (fun i j => ∑ k : Fin 8192, adjM m c i k * (dvM m c k * (fun i j => ∑ t : Fin 128, (hzM m c) i t * A7 m c (ix3 (0 : Fin 4) t j)) k j)) (fun i j => ∑ k : Fin 8192, adjM m c i k * (dvM m c k * (hzM m c) k j)) (A5 m c) (A6 m c) (A8 m c) c6_0 c7_0 c19_0 cy_0 R0_0 R1_0 c5_0 c6a_0 c8_0
  have F62_0 := val0_v62 (V7 m outs c) (dvM m c) (hzM m c) (fun i j => ∑ t : Fin 128, (hzM m c) i t * A7 m c (ix3 (0 : Fin 4) t j)) (fun i j => ∑ k : Fin 8192, adjM m c i k * (dvM m c k * (fun i j => ∑ t : Fin 128, (hzM m c) i t * A7 m c (ix3 (0 : Fin 4) t j)) k j)) (fun i j => ∑ k : Fin 8192, adjM m c i k * (dvM m c k * (hzM m c) k j)) (A5 m c) (A6 m c) (A8 m c) c6_0 c7_0 c19_0 cy_0 R0_0 R1_0 c5_0 c6a_0 c8_0
  have F63_0 : (V9 m outs c main_v63 : S8192x128.Idx → EReal) = fun idx => Gbr m c (0 : Fin 4) (hzM m c) (idx 0) (idx 1) :=
    val0_v63 (V8 m outs c) _ F62_0
  have d44_0 : (V9 m outs c main_v44 : S8192x128.Idx → EReal) = fun idx => Pbr m c (0 : Fin 4) (hzM m c) (idx 0) (idx 1) := by vframe; exact F44_0
  have d6_0 : (V9 m outs c main_v6 : S8192x1.Idx → EReal) = fun idx => dvM m c (idx 0) := by vframe; exact F6
  have d7_0 : (V9 m outs c main_arg7 : S4x128x128.Idx → EReal) = A7 m c := by vframe
  have F64_1 : (V10 m outs c main_v64 : S8192x128.Idx → EReal) = fun idx => (HH1 m c) (idx 0) (idx 1) :=
    val0_v64 (V9 m outs c) (dvM m c) (Pbr m c (0 : Fin 4) (hzM m c)) (Gbr m c (0 : Fin 4) (hzM m c)) d44_0 F63_0 d6_0
  have F67_1 : (V10 m outs c main_v67 : S8192x128.Idx → EReal) = fun idx => ∑ t : Fin 128, (HH1 m c) (idx 0) t * A7 m c (ix3 (1 : Fin 4) t (idx 1)) :=
    val0_v67 (V9 m outs c) (dvM m c) (Pbr m c (0 : Fin 4) (hzM m c)) (Gbr m c (0 : Fin 4) (hzM m c)) d44_0 F63_0 d6_0 (A7 m c) d7_0
  have F70_1 : (V10 m outs c main_v70 : S8192x128.Idx → EReal) = fun idx => dvM m c (idx 0) * ∑ t : Fin 128, (HH1 m c) (idx 0) t * A7 m c (ix3 (1 : Fin 4) t (idx 1)) :=
    val0_v70 (V9 m outs c) (dvM m c) (Pbr m c (0 : Fin 4) (hzM m c)) (Gbr m c (0 : Fin 4) (hzM m c)) d44_0 F63_0 d6_0 (A7 m c) d7_0
  have F73_1 : (V10 m outs c main_v73 : S8192x128.Idx → EReal) = fun idx => dvM m c (idx 0) * (HH1 m c) (idx 0) (idx 1) :=
    val0_v73 (V9 m outs c) (dvM m c) (Pbr m c (0 : Fin 4) (hzM m c)) (Gbr m c (0 : Fin 4) (hzM m c)) d44_0 F63_0 d6_0

  -- layer 2
  have E_1 : (V10 m outs c main_v0_1 : S8192x8192.Idx → EReal) = A1 m c := by
    vframe
    exact (V1_v0_1 m outs c).trans h0b
  have R0_1 : (V11 m outs c main_v74_0 : S8192x128.Idx → EReal) = fun idx => (fun i j => ∑ k : Fin 8192, adjM m c i k * (dvM m c k * (fun i j => ∑ t : Fin 128, (HH1 m c) i t * A7 m c (ix3 (1 : Fin 4) t j)) k j)) (idx 0) (idx 1) :=
    ((V11_v74_0 m outs c).trans (h11a.trans (congrArg₂ Spec.Region.mm E_1 F70_1))).trans (mm_form (A1 m c) (dvM m c) (fun i j => ∑ t : Fin 128, (HH1 m c) i t * A7 m c (ix3 (1 : Fin 4) t j)))
  have R1_1 : (V11 m outs c main_v74_1 : S8192x128.Idx → EReal) = fun idx => (fun i j => ∑ k : Fin 8192, adjM m c i k * (dvM m c k * (HH1 m c) k j)) (idx 0) (idx 1) :=
    ((V11_v74_1 m outs c).trans (h11b.trans (congrArg₂ Spec.Region.mm E_1 F73_1))).trans (mm_form (A1 m c) (dvM m c) (HH1 m c))
  have c6_1 : (V11 m outs c main_v6 : S8192x1.Idx → EReal) = fun idx => dvM m c (idx 0) := by vframe; exact F6
  have c7_1 : (V11 m outs c main_v7 : S8192x1.Idx → EReal) = fun idx => dvM m c (idx 0) * dvM m c (idx 0) := by vframe; exact F7
  have c19_1 : (V11 m outs c main_v19 : S8192x128.Idx → EReal) = fun idx => hzM m c (idx 0) (idx 1) := by vframe; exact F19
  have chh_1 : (V11 m outs c main_v64 : S8192x128.Idx → EReal) = fun idx => (HH1 m c) (idx 0) (idx 1) := by vframe; exact F64_1
  have cy_1 : (V11 m outs c main_v67 : S8192x128.Idx → EReal) = fun idx => (fun i j => ∑ t : Fin 128, (HH1 m c) i t * A7 m c (ix3 (1 : Fin 4) t j)) (idx 0) (idx 1) := by vframe; exact F67_1
  have c5_1 : (V11 m outs c main_arg5 : S4x128x128.Idx → EReal) = A5 m c := by vframe
  have c6a_1 : (V11 m outs c main_arg6 : S4x128.Idx → EReal) = A6 m c := by vframe
  have c8_1 : (V11 m outs c main_arg8 : S4x128.Idx → EReal) = A8 m c := by vframe
  have F44_1 : (V12 m outs c main_v89 : S8192x128.Idx → EReal) = fun idx => Pbr m c (1 : Fin 4) (HH1 m c) (idx 0) (idx 1) :=
    val1_v44 (V11 m outs c) (dvM m c) (hzM m c) (HH1 m c) (fun i j => ∑ t : Fin 128, (HH1 m c) i t * A7 m c (ix3 (1 : Fin 4) t j)) (fun i j => ∑ k : Fin 8192, adjM m c i k * (dvM m c k * (fun i j => ∑ t : Fin 128, (HH1 m c) i t * A7 m c (ix3 (1 : Fin 4) t j)) k j)) (fun i j => ∑ k : Fin 8192, adjM m c i k * (dvM m c k * (HH1 m c) k j)) (A5 m c) (A6 m c) (A8 m c) c6_1 c7_1 c19_1 chh_1 cy_1 R0_1 R1_1 c5_1 c6a_1 c8_1
  have F62_1 := val1_v62 (V11 m outs c) (dvM m c) (hzM m c) (HH1 m c) (fun i j => ∑ t : Fin 128, (HH1 m c) i t * A7 m c (ix3 (1 : Fin 4) t j)) (fun i j => ∑ k : Fin 8192, adjM m c i k * (dvM m c k * (fun i j => ∑ t : Fin 128, (HH1 m c) i t * A7 m c (ix3 (1 : Fin 4) t j)) k j)) (fun i j => ∑ k : Fin 8192, adjM m c i k * (dvM m c k * (HH1 m c) k j)) (A5 m c) (A6 m c) (A8 m c) c6_1 c7_1 c19_1 chh_1 cy_1 R0_1 R1_1 c5_1 c6a_1 c8_1
  have F63_1 : (V13 m outs c main_v108 : S8192x128.Idx → EReal) = fun idx => Gbr m c (1 : Fin 4) (HH1 m c) (idx 0) (idx 1) :=
    val1_v63 (V12 m outs c) _ F62_1
  have d44_1 : (V13 m outs c main_v89 : S8192x128.Idx → EReal) = fun idx => Pbr m c (1 : Fin 4) (HH1 m c) (idx 0) (idx 1) := by vframe; exact F44_1
  have d6_1 : (V13 m outs c main_v6 : S8192x1.Idx → EReal) = fun idx => dvM m c (idx 0) := by vframe; exact F6
  have d7_1 : (V13 m outs c main_arg7 : S4x128x128.Idx → EReal) = A7 m c := by vframe
  have F64_2 : (V14 m outs c main_v109 : S8192x128.Idx → EReal) = fun idx => (HH2 m c) (idx 0) (idx 1) :=
    val1_v64 (V13 m outs c) (dvM m c) (Pbr m c (1 : Fin 4) (HH1 m c)) (Gbr m c (1 : Fin 4) (HH1 m c)) d44_1 F63_1 d6_1
  have F67_2 : (V14 m outs c main_v112 : S8192x128.Idx → EReal) = fun idx => ∑ t : Fin 128, (HH2 m c) (idx 0) t * A7 m c (ix3 (2 : Fin 4) t (idx 1)) :=
    val1_v67 (V13 m outs c) (dvM m c) (Pbr m c (1 : Fin 4) (HH1 m c)) (Gbr m c (1 : Fin 4) (HH1 m c)) d44_1 F63_1 d6_1 (A7 m c) d7_1
  have F70_2 : (V14 m outs c main_v115 : S8192x128.Idx → EReal) = fun idx => dvM m c (idx 0) * ∑ t : Fin 128, (HH2 m c) (idx 0) t * A7 m c (ix3 (2 : Fin 4) t (idx 1)) :=
    val1_v70 (V13 m outs c) (dvM m c) (Pbr m c (1 : Fin 4) (HH1 m c)) (Gbr m c (1 : Fin 4) (HH1 m c)) d44_1 F63_1 d6_1 (A7 m c) d7_1
  have F73_2 : (V14 m outs c main_v118 : S8192x128.Idx → EReal) = fun idx => dvM m c (idx 0) * (HH2 m c) (idx 0) (idx 1) :=
    val1_v73 (V13 m outs c) (dvM m c) (Pbr m c (1 : Fin 4) (HH1 m c)) (Gbr m c (1 : Fin 4) (HH1 m c)) d44_1 F63_1 d6_1

  -- layer 3
  have E_2 : (V14 m outs c main_v0_1 : S8192x8192.Idx → EReal) = A1 m c := by
    vframe
    exact (V1_v0_1 m outs c).trans h0b
  have R0_2 : (V15 m outs c main_v119_0 : S8192x128.Idx → EReal) = fun idx => (fun i j => ∑ k : Fin 8192, adjM m c i k * (dvM m c k * (fun i j => ∑ t : Fin 128, (HH2 m c) i t * A7 m c (ix3 (2 : Fin 4) t j)) k j)) (idx 0) (idx 1) :=
    ((V15_v119_0 m outs c).trans (h15a.trans (congrArg₂ Spec.Region.mm E_2 F70_2))).trans (mm_form (A1 m c) (dvM m c) (fun i j => ∑ t : Fin 128, (HH2 m c) i t * A7 m c (ix3 (2 : Fin 4) t j)))
  have R1_2 : (V15 m outs c main_v119_1 : S8192x128.Idx → EReal) = fun idx => (fun i j => ∑ k : Fin 8192, adjM m c i k * (dvM m c k * (HH2 m c) k j)) (idx 0) (idx 1) :=
    ((V15_v119_1 m outs c).trans (h15b.trans (congrArg₂ Spec.Region.mm E_2 F73_2))).trans (mm_form (A1 m c) (dvM m c) (HH2 m c))
  have c6_2 : (V15 m outs c main_v6 : S8192x1.Idx → EReal) = fun idx => dvM m c (idx 0) := by vframe; exact F6
  have c7_2 : (V15 m outs c main_v7 : S8192x1.Idx → EReal) = fun idx => dvM m c (idx 0) * dvM m c (idx 0) := by vframe; exact F7
  have c19_2 : (V15 m outs c main_v19 : S8192x128.Idx → EReal) = fun idx => hzM m c (idx 0) (idx 1) := by vframe; exact F19
  have chh_2 : (V15 m outs c main_v109 : S8192x128.Idx → EReal) = fun idx => (HH2 m c) (idx 0) (idx 1) := by vframe; exact F64_2
  have cy_2 : (V15 m outs c main_v112 : S8192x128.Idx → EReal) = fun idx => (fun i j => ∑ t : Fin 128, (HH2 m c) i t * A7 m c (ix3 (2 : Fin 4) t j)) (idx 0) (idx 1) := by vframe; exact F67_2
  have c5_2 : (V15 m outs c main_arg5 : S4x128x128.Idx → EReal) = A5 m c := by vframe
  have c6a_2 : (V15 m outs c main_arg6 : S4x128.Idx → EReal) = A6 m c := by vframe
  have c8_2 : (V15 m outs c main_arg8 : S4x128.Idx → EReal) = A8 m c := by vframe
  have F44_2 : (V16 m outs c main_v134 : S8192x128.Idx → EReal) = fun idx => Pbr m c (2 : Fin 4) (HH2 m c) (idx 0) (idx 1) :=
    val2_v44 (V15 m outs c) (dvM m c) (hzM m c) (HH2 m c) (fun i j => ∑ t : Fin 128, (HH2 m c) i t * A7 m c (ix3 (2 : Fin 4) t j)) (fun i j => ∑ k : Fin 8192, adjM m c i k * (dvM m c k * (fun i j => ∑ t : Fin 128, (HH2 m c) i t * A7 m c (ix3 (2 : Fin 4) t j)) k j)) (fun i j => ∑ k : Fin 8192, adjM m c i k * (dvM m c k * (HH2 m c) k j)) (A5 m c) (A6 m c) (A8 m c) c6_2 c7_2 c19_2 chh_2 cy_2 R0_2 R1_2 c5_2 c6a_2 c8_2
  have F62_2 := val2_v62 (V15 m outs c) (dvM m c) (hzM m c) (HH2 m c) (fun i j => ∑ t : Fin 128, (HH2 m c) i t * A7 m c (ix3 (2 : Fin 4) t j)) (fun i j => ∑ k : Fin 8192, adjM m c i k * (dvM m c k * (fun i j => ∑ t : Fin 128, (HH2 m c) i t * A7 m c (ix3 (2 : Fin 4) t j)) k j)) (fun i j => ∑ k : Fin 8192, adjM m c i k * (dvM m c k * (HH2 m c) k j)) (A5 m c) (A6 m c) (A8 m c) c6_2 c7_2 c19_2 chh_2 cy_2 R0_2 R1_2 c5_2 c6a_2 c8_2
  have F63_2 : (V17 m outs c main_v153 : S8192x128.Idx → EReal) = fun idx => Gbr m c (2 : Fin 4) (HH2 m c) (idx 0) (idx 1) :=
    val2_v63 (V16 m outs c) _ F62_2
  have d44_2 : (V17 m outs c main_v134 : S8192x128.Idx → EReal) = fun idx => Pbr m c (2 : Fin 4) (HH2 m c) (idx 0) (idx 1) := by vframe; exact F44_2
  have d6_2 : (V17 m outs c main_v6 : S8192x1.Idx → EReal) = fun idx => dvM m c (idx 0) := by vframe; exact F6
  have d7_2 : (V17 m outs c main_arg7 : S4x128x128.Idx → EReal) = A7 m c := by vframe
  have F64_3 : (V18 m outs c main_v154 : S8192x128.Idx → EReal) = fun idx => (HH3 m c) (idx 0) (idx 1) :=
    val2_v64 (V17 m outs c) (dvM m c) (Pbr m c (2 : Fin 4) (HH2 m c)) (Gbr m c (2 : Fin 4) (HH2 m c)) d44_2 F63_2 d6_2
  have F67_3 : (V18 m outs c main_v157 : S8192x128.Idx → EReal) = fun idx => ∑ t : Fin 128, (HH3 m c) (idx 0) t * A7 m c (ix3 (3 : Fin 4) t (idx 1)) :=
    val2_v67 (V17 m outs c) (dvM m c) (Pbr m c (2 : Fin 4) (HH2 m c)) (Gbr m c (2 : Fin 4) (HH2 m c)) d44_2 F63_2 d6_2 (A7 m c) d7_2
  have F70_3 : (V18 m outs c main_v160 : S8192x128.Idx → EReal) = fun idx => dvM m c (idx 0) * ∑ t : Fin 128, (HH3 m c) (idx 0) t * A7 m c (ix3 (3 : Fin 4) t (idx 1)) :=
    val2_v70 (V17 m outs c) (dvM m c) (Pbr m c (2 : Fin 4) (HH2 m c)) (Gbr m c (2 : Fin 4) (HH2 m c)) d44_2 F63_2 d6_2 (A7 m c) d7_2
  have F73_3 : (V18 m outs c main_v163 : S8192x128.Idx → EReal) = fun idx => dvM m c (idx 0) * (HH3 m c) (idx 0) (idx 1) :=
    val2_v73 (V17 m outs c) (dvM m c) (Pbr m c (2 : Fin 4) (HH2 m c)) (Gbr m c (2 : Fin 4) (HH2 m c)) d44_2 F63_2 d6_2

  -- layer 4
  have E_3 : (V18 m outs c main_v0_1 : S8192x8192.Idx → EReal) = A1 m c := by
    vframe
    exact (V1_v0_1 m outs c).trans h0b
  have R0_3 : (V19 m outs c main_v164_0 : S8192x128.Idx → EReal) = fun idx => (fun i j => ∑ k : Fin 8192, adjM m c i k * (dvM m c k * (fun i j => ∑ t : Fin 128, (HH3 m c) i t * A7 m c (ix3 (3 : Fin 4) t j)) k j)) (idx 0) (idx 1) :=
    ((V19_v164_0 m outs c).trans (h19a.trans (congrArg₂ Spec.Region.mm E_3 F70_3))).trans (mm_form (A1 m c) (dvM m c) (fun i j => ∑ t : Fin 128, (HH3 m c) i t * A7 m c (ix3 (3 : Fin 4) t j)))
  have R1_3 : (V19 m outs c main_v164_1 : S8192x128.Idx → EReal) = fun idx => (fun i j => ∑ k : Fin 8192, adjM m c i k * (dvM m c k * (HH3 m c) k j)) (idx 0) (idx 1) :=
    ((V19_v164_1 m outs c).trans (h19b.trans (congrArg₂ Spec.Region.mm E_3 F73_3))).trans (mm_form (A1 m c) (dvM m c) (HH3 m c))
  have c6_3 : (V19 m outs c main_v6 : S8192x1.Idx → EReal) = fun idx => dvM m c (idx 0) := by vframe; exact F6
  have c7_3 : (V19 m outs c main_v7 : S8192x1.Idx → EReal) = fun idx => dvM m c (idx 0) * dvM m c (idx 0) := by vframe; exact F7
  have c19_3 : (V19 m outs c main_v19 : S8192x128.Idx → EReal) = fun idx => hzM m c (idx 0) (idx 1) := by vframe; exact F19
  have chh_3 : (V19 m outs c main_v154 : S8192x128.Idx → EReal) = fun idx => (HH3 m c) (idx 0) (idx 1) := by vframe; exact F64_3
  have cy_3 : (V19 m outs c main_v157 : S8192x128.Idx → EReal) = fun idx => (fun i j => ∑ t : Fin 128, (HH3 m c) i t * A7 m c (ix3 (3 : Fin 4) t j)) (idx 0) (idx 1) := by vframe; exact F67_3
  have c5_3 : (V19 m outs c main_arg5 : S4x128x128.Idx → EReal) = A5 m c := by vframe
  have c6a_3 : (V19 m outs c main_arg6 : S4x128.Idx → EReal) = A6 m c := by vframe
  have c8_3 : (V19 m outs c main_arg8 : S4x128.Idx → EReal) = A8 m c := by vframe
  have F44_3 : (V20 m outs c main_v179 : S8192x128.Idx → EReal) = fun idx => Pbr m c (3 : Fin 4) (HH3 m c) (idx 0) (idx 1) :=
    val3_v44 (V19 m outs c) (dvM m c) (hzM m c) (HH3 m c) (fun i j => ∑ t : Fin 128, (HH3 m c) i t * A7 m c (ix3 (3 : Fin 4) t j)) (fun i j => ∑ k : Fin 8192, adjM m c i k * (dvM m c k * (fun i j => ∑ t : Fin 128, (HH3 m c) i t * A7 m c (ix3 (3 : Fin 4) t j)) k j)) (fun i j => ∑ k : Fin 8192, adjM m c i k * (dvM m c k * (HH3 m c) k j)) (A5 m c) (A6 m c) (A8 m c) c6_3 c7_3 c19_3 chh_3 cy_3 R0_3 R1_3 c5_3 c6a_3 c8_3
  have F62_3 := val3_v62 (V19 m outs c) (dvM m c) (hzM m c) (HH3 m c) (fun i j => ∑ t : Fin 128, (HH3 m c) i t * A7 m c (ix3 (3 : Fin 4) t j)) (fun i j => ∑ k : Fin 8192, adjM m c i k * (dvM m c k * (fun i j => ∑ t : Fin 128, (HH3 m c) i t * A7 m c (ix3 (3 : Fin 4) t j)) k j)) (fun i j => ∑ k : Fin 8192, adjM m c i k * (dvM m c k * (HH3 m c) k j)) (A5 m c) (A6 m c) (A8 m c) c6_3 c7_3 c19_3 chh_3 cy_3 R0_3 R1_3 c5_3 c6a_3 c8_3
  have F63_3 : (V21 m outs c main_v198 : S8192x128.Idx → EReal) = fun idx => Gbr m c (3 : Fin 4) (HH3 m c) (idx 0) (idx 1) :=
    val3_v63 (V20 m outs c) _ F62_3
  have d44_3 : (V21 m outs c main_v179 : S8192x128.Idx → EReal) = fun idx => Pbr m c (3 : Fin 4) (HH3 m c) (idx 0) (idx 1) := by vframe; exact F44_3
  have d9 : (V21 m outs c main_arg9 : S128x40.Idx → EReal) = A9 m c := by vframe
  have d10 : (V21 m outs c main_arg10 : S40.Idx → EReal) = A10 m c := by vframe
  have Fout : (V22 m outs c main_v203 : S8192x40.Idx → EReal) = fun idx => Spec.out (HH4 m c) (fun k j => A9 m c (ix2 k j)) (fun j => A10 m c (ix1 j)) (idx 0) (idx 1) :=
    val3_v203 (V21 m outs c) (Pbr m c (3 : Fin 4) (HH3 m c)) (Gbr m c (3 : Fin 4) (HH3 m c)) d44_3 F63_3 (A9 m c) (A10 m c) d9 d10
  exact Fout.trans (netK_eq m c).symm

end Cert.Proof.KerVal

end
-- ==== Proof.KI.Value.lean ====
import proofs.«117539_j28759101014307_2_alg».proof.Proof.Spec
import proofs.«117539_j28759101014307_2_alg».proof.Proof.KI.Frame
import proofs.«117539_j28759101014307_2_alg».proof.Proof.KI.R0Val
import proofs.«117539_j28759101014307_2_alg».proof.Proof.KI.R1Val
import proofs.«117539_j28759101014307_2_alg».proof.Proof.KI.R2Val
import proofs.«117539_j28759101014307_2_alg».proof.Proof.KI.R3Val
import proofs.«117539_j28759101014307_2_alg».proof.Proof.KI.R4Val
import proofs.«117539_j28759101014307_2_alg».proof.Proof.Host.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

open Cert.KernelIdeal Cert.KernelIdeal.Gen

/-! ## The idealized kernel's result, as the specification's function of the arguments

The last valuation's contents at the result's buffer are the host operations after the last region applied to what came
before; with each region's two arrays at the row sums / the products its proof data computes, that is the kernel program's
spelling of the network. -/

variable (m : (ℓ : Loc nD τ sig) → Buf (Elt Ideal) ℓ) (c : Dev nD)

theorem kernel_value :
    V22 m (outsX m) c main_v203 = Cert.Spec.Shaped.netK (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) :=
  Cert.Proof.KerVal.host_value m (outsX m) c
    ((X1_a m c).trans (final0_1 c (fun b => V0 m c b)))
    ((X1_b m c).trans (final0_2 c (fun b => V0 m c b)))
    (by rw [V6_eq]; exact (X7_a m c).trans (final3 c (fun b => X6 m c b)))
    (by rw [V6_eq]; exact (X7_b m c).trans (final4 c (fun b => X6 m c b)))
    (by rw [V10_eq]; exact (X11_a m c).trans (final3_r2 c (fun b => X10 m c b)))
    (by rw [V10_eq]; exact (X11_b m c).trans (final4_r2 c (fun b => X10 m c b)))
    (by rw [V14_eq]; exact (X15_a m c).trans (final3_r3 c (fun b => X14 m c b)))
    (by rw [V14_eq]; exact (X15_b m c).trans (final4_r3 c (fun b => X14 m c b)))
    (by rw [V18_eq]; exact (X19_a m c).trans (final3_r4 c (fun b => X18 m c b)))
    (by rw [V18_eq]; exact (X19_b m c).trans (final4_r4 c (fun b => X18 m c b)))

end Cert.KernelIdeal.Hand

end
-- ==== Proof.Ref.Adj.lean ====
import proofs.«117539_j28759101014307_2_alg».proof.Proof.Gen.ReferenceIdeal.Read
import proofs.«117539_j28759101014307_2_alg».proof.Proof.Spec

noncomputable section

namespace Cert.Proof.RefVal

open Cert.ReferenceIdeal Cert.ReferenceIdeal.Read Idealize.ShloMosaic Idealize.ShloMosaic.ValueIdx
open scoped BigOperators

/-- Two rank-2 indices are equal when their coordinates are. -/
local macro "idx_eq2" : tactic => `(tactic| exact funext fun a => Fin.ext (by match a with | ⟨0, _⟩ => rfl | ⟨1, _⟩ => rfl))
/-- Two rank-1 indices are equal when their coordinate is. -/
local macro "idx_eq1" : tactic => `(tactic| exact funext fun a => Fin.ext (by match a with | ⟨0, _⟩ => rfl))

/-! ## The normalised adjacency matrix of the reference, entry by entry

The reference builds `A + I` (the identity as the comparison of a row counter with a column counter, converted to a
number), sums its rows, takes `d^-1/2` where the sum is positive and `0` elsewhere, and scales row `i` and column `k`. -/

/-- An unsigned word converted to a number is its natural-number value. -/
theorem uitofp_ideal {w : Nat} (b : BitVec w) : FloatOps.uitofp (F := Ideal) .f32 b = ((b.toNat : ℝ) : EReal) := rfl

/-- The identity matrix: the row counter (plus a zero offset) compared with the column counter. -/
theorem eye_apply (i k : Fin 8192) : val_main_v5 (F := Ideal) (ix2 i k) = if i = k then 1 else 0 := by
  rw [val_main_v5_apply, val_main_v4_apply, val_main_v3_apply, val_main_v0_apply, val_main_v2_apply, val_main_c_apply,
    val_main_v1_apply, uitofp_ideal]
  show (((IntOp.cmpi .eq (IntOp.addi (BitVec.ofNat 32 i.val) 0#32) (BitVec.ofNat 32 k.val)).toNat : ℝ) : EReal) = _
  have hadd : IntOp.addi (BitVec.ofNat 32 i.val) 0#32 = BitVec.ofNat 32 i.val := by simp [IntOp.addi]
  rw [hadd]
  by_cases h : i = k
  · subst h; rw [if_pos rfl]; simp [IntOp.cmpi]
  · rw [if_neg h]
    have hne : BitVec.ofNat 32 i.val ≠ BitVec.ofNat 32 k.val := by
      intro e; apply h; apply Fin.ext
      have e' := congrArg BitVec.toNat e
      simp only [BitVec.toNat_ofNat] at e'
      have hi := i.isLt; have hk := k.isLt; omega
    simp [IntOp.cmpi, hne]

/-- The degree: the row sum of `A + I` (the sum's initial value is the zero word). -/
theorem deg_apply (x1 : (⟨S8192x8192, .f32⟩ : BufTy).Contents (Elt Ideal)) (i : Fin 8192) :
    val_main_v7 (F := Ideal) x1 (ix1 i) = Cert.Spec.degR (fun i k => x1 (ix2 i k)) i := by
  rw [val_main_v7_apply, val_main_cst_apply, Ideal.ofBits_def, Ideal.ofBits_zero_f32, zero_add]
  unfold Cert.Spec.degR
  refine Finset.sum_congr rfl fun k _ => ?_
  rw [show idx_main_v7 (ix1 i) k = ix2 i k by idx_eq2, val_main_v6_apply, eye_apply, Ideal.addf_def]

/-- `d^-1/2` where the degree is positive, zero elsewhere. -/
theorem dinv_apply (x1 : (⟨S8192x8192, .f32⟩ : BufTy).Contents (Elt Ideal)) (i : Fin 8192) :
    val_main_v11 (F := Ideal) x1 (ix1 i) = Cert.Spec.dinv (Cert.Spec.degR (fun i k => x1 (ix2 i k))) i := by
  rw [val_main_v11_apply, val_main_v9_apply, val_main_v10_apply, val_main_call0_v1_apply, val_main_call0_v0_apply,
    val_main_cst_1_apply, val_main_v8_apply, val_main_cst_0_apply, deg_apply]
  simp only [Ideal.ofBits_def, Ideal.ofBits_zero_f32, Ideal.cmpf_def, Ideal.hostUnary_rsqrt_def]
  unfold Cert.Spec.dinv Scalar.select Ideal.cmp
  by_cases h : 0 < Cert.Spec.degR (fun i k => x1 (ix2 i k)) i <;> simp [h]

/-- The normalised matrix: `(dᵢ^-1/2 · (Aᵢₖ + δᵢₖ)) · dₖ^-1/2`. -/
theorem ahat_apply (x1 : (⟨S8192x8192, .f32⟩ : BufTy).Contents (Elt Ideal)) (i k : Fin 8192) :
    val_main_v17 (F := Ideal) x1 (ix2 i k) =
      (Cert.Spec.dinv (Cert.Spec.degR (fun i k => x1 (ix2 i k))) i * (x1 (ix2 i k) + if i = k then 1 else 0))
        * Cert.Spec.dinv (Cert.Spec.degR (fun i k => x1 (ix2 i k))) k := by
  rw [val_main_v17_apply, val_main_v14_apply, val_main_v13_apply, val_main_v12_apply, val_main_v16_apply,
    val_main_v15_apply, val_main_v6_apply, eye_apply,
    show idx_main_v12 (idx_main_v13 (ix2 i k)) = ix1 i by idx_eq1,
    show idx_main_v15 (idx_main_v16 (ix2 i k)) = ix1 k by idx_eq1, dinv_apply, dinv_apply]
  rfl

end Cert.Proof.RefVal

end
-- ==== Proof.Ref.Input.lean ====
import proofs.«117539_j28759101014307_2_alg».proof.Proof.Gen.ReferenceIdeal.Read
import proofs.«117539_j28759101014307_2_alg».proof.Proof.Spec

noncomputable section

namespace Cert.Proof.RefVal

open Cert.ReferenceIdeal Cert.ReferenceIdeal.Read Idealize.ShloMosaic Idealize.ShloMosaic.ValueIdx
open scoped BigOperators

/-- Two rank-2 indices are equal when their coordinates are. -/
local macro "idx_eq2" : tactic => `(tactic| exact funext fun a => Fin.ext (by match a with | ⟨0, _⟩ => rfl | ⟨1, _⟩ => rfl))
/-- Two rank-1 indices are equal when their coordinate is. -/
local macro "idx_eq1" : tactic => `(tactic| exact funext fun a => Fin.ext (by match a with | ⟨0, _⟩ => rfl))

/-! ## The input layer of the reference, entry by entry: `a9 · relu (x W + b) + a1 · c` -/

/-- The input product `x W` at an entry. -/
theorem xw_apply (x0 : (⟨S8192x500, .f32⟩ : BufTy).Contents (Elt Ideal)) (x2 : (⟨S500x128, .f32⟩ : BufTy).Contents (Elt Ideal))
    (i : Fin 8192) (j : Fin 128) :
    val_main_v18 (F := Ideal) x0 x2 (ix2 i j) = ∑ k : Fin 500, x0 (ix2 i k) * x2 (ix2 k j) := by
  rw [val_main_v18_apply]
  refine Finset.sum_congr rfl fun k _ => ?_
  rw [show lidx_main_v18 (ix2 i j) k = ix2 i k by idx_eq2, show ridx_main_v18 (ix2 i j) k = ix2 k j by idx_eq2]

/-- The input layer. -/
theorem h0_apply (x0 : (⟨S8192x500, .f32⟩ : BufTy).Contents (Elt Ideal)) (x2 : (⟨S500x128, .f32⟩ : BufTy).Contents (Elt Ideal))
    (x3 x4 : (⟨S128, .f32⟩ : BufTy).Contents (Elt Ideal)) (i : Fin 8192) (j : Fin 128) :
    val_main_v29 (F := Ideal) x0 x2 x3 x4 (ix2 i j) =
      Cert.Spec.h0 Cert.Spec.Shaped.a9 Cert.Spec.Shaped.a1 (fun i k => x0 (ix2 i k)) (fun k j => x2 (ix2 k j))
        (fun j => x3 (ix1 j)) (fun j => x4 (ix1 j)) i j := by
  rw [val_main_v29_apply, val_main_v24_apply, val_main_v23_apply, val_main_cst_2_apply, val_main_v22_apply,
    val_main_v21_apply, xw_apply, val_main_v20_apply, val_main_v19_apply, val_main_call1_v0_apply,
    val_main_call1_cst_apply, val_main_v28_apply, val_main_v27_apply, val_main_v26_apply, val_main_cst_3_apply,
    val_main_v25_apply,
    show idx_main_v19 (idx_main_v20 (ix2 i j)) = ix1 j by idx_eq1,
    show idx_main_v25 (idx_main_v28 (ix2 i j)) = ix1 j by idx_eq1]
  simp only [Ideal.ofBits_def, Ideal.ofBits_zero_f32, Ideal.addf_def, Ideal.mulf_def, Ideal.maximumf_def]
  rfl

end Cert.Proof.RefVal

end
-- ==== Proof.Ref.Layer0.lean ====
import proofs.«117539_j28759101014307_2_alg».proof.Proof.Gen.ReferenceIdeal.Read
import proofs.«117539_j28759101014307_2_alg».proof.Proof.Spec

noncomputable section

namespace Cert.Proof.RefVal

open Cert.ReferenceIdeal Cert.ReferenceIdeal.Read Idealize.ShloMosaic Idealize.ShloMosaic.ValueIdx
open scoped BigOperators

/-- Two rank-2 indices are equal when their coordinates are. -/
local macro "idx_eq2" : tactic => `(tactic| exact funext fun a => Fin.ext (by match a with | ⟨0, _⟩ => rfl | ⟨1, _⟩ => rfl))
/-- Two rank-1 indices are equal when their coordinate is. -/
local macro "idx_eq1" : tactic => `(tactic| exact funext fun a => Fin.ext (by match a with | ⟨0, _⟩ => rfl))

/-! ## Layer 0 of the reference, entry by entry

With `Â` the normalised matrix, `h` the previous layer's output and `hz` the input layer's, the layer is
`(Â (h Wl) + bl) + relu ((ob · S + be · (S Wg)) + bg)` with `S = a9 · Â h + a1 · hz`; the weights and biases are row `0` of the
stacked arrays. -/

theorem ob0 : Cert.Spec.Shaped.ob 0 = Ideal.ofBits .f32 0x3F183370#32 := rfl
theorem be0 : Cert.Spec.Shaped.be 0 = Ideal.ofBits .f32 0x3ECF991F#32 := rfl

/-- The layer's `Wl`: member 0 of the stacked array, its leading unit axis dropped. -/
theorem wl0_apply (x7 : (⟨S4x128x128, .f32⟩ : BufTy).Contents (Elt Ideal)) (k j : Fin 128) :
    val_main_v31 (F := Ideal) x7 (ix2 k j) = x7 (ix3 0 k j) := by
  rw [val_main_v31_apply, val_main_v30_apply]
  refine congrArg x7 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `Wg`. -/
theorem wg0_apply (x5 : (⟨S4x128x128, .f32⟩ : BufTy).Contents (Elt Ideal)) (k j : Fin 128) :
    val_main_v48 (F := Ideal) x5 (ix2 k j) = x5 (ix3 0 k j) := by
  rw [val_main_v48_apply, val_main_v47_apply]
  refine congrArg x5 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `bl`, the same row for every node. -/
theorem bl0_apply (x8 : (⟨S4x128, .f32⟩ : BufTy).Contents (Elt Ideal)) (i : Fin 8192) (j : Fin 128) :
    val_main_v37 (F := Ideal) x8 (ix2 i j) = x8 (ix2 0 j) := by
  rw [val_main_v37_apply, val_main_v36_apply, val_main_v35_apply, val_main_v34_apply]
  refine congrArg x8 (funext fun a => Fin.ext ?_)
  have hj := j.isLt
  match a with
  | ⟨0, _⟩ => rfl
  | ⟨1, _⟩ => show j.val % 128 = j.val; omega

/-- The layer's `bg`. -/
theorem bg0_apply (x6 : (⟨S4x128, .f32⟩ : BufTy).Contents (Elt Ideal)) (i : Fin 8192) (j : Fin 128) :
    val_main_v56 (F := Ideal) x6 (ix2 i j) = x6 (ix2 0 j) := by
  rw [val_main_v56_apply, val_main_v55_apply, val_main_v54_apply, val_main_v53_apply]
  refine congrArg x6 (funext fun a => Fin.ext ?_)
  have hj := j.isLt
  match a with
  | ⟨0, _⟩ => rfl
  | ⟨1, _⟩ => show j.val % 128 = j.val; omega

/-- `h Wl`. -/
theorem hwl0_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v32 (F := Ideal) x0 x2 x3 x4 x7 (ix2 i j)
      = ∑ l : Fin 128, val_main_v29 (F := Ideal) x0 x2 x3 x4 (ix2 i l) * x7 (ix3 0 l j) := by
  rw [val_main_v32_apply]
  refine Finset.sum_congr rfl fun l _ => ?_
  rw [show lidx_main_v32 (ix2 i j) l = ix2 i l by idx_eq2, show ridx_main_v32 (ix2 i j) l = ix2 l j by idx_eq2, wl0_apply]

/-- `Â (h Wl)`. -/
theorem ahwl0_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v33 (F := Ideal) x0 x1 x2 x3 x4 x7 (ix2 i j)
      = ∑ k : Fin 8192, val_main_v17 (F := Ideal) x1 (ix2 i k)
          * ∑ l : Fin 128, val_main_v29 (F := Ideal) x0 x2 x3 x4 (ix2 k l) * x7 (ix3 0 l j) := by
  rw [val_main_v33_apply]
  refine Finset.sum_congr rfl fun k _ => ?_
  rw [show lidx_main_v33 (ix2 i j) k = ix2 i k by idx_eq2, show ridx_main_v33 (ix2 i j) k = ix2 k j by idx_eq2,
    hwl0_apply x0 x1 x2 x3 x4 x5 x6 x7 x8]

/-- `Â h`. -/
theorem ah0_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v39 (F := Ideal) x0 x1 x2 x3 x4 (ix2 i j)
      = ∑ k : Fin 8192, val_main_v17 (F := Ideal) x1 (ix2 i k) * val_main_v29 (F := Ideal) x0 x2 x3 x4 (ix2 k j) := by
  rw [val_main_v39_apply]
  refine Finset.sum_congr rfl fun k _ => ?_
  rw [show lidx_main_v39 (ix2 i j) k = ix2 i k by idx_eq2, show ridx_main_v39 (ix2 i j) k = ix2 k j by idx_eq2]

/-- `S = a9 · Â h + a1 · hz`. -/
theorem s0_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v44 (F := Ideal) x0 x1 x2 x3 x4 (ix2 i j)
      = Cert.Spec.Shaped.a9 * (∑ k : Fin 8192, val_main_v17 (F := Ideal) x1 (ix2 i k)
            * val_main_v29 (F := Ideal) x0 x2 x3 x4 (ix2 k j))
          + Cert.Spec.Shaped.a1 * val_main_v29 (F := Ideal) x0 x2 x3 x4 (ix2 i j) := by
  rw [val_main_v44_apply, val_main_v41_apply, val_main_v40_apply, val_main_cst_4_apply, ah0_apply x0 x1 x2 x3 x4 x5 x6 x7 x8,
    val_main_v43_apply, val_main_v42_apply, val_main_cst_5_apply]
  rfl

/-- `S Wg`. -/
theorem swg0_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v49 (F := Ideal) x0 x1 x2 x3 x4 x5 (ix2 i j)
      = ∑ l : Fin 128, val_main_v44 (F := Ideal) x0 x1 x2 x3 x4 (ix2 i l) * x5 (ix3 0 l j) := by
  rw [val_main_v49_apply]
  refine Finset.sum_congr rfl fun l _ => ?_
  rw [show lidx_main_v49 (ix2 i j) l = ix2 i l by idx_eq2, show ridx_main_v49 (ix2 i j) l = ix2 l j by idx_eq2, wg0_apply]

/-- The layer, as the specification's `layer` around the propagation step `X ↦ Â X`. -/
theorem layer0_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v59 (F := Ideal) x0 x1 x2 x3 x4 x5 x6 x7 x8 (ix2 i j)
      = Cert.Spec.layer (fun X i j => ∑ k : Fin 8192, val_main_v17 (F := Ideal) x1 (ix2 i k) * X k j)
          Cert.Spec.Shaped.a9 Cert.Spec.Shaped.a1 (Cert.Spec.Shaped.ob 0) (Cert.Spec.Shaped.be 0)
          (fun i j => val_main_v29 (F := Ideal) x0 x2 x3 x4 (ix2 i j))
          (fun k j => x7 (ix3 0 k j)) (fun k j => x5 (ix3 0 k j)) (fun j => x8 (ix2 0 j)) (fun j => x6 (ix2 0 j))
          (fun i j => val_main_v29 (F := Ideal) x0 x2 x3 x4 (ix2 i j)) i j := by
  rw [val_main_v59_apply, val_main_v38_apply, ahwl0_apply x0 x1 x2 x3 x4 x5 x6 x7 x8, bl0_apply, val_main_v58_apply, val_main_v57_apply,
    val_main_v52_apply, val_main_v46_apply, val_main_v45_apply, val_main_cst_6_apply, val_main_v51_apply,
    val_main_v50_apply, val_main_cst_7_apply, swg0_apply x0 x1 x2 x3 x4 x5 x6 x7 x8, bg0_apply, val_main_call2_v0_apply,
    val_main_call2_cst_apply, s0_apply x0 x1 x2 x3 x4 x5 x6 x7 x8]
  simp only [s0_apply x0 x1 x2 x3 x4 x5 x6 x7 x8, Ideal.ofBits_def, Ideal.ofBits_zero_f32, Ideal.addf_def, Ideal.mulf_def, Ideal.maximumf_def]
  unfold Cert.Spec.layer Cert.Spec.gpart Cert.Spec.relu
  rw [ob0, be0]

end Cert.Proof.RefVal

end
-- ==== Proof.Ref.Layer1.lean ====
import proofs.«117539_j28759101014307_2_alg».proof.Proof.Gen.ReferenceIdeal.Read
import proofs.«117539_j28759101014307_2_alg».proof.Proof.Spec

noncomputable section

namespace Cert.Proof.RefVal

open Cert.ReferenceIdeal Cert.ReferenceIdeal.Read Idealize.ShloMosaic Idealize.ShloMosaic.ValueIdx
open scoped BigOperators

/-- Two rank-2 indices are equal when their coordinates are. -/
local macro "idx_eq2" : tactic => `(tactic| exact funext fun a => Fin.ext (by match a with | ⟨0, _⟩ => rfl | ⟨1, _⟩ => rfl))
/-- Two rank-1 indices are equal when their coordinate is. -/
local macro "idx_eq1" : tactic => `(tactic| exact funext fun a => Fin.ext (by match a with | ⟨0, _⟩ => rfl))

/-! ## Layer 1 of the reference, entry by entry

With `Â` the normalised matrix, `h` the previous layer's output and `hz` the input layer's, the layer is
`(Â (h Wl) + bl) + relu ((ob · S + be · (S Wg)) + bg)` with `S = a9 · Â h + a1 · hz`; the weights and biases are row `1` of the
stacked arrays. -/

theorem ob1 : Cert.Spec.Shaped.ob 1 = Ideal.ofBits .f32 0x3F46E010#32 := rfl
theorem be1 : Cert.Spec.Shaped.be 1 = Ideal.ofBits .f32 0x3E647FBE#32 := rfl

/-- The layer's `Wl`: member 1 of the stacked array, its leading unit axis dropped. -/
theorem wl1_apply (x7 : (⟨S4x128x128, .f32⟩ : BufTy).Contents (Elt Ideal)) (k j : Fin 128) :
    val_main_v61 (F := Ideal) x7 (ix2 k j) = x7 (ix3 1 k j) := by
  rw [val_main_v61_apply, val_main_v60_apply]
  refine congrArg x7 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `Wg`. -/
theorem wg1_apply (x5 : (⟨S4x128x128, .f32⟩ : BufTy).Contents (Elt Ideal)) (k j : Fin 128) :
    val_main_v78 (F := Ideal) x5 (ix2 k j) = x5 (ix3 1 k j) := by
  rw [val_main_v78_apply, val_main_v77_apply]
  refine congrArg x5 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `bl`, the same row for every node. -/
theorem bl1_apply (x8 : (⟨S4x128, .f32⟩ : BufTy).Contents (Elt Ideal)) (i : Fin 8192) (j : Fin 128) :
    val_main_v67 (F := Ideal) x8 (ix2 i j) = x8 (ix2 1 j) := by
  rw [val_main_v67_apply, val_main_v66_apply, val_main_v65_apply, val_main_v64_apply]
  refine congrArg x8 (funext fun a => Fin.ext ?_)
  have hj := j.isLt
  match a with
  | ⟨0, _⟩ => rfl
  | ⟨1, _⟩ => show j.val % 128 = j.val; omega

/-- The layer's `bg`. -/
theorem bg1_apply (x6 : (⟨S4x128, .f32⟩ : BufTy).Contents (Elt Ideal)) (i : Fin 8192) (j : Fin 128) :
    val_main_v86 (F := Ideal) x6 (ix2 i j) = x6 (ix2 1 j) := by
  rw [val_main_v86_apply, val_main_v85_apply, val_main_v84_apply, val_main_v83_apply]
  refine congrArg x6 (funext fun a => Fin.ext ?_)
  have hj := j.isLt
  match a with
  | ⟨0, _⟩ => rfl
  | ⟨1, _⟩ => show j.val % 128 = j.val; omega

/-- `h Wl`. -/
theorem hwl1_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v62 (F := Ideal) x0 x1 x2 x3 x4 x5 x6 x7 x8 (ix2 i j)
      = ∑ l : Fin 128, val_main_v59 (F := Ideal) x0 x1 x2 x3 x4 x5 x6 x7 x8 (ix2 i l) * x7 (ix3 1 l j) := by
  rw [val_main_v62_apply]
  refine Finset.sum_congr rfl fun l _ => ?_
  rw [show lidx_main_v62 (ix2 i j) l = ix2 i l by idx_eq2, show ridx_main_v62 (ix2 i j) l = ix2 l j by idx_eq2, wl1_apply]

/-- `Â (h Wl)`. -/
theorem ahwl1_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v63 (F := Ideal) x0 x1 x2 x3 x4 x5 x6 x7 x8 (ix2 i j)
      = ∑ k : Fin 8192, val_main_v17 (F := Ideal) x1 (ix2 i k)
          * ∑ l : Fin 128, val_main_v59 (F := Ideal) x0 x1 x2 x3 x4 x5 x6 x7 x8 (ix2 k l) * x7 (ix3 1 l j) := by
  rw [val_main_v63_apply]
  refine Finset.sum_congr rfl fun k _ => ?_
  rw [show lidx_main_v63 (ix2 i j) k = ix2 i k by idx_eq2, show ridx_main_v63 (ix2 i j) k = ix2 k j by idx_eq2,
    hwl1_apply x0 x1 x2 x3 x4 x5 x6 x7 x8]

/-- `Â h`. -/
theorem ah1_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v69 (F := Ideal) x0 x1 x2 x3 x4 x5 x6 x7 x8 (ix2 i j)
      = ∑ k : Fin 8192, val_main_v17 (F := Ideal) x1 (ix2 i k) * val_main_v59 (F := Ideal) x0 x1 x2 x3 x4 x5 x6 x7 x8 (ix2 k j) := by
  rw [val_main_v69_apply]
  refine Finset.sum_congr rfl fun k _ => ?_
  rw [show lidx_main_v69 (ix2 i j) k = ix2 i k by idx_eq2, show ridx_main_v69 (ix2 i j) k = ix2 k j by idx_eq2]

/-- `S = a9 · Â h + a1 · hz`. -/
theorem s1_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v74 (F := Ideal) x0 x1 x2 x3 x4 x5 x6 x7 x8 (ix2 i j)
      = Cert.Spec.Shaped.a9 * (∑ k : Fin 8192, val_main_v17 (F := Ideal) x1 (ix2 i k)
            * val_main_v59 (F := Ideal) x0 x1 x2 x3 x4 x5 x6 x7 x8 (ix2 k j))
          + Cert.Spec.Shaped.a1 * val_main_v29 (F := Ideal) x0 x2 x3 x4 (ix2 i j) := by
  rw [val_main_v74_apply, val_main_v71_apply, val_main_v70_apply, val_main_cst_8_apply, ah1_apply x0 x1 x2 x3 x4 x5 x6 x7 x8,
    val_main_v73_apply, val_main_v72_apply, val_main_cst_9_apply]
  rfl

/-- `S Wg`. -/
theorem swg1_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v79 (F := Ideal) x0 x1 x2 x3 x4 x5 x6 x7 x8 (ix2 i j)
      = ∑ l : Fin 128, val_main_v74 (F := Ideal) x0 x1 x2 x3 x4 x5 x6 x7 x8 (ix2 i l) * x5 (ix3 1 l j) := by
  rw [val_main_v79_apply]
  refine Finset.sum_congr rfl fun l _ => ?_
  rw [show lidx_main_v79 (ix2 i j) l = ix2 i l by idx_eq2, show ridx_main_v79 (ix2 i j) l = ix2 l j by idx_eq2, wg1_apply]

/-- The layer, as the specification's `layer` around the propagation step `X ↦ Â X`. -/
theorem layer1_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v89 (F := Ideal) x0 x1 x2 x3 x4 x5 x6 x7 x8 (ix2 i j)
      = Cert.Spec.layer (fun X i j => ∑ k : Fin 8192, val_main_v17 (F := Ideal) x1 (ix2 i k) * X k j)
          Cert.Spec.Shaped.a9 Cert.Spec.Shaped.a1 (Cert.Spec.Shaped.ob 1) (Cert.Spec.Shaped.be 1)
          (fun i j => val_main_v29 (F := Ideal) x0 x2 x3 x4 (ix2 i j))
          (fun k j => x7 (ix3 1 k j)) (fun k j => x5 (ix3 1 k j)) (fun j => x8 (ix2 1 j)) (fun j => x6 (ix2 1 j))
          (fun i j => val_main_v59 (F := Ideal) x0 x1 x2 x3 x4 x5 x6 x7 x8 (ix2 i j)) i j := by
  rw [val_main_v89_apply, val_main_v68_apply, ahwl1_apply x0 x1 x2 x3 x4 x5 x6 x7 x8, bl1_apply, val_main_v88_apply, val_main_v87_apply,
    val_main_v82_apply, val_main_v76_apply, val_main_v75_apply, val_main_cst_10_apply, val_main_v81_apply,
    val_main_v80_apply, val_main_cst_11_apply, swg1_apply x0 x1 x2 x3 x4 x5 x6 x7 x8, bg1_apply, val_main_call3_v0_apply,
    val_main_call3_cst_apply, s1_apply x0 x1 x2 x3 x4 x5 x6 x7 x8]
  simp only [s1_apply x0 x1 x2 x3 x4 x5 x6 x7 x8, Ideal.ofBits_def, Ideal.ofBits_zero_f32, Ideal.addf_def, Ideal.mulf_def, Ideal.maximumf_def]
  unfold Cert.Spec.layer Cert.Spec.gpart Cert.Spec.relu
  rw [ob1, be1]

end Cert.Proof.RefVal

end
-- ==== Proof.Ref.Layer2.lean ====
import proofs.«117539_j28759101014307_2_alg».proof.Proof.Gen.ReferenceIdeal.Read
import proofs.«117539_j28759101014307_2_alg».proof.Proof.Spec

noncomputable section

namespace Cert.Proof.RefVal

open Cert.ReferenceIdeal Cert.ReferenceIdeal.Read Idealize.ShloMosaic Idealize.ShloMosaic.ValueIdx
open scoped BigOperators

/-- Two rank-2 indices are equal when their coordinates are. -/
local macro "idx_eq2" : tactic => `(tactic| exact funext fun a => Fin.ext (by match a with | ⟨0, _⟩ => rfl | ⟨1, _⟩ => rfl))
/-- Two rank-1 indices are equal when their coordinate is. -/
local macro "idx_eq1" : tactic => `(tactic| exact funext fun a => Fin.ext (by match a with | ⟨0, _⟩ => rfl))

/-! ## Layer 2 of the reference, entry by entry

With `Â` the normalised matrix, `h` the previous layer's output and `hz` the input layer's, the layer is
`(Â (h Wl) + bl) + relu ((ob · S + be · (S Wg)) + bg)` with `S = a9 · Â h + a1 · hz`; the weights and biases are row `2` of the
stacked arrays. -/

theorem ob2 : Cert.Spec.Shaped.ob 2 = Ideal.ofBits .f32 0x3F588995#32 := rfl
theorem be2 : Cert.Spec.Shaped.be 2 = Ideal.ofBits .f32 0x3E1DD9AD#32 := rfl

/-- The layer's `Wl`: member 2 of the stacked array, its leading unit axis dropped. -/
theorem wl2_apply (x7 : (⟨S4x128x128, .f32⟩ : BufTy).Contents (Elt Ideal)) (k j : Fin 128) :
    val_main_v91 (F := Ideal) x7 (ix2 k j) = x7 (ix3 2 k j) := by
  rw [val_main_v91_apply, val_main_v90_apply]
  refine congrArg x7 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `Wg`. -/
theorem wg2_apply (x5 : (⟨S4x128x128, .f32⟩ : BufTy).Contents (Elt Ideal)) (k j : Fin 128) :
    val_main_v108 (F := Ideal) x5 (ix2 k j) = x5 (ix3 2 k j) := by
  rw [val_main_v108_apply, val_main_v107_apply]
  refine congrArg x5 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `bl`, the same row for every node. -/
theorem bl2_apply (x8 : (⟨S4x128, .f32⟩ : BufTy).Contents (Elt Ideal)) (i : Fin 8192) (j : Fin 128) :
    val_main_v97 (F := Ideal) x8 (ix2 i j) = x8 (ix2 2 j) := by
  rw [val_main_v97_apply, val_main_v96_apply, val_main_v95_apply, val_main_v94_apply]
  refine congrArg x8 (funext fun a => Fin.ext ?_)
  have hj := j.isLt
  match a with
  | ⟨0, _⟩ => rfl
  | ⟨1, _⟩ => show j.val % 128 = j.val; omega

/-- The layer's `bg`. -/
theorem bg2_apply (x6 : (⟨S4x128, .f32⟩ : BufTy).Contents (Elt Ideal)) (i : Fin 8192) (j : Fin 128) :
    val_main_v116 (F := Ideal) x6 (ix2 i j) = x6 (ix2 2 j) := by
  rw [val_main_v116_apply, val_main_v115_apply, val_main_v114_apply, val_main_v113_apply]
  refine congrArg x6 (funext fun a => Fin.ext ?_)
  have hj := j.isLt
  match a with
  | ⟨0, _⟩ => rfl
  | ⟨1, _⟩ => show j.val % 128 = j.val; omega

/-- `h Wl`. -/
theorem hwl2_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v92 (F := Ideal) x0 x1 x2 x3 x4 x5 x6 x7 x8 (ix2 i j)
      = ∑ l : Fin 128, val_main_v89 (F := Ideal) x0 x1 x2 x3 x4 x5 x6 x7 x8 (ix2 i l) * x7 (ix3 2 l j) := by
  rw [val_main_v92_apply]
  refine Finset.sum_congr rfl fun l _ => ?_
  rw [show lidx_main_v92 (ix2 i j) l = ix2 i l by idx_eq2, show ridx_main_v92 (ix2 i j) l = ix2 l j by idx_eq2, wl2_apply]

/-- `Â (h Wl)`. -/
theorem ahwl2_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v93 (F := Ideal) x0 x1 x2 x3 x4 x5 x6 x7 x8 (ix2 i j)
      = ∑ k : Fin 8192, val_main_v17 (F := Ideal) x1 (ix2 i k)
          * ∑ l : Fin 128, val_main_v89 (F := Ideal) x0 x1 x2 x3 x4 x5 x6 x7 x8 (ix2 k l) * x7 (ix3 2 l j) := by
  rw [val_main_v93_apply]
  refine Finset.sum_congr rfl fun k _ => ?_
  rw [show lidx_main_v93 (ix2 i j) k = ix2 i k by idx_eq2, show ridx_main_v93 (ix2 i j) k = ix2 k j by idx_eq2,
    hwl2_apply x0 x1 x2 x3 x4 x5 x6 x7 x8]

/-- `Â h`. -/
theorem ah2_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v99 (F := Ideal) x0 x1 x2 x3 x4 x5 x6 x7 x8 (ix2 i j)
      = ∑ k : Fin 8192, val_main_v17 (F := Ideal) x1 (ix2 i k) * val_main_v89 (F := Ideal) x0 x1 x2 x3 x4 x5 x6 x7 x8 (ix2 k j) := by
  rw [val_main_v99_apply]
  refine Finset.sum_congr rfl fun k _ => ?_
  rw [show lidx_main_v99 (ix2 i j) k = ix2 i k by idx_eq2, show ridx_main_v99 (ix2 i j) k = ix2 k j by idx_eq2]

/-- `S = a9 · Â h + a1 · hz`. -/
theorem s2_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v104 (F := Ideal) x0 x1 x2 x3 x4 x5 x6 x7 x8 (ix2 i j)
      = Cert.Spec.Shaped.a9 * (∑ k : Fin 8192, val_main_v17 (F := Ideal) x1 (ix2 i k)
            * val_main_v89 (F := Ideal) x0 x1 x2 x3 x4 x5 x6 x7 x8 (ix2 k j))
          + Cert.Spec.Shaped.a1 * val_main_v29 (F := Ideal) x0 x2 x3 x4 (ix2 i j) := by
  rw [val_main_v104_apply, val_main_v101_apply, val_main_v100_apply, val_main_cst_12_apply, ah2_apply x0 x1 x2 x3 x4 x5 x6 x7 x8,
    val_main_v103_apply, val_main_v102_apply, val_main_cst_13_apply]
  rfl

/-- `S Wg`. -/
theorem swg2_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v109 (F := Ideal) x0 x1 x2 x3 x4 x5 x6 x7 x8 (ix2 i j)
      = ∑ l : Fin 128, val_main_v104 (F := Ideal) x0 x1 x2 x3 x4 x5 x6 x7 x8 (ix2 i l) * x5 (ix3 2 l j) := by
  rw [val_main_v109_apply]
  refine Finset.sum_congr rfl fun l _ => ?_
  rw [show lidx_main_v109 (ix2 i j) l = ix2 i l by idx_eq2, show ridx_main_v109 (ix2 i j) l = ix2 l j by idx_eq2, wg2_apply]

/-- The layer, as the specification's `layer` around the propagation step `X ↦ Â X`. -/
theorem layer2_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v119 (F := Ideal) x0 x1 x2 x3 x4 x5 x6 x7 x8 (ix2 i j)
      = Cert.Spec.layer (fun X i j => ∑ k : Fin 8192, val_main_v17 (F := Ideal) x1 (ix2 i k) * X k j)
          Cert.Spec.Shaped.a9 Cert.Spec.Shaped.a1 (Cert.Spec.Shaped.ob 2) (Cert.Spec.Shaped.be 2)
          (fun i j => val_main_v29 (F := Ideal) x0 x2 x3 x4 (ix2 i j))
          (fun k j => x7 (ix3 2 k j)) (fun k j => x5 (ix3 2 k j)) (fun j => x8 (ix2 2 j)) (fun j => x6 (ix2 2 j))
          (fun i j => val_main_v89 (F := Ideal) x0 x1 x2 x3 x4 x5 x6 x7 x8 (ix2 i j)) i j := by
  rw [val_main_v119_apply, val_main_v98_apply, ahwl2_apply x0 x1 x2 x3 x4 x5 x6 x7 x8, bl2_apply, val_main_v118_apply, val_main_v117_apply,
    val_main_v112_apply, val_main_v106_apply, val_main_v105_apply, val_main_cst_14_apply, val_main_v111_apply,
    val_main_v110_apply, val_main_cst_15_apply, swg2_apply x0 x1 x2 x3 x4 x5 x6 x7 x8, bg2_apply, val_main_call4_v0_apply,
    val_main_call4_cst_apply, s2_apply x0 x1 x2 x3 x4 x5 x6 x7 x8]
  simp only [s2_apply x0 x1 x2 x3 x4 x5 x6 x7 x8, Ideal.ofBits_def, Ideal.ofBits_zero_f32, Ideal.addf_def, Ideal.mulf_def, Ideal.maximumf_def]
  unfold Cert.Spec.layer Cert.Spec.gpart Cert.Spec.relu
  rw [ob2, be2]

end Cert.Proof.RefVal

end
-- ==== Proof.Ref.Layer3.lean ====
import proofs.«117539_j28759101014307_2_alg».proof.Proof.Gen.ReferenceIdeal.Read
import proofs.«117539_j28759101014307_2_alg».proof.Proof.Spec

noncomputable section

namespace Cert.Proof.RefVal

open Cert.ReferenceIdeal Cert.ReferenceIdeal.Read Idealize.ShloMosaic Idealize.ShloMosaic.ValueIdx
open scoped BigOperators

/-- Two rank-2 indices are equal when their coordinates are. -/
local macro "idx_eq2" : tactic => `(tactic| exact funext fun a => Fin.ext (by match a with | ⟨0, _⟩ => rfl | ⟨1, _⟩ => rfl))
/-- Two rank-1 indices are equal when their coordinate is. -/
local macro "idx_eq1" : tactic => `(tactic| exact funext fun a => Fin.ext (by match a with | ⟨0, _⟩ => rfl))

/-! ## Layer 3 of the reference, entry by entry

With `Â` the normalised matrix, `h` the previous layer's output and `hz` the input layer's, the layer is
`(Â (h Wl) + bl) + relu ((ob · S + be · (S Wg)) + bg)` with `S = a9 · Â h + a1 · hz`; the weights and biases are row `3` of the
stacked arrays. -/

theorem ob3 : Cert.Spec.Shaped.ob 3 = Ideal.ofBits .f32 0x3F61D8F9#32 := rfl
theorem be3 : Cert.Spec.Shaped.be 3 = Ideal.ofBits .f32 0x3DF1383B#32 := rfl

/-- The layer's `Wl`: member 3 of the stacked array, its leading unit axis dropped. -/
theorem wl3_apply (x7 : (⟨S4x128x128, .f32⟩ : BufTy).Contents (Elt Ideal)) (k j : Fin 128) :
    val_main_v121 (F := Ideal) x7 (ix2 k j) = x7 (ix3 3 k j) := by
  rw [val_main_v121_apply, val_main_v120_apply]
  refine congrArg x7 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `Wg`. -/
theorem wg3_apply (x5 : (⟨S4x128x128, .f32⟩ : BufTy).Contents (Elt Ideal)) (k j : Fin 128) :
    val_main_v138 (F := Ideal) x5 (ix2 k j) = x5 (ix3 3 k j) := by
  rw [val_main_v138_apply, val_main_v137_apply]
  refine congrArg x5 (funext fun a => Fin.ext ?_)
  have hk := k.isLt; have hj := j.isLt
  match a with
  | ⟨0, _⟩ => rfl
  | ⟨1, _⟩ => show (k.val * 128 + j.val) / 128 % 128 = k.val; omega
  | ⟨2, _⟩ => show (k.val * 128 + j.val) % 128 = j.val; omega

/-- The layer's `bl`, the same row for every node. -/
theorem bl3_apply (x8 : (⟨S4x128, .f32⟩ : BufTy).Contents (Elt Ideal)) (i : Fin 8192) (j : Fin 128) :
    val_main_v127 (F := Ideal) x8 (ix2 i j) = x8 (ix2 3 j) := by
  rw [val_main_v127_apply, val_main_v126_apply, val_main_v125_apply, val_main_v124_apply]
  refine congrArg x8 (funext fun a => Fin.ext ?_)
  have hj := j.isLt
  match a with
  | ⟨0, _⟩ => rfl
  | ⟨1, _⟩ => show j.val % 128 = j.val; omega

/-- The layer's `bg`. -/
theorem bg3_apply (x6 : (⟨S4x128, .f32⟩ : BufTy).Contents (Elt Ideal)) (i : Fin 8192) (j : Fin 128) :
    val_main_v146 (F := Ideal) x6 (ix2 i j) = x6 (ix2 3 j) := by
  rw [val_main_v146_apply, val_main_v145_apply, val_main_v144_apply, val_main_v143_apply]
  refine congrArg x6 (funext fun a => Fin.ext ?_)
  have hj := j.isLt
  match a with
  | ⟨0, _⟩ => rfl
  | ⟨1, _⟩ => show j.val % 128 = j.val; omega

/-- `h Wl`. -/
theorem hwl3_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v122 (F := Ideal) x0 x1 x2 x3 x4 x5 x6 x7 x8 (ix2 i j)
      = ∑ l : Fin 128, val_main_v119 (F := Ideal) x0 x1 x2 x3 x4 x5 x6 x7 x8 (ix2 i l) * x7 (ix3 3 l j) := by
  rw [val_main_v122_apply]
  refine Finset.sum_congr rfl fun l _ => ?_
  rw [show lidx_main_v122 (ix2 i j) l = ix2 i l by idx_eq2, show ridx_main_v122 (ix2 i j) l = ix2 l j by idx_eq2, wl3_apply]

/-- `Â (h Wl)`. -/
theorem ahwl3_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v123 (F := Ideal) x0 x1 x2 x3 x4 x5 x6 x7 x8 (ix2 i j)
      = ∑ k : Fin 8192, val_main_v17 (F := Ideal) x1 (ix2 i k)
          * ∑ l : Fin 128, val_main_v119 (F := Ideal) x0 x1 x2 x3 x4 x5 x6 x7 x8 (ix2 k l) * x7 (ix3 3 l j) := by
  rw [val_main_v123_apply]
  refine Finset.sum_congr rfl fun k _ => ?_
  rw [show lidx_main_v123 (ix2 i j) k = ix2 i k by idx_eq2, show ridx_main_v123 (ix2 i j) k = ix2 k j by idx_eq2,
    hwl3_apply x0 x1 x2 x3 x4 x5 x6 x7 x8]

/-- `Â h`. -/
theorem ah3_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v129 (F := Ideal) x0 x1 x2 x3 x4 x5 x6 x7 x8 (ix2 i j)
      = ∑ k : Fin 8192, val_main_v17 (F := Ideal) x1 (ix2 i k) * val_main_v119 (F := Ideal) x0 x1 x2 x3 x4 x5 x6 x7 x8 (ix2 k j) := by
  rw [val_main_v129_apply]
  refine Finset.sum_congr rfl fun k _ => ?_
  rw [show lidx_main_v129 (ix2 i j) k = ix2 i k by idx_eq2, show ridx_main_v129 (ix2 i j) k = ix2 k j by idx_eq2]

/-- `S = a9 · Â h + a1 · hz`. -/
theorem s3_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v134 (F := Ideal) x0 x1 x2 x3 x4 x5 x6 x7 x8 (ix2 i j)
      = Cert.Spec.Shaped.a9 * (∑ k : Fin 8192, val_main_v17 (F := Ideal) x1 (ix2 i k)
            * val_main_v119 (F := Ideal) x0 x1 x2 x3 x4 x5 x6 x7 x8 (ix2 k j))
          + Cert.Spec.Shaped.a1 * val_main_v29 (F := Ideal) x0 x2 x3 x4 (ix2 i j) := by
  rw [val_main_v134_apply, val_main_v131_apply, val_main_v130_apply, val_main_cst_16_apply, ah3_apply x0 x1 x2 x3 x4 x5 x6 x7 x8,
    val_main_v133_apply, val_main_v132_apply, val_main_cst_17_apply]
  rfl

/-- `S Wg`. -/
theorem swg3_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v139 (F := Ideal) x0 x1 x2 x3 x4 x5 x6 x7 x8 (ix2 i j)
      = ∑ l : Fin 128, val_main_v134 (F := Ideal) x0 x1 x2 x3 x4 x5 x6 x7 x8 (ix2 i l) * x5 (ix3 3 l j) := by
  rw [val_main_v139_apply]
  refine Finset.sum_congr rfl fun l _ => ?_
  rw [show lidx_main_v139 (ix2 i j) l = ix2 i l by idx_eq2, show ridx_main_v139 (ix2 i j) l = ix2 l j by idx_eq2, wg3_apply]

/-- The layer, as the specification's `layer` around the propagation step `X ↦ Â X`. -/
theorem layer3_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal)) (i : Fin 8192) (j : Fin 128) :
    val_main_v149 (F := Ideal) x0 x1 x2 x3 x4 x5 x6 x7 x8 (ix2 i j)
      = Cert.Spec.layer (fun X i j => ∑ k : Fin 8192, val_main_v17 (F := Ideal) x1 (ix2 i k) * X k j)
          Cert.Spec.Shaped.a9 Cert.Spec.Shaped.a1 (Cert.Spec.Shaped.ob 3) (Cert.Spec.Shaped.be 3)
          (fun i j => val_main_v29 (F := Ideal) x0 x2 x3 x4 (ix2 i j))
          (fun k j => x7 (ix3 3 k j)) (fun k j => x5 (ix3 3 k j)) (fun j => x8 (ix2 3 j)) (fun j => x6 (ix2 3 j))
          (fun i j => val_main_v119 (F := Ideal) x0 x1 x2 x3 x4 x5 x6 x7 x8 (ix2 i j)) i j := by
  rw [val_main_v149_apply, val_main_v128_apply, ahwl3_apply x0 x1 x2 x3 x4 x5 x6 x7 x8, bl3_apply, val_main_v148_apply, val_main_v147_apply,
    val_main_v142_apply, val_main_v136_apply, val_main_v135_apply, val_main_cst_18_apply, val_main_v141_apply,
    val_main_v140_apply, val_main_cst_19_apply, swg3_apply x0 x1 x2 x3 x4 x5 x6 x7 x8, bg3_apply, val_main_call5_v0_apply,
    val_main_call5_cst_apply, s3_apply x0 x1 x2 x3 x4 x5 x6 x7 x8]
  simp only [s3_apply x0 x1 x2 x3 x4 x5 x6 x7 x8, Ideal.ofBits_def, Ideal.ofBits_zero_f32, Ideal.addf_def, Ideal.mulf_def, Ideal.maximumf_def]
  unfold Cert.Spec.layer Cert.Spec.gpart Cert.Spec.relu
  rw [ob3, be3]

end Cert.Proof.RefVal

end
-- ==== Proof.Ref.Out.lean ====
import proofs.«117539_j28759101014307_2_alg».proof.Proof.Gen.ReferenceIdeal.Read
import proofs.«117539_j28759101014307_2_alg».proof.Proof.Spec

noncomputable section

namespace Cert.Proof.RefVal

open Cert.ReferenceIdeal Cert.ReferenceIdeal.Read Idealize.ShloMosaic Idealize.ShloMosaic.ValueIdx
open scoped BigOperators

/-- Two rank-2 indices are equal when their coordinates are. -/
local macro "idx_eq2" : tactic => `(tactic| exact funext fun a => Fin.ext (by match a with | ⟨0, _⟩ => rfl | ⟨1, _⟩ => rfl))
/-- Two rank-1 indices are equal when their coordinate is. -/
local macro "idx_eq1" : tactic => `(tactic| exact funext fun a => Fin.ext (by match a with | ⟨0, _⟩ => rfl))

/-! ## The output layer of the reference, entry by entry: `h Wo + bo` -/

theorem out_apply (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal))
    (x9 : (⟨S128x40, .f32⟩ : BufTy).Contents (Elt Ideal)) (x10 : (⟨S40, .f32⟩ : BufTy).Contents (Elt Ideal)) (i : Fin 8192) (c : Fin 40) :
    val_main_v153 (F := Ideal) x0 x1 x2 x3 x4 x5 x6 x7 x8 x9 x10 (ix2 i c)
      = Cert.Spec.out (fun i j => val_main_v149 (F := Ideal) x0 x1 x2 x3 x4 x5 x6 x7 x8 (ix2 i j))
          (fun k c => x9 (ix2 k c)) (fun c => x10 (ix1 c)) i c := by
  rw [val_main_v153_apply, val_main_v150_apply, val_main_v152_apply, val_main_v151_apply,
    show idx_main_v151 (idx_main_v152 (ix2 i c)) = ix1 c by idx_eq1, Ideal.addf_def]
  unfold Cert.Spec.out
  refine congrArg (· + x10 (ix1 c)) (Finset.sum_congr rfl fun k _ => ?_)
  rw [show lidx_main_v150 (ix2 i c) k = ix2 i k by idx_eq2, show ridx_main_v150 (ix2 i c) k = ix2 k c by idx_eq2]

end Cert.Proof.RefVal

end
-- ==== Proof.Ref.Value.lean ====
import proofs.«117539_j28759101014307_2_alg».proof.Proof.Ref.Adj
import proofs.«117539_j28759101014307_2_alg».proof.Proof.Ref.Input
import proofs.«117539_j28759101014307_2_alg».proof.Proof.Ref.Layer0
import proofs.«117539_j28759101014307_2_alg».proof.Proof.Ref.Layer1
import proofs.«117539_j28759101014307_2_alg».proof.Proof.Ref.Layer2
import proofs.«117539_j28759101014307_2_alg».proof.Proof.Ref.Layer3
import proofs.«117539_j28759101014307_2_alg».proof.Proof.Ref.Out

noncomputable section

namespace Cert.Proof.RefVal

open Cert.ReferenceIdeal Cert.ReferenceIdeal.Read Idealize.ShloMosaic Idealize.ShloMosaic.ValueIdx
open scoped BigOperators

/-! ## The reference's result is the specification's network, the normalised matrix built whole

Each stage of the reference is one of the specification's functions of the stage before it (the input layer, the four
layers around `X ↦ Â X`, the output layer), and `Â`'s entries are `(dᵢ^-1/2 · (Aᵢₖ + δᵢₖ)) · dₖ^-1/2`, so that
`X ↦ Â X` is the specification's `propR`. The stages are carried as whole functions of the node and feature index; none
is opened here. -/

theorem value (x0 : (⟨S8192x500, .f32⟩ : BufTy).Contents (Elt Ideal)) (x1 : (⟨S8192x8192, .f32⟩ : BufTy).Contents (Elt Ideal))
    (x2 : (⟨S500x128, .f32⟩ : BufTy).Contents (Elt Ideal)) (x3 x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 : (⟨S4x128x128, .f32⟩ : BufTy).Contents (Elt Ideal)) (x8 : (⟨S4x128, .f32⟩ : BufTy).Contents (Elt Ideal))
    (x9 : (⟨S128x40, .f32⟩ : BufTy).Contents (Elt Ideal)) (x10 : (⟨S40, .f32⟩ : BufTy).Contents (Elt Ideal)) :
    val_main_v153 (F := Ideal) x0 x1 x2 x3 x4 x5 x6 x7 x8 x9 x10 = Cert.Spec.Shaped.netR x0 x1 x2 x3 x4 x5 x6 x7 x8 x9 x10 := by
  funext idx
  obtain ⟨i, c, rfl⟩ : ∃ (i : Fin 8192) (c : Fin 40), idx = ix2 i c := ⟨idx 0, idx 1, eq_ix2 idx⟩
  have hprop : (fun (X : Fin 8192 → Fin 128 → EReal) (i : Fin 8192) (j : Fin 128) =>
        ∑ k : Fin 8192, val_main_v17 (F := Ideal) x1 (ix2 i k) * X k j)
      = Cert.Spec.propR (fun i k => x1 (ix2 i k)) (Cert.Spec.dinv (Cert.Spec.degR (fun i k => x1 (ix2 i k)))) := by
    funext X i j
    unfold Cert.Spec.propR
    exact Finset.sum_congr rfl fun k _ => by rw [ahat_apply]
  have hz : (fun (i : Fin 8192) (j : Fin 128) => val_main_v29 (F := Ideal) x0 x2 x3 x4 (ix2 i j))
      = Cert.Spec.h0 Cert.Spec.Shaped.a9 Cert.Spec.Shaped.a1 (fun i k => x0 (ix2 i k)) (fun k j => x2 (ix2 k j))
          (fun j => x3 (ix1 j)) (fun j => x4 (ix1 j)) := by
    funext i j; exact h0_apply x0 x2 x3 x4 i j
  have h0 := fun (i : Fin 8192) (j : Fin 128) => layer0_apply x0 x1 x2 x3 x4 x5 x6 x7 x8 i j
  have h1 := fun (i : Fin 8192) (j : Fin 128) => layer1_apply x0 x1 x2 x3 x4 x5 x6 x7 x8 i j
  have h2 := fun (i : Fin 8192) (j : Fin 128) => layer2_apply x0 x1 x2 x3 x4 x5 x6 x7 x8 i j
  have h3 := fun (i : Fin 8192) (j : Fin 128) => layer3_apply x0 x1 x2 x3 x4 x5 x6 x7 x8 i j
  rw [out_apply]
  simp only [h3, h2, h1, h0]
  rw [hz, hprop]
  rfl

end Cert.Proof.RefVal

end
-- ==== Proof.Ref.Run.lean ====
import proofs.«117539_j28759101014307_2_alg».proof.Proof.Ref.Value

noncomputable section

namespace Cert.Proof.RefVal

open Idealize.ShloMosaic Idealize.ShloMosaic.TcCoe Idealize.SL.Sem

/-! ## The reference's run, with its result stated as the specification

Every execution of the reference ends with its result array holding the specification's network (the normalised matrix built
whole) of the eleven argument arrays, and with the arguments unchanged: the run of the straight line of host operations,
its composed term read as the last stage and that stage identified with the specification index by index. -/

theorem run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v153)
          = Cert.Spec.Shaped.netR
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10) :=
  (θ_run Cert.ReferenceIdeal.defs _ _).mono
    (fun _ h c => ⟨(h c).1.trans ((Cert.ReferenceIdeal.Read.val_main_v153_eq (F := Ideal) m c).trans (value _ _ _ _ _ _ _ _ _ _ _)), (h c).2⟩)
    (Cert.ReferenceIdeal.Value.run (F := Ideal) m ρ)

end Cert.Proof.RefVal

end
-- ==== Proof.Alg.Real.lean ====
import proofs.«117539_j28759101014307_2_alg».proof.Proof.Spec
import Mathlib

/-!
# Extended reals that are real numbers

`IsReal` is closed under sums, products, `max · 0`, finite sums, and the inverse square root of a positive real.
Sums and products of real numbers embed into the extended reals as sums and products, so every closure fact
is the corresponding fact about the embedding `ℝ → EReal`.
-/

namespace Cert.Spec

open Idealize.ShloMosaic
open scoped BigOperators

/-- The embedding `ℝ → EReal` commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- `max x 0` of a real number is the real number `max x 0`. -/
theorem IsReal.relu {x : EReal} (hx : IsReal x) : IsReal (relu x) := by
  obtain ⟨a, rfl⟩ := hx
  unfold Cert.Spec.relu
  rcases le_total (a : EReal) 0 with h | h
  · rw [max_eq_right h]; exact IsReal.zero
  · rw [max_eq_left h]; exact ⟨a, rfl⟩

theorem IsReal.sum {ι : Type} [Fintype ι] {f : ι → EReal} (h : ∀ i, IsReal (f i)) : IsReal (∑ i, f i) := by
  choose g hg using h
  refine ⟨∑ i, g i, ?_⟩
  rw [coe_finset_sum]
  exact Finset.sum_congr rfl fun i _ => hg i

/-- The unit entry of the identity matrix is a real number. -/
theorem IsReal.delta {ι : Type} [DecidableEq ι] (i k : ι) : IsReal (if i = k then (1 : EReal) else 0) := by
  split_ifs
  · exact IsReal.one
  · exact IsReal.zero

/-- `D^-1/2` of a real degree is real: at a positive real `r` it is `(√r)⁻¹`, elsewhere `0`. -/
theorem IsReal.dinv {N : Type} {d : N → EReal} {i : N} (h : IsReal (d i)) : IsReal (dinv d i) := by
  obtain ⟨r, hr⟩ := h
  unfold Cert.Spec.dinv
  rw [hr]
  split_ifs with hpos
  · have hr0 : 0 < r := EReal.coe_pos.mp hpos
    rw [Ideal.rsqrt_coe, if_neg (not_lt.mpr hr0.le), if_neg hr0.ne']
    exact ⟨_, rfl⟩
  · exact IsReal.zero

end Cert.Spec
-- ==== Proof.Alg.Prop.lean ====
import proofs.«117539_j28759101014307_2_alg».proof.Proof.Alg.Real

/-!
# The two spellings of one propagation step agree on real numbers

`degK = degR` holds over all extended reals (only commutativity and associativity of `+`). The identity
`dvᵢ · ∑ₖ Aᵢₖ (dvₖ Xₖⱼ) + dvᵢ² Xᵢⱼ = ∑ₖ (dvᵢ (Aᵢₖ + δᵢₖ) dvₖ) Xₖⱼ` needs distributivity, which fails in the extended reals
at mixed infinities; so both sides are first written as the embedding of a real number and compared in `ℝ`.
-/

namespace Cert.Spec

open Idealize.ShloMosaic
open scoped BigOperators

variable {N H : Type} [Fintype N] [DecidableEq N] [Fintype H]

/-- The row sum of `A + I` is the row sum of `A`, plus one. -/
theorem degK_eq_degR (adj : N → N → EReal) : degK adj = degR adj := by
  funext i
  unfold degK degR
  rw [Finset.sum_add_distrib, Finset.sum_ite_eq]
  simp

/-- The identity in `ℝ`. -/
theorem prop_real (a : N → N → ℝ) (d : N → ℝ) (x : N → H → ℝ) (i : N) (j : H) :
    d i * (∑ k, a i k * (d k * x k j)) + (d i * d i) * x i j
      = ∑ k, ((d i * (a i k + if i = k then 1 else 0)) * d k) * x k j := by
  have hterm : ∀ k, ((d i * (a i k + if i = k then 1 else 0)) * d k) * x k j
      = d i * (a i k * (d k * x k j)) + if i = k then (d i * d k) * x k j else 0 := by
    intro k
    split_ifs <;> ring
  simp only [hterm]
  rw [Finset.sum_add_distrib, Finset.sum_ite_eq, Finset.mul_sum]
  simp

/-- On real-valued `A`, `dv`, `X` the two spellings of `Â X` are the same function. -/
theorem propK_eq_propR (adj : N → N → EReal) (dv : N → EReal) (X : N → H → EReal)
    (hadj : ∀ i k, IsReal (adj i k)) (hdv : ∀ i, IsReal (dv i)) (hX : ∀ i j, IsReal (X i j)) :
    propK adj dv X = propR adj dv X := by
  choose a ha using hadj
  choose d hd using hdv
  choose x hx using hX
  funext i j
  have hδ : ∀ k, (if i = k then (1 : EReal) else 0) = (((if i = k then 1 else 0 : ℝ)) : EReal) := by
    intro k
    split_ifs <;> rfl
  unfold propK propR
  simp only [ha, hd, hx, hδ]
  simp only [← EReal.coe_mul, ← EReal.coe_add, ← coe_finset_sum]
  exact congrArg _ (prop_real a d x i j)

/-- Both spellings keep real-valued inputs real-valued. -/
theorem propR_real (adj : N → N → EReal) (dv : N → EReal) (X : N → H → EReal)
    (hadj : ∀ i k, IsReal (adj i k)) (hdv : ∀ i, IsReal (dv i)) (hX : ∀ i j, IsReal (X i j)) (i : N) (j : H) :
    IsReal (propR adj dv X i j) := by
  unfold propR
  exact IsReal.sum fun k => ((((hdv i).mul ((hadj i k).add (IsReal.delta i k))).mul (hdv k)).mul (hX k j))

end Cert.Spec
-- ==== Proof.Alg.Net.lean ====
import proofs.«117539_j28759101014307_2_alg».proof.Proof.Alg.Prop

/-!
# The two spellings of the network agree on real numbers

Every stage (input layer, one layer around a propagation step, output layer) maps real-valued inputs to real-valued
outputs. So, layer by layer, every argument a propagation step is applied to is real-valued, where the two
spellings of the step agree.
-/

namespace Cert.Spec

open Idealize.ShloMosaic
open scoped BigOperators

variable {N Fe H C : Type} [Fintype N] [DecidableEq N] [Fintype Fe] [Fintype H] [Fintype C]

/-- The input layer of real-valued arguments is real-valued. -/
theorem h0_real {a9 a1 : EReal} {x : N → Fe → EReal} {w : Fe → H → EReal} {b cv : H → EReal}
    (ha9 : IsReal a9) (ha1 : IsReal a1) (hx : ∀ i k, IsReal (x i k)) (hw : ∀ k j, IsReal (w k j))
    (hb : ∀ j, IsReal (b j)) (hcv : ∀ j, IsReal (cv j)) (i : N) (j : H) : IsReal (h0 a9 a1 x w b cv i j) := by
  unfold h0
  exact (ha9.mul (IsReal.relu ((IsReal.sum fun k => (hx i k).mul (hw k j)).add (hb j)))).add (ha1.mul (hcv j))

/-- The second branch of a layer, on real-valued arguments, is real-valued. -/
theorem gpart_real {ob be : EReal} {S : N → H → EReal} {wg : H → H → EReal} {bg : H → EReal}
    (hob : IsReal ob) (hbe : IsReal be) (hS : ∀ i j, IsReal (S i j)) (hwg : ∀ k j, IsReal (wg k j))
    (hbg : ∀ j, IsReal (bg j)) (i : N) (j : H) : IsReal (gpart ob be S wg bg i j) := by
  unfold gpart
  exact IsReal.relu (((hob.mul (hS i j)).add (hbe.mul (IsReal.sum fun k => (hS i k).mul (hwg k j)))).add (hbg j))

/-- One layer at a real-valued state: two propagation steps that agree on real-valued arguments give the same layer,
    and if the second keeps real-valued arguments real-valued, the layer's value is real-valued. -/
theorem layer_step (p q : (N → H → EReal) → N → H → EReal)
    (hpq : ∀ X : N → H → EReal, (∀ i j, IsReal (X i j)) → p X = q X)
    (hq : ∀ X : N → H → EReal, (∀ i j, IsReal (X i j)) → ∀ i j, IsReal (q X i j))
    {a9 a1 ob be : EReal} {hz : N → H → EReal} {wl wg : H → H → EReal} {bl bg : H → EReal} {h : N → H → EReal}
    (ha9 : IsReal a9) (ha1 : IsReal a1) (hob : IsReal ob) (hbe : IsReal be) (hhz : ∀ i j, IsReal (hz i j))
    (hwl : ∀ k j, IsReal (wl k j)) (hwg : ∀ k j, IsReal (wg k j)) (hbl : ∀ j, IsReal (bl j)) (hbg : ∀ j, IsReal (bg j))
    (hh : ∀ i j, IsReal (h i j)) :
    layer p a9 a1 ob be hz wl wg bl bg h = layer q a9 a1 ob be hz wl wg bl bg h
      ∧ ∀ i j, IsReal (layer q a9 a1 ob be hz wl wg bl bg h i j) := by
  have hhw : ∀ i j, IsReal (∑ l, h i l * wl l j) := fun i j => IsReal.sum fun l => (hh i l).mul (hwl l j)
  constructor
  · unfold layer
    rw [hpq _ hhw, hpq _ hh]
  · intro i j
    unfold layer
    exact ((hq _ hhw i j).add (hbl j)).add
      (gpart_real hob hbe (fun i j => (ha9.mul (hq _ hh i j)).add (ha1.mul (hhz i j))) hwg hbg i j)

/-- The whole network around two propagation steps that agree on real-valued arguments, at real-valued arguments. -/
theorem net_congr (p q : (N → H → EReal) → N → H → EReal)
    (hpq : ∀ X : N → H → EReal, (∀ i j, IsReal (X i j)) → p X = q X)
    (hq : ∀ X : N → H → EReal, (∀ i j, IsReal (X i j)) → ∀ i j, IsReal (q X i j))
    (a9 a1 : EReal) (ob be : Fin 4 → EReal)
    (x : N → Fe → EReal) (win : Fe → H → EReal) (bin cv : H → EReal)
    (wg : Fin 4 → H → H → EReal) (bg : Fin 4 → H → EReal) (wl : Fin 4 → H → H → EReal) (bl : Fin 4 → H → EReal)
    (wo : H → C → EReal) (bo : C → EReal)
    (ha9 : IsReal a9) (ha1 : IsReal a1) (hob : ∀ l, IsReal (ob l)) (hbe : ∀ l, IsReal (be l))
    (hx : ∀ i k, IsReal (x i k)) (hwin : ∀ k j, IsReal (win k j)) (hbin : ∀ j, IsReal (bin j)) (hcv : ∀ j, IsReal (cv j))
    (hwg : ∀ l k j, IsReal (wg l k j)) (hbg : ∀ l j, IsReal (bg l j)) (hwl : ∀ l k j, IsReal (wl l k j))
    (hbl : ∀ l j, IsReal (bl l j)) :
    net p a9 a1 ob be x win bin cv wg bg wl bl wo bo = net q a9 a1 ob be x win bin cv wg bg wl bl wo bo := by
  have hz : ∀ i j, IsReal (h0 a9 a1 x win bin cv i j) := h0_real ha9 ha1 hx hwin hbin hcv
  have step : ∀ (l : Fin 4) (h : N → H → EReal), (∀ i j, IsReal (h i j)) →
      layer p a9 a1 (ob l) (be l) (h0 a9 a1 x win bin cv) (wl l) (wg l) (bl l) (bg l) h
          = layer q a9 a1 (ob l) (be l) (h0 a9 a1 x win bin cv) (wl l) (wg l) (bl l) (bg l) h
        ∧ ∀ i j, IsReal (layer q a9 a1 (ob l) (be l) (h0 a9 a1 x win bin cv) (wl l) (wg l) (bl l) (bg l) h i j) :=
    fun l h hh => layer_step p q hpq hq ha9 ha1 (hob l) (hbe l) hz (hwl l) (hwg l) (hbl l) (hbg l) hh
  have s0 := step 0 _ hz
  have s1 := step 1 _ s0.2
  have s2 := step 2 _ s1.2
  have s3 := step 3 _ s2.2
  simp only [net]
  rw [s0.1, s1.1, s2.1, s3.1]

/-- **The two spellings of the network are one function when every entry is a real number.** -/
theorem netK_eq_netR (a9 a1 : EReal) (ob be : Fin 4 → EReal) (x : N → Fe → EReal) (adj : N → N → EReal)
    (win : Fe → H → EReal) (bin cv : H → EReal)
    (wg : Fin 4 → H → H → EReal) (bg : Fin 4 → H → EReal) (wl : Fin 4 → H → H → EReal) (bl : Fin 4 → H → EReal)
    (wo : H → C → EReal) (bo : C → EReal)
    (ha9 : IsReal a9) (ha1 : IsReal a1) (hob : ∀ l, IsReal (ob l)) (hbe : ∀ l, IsReal (be l))
    (hx : ∀ i k, IsReal (x i k)) (hadj : ∀ i k, IsReal (adj i k)) (hwin : ∀ k j, IsReal (win k j))
    (hbin : ∀ j, IsReal (bin j)) (hcv : ∀ j, IsReal (cv j))
    (hwg : ∀ l k j, IsReal (wg l k j)) (hbg : ∀ l j, IsReal (bg l j)) (hwl : ∀ l k j, IsReal (wl l k j))
    (hbl : ∀ l j, IsReal (bl l j)) (hwo : ∀ k c, IsReal (wo k c)) (hbo : ∀ c, IsReal (bo c)) :
    netK a9 a1 ob be x adj win bin cv wg bg wl bl wo bo = netR a9 a1 ob be x adj win bin cv wg bg wl bl wo bo := by
  have hdeg : ∀ i, IsReal (degR adj i) := fun i => by
    unfold degR
    exact IsReal.sum fun k => (hadj i k).add (IsReal.delta i k)
  have hdv : ∀ i, IsReal (dinv (degR adj) i) := fun i => IsReal.dinv (hdeg i)
  unfold netK netR
  rw [degK_eq_degR]
  exact net_congr _ _ (fun X hX => propK_eq_propR adj _ X hadj hdv hX) (fun X hX => propR_real adj _ X hadj hdv hX)
    a9 a1 ob be x win bin cv wg bg wl bl wo bo ha9 ha1 hob hbe hx hwin hbin hcv hwg hbg hwl hbl

end Cert.Spec
-- ==== Proof.Alg.Consts.lean ====
import proofs.«117539_j28759101014307_2_alg».proof.Proof.Alg.Real

/-!
# The literal constants are real numbers

A binary32 word whose exponent field is not all ones denotes a real number (a zero, a subnormal or a normal value).
Each of the ten words below has an exponent field below 255.
-/

namespace Cert.Spec

open Idealize.ShloMosaic

/-- A pattern whose exponent field is not all ones denotes a real number. -/
theorem ieee_real (e m : Nat) {w : Nat} (b : BitVec w) (h : (b.extractLsb' m e).toNat ≠ 2 ^ e - 1) :
    IsReal (Ideal.ieee e m b) := by
  unfold Ideal.ieee
  dsimp only
  rw [if_neg h]
  split_ifs <;> exact ⟨_, rfl⟩

/-- A binary32 word whose exponent field is not 255 denotes a real number. -/
theorem ofBits_f32_real (b : BitVec 32) (h : (b.extractLsb' 23 8).toNat ≠ 255) : IsReal (Ideal.ofBits .f32 b) :=
  ieee_real 8 23 b h

namespace Shaped

theorem consts_real : IsReal a9 ∧ IsReal a1 ∧ (∀ l, IsReal (ob l)) ∧ (∀ l, IsReal (be l)) := by
  refine ⟨ofBits_f32_real _ (by decide), ofBits_f32_real _ (by decide), ?_, ?_⟩
  · intro l
    fin_cases l
    · exact ofBits_f32_real 0x3F183370#32 (by decide)
    · exact ofBits_f32_real 0x3F46E010#32 (by decide)
    · exact ofBits_f32_real 0x3F588995#32 (by decide)
    · exact ofBits_f32_real 0x3F61D8F9#32 (by decide)
  · intro l
    fin_cases l
    · exact ofBits_f32_real 0x3ECF991F#32 (by decide)
    · exact ofBits_f32_real 0x3E647FBE#32 (by decide)
    · exact ofBits_f32_real 0x3E1DD9AD#32 (by decide)
    · exact ofBits_f32_real 0x3DF1383B#32 (by decide)

end Shaped

end Cert.Spec
-- ==== Proof.Alg.Shaped.lean ====
import proofs.«117539_j28759101014307_2_alg».proof.Proof.Alg.Net
import proofs.«117539_j28759101014307_2_alg».proof.Proof.Alg.Consts

/-!
# The two spellings agree on the programs' arrays

The arrays read into the index types `Fin 8192`, `Fin 500`, `Fin 128`, `Fin 40`, `Fin 4` are real-valued when the
arrays are, and the literal constants are real numbers; so the general statement applies.
-/

namespace Cert.Spec.Shaped

open Idealize.ShloMosaic
open Idealize.ShloMosaic.ValueIdx

theorem netK_eq_netR (x : SX.Idx → EReal) (adj : SA.Idx → EReal) (win : SWin.Idx → EReal) (bin cv : SH.Idx → EReal)
    (wg : SW4.Idx → EReal) (bg : SB4.Idx → EReal) (wl : SW4.Idx → EReal) (bl : SB4.Idx → EReal)
    (wo : SWo.Idx → EReal) (bo : SC.Idx → EReal)
    (hx : ∀ idx, IsReal (x idx)) (hadj : ∀ idx, IsReal (adj idx)) (hwin : ∀ idx, IsReal (win idx))
    (hbin : ∀ idx, IsReal (bin idx)) (hcv : ∀ idx, IsReal (cv idx))
    (hwg : ∀ idx, IsReal (wg idx)) (hbg : ∀ idx, IsReal (bg idx)) (hwl : ∀ idx, IsReal (wl idx))
    (hbl : ∀ idx, IsReal (bl idx)) (hwo : ∀ idx, IsReal (wo idx)) (hbo : ∀ idx, IsReal (bo idx)) :
    netK x adj win bin cv wg bg wl bl wo bo = netR x adj win bin cv wg bg wl bl wo bo := by
  obtain ⟨ha9, ha1, hob, hbe⟩ := consts_real
  funext idx
  unfold netK netR
  exact congrFun (congrFun
    (Cert.Spec.netK_eq_netR (N := Fin 8192) (Fe := Fin 500) (H := Fin 128) (C := Fin 40) a9 a1 ob be
      (fun i k => x (ix2 i k)) (fun i k => adj (ix2 i k)) (fun k j => win (ix2 k j)) (fun j => bin (ix1 j)) (fun j => cv (ix1 j))
      (fun l k j => wg (ix3 l k j)) (fun l j => bg (ix2 l j)) (fun l k j => wl (ix3 l k j)) (fun l j => bl (ix2 l j))
      (fun k c => wo (ix2 k c)) (fun c => bo (ix1 c))
      ha9 ha1 hob hbe (fun _ _ => hx _) (fun _ _ => hadj _) (fun _ _ => hwin _) (fun _ => hbin _) (fun _ => hcv _)
      (fun _ _ _ => hwg _) (fun _ _ => hbg _) (fun _ _ _ => hwl _) (fun _ _ => hbl _) (fun _ _ => hwo _) (fun _ => hbo _))
    (idx 0)) (idx 1)

end Cert.Spec.Shaped
-- ==== Proof.Alg.Pre.lean ====
import proofs.«117539_j28759101014307_2_alg».proof.Defs
import proofs.«117539_j28759101014307_2_alg».proof.Proof.Gen.Pre_finite_inputs
import proofs.«117539_j28759101014307_2_alg».proof.Proof.Spec
import Idealize.ShloMosaic.Lib.ReduceAll
import Idealize.ShloMosaic.Lib.Pipeline.Value
import Idealize.ShloMosaic.PureOps.Ideal.Laws

noncomputable section

namespace Cert.Proof.Pre

open Idealize.ShloMosaic Idealize.ShloMosaic.TcCoe Idealize.SL.Sem Idealize.ShloMosaic.ValueIdx

/-! ## The precondition gives real entries

The precondition is the conjunction, over the eleven argument arrays, of "every entry's absolute value is below +∞"
(each an `and`-reduction of a comparison over the whole array). An extended real whose absolute value is below `⊤` is neither
`⊤` nor `⊥`, so it is a real number. -/

/-- The scalar shape has one index. -/
instance : Subsingleton Cert.Pre_finite_inputs.S_.Idx := ⟨fun a b => funext fun d => d.elim0⟩

/-- The word the comparison is made against is +∞. -/
theorem inf_word : Ideal.ofBits .f32 0x7F800000#32 = ⊤ := by simp [Ideal.ofBits, Ideal.ieee]

/-- An extended real whose absolute value compares below +∞ is a real number. -/
theorem isReal_of_abs_lt (a : EReal)
    (h : FloatOps.cmpf (F := Ideal) (φ := .f32) .olt (FloatOps.hostAbsf a) (FloatOps.ofBits .f32 0x7F800000#32) = 1#1) :
    Cert.Spec.IsReal a := by
  rw [Ideal.cmpf_def, Ideal.hostAbsf_def, Ideal.absf_def, Ideal.ofBits_def, inf_word] at h
  induction a using EReal.rec with
  | bot => simp [Ideal.cmp] at h
  | coe r => exact ⟨r, rfl⟩
  | top => simp [Ideal.cmp] at h

/-- One argument: if the `and` over the whole array of "|entry| < +∞" is 1, every entry is a real number. -/
theorem real_of_all {S : Shape} {axes : List (Fin S.rank)}
    (bc : Cert.Pre_finite_inputs.S_.BroadcastsInDim S (![] : Fin 0 → Fin S.rank))
    (hr : S.ReducesTo axes Cert.Pre_finite_inputs.S_) (hS : 0 < Cert.Pre_finite_inputs.S_.numel) (a : FVec Ideal S .f32)
    (h : Host.reduce IntOp.andi
          (cmpf .olt (Host.absf a) (broadcastInDim S ![] bc (constant (F := Ideal) Cert.Pre_finite_inputs.S_ .f32 0x7F800000#32)))
          (constantI Cert.Pre_finite_inputs.S_ 1 1#1) hr hS ix0 = 1#1) (idx : S.Idx) :
    Cert.Spec.IsReal (a idx) := by
  have e := Host.reduce_andi_all _ _ hr hS ix0 h idx
  have hb : broadcastInDim S ![] bc (constant (F := Ideal) Cert.Pre_finite_inputs.S_ .f32 0x7F800000#32) idx
      = FloatOps.ofBits .f32 0x7F800000#32 := broadcastInDim_apply _ bc _ idx ix0 (fun d => d.elim0)
  refine isReal_of_abs_lt (a idx) ?_
  rw [← hb]
  exact e

/-- The printed predicate, over any eleven arrays: all ones means every entry of every array is a real number. -/
theorem real_of_fn [inst : Cert.Pre_finite_inputs.Facts] (a0 : FVec Ideal Cert.Pre_finite_inputs.S8192x500 .f32) (a1 : FVec Ideal Cert.Pre_finite_inputs.S8192x8192 .f32) (a2 : FVec Ideal Cert.Pre_finite_inputs.S500x128 .f32) (a3 : FVec Ideal Cert.Pre_finite_inputs.S128 .f32) (a4 : FVec Ideal Cert.Pre_finite_inputs.S128 .f32) (a5 : FVec Ideal Cert.Pre_finite_inputs.S4x128x128 .f32) (a6 : FVec Ideal Cert.Pre_finite_inputs.S4x128 .f32) (a7 : FVec Ideal Cert.Pre_finite_inputs.S4x128x128 .f32) (a8 : FVec Ideal Cert.Pre_finite_inputs.S4x128 .f32) (a9 : FVec Ideal Cert.Pre_finite_inputs.S128x40 .f32) (a10 : FVec Ideal Cert.Pre_finite_inputs.S40 .f32)
    (h : Cert.Pre_finite_inputs.fn (F := Ideal) a0 a1 a2 a3 a4 a5 a6 a7 a8 a9 a10 = fun _ => 1#1) :
    (∀ idx, Cert.Spec.IsReal (a0 idx)) ∧
      (∀ idx, Cert.Spec.IsReal (a1 idx)) ∧
      (∀ idx, Cert.Spec.IsReal (a2 idx)) ∧
      (∀ idx, Cert.Spec.IsReal (a3 idx)) ∧
      (∀ idx, Cert.Spec.IsReal (a4 idx)) ∧
      (∀ idx, Cert.Spec.IsReal (a5 idx)) ∧
      (∀ idx, Cert.Spec.IsReal (a6 idx)) ∧
      (∀ idx, Cert.Spec.IsReal (a7 idx)) ∧
      (∀ idx, Cert.Spec.IsReal (a8 idx)) ∧
      (∀ idx, Cert.Spec.IsReal (a9 idx)) ∧
      (∀ idx, Cert.Spec.IsReal (a10 idx)) := by
  have h0 := congrFun h ix0
  dsimp only [Cert.Pre_finite_inputs.fn, Cert.Pre_finite_inputs.fn_part1, Cert.Pre_finite_inputs.fn_part2, Cert.Pre_finite_inputs.fn_part3] at h0
  simp only [andi, IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10⟩

/-- Under the precondition every entry of every argument array, on every device, is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ idx : Cert.Spec.Shaped.SX.Idx, Cert.Spec.IsReal (m ((c.tc : Thread Cert.KernelIdeal.nD Cert.KernelIdeal.τ).loc Cert.KernelIdeal.main_arg0) idx)) ∧
      (∀ idx : Cert.Spec.Shaped.SA.Idx, Cert.Spec.IsReal (m ((c.tc : Thread Cert.KernelIdeal.nD Cert.KernelIdeal.τ).loc Cert.KernelIdeal.main_arg1) idx)) ∧
      (∀ idx : Cert.Spec.Shaped.SWin.Idx, Cert.Spec.IsReal (m ((c.tc : Thread Cert.KernelIdeal.nD Cert.KernelIdeal.τ).loc Cert.KernelIdeal.main_arg2) idx)) ∧
      (∀ idx : Cert.Spec.Shaped.SH.Idx, Cert.Spec.IsReal (m ((c.tc : Thread Cert.KernelIdeal.nD Cert.KernelIdeal.τ).loc Cert.KernelIdeal.main_arg3) idx)) ∧
      (∀ idx : Cert.Spec.Shaped.SH.Idx, Cert.Spec.IsReal (m ((c.tc : Thread Cert.KernelIdeal.nD Cert.KernelIdeal.τ).loc Cert.KernelIdeal.main_arg4) idx)) ∧
      (∀ idx : Cert.Spec.Shaped.SW4.Idx, Cert.Spec.IsReal (m ((c.tc : Thread Cert.KernelIdeal.nD Cert.KernelIdeal.τ).loc Cert.KernelIdeal.main_arg5) idx)) ∧
      (∀ idx : Cert.Spec.Shaped.SB4.Idx, Cert.Spec.IsReal (m ((c.tc : Thread Cert.KernelIdeal.nD Cert.KernelIdeal.τ).loc Cert.KernelIdeal.main_arg6) idx)) ∧
      (∀ idx : Cert.Spec.Shaped.SW4.Idx, Cert.Spec.IsReal (m ((c.tc : Thread Cert.KernelIdeal.nD Cert.KernelIdeal.τ).loc Cert.KernelIdeal.main_arg7) idx)) ∧
      (∀ idx : Cert.Spec.Shaped.SB4.Idx, Cert.Spec.IsReal (m ((c.tc : Thread Cert.KernelIdeal.nD Cert.KernelIdeal.τ).loc Cert.KernelIdeal.main_arg8) idx)) ∧
      (∀ idx : Cert.Spec.Shaped.SWo.Idx, Cert.Spec.IsReal (m ((c.tc : Thread Cert.KernelIdeal.nD Cert.KernelIdeal.τ).loc Cert.KernelIdeal.main_arg9) idx)) ∧
      (∀ idx : Cert.Spec.Shaped.SC.Idx, Cert.Spec.IsReal (m ((c.tc : Thread Cert.KernelIdeal.nD Cert.KernelIdeal.τ).loc Cert.KernelIdeal.main_arg10) idx)) :=
  real_of_fn (inst := Cert.Pre_finite_inputs.Gen.facts) _ _ _ _ _ _ _ _ _ _ _ (h c)

end Cert.Proof.Pre

end
-- ==== Proof.lean ====
/-
  The certificate of a four-layer graph network: the kernel program normalises the adjacency on the fly
  (`Â X = D^-1/2 · (A (D^-1/2 X)) + D^-1 X`, with `A` the raw adjacency, its row sums taken and its bf16 copy made in one
  Pallas region, and each layer's two products `A·Y`, `A·H` in one Pallas region accumulated over two column halves),
  against a reference that builds `Â = D^-1/2 (A + I) D^-1/2` whole and multiplies by it.

  The three frames: each Pallas region's body is run once per control case (the reset point, the middle points, the
  write-out point of a block row), the scratch accumulators carried between grid points inside the region's invariant;
  the five regions enter the conditional frame of @main as segment records (Proof/KI, and its copy at the word-level
  program, Proof/K). The reference is a straight line of host operations whose run gives its frame.
  The idealisation rewrote no operation, so `preserves` is trivial.

  The algebraic conjunct: the idealized kernel's run ends with its result at the last valuation's contents, which —
  the row-sum region leaving the row sums and the adjacency itself, each matmul region the two whole products — is the
  kernel's spelling of the network (Spec.lean, `netK`: the scaling outside the product); the reference's run ends at the
  reference's spelling (`netR`: the normalised matrix built whole). The two spellings are one function wherever every
  entry is a real number: `Â X = D^-1/2 (A (D^-1/2 X)) + D^-1 X` row by row is distributivity, which fails at mixed
  infinities and holds over the reals, and every stage maps real entries to real entries; the precondition says the
  arguments' entries are real.
-/
import proofs.«117539_j28759101014307_2_alg».proof.Defs
import proofs.«117539_j28759101014307_2_alg».proof.Proof.Gen.Kernel
import proofs.«117539_j28759101014307_2_alg».proof.Proof.Gen.KernelIdeal
import proofs.«117539_j28759101014307_2_alg».proof.Proof.Gen.ReferenceIdeal
import proofs.«117539_j28759101014307_2_alg».proof.Proof.Gen.Pre_finite_inputs
import proofs.«117539_j28759101014307_2_alg».proof.Proof.K.Frame
import proofs.«117539_j28759101014307_2_alg».proof.Proof.KI.Frame
import proofs.«117539_j28759101014307_2_alg».proof.Proof.RefFrame
import proofs.«117539_j28759101014307_2_alg».proof.Proof.KI.Value
import proofs.«117539_j28759101014307_2_alg».proof.Proof.Ref.Run
import proofs.«117539_j28759101014307_2_alg».proof.Proof.Alg.Shaped
import proofs.«117539_j28759101014307_2_alg».proof.Proof.Alg.Pre
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame (F := Bits) m ρ
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ
theorem frame_ri : Cert.frame_ReferenceIdeal (hReferenceIdeal := Cert.ReferenceIdeal.Gen.facts) (hPre_finite_inputs := Cert.Pre_finite_inputs.Gen.facts) :=
  Cert.Proof.RefFrame.frame_ri

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Gen.V22 m (Cert.KernelIdeal.Hand.outsX m) c Cert.KernelIdeal.main_v203,
    Cert.KernelIdeal.Hand.run_value (F := Ideal) m ρ, ?_⟩
  refine (θ_run Cert.ReferenceIdeal.defs _ _).mono (fun _ h c => ⟨(h c).1.trans ?_, (h c).2⟩) (Cert.Proof.RefVal.run m' ρ')
  obtain ⟨h0, h1, h2, h3, h4, h5, h6, h7, h8, h9, h10⟩ := hagree c
  obtain ⟨r0, r1, r2, r3, r4, r5, r6, r7, r8, r9, r10⟩ := Cert.Proof.Pre.real_of_pre m hpre c
  rw [h0, h1, h2, h3, h4, h5, h6, h7, h8, h9, h10]
  exact (Cert.Spec.Shaped.netK_eq_netR _ _ _ _ _ _ _ _ _ _ _ r0 r1 r2 r3 r4 r5 r6 r7 r8 r9 r10).symm.trans (Cert.KernelIdeal.Hand.kernel_value m c).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
